-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v125_0)) (v1 : (c : Dev Cert.KernelIdeal.nD) → Buf (Elt Ideal) ((c.tc : Thread Cert.KernelIdeal.nD Cert.KernelIdeal.τ).loc Cert.KernelIdeal.main_v114_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125_0) = v0 c
          ∧ r.2.mem ((c.tc : Thread Cert.KernelIdeal.nD Cert.KernelIdeal.τ).loc Cert.KernelIdeal.main_v114_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S3x128x128 : Shape := ⟨3, ![3, 128, 128]⟩
abbrev S3x128 : Shape := ⟨2, ![3, 128]⟩
abbrev S2x128 : Shape := ⟨2, ![2, 128]⟩
abbrev S2x640000 : Shape := ⟨2, ![2, 640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg7 : FVec F S3x128 .f32) (main_arg8 : FVec F S2x128 .f32) (main_arg9 : FVec F S2x128 .f32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S2x128 .f32 := Host.absf main_arg8
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  main_v48

def fn_part1 {F : FTy → Type} [FloatOps F] (main_arg4 : FVec F S3x128x128 .f32) (main_arg5 : FVec F S3x128 .f32) (main_arg6 : FVec F S3x128x128 .f32) (main_arg7 : FVec F S3x128 .f32) (main_arg8 : FVec F S2x128 .f32) (main_arg9 : FVec F S2x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg6
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S640000x128 .f32) (main_arg2 : FVec F S3x128x128 .f32) (main_arg3 : FVec F S3x128 .f32) (main_arg4 : FVec F S3x128x128 .f32) (main_arg5 : FVec F S3x128 .f32) (main_arg6 : FVec F S3x128x128 .f32) (main_arg7 : FVec F S3x128 .f32) (main_arg8 : FVec F S2x128 .f32) (main_arg9 : FVec F S2x128 .f32) (main_arg10 : IVec S2x640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S640000x128 : Shape := ⟨2, ![640000, 128]⟩
abbrev S3x128x128 : Shape := ⟨3, ![3, 128, 128]⟩
abbrev S3x128 : Shape := ⟨2, ![3, 128]⟩
abbrev S2x128 : Shape := ⟨2, ![2, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5120x128 : Shape := ⟨2, ![5120, 128]⟩
abbrev S5000x128 : Shape := ⟨2, ![5000, 128]⟩

abbrev nBuf : Space → Nat
  | .hbm => 162
  | .vmem => 88
  | .smem => 0
  | _ => 0

abbrev hbmTy0_0 (i : Nat) : BufTy := match i % 128 with
  | 0 => ⟨S50000x128, .f32⟩
  | 1 => ⟨S640000x128, .f32⟩
  | 2 => ⟨S3x128x128, .f32⟩
  | 3 => ⟨S3x128, .f32⟩
  | 4 => ⟨S3x128x128, .f32⟩
  | 5 => ⟨S3x128, .f32⟩
  | 6 => ⟨S3x128x128, .f32⟩
  | 7 => ⟨S3x128, .f32⟩
  | 8 => ⟨S2x128, .f32⟩
  | 9 => ⟨S2x128, .f32⟩
  | 10 => ⟨S2x640000, .i32⟩
  | 11 => ⟨S1x640000, .i32⟩
  | 12 => ⟨S640000, .i32⟩
  | 13 => ⟨S1x640000, .i32⟩
  | 14 => ⟨S640000, .i32⟩
  | 15 => ⟨S_, .f32⟩
  | 16 => ⟨S640000x1, .f32⟩
  | 17 => ⟨S_, .f32⟩
  | 18 => ⟨S50000x1, .f32⟩
  | 19 => ⟨S640000x1, .i32⟩
  | 20 => ⟨S50000x1, .f32⟩
  | 21 => ⟨S_, .f32⟩
  | 22 => ⟨S50000x1, .f32⟩
  | 23 => ⟨S50000x1, .f32⟩
  | 24 => ⟨S3x128x128, .f32⟩
  | 25 => ⟨S3x128x128, .f32⟩
  | 26 => ⟨S3x128x128, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000x128, .f32⟩
  | 36 => ⟨S1x128x128, .f32⟩
  | 37 => ⟨S128x128, .f32⟩
  | 38 => ⟨S1x128, .f32⟩
  | 39 => ⟨S128, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S1x128, .f32⟩
  | 46 => ⟨S640000x128, .f32⟩
  | 47 => ⟨S640000x128, .f32⟩
  | 48 => ⟨S_, .f32⟩
  | 49 => ⟨S50000x128, .f32⟩
  | 50 => ⟨S640000x1, .i32⟩
  | 51 => ⟨S50000x128, .f32⟩
  | 52 => ⟨S50000x128, .f32⟩
  | 53 => ⟨S50000x128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S50000x128, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S1x128, .f32⟩
  | 76 => ⟨S50000x128, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000x128, .f32⟩
  | 86 => ⟨S1x128x128, .f32⟩
  | 87 => ⟨S128x128, .f32⟩
  | 88 => ⟨S1x128, .f32⟩
  | 89 => ⟨S128, .f32⟩
  | 90 => ⟨S1x128x128, .f32⟩
  | 91 => ⟨S128x128, .f32⟩
  | 92 => ⟨S1x128, .f32⟩
  | 93 => ⟨S128, .f32⟩
  | 94 => ⟨S1x128, .f32⟩
  | 95 => ⟨S1x128, .f32⟩
  | 96 => ⟨S640000x128, .f32⟩
  | 97 => ⟨S640000x128, .f32⟩
  | 98 => ⟨S_, .f32⟩
  | 99 => ⟨S50000x128, .f32⟩
  | 100 => ⟨S640000x1, .i32⟩
  | 101 => ⟨S50000x128, .f32⟩
  | 102 => ⟨S50000x128, .f32⟩
  | 103 => ⟨S50000x128, .f32⟩
  | 104 => ⟨S1x128x128, .f32⟩
  | 105 => ⟨S128x128, .f32⟩
  | 106 => ⟨S1x128, .f32⟩
  | 107 => ⟨S128, .f32⟩
  | 108 => ⟨S1x128, .f32⟩
  | 109 => ⟨S50000x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S1x128, .f32⟩
  | 126 => ⟨S50000x128, .f32⟩
  | 127 => ⟨S_, .i32⟩
  | _ => ⟨S50000x128, .f32⟩

abbrev hbmTy0_1 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S640000x128, .f32⟩
  | 8 => ⟨S1x128x128, .f32⟩
  | 9 => ⟨S128x128, .f32⟩
  | 10 => ⟨S1x128, .f32⟩
  | 11 => ⟨S128, .f32⟩
  | 12 => ⟨S1x128x128, .f32⟩
  | 13 => ⟨S128x128, .f32⟩
  | 14 => ⟨S1x128, .f32⟩
  | 15 => ⟨S128, .f32⟩
  | 16 => ⟨S1x128, .f32⟩
  | 17 => ⟨S1x128, .f32⟩
  | 18 => ⟨S640000x128, .f32⟩
  | 19 => ⟨S640000x128, .f32⟩
  | 20 => ⟨S_, .f32⟩
  | 21 => ⟨S50000x128, .f32⟩
  | 22 => ⟨S640000x1, .i32⟩
  | 23 => ⟨S50000x128, .f32⟩
  | 24 => ⟨S50000x128, .f32⟩
  | 25 => ⟨S50000x128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S50000x128, .f32⟩
  | 32 => ⟨S1x128, .f32⟩
  | 33 => ⟨S1x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5120x128, .f32⟩
  | .local _ .vmem, ⟨1, _⟩ => ⟨S5120x128, .f32⟩
  | .local _ .vmem, ⟨2, _⟩ => ⟨S5120x128, .f32⟩
  | .local _ .vmem, ⟨3, _⟩ => ⟨S5120x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5120x128, .f32⟩
  | .local _ .vmem, ⟨9, _⟩ => ⟨S5120x128, .f32⟩
  | .local _ .vmem, ⟨10, _⟩ => ⟨S5120x128, .f32⟩
  | .local _ .vmem, ⟨11, _⟩ => ⟨S5120x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5120x128, .f32⟩
  | .local _ .vmem, ⟨33, _⟩ => ⟨S5120x128, .f32⟩
  | .local _ .vmem, ⟨34, _⟩ => ⟨S5120x128, .f32⟩
  | .local _ .vmem, ⟨35, _⟩ => ⟨S5120x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5120x128, .f32⟩
  | .local _ .vmem, ⟨41, _⟩ => ⟨S5120x128, .f32⟩
  | .local _ .vmem, ⟨42, _⟩ => ⟨S5120x128, .f32⟩
  | .local _ .vmem, ⟨43, _⟩ => ⟨S5120x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5120x128, .f32⟩
  | .local _ .vmem, ⟨65, _⟩ => ⟨S5120x128, .f32⟩
  | .local _ .vmem, ⟨66, _⟩ => ⟨S5120x128, .f32⟩
  | .local _ .vmem, ⟨67, _⟩ => ⟨S5120x128, .f32⟩
  | .local _ .vmem, ⟨68, _⟩ => ⟨S128x128, .f32⟩
  | .local _ .vmem, ⟨69, _⟩ => ⟨S1x128, .f32⟩
  | .local _ .vmem, ⟨70, _⟩ => ⟨S128x128, .f32⟩
  | .local _ .vmem, ⟨71, _⟩ => ⟨S1x128, .f32⟩
  | .local _ .vmem, ⟨72, _⟩ => ⟨S5120x128, .f32⟩
  | .local _ .vmem, ⟨73, _⟩ => ⟨S5120x128, .f32⟩
  | .local _ .vmem, ⟨74, _⟩ => ⟨S5120x128, .f32⟩
  | .local _ .vmem, ⟨75, _⟩ => ⟨S5120x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S128x128, .f32⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41_0 : Ref sig .tc := ⟨.hbm, 59, rfl⟩
abbrev main_v41_1 : Ref sig .tc := ⟨.hbm, 60, rfl⟩
abbrev main_v41_2 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_6 : Ref sig .tc := ⟨.hbm, 77, rfl⟩
abbrev main_v55 : Ref sig .tc := ⟨.hbm, 78, rfl⟩
abbrev main_v56 : Ref sig .tc := ⟨.hbm, 79, rfl⟩
abbrev main_c_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72_0 : Ref sig .tc := ⟨.hbm, 96, rfl⟩
abbrev main_v72_1 : Ref sig .tc := ⟨.hbm, 97, rfl⟩
abbrev main_cst_8 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83_0 : Ref sig .tc := ⟨.hbm, 109, rfl⟩
abbrev main_v83_1 : Ref sig .tc := ⟨.hbm, 110, rfl⟩
abbrev main_v83_2 : Ref sig .tc := ⟨.hbm, 111, rfl⟩
abbrev main_cst_9 : Ref sig .tc := ⟨.hbm, 112, rfl⟩
abbrev main_v84 : Ref sig .tc := ⟨.hbm, 113, rfl⟩
abbrev main_v85 : Ref sig .tc := ⟨.hbm, 114, rfl⟩
abbrev main_cst_10 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_11 : Ref sig .tc := ⟨.hbm, 127, rfl⟩
abbrev main_v97 : Ref sig .tc := ⟨.hbm, 128, rfl⟩
abbrev main_v98 : Ref sig .tc := ⟨.hbm, 129, rfl⟩
abbrev main_c_12 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114_0 : Ref sig .tc := ⟨.hbm, 146, rfl⟩
abbrev main_v114_1 : Ref sig .tc := ⟨.hbm, 147, rfl⟩
abbrev main_cst_13 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125_0 : Ref sig .tc := ⟨.hbm, 159, rfl⟩
abbrev main_v125_1 : Ref sig .tc := ⟨.hbm, 160, rfl⟩
abbrev main_v125_2 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg6_1 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg6_0 : Ref sig .tc := ⟨.vmem, 53, rfl⟩
abbrev cc4_scratch0 : Ref sig .tc := ⟨.vmem, 54, rfl⟩
abbrev cc4_scratch1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg5_1 : Ref sig .tc := ⟨.vmem, 63, rfl⟩
abbrev cc6_stg0_0 : Ref sig .tc := ⟨.vmem, 64, rfl⟩
abbrev cc6_stg0_1 : Ref sig .tc := ⟨.vmem, 65, rfl⟩
abbrev cc6_stg1_0 : Ref sig .tc := ⟨.vmem, 66, rfl⟩
abbrev cc6_stg1_1 : Ref sig .tc := ⟨.vmem, 67, rfl⟩
abbrev cc6_stg2_0 : Ref sig .tc := ⟨.vmem, 68, rfl⟩
abbrev cc6_stg3_0 : Ref sig .tc := ⟨.vmem, 69, rfl⟩
abbrev cc6_stg4_0 : Ref sig .tc := ⟨.vmem, 70, rfl⟩
abbrev cc6_stg5_0 : Ref sig .tc := ⟨.vmem, 71, rfl⟩
abbrev cc6_stg6_0 : Ref sig .tc := ⟨.vmem, 72, rfl⟩
abbrev cc6_stg6_1 : Ref sig .tc := ⟨.vmem, 73, rfl⟩
abbrev cc6_stg7_0 : Ref sig .tc := ⟨.vmem, 74, rfl⟩
abbrev cc6_stg7_1 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg1_1 : Ref sig .tc := ⟨.vmem, 79, rfl⟩
abbrev cc7_stg2_0 : Ref sig .tc := ⟨.vmem, 80, rfl⟩
abbrev cc7_stg3_0 : Ref sig .tc := ⟨.vmem, 81, rfl⟩
abbrev cc7_stg4_0 : Ref sig .tc := ⟨.vmem, 82, rfl⟩
abbrev cc7_stg4_1 : Ref sig .tc := ⟨.vmem, 83, rfl⟩
abbrev cc7_stg5_0 : Ref sig .tc := ⟨.vmem, 84, rfl⟩
abbrev cc7_stg6_0 : Ref sig .tc := ⟨.vmem, 85, rfl⟩
abbrev cc7_scratch0 : Ref sig .tc := ⟨.vmem, 86, rfl⟩
abbrev cc7_scratch1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem6_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem4_1 : DmaSem sig := 49
abbrev cc4_sem5_0 : DmaSem sig := 50
abbrev cc4_sem6_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc6_sem7_0 : DmaSem sig := 70
abbrev cc6_sem7_1 : DmaSem sig := 71
abbrev cc7_sem0_0 : DmaSem sig := 72
abbrev cc7_sem0_1 : DmaSem sig := 73
abbrev cc7_sem1_0 : DmaSem sig := 74
abbrev cc7_sem1_1 : DmaSem sig := 75
abbrev cc7_sem2_0 : DmaSem sig := 76
abbrev cc7_sem3_0 : DmaSem sig := 77
abbrev cc7_sem4_0 : DmaSem sig := 78
abbrev cc7_sem4_1 : DmaSem sig := 79
abbrev cc7_sem5_0 : DmaSem sig := 80
abbrev cc7_sem6_0 : DmaSem sig := 81

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5120x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5120x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5120x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5120x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5120x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5120x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5120x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5120x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5120x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S5120x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000x1 : S_.BroadcastsInDim S640000x1 (![] : Fin 0 → Fin S640000x1.rank)
  bcast_S_S50000x1 : S_.BroadcastsInDim S50000x1 (![] : Fin 0 → Fin S50000x1.rank)
  bcast_S640000_S640000x1_0 : S640000.BroadcastsInDim S640000x1 (![0] : Fin 1 → Fin S640000x1.rank)
  transposes_S3x128x128_S3x128x128_0_2_1 : S3x128x128.Transposes [0, 2, 1] S3x128x128
  bcast_S_S640000 : S_.BroadcastsInDim S640000 (![] : Fin 0 → Fin S640000.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5120x128 : S1x128.Broadcasts S5120x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  reduces_S5000x128_S128 : S5000x128.Reduces [0] S128
  bcast_S_S1x128 : S_.BroadcastsInDim S1x128 (![] : Fin 0 → Fin S1x128.rank)
  slices_S2x128_S1x128_0_0 : S2x128.Slices ![0, 0] S1x128
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  scatter_S50000x1_S640000x1_S640000x1_1_0_0_1_wf : ScatterDims.WF S50000x1 S640000x1 S640000x1 [1] [0] [0] 1
  gather_S50000x128_S640000x1_S640000x128_1_0_n_n_0_1_1128_wf : GatherDims.WF S50000x128 S640000x1 S640000x128 [1] [0] [] [0] [] 1 ![1, 128]
  dot_S5120x128_S128x128_S5120x128_1_0_0_1_n_n_wf : DotDims.WF S5120x128 S128x128 S5120x128 [1] [0] [0] [1] [] []
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .f32 = 32 ∨ (Rect.block (s := S640000x128) S5120x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .f32 = 32 ∨ (Rect.block (s := S640000x128) S5120x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5120x128.size a ≤ S640000x128.size a
  hwx0_6 : ∀ i : grid0.Coords, EltTy.bits .f32 = 32 ∨ (Rect.block (s := S640000x128) S5120x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5120x128.size a ≤ S640000x128.size a
  hwx0_7 : ∀ i : grid0.Coords, EltTy.bits .f32 = 32 ∨ (Rect.block (s := S640000x128) S5120x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5120x128.size a ≤ S640000x128.size a
  hwx3_0 : ∀ i : grid3.Coords, EltTy.bits .f32 = 32 ∨ (Rect.block (s := S640000x128) S5120x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5120x128.size a ≤ S640000x128.size a
  hwx3_1 : ∀ i : grid3.Coords, EltTy.bits .f32 = 32 ∨ (Rect.block (s := S640000x128) S5120x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5120x128.size a ≤ S640000x128.size a
  hwx3_6 : ∀ i : grid3.Coords, EltTy.bits .f32 = 32 ∨ (Rect.block (s := S640000x128) S5120x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5120x128.size a ≤ S640000x128.size a
  hwx3_7 : ∀ i : grid3.Coords, EltTy.bits .f32 = 32 ∨ (Rect.block (s := S640000x128) S5120x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5120x128.size a ≤ S640000x128.size a
  hwx6_0 : ∀ i : grid6.Coords, EltTy.bits .f32 = 32 ∨ (Rect.block (s := S640000x128) S5120x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5120x128.size a ≤ S640000x128.size a
  hwx6_1 : ∀ i : grid6.Coords, EltTy.bits .f32 = 32 ∨ (Rect.block (s := S640000x128) S5120x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5120x128.size a ≤ S640000x128.size a
  hwx6_6 : ∀ i : grid6.Coords, EltTy.bits .f32 = 32 ∨ (Rect.block (s := S640000x128) S5120x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5120x128.size a ≤ S640000x128.size a
  hwx6_7 : ∀ i : grid6.Coords, EltTy.bits .f32 = 32 ∨ (Rect.block (s := S640000x128) S5120x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)

variable [Facts₀]

def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v19) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_0) S5120x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_1) S5120x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v41_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S5120x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30_1) S5120x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72_0) S5120x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v72_1) S5120x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v77) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v83_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v83_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v83_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v103) S5120x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v72_1) S5120x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v105) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v112) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v109) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v113) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v114_0) S5120x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v114_1) S5120x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v119) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v96) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v121) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v124) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v125_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v125_1) S1x128.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v125_2) S1x128.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S3x128x128 : Shape := ⟨3, ![3, 128, 128]⟩
abbrev S3x128 : Shape := ⟨2, ![3, 128]⟩
abbrev S2x128 : Shape := ⟨2, ![2, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 221
  | .vmem => 0
  | .smem => 0
  | _ => 0

abbrev hbmTy0_0 (i : Nat) : BufTy := match i % 128 with
  | 0 => ⟨S50000x128, .f32⟩
  | 1 => ⟨S640000x128, .f32⟩
  | 2 => ⟨S3x128x128, .f32⟩
  | 3 => ⟨S3x128, .f32⟩
  | 4 => ⟨S3x128x128, .f32⟩
  | 5 => ⟨S3x128, .f32⟩
  | 6 => ⟨S3x128x128, .f32⟩
  | 7 => ⟨S3x128, .f32⟩
  | 8 => ⟨S2x128, .f32⟩
  | 9 => ⟨S2x128, .f32⟩
  | 10 => ⟨S2x640000, .i32⟩
  | 11 => ⟨S1x640000, .i32⟩
  | 12 => ⟨S640000, .i32⟩
  | 13 => ⟨S1x640000, .i32⟩
  | 14 => ⟨S640000, .i32⟩
  | 15 => ⟨S_, .f32⟩
  | 16 => ⟨S640000x1, .f32⟩
  | 17 => ⟨S_, .f32⟩
  | 18 => ⟨S50000x1, .f32⟩
  | 19 => ⟨S640000x1, .i32⟩
  | 20 => ⟨S50000x1, .f32⟩
  | 21 => ⟨S_, .f32⟩
  | 22 => ⟨S50000x1, .f32⟩
  | 23 => ⟨S50000x1, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S640000x128, .f32⟩
  | 34 => ⟨S1x128x128, .f32⟩
  | 35 => ⟨S128x128, .f32⟩
  | 36 => ⟨S640000x128, .f32⟩
  | 37 => ⟨S1x128, .f32⟩
  | 38 => ⟨S128, .f32⟩
  | 39 => ⟨S1x128, .f32⟩
  | 40 => ⟨S640000x128, .f32⟩
  | 41 => ⟨S640000x128, .f32⟩
  | 42 => ⟨S_, .f32⟩
  | 43 => ⟨S50000x128, .f32⟩
  | 44 => ⟨S640000x1, .i32⟩
  | 45 => ⟨S50000x128, .f32⟩
  | 46 => ⟨S50000x128, .f32⟩
  | 47 => ⟨S50000x128, .f32⟩
  | 48 => ⟨S1x128x128, .f32⟩
  | 49 => ⟨S128x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128x128, .f32⟩
  | 58 => ⟨S128x128, .f32⟩
  | 59 => ⟨S640000x128, .f32⟩
  | 60 => ⟨S1x128, .f32⟩
  | 61 => ⟨S128, .f32⟩
  | 62 => ⟨S1x128, .f32⟩
  | 63 => ⟨S640000x128, .f32⟩
  | 64 => ⟨S640000x128, .f32⟩
  | 65 => ⟨S1x128, .f32⟩
  | 66 => ⟨S128, .f32⟩
  | 67 => ⟨S1x128, .f32⟩
  | 68 => ⟨S128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S50000x128, .f32⟩
  | 78 => ⟨S_, .f32⟩
  | 79 => ⟨S128, .f32⟩
  | 80 => ⟨S_, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S_, .f32⟩
  | 87 => ⟨S128, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S640000x128, .f32⟩
  | 112 => ⟨S1x128x128, .f32⟩
  | 113 => ⟨S128x128, .f32⟩
  | 114 => ⟨S640000x128, .f32⟩
  | 115 => ⟨S1x128, .f32⟩
  | 116 => ⟨S128, .f32⟩
  | 117 => ⟨S1x128, .f32⟩
  | 118 => ⟨S640000x128, .f32⟩
  | 119 => ⟨S640000x128, .f32⟩
  | 120 => ⟨S_, .f32⟩
  | 121 => ⟨S50000x128, .f32⟩
  | 122 => ⟨S640000x1, .i32⟩
  | 123 => ⟨S50000x128, .f32⟩
  | 124 => ⟨S50000x128, .f32⟩
  | 125 => ⟨S50000x128, .f32⟩
  | 126 => ⟨S1x128x128, .f32⟩
  | 127 => ⟨S128x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S1x128x128, .f32⟩
  | 8 => ⟨S128x128, .f32⟩
  | 9 => ⟨S640000x128, .f32⟩
  | 10 => ⟨S1x128, .f32⟩
  | 11 => ⟨S128, .f32⟩
  | 12 => ⟨S1x128, .f32⟩
  | 13 => ⟨S640000x128, .f32⟩
  | 14 => ⟨S640000x128, .f32⟩
  | 15 => ⟨S1x128, .f32⟩
  | 16 => ⟨S128, .f32⟩
  | 17 => ⟨S1x128, .f32⟩
  | 18 => ⟨S128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S50000x128, .f32⟩
  | 26 => ⟨S50000x128, .f32⟩
  | 27 => ⟨S50000x128, .f32⟩
  | 28 => ⟨S_, .f32⟩
  | 29 => ⟨S128, .f32⟩
  | 30 => ⟨S_, .f32⟩
  | 31 => ⟨S128, .f32⟩
  | 32 => ⟨S128, .f32⟩
  | 33 => ⟨S1x128, .f32⟩
  | 34 => ⟨S50000x128, .f32⟩
  | 35 => ⟨S50000x128, .f32⟩
  | 36 => ⟨S_, .f32⟩
  | 37 => ⟨S128, .f32⟩
  | 38 => ⟨S128, .f32⟩
  | 39 => ⟨S128, .f32⟩
  | 40 => ⟨S1x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x128, .f32⟩
  | 61 => ⟨S640000x128, .f32⟩
  | 62 => ⟨S1x128x128, .f32⟩
  | 63 => ⟨S128x128, .f32⟩
  | 64 => ⟨S640000x128, .f32⟩
  | 65 => ⟨S1x128, .f32⟩
  | 66 => ⟨S128, .f32⟩
  | 67 => ⟨S1x128, .f32⟩
  | 68 => ⟨S640000x128, .f32⟩
  | 69 => ⟨S640000x128, .f32⟩
  | 70 => ⟨S_, .f32⟩
  | 71 => ⟨S50000x128, .f32⟩
  | 72 => ⟨S640000x1, .i32⟩
  | 73 => ⟨S50000x128, .f32⟩
  | 74 => ⟨S50000x128, .f32⟩
  | 75 => ⟨S50000x128, .f32⟩
  | 76 => ⟨S1x128x128, .f32⟩
  | 77 => ⟨S128x128, .f32⟩
  | 78 => ⟨S50000x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S1x128x128, .f32⟩
  | 86 => ⟨S128x128, .f32⟩
  | 87 => ⟨S640000x128, .f32⟩
  | 88 => ⟨S1x128, .f32⟩
  | 89 => ⟨S128, .f32⟩
  | 90 => ⟨S1x128, .f32⟩
  | 91 => ⟨S640000x128, .f32⟩
  | 92 => ⟨S640000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_6 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_8 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_call0_cst : Ref sig .tc := ⟨.hbm, 99, rfl⟩
abbrev main_call0_v0 : Ref sig .tc := ⟨.hbm, 100, rfl⟩
abbrev main_v77 : Ref sig .tc := ⟨.hbm, 101, rfl⟩
abbrev main_c_9 : Ref sig .tc := ⟨.hbm, 102, rfl⟩
abbrev main_v78 : Ref sig .tc := ⟨.hbm, 103, rfl⟩
abbrev main_v79 : Ref sig .tc := ⟨.hbm, 104, rfl⟩
abbrev main_c_10 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_11 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_12 : Ref sig .tc := ⟨.hbm, 147, rfl⟩
abbrev main_v120 : Ref sig .tc := ⟨.hbm, 148, rfl⟩
abbrev main_cst_13 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_14 : Ref sig .tc := ⟨.hbm, 156, rfl⟩
abbrev main_v127 : Ref sig .tc := ⟨.hbm, 157, rfl⟩
abbrev main_cst_15 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_16 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_call1_cst : Ref sig .tc := ⟨.hbm, 177, rfl⟩
abbrev main_call1_v0 : Ref sig .tc := ⟨.hbm, 178, rfl⟩
abbrev main_v145 : Ref sig .tc := ⟨.hbm, 179, rfl⟩
abbrev main_c_17 : Ref sig .tc := ⟨.hbm, 180, rfl⟩
abbrev main_v146 : Ref sig .tc := ⟨.hbm, 181, rfl⟩
abbrev main_v147 : Ref sig .tc := ⟨.hbm, 182, rfl⟩
abbrev main_c_18 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_19 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000x1 : S_.BroadcastsInDim S640000x1 (![] : Fin 0 → Fin S640000x1.rank)
  bcast_S_S50000x1 : S_.BroadcastsInDim S50000x1 (![] : Fin 0 → Fin S50000x1.rank)
  bcast_S640000_S640000x1_0 : S640000.BroadcastsInDim S640000x1 (![0] : Fin 1 → Fin S640000x1.rank)
  bcast_S_S640000 : S_.BroadcastsInDim S640000 (![] : Fin 0 → Fin S640000.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  slices_S2x128_S1x128_0_0 : S2x128.Slices ![0, 0] S1x128
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  scatter_S50000x1_S640000x1_S640000x1_1_0_0_1_wf : ScatterDims.WF S50000x1 S640000x1 S640000x1 [1] [0] [0] 1
  gather_S50000x128_S640000x1_S640000x128_1_0_n_n_0_1_1128_wf : GatherDims.WF S50000x128 S640000x1 S640000x128 [1] [0] [] [0] [] 1 ![1, 128]
  dot_S640000x128_S128x128_S640000x128_1_1_0_0_n_n_wf : DotDims.WF S640000x128 S128x128 S640000x128 [1] [1] [0] [0] [] []
  scatter_S50000x128_S640000x1_S640000x128_1_0_0_1_wf : ScatterDims.WF S50000x128 S640000x1 S640000x128 [1] [0] [0] 1
  dot_S50000x128_S128x128_S50000x128_1_1_0_0_n_n_wf : DotDims.WF S50000x128 S128x128 S50000x128 [1] [1] [0] [0] [] []

variable [Facts₀]

def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x128_S128x128_S640000x128_1_1_0_0_n_n : DotDims S640000x128 S128x128 S640000x128 where
  lhsContracting := [1]
  rhsContracting := [1]
  lhsNonContracting := [0]
  rhsNonContracting := [0]
  lhsBatch := []
  rhsBatch := []
  wf := dot_S640000x128_S128x128_S640000x128_1_1_0_0_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf

class Facts : Prop extends Facts₀ where

variable [Facts]
-- ==== Proof.KEdge0.lean ====
/- The frame half of region 0 of @main, the edge kernel `cc0__edge_kernel` (pipeline 0), at a PARAMETER `V`: the
   TensorCore's buffer contents when the region is entered. Each window's block at a grid point (`iblk0`), what the
   body leaves in the two output windows' staging buffers as a function of the six input blocks (`out0_6`, `out0_7`),
   the body's triple on whole staging memrefs (`sound_kernel0`), the pipeline's proof data (`dat0`) and the body
   obligation at every point (`body_obligation0`).

   The body reads its six inputs whole, and writes each output whole with ONE store; just before each store it also
   loads the output buffer (a value nobody reads), so the precondition keeps each output memref at SOME contents, which
   is all a load needs. The two stored values are opaque functions of the loaded blocks throughout: a 5120x128 by
   128x128 product plus a broadcast row each. -/
import proofs.«156566_j1202590843053_1_alg».proof.Proof.Gen.Kernel.Launch
import proofs.«156566_j1202590843053_1_alg».proof.Proof.Gen.Kernel.Skeleton
import proofs.«156566_j1202590843053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: `cc0__edge_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when the pipeline
    does not fetch, the block index has not moved and the body left the block in place), for ANY proof data whose array
    is `V`'s (`hA`) and whose body leaves the block in place (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (when the pipeline
    does not fetch, the block index has not moved and the body left the block in place), for ANY proof data whose array
    is `V`'s (`hA`) and whose body leaves the block in place (`hafter`). The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (when the pipeline
    does not fetch, the block index has not moved and the body left the block in place), for ANY proof data whose array
    is `V`'s (`hA`) and whose body leaves the block in place (`hafter`). The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (when the pipeline
    does not fetch, the block index has not moved and the body left the block in place), for ANY proof data whose array
    is `V`'s (`hA`) and whose body leaves the block in place (`hafter`). The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (when the pipeline
    does not fetch, the block index has not moved and the body left the block in place), for ANY proof data whose array
    is `V`'s (`hA`) and whose body leaves the block in place (`hafter`). The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (when the pipeline
    does not fetch, the block index has not moved and the body left the block in place), for ANY proof data whose array
    is `V`'s (`hA`) and whose body leaves the block in place (`hafter`). The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_0 : Rect S5120x128 := Rect.unit (s := S5120x128) ![0, 0] S5120x128.size inb_S5120x128_S5120x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in each output window's buffer -/

/-- Window 6's staging buffer after the body, from the input windows' blocks: its one store as a piece. The stored
    value is the first payload, of the blocks of windows 0, 1, 2 and 3. -/
def out0_6 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r0_0, k0_pay1 (View.ld x0 r0_0) (View.ld x1 r0_0) (View.ld x2 r0_1) (View.ld x3 r0_2)⟩]

/-- The one store is of the whole buffer, so it covers it. -/
theorem cover0_6 (p0 : Vec F S5120x128 .f32) (y : S5120x128.Idx) :
    ∃ pc ∈ ([⟨r0_0, p0⟩] : List (View.Piece (Elt F) S5120x128 .f32)), y ∈ pc.1.set :=
  View.cover_of_tiled [⟨r0_0, p0⟩] S5120x128.size (by rfl) y

/-- Window 7's staging buffer after the body, from the input windows' blocks: its one store as a piece. The stored
    value is the second payload, of the blocks of windows 1, 4 and 5. -/
def out0_7 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r0_0, k0_pay2 (View.ld x1 r0_0) (View.ld x4 r0_1) (View.ld x5 r0_2)⟩]

/-- The one store is of the whole buffer, so it covers it. -/
theorem cover0_7 (p0 : Vec F S5120x128 .f32) (y : S5120x128.Idx) :
    ∃ pc ∈ ([⟨r0_0, p0⟩] : List (View.Piece (Elt F) S5120x128 .f32)), y ∈ pc.1.set :=
  View.cover_of_tiled [⟨r0_0, p0⟩] S5120x128.size (by rfl) y

/-! ## The body's triple -/

set_option maxHeartbeats 4000000 in
/-- The kernel body on whole staging memrefs, the inputs' at read contents `xW` and the outputs' at anything, runs to
    the continuation holding the inputs' as they were and each output's at `out0_W` of the inputs'. The printed
    function is its skeleton of loads and stores over the payloads, which is run symbolically. -/
theorem sound_kernel0 (c : Dev nD) (E : Set ℕ) (i : grid0.Coords) (arg1 : Memref sig .tc .vmem S5120x128 .f32) (harg1 : arg1.IsWhole) (arg2 : Memref sig .tc .vmem S5120x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5120x128 .f32) (harg7 : arg7.IsWhole) (arg8 : Memref sig .tc .vmem S5120x128 .f32) (harg8 : arg8.IsWhole)
    (x0 : Vec F S5120x128 .f32) (x1 : Vec F S5120x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them (`V`); after the body at point
    `t` each input's buffer at its block and each output's at `out0_W` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KNode1Run.lean ====
import proofs.«156566_j1202590843053_1_alg».proof.Proof.Gen.Kernel.Launch
import proofs.«156566_j1202590843053_1_alg».proof.Proof.Gen.Kernel.Skeleton
import proofs.«156566_j1202590843053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The node kernel of region 1: its branch condition and its whole-body runs -/

/-- The condition of the body's one conditional (reset the accumulators), from the grid coordinate. -/
abbrev cond1_0 (i : grid1.Coords) : Prop := (Scalar.cmpi .ne (Scalar.extui (Scalar.cmpi .eq (BitVec.ofNat 32 (i 0).val) 0#32)) 0#32) = 1#1
/-- It holds at the first grid point only. -/
theorem hcond1_0 : ∀ t : Fin cfg1.N, cond1_0 (grid1.coords t) ↔ t.val = 0 :=
  (by decide +kernel : ∀ t : Fin grid1.N, cond1_0 (grid1.coords t) ↔ t.val = 0)

set_option maxHeartbeats 4000000 in
/-- The node kernel's body at the first grid point (the accumulators are reset first): on whole
    staging memrefs, the inputs' at their contents and the outputs' at anything, the two accumulators at anything, the body
    runs to the continuation holding the inputs as they were and each output and accumulator with its stores written,
    the stores as lists of pieces (last first) the run itself finds. -/
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__node_kernel_eq_skeleton]; unfold cc1__node_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

set_option maxHeartbeats 4000000 in
/-- The node kernel's body at a later grid point (the accumulators continue from what the point before left): on whole
    staging memrefs, the inputs' at their contents and the outputs' at anything, the two accumulators at the carried contents, the body
    runs to the continuation holding the inputs as they were and each output and accumulator with its stores written,
    the stores as lists of pieces (last first) the run itself finds. -/
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__node_kernel_eq_skeleton]; unfold cc1__node_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Frm

end
-- ==== Proof.KNode1.lean ====
import proofs.«156566_j1202590843053_1_alg».proof.Proof.Gen.Kernel.Launch
import proofs.«156566_j1202590843053_1_alg».proof.Proof.Gen.Kernel.Skeleton
import proofs.«156566_j1202590843053_1_alg».proof.Proof.Gen.Kernel.Points
import proofs.«156566_j1202590843053_1_alg».proof.Proof.KNode1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node kernel of region 1: what it leaves point by point, its proof data, its body obligation -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- No window is idle at any point: every output is stored into at every point. -/
theorem liveAt1 : ∀ (w : Fin cfg1.W) (t : Fin cfg1.N), cfg1.idle w (grid1.coords t) = false := by decide +kernel

/-- The two accumulators, whole scoped buffers of the kernel's own, passed beside the windows. -/
abbrev scM1_0 : Memref sig .tc .vmem S1x128 .f32 := Memref.whole cc1_scratch0
abbrev scM1_1 : Memref sig .tc .vmem S1x128 .f32 := Memref.whole cc1_scratch1

/-- The region's plain invariant with the two accumulators split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## What the outputs and the accumulators hold after each point -/

/-- Input window 0's block at point `t`, at its literal shape. -/
def blk1_0 (c : Dev nD) (t : Fin cfg1.N) : Vec F S5000x128 .f32 := iblk1 V c 0 t
/-- Input window 1's block at point `t`, at its literal shape. -/
def blk1_1 (c : Dev nD) (t : Fin cfg1.N) : Vec F S5000x128 .f32 := iblk1 V c 1 t
/-- Input window 2's block at point `t`, at its literal shape. -/
def blk1_2 (c : Dev nD) (t : Fin cfg1.N) : Vec F S128x128 .f32 := iblk1 V c 2 t
/-- Input window 3's block at point `t`, at its literal shape. -/
def blk1_3 (c : Dev nD) (t : Fin cfg1.N) : Vec F S1x128 .f32 := iblk1 V c 3 t

set_option maxHeartbeats 1000000 in
/-- The first point's whole-body run at the point's staging memrefs and input blocks. -/
def runA1 (c : Dev nD) (t : Fin cfg1.N) (h0 : t.val = 0) :=
  kernelRun1_A (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _) (Memref.whole cc1_scratch1) (Memref.isWhole_whole _) ((hcond1_0 t).mpr h0) (blk1_0 V c t) (blk1_1 V c t) (blk1_2 V c t) (blk1_3 V c t)

set_option maxHeartbeats 1000000 in
/-- A later point's whole-body run at the point's staging memrefs and input blocks, the accumulators at `s0`, `s1`. -/
def runB1 (c : Dev nD) (t : Fin cfg1.N) (h0 : t.val ≠ 0) (s0 s1 : Vec F S1x128 .f32) :=
  kernelRun1_B (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _) (Memref.whole cc1_scratch1) (Memref.isWhole_whole _) (fun h => h0 ((hcond1_0 t).mp h)) (blk1_0 V c t) (blk1_1 V c t) (blk1_2 V c t) (blk1_3 V c t) s0 s1

/-- What the first point leaves: the three outputs' staging buffers, then the two accumulators. -/
def caseA1 (c : Dev nD) (t : Fin cfg1.N) (h0 : t.val = 0) : Vec F S5000x128 .f32 × Vec F S1x128 .f32 × Vec F S1x128 .f32 × Vec F S1x128 .f32 × Vec F S1x128 .f32 :=
  (View.canon (runA1 V c t h0).1, View.canon (runA1 V c t h0).2.1, View.canon (runA1 V c t h0).2.2.1,
    View.canon (runA1 V c t h0).2.2.2.1, View.canon (runA1 V c t h0).2.2.2.2.1)

/-- What a later point leaves, from the accumulators' contents `s0`, `s1` it starts from. -/
def caseB1 (c : Dev nD) (t : Fin cfg1.N) (h0 : t.val ≠ 0) (s0 s1 : Vec F S1x128 .f32) : Vec F S5000x128 .f32 × Vec F S1x128 .f32 × Vec F S1x128 .f32 × Vec F S1x128 .f32 × Vec F S1x128 .f32 :=
  (View.canon (runB1 V c t h0 s0 s1).1, View.canon (runB1 V c t h0 s0 s1).2.1, View.canon (runB1 V c t h0 s0 s1).2.2.1,
    View.canon (runB1 V c t h0 s0 s1).2.2.2.1, View.canon (runB1 V c t h0 s0 s1).2.2.2.2.1)

/-- After the body at position `n`: the three outputs' staging buffers (the pre-normalisation rows of the block, the
    running column sums, the running column sums of squares) and the two accumulators. At the first point the accumulators
    are reset before the block is added; later they continue from what the point before left. -/
def outsAt1 (c : Dev nD) : (n : ℕ) → n < cfg1.N → Vec F S5000x128 .f32 × Vec F S1x128 .f32 × Vec F S1x128 .f32 × Vec F S1x128 .f32 × Vec F S1x128 .f32
  | 0, hn => caseA1 V c ⟨0, hn⟩ rfl
  | n + 1, hn => caseB1 V c ⟨n + 1, hn⟩ (Nat.succ_ne_zero n) (outsAt1 c n (Nat.lt_of_succ_lt hn)).2.2.2.1 (outsAt1 c n (Nat.lt_of_succ_lt hn)).2.2.2.2

theorem outsAt1_A (c : Dev nD) (t : Fin cfg1.N) (h0 : t.val = 0) :
    outsAt1 V c t.val t.isLt = caseA1 V c t h0 := by
  obtain ⟨n, hn⟩ := t
  cases n with
  | zero => rfl
  | succ n => exact absurd h0 (Nat.succ_ne_zero n)

theorem outsAt1_B (c : Dev nD) (t : Fin cfg1.N) (h0 : t.val ≠ 0) :
    outsAt1 V c t.val t.isLt = caseB1 V c t h0 (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd rfl h0
  | succ n => rfl

theorem cover1_A_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) (y : S5000x128.Idx) :
    ∃ pc ∈ (kernelRun1_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).1 S5000x128.size (by sl_kernel_rfl) y

theorem cover1_A_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.1 S1x128.size (by sl_kernel_rfl) y

theorem cover1_A_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.1 S1x128.size (by sl_kernel_rfl) y

theorem cover1_A_s0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.2.1 S1x128.size (by sl_kernel_rfl) y

theorem cover1_A_s1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.2.2.1 S1x128.size (by sl_kernel_rfl) y

theorem cover1_B_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).1 S5000x128.size (by sl_kernel_rfl) y

theorem cover1_B_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.1 S1x128.size (by sl_kernel_rfl) y

theorem cover1_B_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.1 S1x128.size (by sl_kernel_rfl) y

theorem cover1_B_s0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.2.1 S1x128.size (by sl_kernel_rfl) y

theorem cover1_B_s1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.2.2.1 S1x128.size (by sl_kernel_rfl) y

/-- Each window's current staging memref at point `t`, as the pipeline passes it to the body, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)

/-- The region invariant before position `n`: before the first point the plain one (every scoped buffer at anything);
    afterwards the two accumulators at what the point before left in them, the other scoped buffers at anything, the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.2.1 ∗ owns (c : Thread nD τ) scM1_1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.2.1 ∗ owns (c : Thread nD τ) scM1_1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.2.1 ∗ owns (c : Thread nD τ) scM1_1 fullShare (outsAt1 V c (n - 1) (by omega)).2.2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of this region on core `c`: the arrays as the region finds them (`V`); after the body at point `t` each
    input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; at the first point the accumulators come out of the plain
    invariant at anything and are reset; later they come at what the point before left; either way the run applies and the
    invariant takes the accumulators back at this point's contents. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val = 0
  · rw [outsAt1_A V c t h0]; unfold caseA1 runA1; dsimp only
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (blk1_0 V c t) (blk1_1 V c t) (blk1_2 V c t) (blk1_3 V c t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover1_A_s0 c _ _ _ _ _ _ _ _ _ _ _ _ _ _ _ _ _ _ _ _ _ _ _ _)
          · unfold owns; iexists _; isplitr
            swap; · iexact HS1
            ipureintro; exact View.read_writes_eq_canon _ _ _ (cover1_A_s1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover1_A_4 c _ _ _ _ _ _ _ _ _ _ _ _ _ _ _ _ _ _ _ _ _ _ _ _)
    isplitl [H5]
    · unfold owns; iexists _; isplitr
      swap; · iexact H5
      ipureintro; exact View.read_writes_eq_canon _ _ _ (cover1_A_5 c _ _ _ _ _ _ _ _ _ _ _ _ _ _ _ _ _ _ _ _ _ _ _ _)
    unfold owns; iexists _; isplitr
    swap; · iexact H6
    ipureintro; exact View.read_writes_eq_canon _ _ _ (cover1_A_6 c _ _ _ _ _ _ _ _ _ _ _ _ _ _ _ _ _ _ _ _ _ _ _ _)
  · rw [outsAt1_B V c t h0]; unfold caseB1 runB1; dsimp only
    rw [PhiS1_castSucc V c t, PhiS1_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (blk1_0 V c t) (blk1_1 V c t) (blk1_2 V c t) (blk1_3 V c t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover1_B_s0 c _ _ _ _ _ _ _ _ _ _ _ _ _ _ _ _ _ _ _ _ _ _ _ _ _ _)
          · unfold owns; iexists _; isplitr
            swap; · iexact HS1
            ipureintro; exact View.read_writes_eq_canon _ _ _ (cover1_B_s1 c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover1_B_4 c _ _ _ _ _ _ _ _ _ _ _ _ _ _ _ _ _ _ _ _ _ _ _ _ _ _)
    isplitl [H5]
    · unfold owns; iexists _; isplitr
      swap; · iexact H5
      ipureintro; exact View.read_writes_eq_canon _ _ _ (cover1_B_5 c _ _ _ _ _ _ _ _ _ _ _ _ _ _ _ _ _ _ _ _ _ _ _ _ _ _)
    unfold owns; iexists _; isplitr
    swap; · iexact H6
    ipureintro; exact View.read_writes_eq_canon _ _ _ (cover1_B_6 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the plain one. -/
theorem Phi0_1 (c : Dev nD) : (dat1 V c).Φ 0 = Pipeline.ΦA spec1 c := rfl

/-- After any point but the first the invariant gives the plain one back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.Kernel.Frm

end
-- ==== Proof.KBn2.lean ====
import proofs.«156566_j1202590843053_1_alg».proof.Proof.Gen.Kernel.Launch
import proofs.«156566_j1202590843053_1_alg».proof.Proof.Gen.Kernel.Skeleton
import proofs.«156566_j1202590843053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of the batch-normalisation-and-relu kernel of region 2: at any contents `V` of the
    TensorCore's buffers when the region is entered, the block each window presents at a grid point, what the
    body leaves in the output window's staging buffer as a function of the input blocks, the body's triple, the
    pipeline's proof data and the body obligation at every grid point. -/

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the pipeline fetched it
    there: where it was not fetched the block index has not moved, and the body leaves the block in place. The
    window is uncut and has no idle point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether or not the pipeline fetched it
    there: where it was not fetched the block index has not moved, and the body leaves the block in place. The
    window is uncut and has no idle point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether or not the pipeline fetched it
    there: where it was not fetched the block index has not moved, and the body leaves the block in place. The
    window is uncut and has no idle point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether or not the pipeline fetched it
    there: where it was not fetched the block index has not moved, and the body leaves the block in place. The
    window is uncut and has no idle point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, whether or not the pipeline fetched it
    there: where it was not fetched the block index has not moved, and the body leaves the block in place. The
    window is uncut and has no idle point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 5's staging buffer after the body, from the input windows' blocks: its one store, of the normalised,
    scaled, shifted and clamped rows, over the whole buffer. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_0, k2_pay1 (View.ld x0 r2_0) (View.ld x1 r2_1) (View.ld x2 r2_1) (View.ld x3 r2_1) (View.ld x4 r2_1)⟩]

/-- The store's rectangle is the whole buffer, so it covers it. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at contents `xW` and the output's at anything (the body
    reads the output buffer once before it overwrites it, and the value read is unused, so any contents will do),
    runs to the continuation holding the inputs' as they were and the output's at `out2_5` of the inputs'. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and the output's at `out2_5` of the input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm
-- ==== Proof.KEdge3.lean ====
/- The frame half of region 3 of @main, the edge kernel `cc3__edge_kernel` (pipeline 3), at a PARAMETER `V`: the
   TensorCore's buffer contents when the region is entered. Each window's block at a grid point (`iblk3`), what the
   body leaves in the two output windows' staging buffers as a function of the six input blocks (`out3_6`, `out3_7`),
   the body's triple on whole staging memrefs (`sound_kernel3`), the pipeline's proof data (`dat3`) and the body
   obligation at every point (`body_obligation3`).

   The body reads its six inputs whole, and writes each output whole with ONE store; just before each store it also
   loads the output buffer (a value nobody reads), so the precondition keeps each output memref at SOME contents, which
   is all a load needs. The two stored values are opaque functions of the loaded blocks throughout: a 5120x128 by
   128x128 product plus a broadcast row each. -/
import proofs.«156566_j1202590843053_1_alg».proof.Proof.Gen.Kernel.Launch
import proofs.«156566_j1202590843053_1_alg».proof.Proof.Gen.Kernel.Skeleton
import proofs.«156566_j1202590843053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 3 of @main: `cc3__edge_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (when the pipeline
    does not fetch, the block index has not moved and the body left the block in place), for ANY proof data whose array
    is `V`'s (`hA`) and whose body leaves the block in place (`hafter`). The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (when the pipeline
    does not fetch, the block index has not moved and the body left the block in place), for ANY proof data whose array
    is `V`'s (`hA`) and whose body leaves the block in place (`hafter`). The window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (when the pipeline
    does not fetch, the block index has not moved and the body left the block in place), for ANY proof data whose array
    is `V`'s (`hA`) and whose body leaves the block in place (`hafter`). The window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (when the pipeline
    does not fetch, the block index has not moved and the body left the block in place), for ANY proof data whose array
    is `V`'s (`hA`) and whose body leaves the block in place (`hafter`). The window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (when the pipeline
    does not fetch, the block index has not moved and the body left the block in place), for ANY proof data whose array
    is `V`'s (`hA`) and whose body leaves the block in place (`hafter`). The window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (when the pipeline
    does not fetch, the block index has not moved and the body left the block in place), for ANY proof data whose array
    is `V`'s (`hA`) and whose body leaves the block in place (`hafter`). The window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer read or written whole -/

abbrev r3_0 : Rect S5120x128 := Rect.unit (s := S5120x128) ![0, 0] S5120x128.size inb_S5120x128_S5120x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in each output window's buffer -/

/-- Window 6's staging buffer after the body, from the input windows' blocks: its one store as a piece. The stored
    value is the kernel's first stored payload, of the blocks of windows 0, 1, 2 and 3. -/
def out3_6 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r3_0, k3_pay2 (View.ld x0 r3_0) (View.ld x1 r3_0) (View.ld x2 r3_1) (View.ld x3 r3_2)⟩]

/-- The one store is of the whole buffer, so it covers it. -/
theorem cover3_6 (p0 : Vec F S5120x128 .f32) (y : S5120x128.Idx) :
    ∃ pc ∈ ([⟨r3_0, p0⟩] : List (View.Piece (Elt F) S5120x128 .f32)), y ∈ pc.1.set :=
  View.cover_of_tiled [⟨r3_0, p0⟩] S5120x128.size (by rfl) y

/-- Window 7's staging buffer after the body, from the input windows' blocks: its one store as a piece. The stored
    value is the kernel's second stored payload, of the blocks of windows 1, 4 and 5. -/
def out3_7 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r3_0, k3_pay3 (View.ld x1 r3_0) (View.ld x4 r3_1) (View.ld x5 r3_2)⟩]

/-- The one store is of the whole buffer, so it covers it. -/
theorem cover3_7 (p0 : Vec F S5120x128 .f32) (y : S5120x128.Idx) :
    ∃ pc ∈ ([⟨r3_0, p0⟩] : List (View.Piece (Elt F) S5120x128 .f32)), y ∈ pc.1.set :=
  View.cover_of_tiled [⟨r3_0, p0⟩] S5120x128.size (by rfl) y

/-! ## The body's triple -/

set_option maxHeartbeats 4000000 in
/-- The kernel body on whole staging memrefs, the inputs' at read contents `xW` and the outputs' at anything, runs to
    the continuation holding the inputs' as they were and each output's at `out3_W` of the inputs'. The printed
    function is its skeleton of loads and stores over the payloads, which is run symbolically. -/
theorem sound_kernel3 (c : Dev nD) (E : Set ℕ) (i : grid3.Coords) (arg1 : Memref sig .tc .vmem S5120x128 .f32) (harg1 : arg1.IsWhole) (arg2 : Memref sig .tc .vmem S5120x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5120x128 .f32) (harg7 : arg7.IsWhole) (arg8 : Memref sig .tc .vmem S5120x128 .f32) (harg8 : arg8.IsWhole)
    (x0 : Vec F S5120x128 .f32) (x1 : Vec F S5120x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5) ∗ owns (c : Thread nD τ) arg8 fullShare (out3_7 x0 x1 x2 x3 x4 x5)) -∗ K ⟨⟩))
      ⊢ wp frame (wpE (defs₀ (F := F)) Variants.none c none) E (cc3__edge_kernel i arg1 harg1 arg2 harg2 arg3 harg3 arg4 harg4 arg5 harg5 arg6 harg6 arg7 harg7 arg8 harg8) K := by
  simp only [cc3__edge_kernel_eq_skeleton]; unfold cc3__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-! ## The pipeline's proof data -/

/-- The proof data of pipeline 3 on core `c`: the arrays as the region finds them (`V`); after the body at point
    `t` each input's buffer at its block and each output's at `out3_W` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.KNode4Run.lean ====
import proofs.«156566_j1202590843053_1_alg».proof.Proof.Gen.Kernel.Launch
import proofs.«156566_j1202590843053_1_alg».proof.Proof.Gen.Kernel.Skeleton
import proofs.«156566_j1202590843053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The node kernel of region 4: its branch condition and its whole-body runs -/

/-- The condition of the body's one conditional (reset the accumulators), from the grid coordinate. -/
abbrev cond4_0 (i : grid4.Coords) : Prop := (Scalar.cmpi .ne (Scalar.extui (Scalar.cmpi .eq (BitVec.ofNat 32 (i 0).val) 0#32)) 0#32) = 1#1
/-- It holds at the first grid point only. -/
theorem hcond4_0 : ∀ t : Fin cfg4.N, cond4_0 (grid4.coords t) ↔ t.val = 0 :=
  (by decide +kernel : ∀ t : Fin grid4.N, cond4_0 (grid4.coords t) ↔ t.val = 0)

set_option maxHeartbeats 4000000 in
/-- The node kernel's body at the first grid point (the accumulators are reset first): on whole
    staging memrefs, the inputs' at their contents and the outputs' at anything, the two accumulators at anything, the body
    runs to the continuation holding the inputs as they were and each output and accumulator with its stores written,
    the stores as lists of pieces (last first) the run itself finds. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__node_kernel_eq_skeleton]; unfold cc4__node_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

set_option maxHeartbeats 4000000 in
/-- The node kernel's body at a later grid point (the accumulators continue from what the point before left): on whole
    staging memrefs, the inputs' at their contents and the outputs' at anything, the two accumulators at the carried contents, the body
    runs to the continuation holding the inputs as they were and each output and accumulator with its stores written,
    the stores as lists of pieces (last first) the run itself finds. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__node_kernel_eq_skeleton]; unfold cc4__node_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Frm

end
-- ==== Proof.KNode4.lean ====
import proofs.«156566_j1202590843053_1_alg».proof.Proof.Gen.Kernel.Launch
import proofs.«156566_j1202590843053_1_alg».proof.Proof.Gen.Kernel.Skeleton
import proofs.«156566_j1202590843053_1_alg».proof.Proof.Gen.Kernel.Points
import proofs.«156566_j1202590843053_1_alg».proof.Proof.KNode4Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node kernel of region 4: what it leaves point by point, its proof data, its body obligation -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- No window is idle at any point: every output is stored into at every point. -/
theorem liveAt4 : ∀ (w : Fin cfg4.W) (t : Fin cfg4.N), cfg4.idle w (grid4.coords t) = false := by decide +kernel

/-- The two accumulators, whole scoped buffers of the kernel's own, passed beside the windows. -/
abbrev scM4_0 : Memref sig .tc .vmem S1x128 .f32 := Memref.whole cc4_scratch0
abbrev scM4_1 : Memref sig .tc .vmem S1x128 .f32 := Memref.whole cc4_scratch1

/-- The region's plain invariant with the two accumulators split out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## What the outputs and the accumulators hold after each point -/

/-- Input window 0's block at point `t`, at its literal shape. -/
def blk4_0 (c : Dev nD) (t : Fin cfg4.N) : Vec F S5000x128 .f32 := iblk4 V c 0 t
/-- Input window 1's block at point `t`, at its literal shape. -/
def blk4_1 (c : Dev nD) (t : Fin cfg4.N) : Vec F S5000x128 .f32 := iblk4 V c 1 t
/-- Input window 2's block at point `t`, at its literal shape. -/
def blk4_2 (c : Dev nD) (t : Fin cfg4.N) : Vec F S128x128 .f32 := iblk4 V c 2 t
/-- Input window 3's block at point `t`, at its literal shape. -/
def blk4_3 (c : Dev nD) (t : Fin cfg4.N) : Vec F S1x128 .f32 := iblk4 V c 3 t

set_option maxHeartbeats 1000000 in
/-- The first point's whole-body run at the point's staging memrefs and input blocks. -/
def runA4 (c : Dev nD) (t : Fin cfg4.N) (h0 : t.val = 0) :=
  kernelRun4_A (F := F) c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (Memref.whole cc4_scratch0) (Memref.isWhole_whole _) (Memref.whole cc4_scratch1) (Memref.isWhole_whole _) ((hcond4_0 t).mpr h0) (blk4_0 V c t) (blk4_1 V c t) (blk4_2 V c t) (blk4_3 V c t)

set_option maxHeartbeats 1000000 in
/-- A later point's whole-body run at the point's staging memrefs and input blocks, the accumulators at `s0`, `s1`. -/
def runB4 (c : Dev nD) (t : Fin cfg4.N) (h0 : t.val ≠ 0) (s0 s1 : Vec F S1x128 .f32) :=
  kernelRun4_B (F := F) c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (Memref.whole cc4_scratch0) (Memref.isWhole_whole _) (Memref.whole cc4_scratch1) (Memref.isWhole_whole _) (fun h => h0 ((hcond4_0 t).mp h)) (blk4_0 V c t) (blk4_1 V c t) (blk4_2 V c t) (blk4_3 V c t) s0 s1

/-- What the first point leaves: the three outputs' staging buffers, then the two accumulators. -/
def caseA4 (c : Dev nD) (t : Fin cfg4.N) (h0 : t.val = 0) : Vec F S5000x128 .f32 × Vec F S1x128 .f32 × Vec F S1x128 .f32 × Vec F S1x128 .f32 × Vec F S1x128 .f32 :=
  (View.canon (runA4 V c t h0).1, View.canon (runA4 V c t h0).2.1, View.canon (runA4 V c t h0).2.2.1,
    View.canon (runA4 V c t h0).2.2.2.1, View.canon (runA4 V c t h0).2.2.2.2.1)

/-- What a later point leaves, from the accumulators' contents `s0`, `s1` it starts from. -/
def caseB4 (c : Dev nD) (t : Fin cfg4.N) (h0 : t.val ≠ 0) (s0 s1 : Vec F S1x128 .f32) : Vec F S5000x128 .f32 × Vec F S1x128 .f32 × Vec F S1x128 .f32 × Vec F S1x128 .f32 × Vec F S1x128 .f32 :=
  (View.canon (runB4 V c t h0 s0 s1).1, View.canon (runB4 V c t h0 s0 s1).2.1, View.canon (runB4 V c t h0 s0 s1).2.2.1,
    View.canon (runB4 V c t h0 s0 s1).2.2.2.1, View.canon (runB4 V c t h0 s0 s1).2.2.2.2.1)

/-- After the body at position `n`: the three outputs' staging buffers (the pre-normalisation rows of the block, the
    running column sums, the running column sums of squares) and the two accumulators. At the first point the accumulators
    are reset before the block is added; later they continue from what the point before left. -/
def outsAt4 (c : Dev nD) : (n : ℕ) → n < cfg4.N → Vec F S5000x128 .f32 × Vec F S1x128 .f32 × Vec F S1x128 .f32 × Vec F S1x128 .f32 × Vec F S1x128 .f32
  | 0, hn => caseA4 V c ⟨0, hn⟩ rfl
  | n + 1, hn => caseB4 V c ⟨n + 1, hn⟩ (Nat.succ_ne_zero n) (outsAt4 c n (Nat.lt_of_succ_lt hn)).2.2.2.1 (outsAt4 c n (Nat.lt_of_succ_lt hn)).2.2.2.2

theorem outsAt4_A (c : Dev nD) (t : Fin cfg4.N) (h0 : t.val = 0) :
    outsAt4 V c t.val t.isLt = caseA4 V c t h0 := by
  obtain ⟨n, hn⟩ := t
  cases n with
  | zero => rfl
  | succ n => exact absurd h0 (Nat.succ_ne_zero n)

theorem outsAt4_B (c : Dev nD) (t : Fin cfg4.N) (h0 : t.val ≠ 0) :
    outsAt4 V c t.val t.isLt = caseB4 V c t h0 (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd rfl h0
  | succ n => rfl

theorem cover4_A_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (y : S5000x128.Idx) :
    ∃ pc ∈ (kernelRun4_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).1 S5000x128.size (by sl_kernel_rfl) y

theorem cover4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.1 S1x128.size (by sl_kernel_rfl) y

theorem cover4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.1 S1x128.size (by sl_kernel_rfl) y

theorem cover4_A_s0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.2.1 S1x128.size (by sl_kernel_rfl) y

theorem cover4_A_s1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.2.2.1 S1x128.size (by sl_kernel_rfl) y

theorem cover4_B_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).1 S5000x128.size (by sl_kernel_rfl) y

theorem cover4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.1 S1x128.size (by sl_kernel_rfl) y

theorem cover4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.1 S1x128.size (by sl_kernel_rfl) y

theorem cover4_B_s0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.2.1 S1x128.size (by sl_kernel_rfl) y

theorem cover4_B_s1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.2.2.1 S1x128.size (by sl_kernel_rfl) y

/-- Each window's current staging memref at point `t`, as the pipeline passes it to the body, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)

/-- The region invariant before position `n`: before the first point the plain one (every scoped buffer at anything);
    afterwards the two accumulators at what the point before left in them, the other scoped buffers at anything, the
    generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of this region on core `c`: the arrays as the region finds them (`V`); after the body at point `t` each
    input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; at the first point the accumulators come out of the plain
    invariant at anything and are reset; later they come at what the point before left; either way the run applies and the
    invariant takes the accumulators back at this point's contents. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  by_cases h0 : t.val = 0
  · rw [outsAt4_A V c t h0]; unfold caseA4 runA4; dsimp only
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (blk4_0 V c t) (blk4_1 V c t) (blk4_2 V c t) (blk4_3 V c t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover4_A_s0 c _ _ _ _ _ _ _ _ _ _ _ _ _ _ _ _ _ _ _ _ _ _ _ _)
          · unfold owns; iexists _; isplitr
            swap; · iexact HS1
            ipureintro; exact View.read_writes_eq_canon _ _ _ (cover4_A_s1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover4_A_4 c _ _ _ _ _ _ _ _ _ _ _ _ _ _ _ _ _ _ _ _ _ _ _ _)
    isplitl [H5]
    · unfold owns; iexists _; isplitr
      swap; · iexact H5
      ipureintro; exact View.read_writes_eq_canon _ _ _ (cover4_A_5 c _ _ _ _ _ _ _ _ _ _ _ _ _ _ _ _ _ _ _ _ _ _ _ _)
    unfold owns; iexists _; isplitr
    swap; · iexact H6
    ipureintro; exact View.read_writes_eq_canon _ _ _ (cover4_A_6 c _ _ _ _ _ _ _ _ _ _ _ _ _ _ _ _ _ _ _ _ _ _ _ _)
  · rw [outsAt4_B V c t h0]; unfold caseB4 runB4; dsimp only
    rw [PhiS4_castSucc V c t, PhiS4_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (blk4_0 V c t) (blk4_1 V c t) (blk4_2 V c t) (blk4_3 V c t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover4_B_s0 c _ _ _ _ _ _ _ _ _ _ _ _ _ _ _ _ _ _ _ _ _ _ _ _ _ _)
          · unfold owns; iexists _; isplitr
            swap; · iexact HS1
            ipureintro; exact View.read_writes_eq_canon _ _ _ (cover4_B_s1 c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover4_B_4 c _ _ _ _ _ _ _ _ _ _ _ _ _ _ _ _ _ _ _ _ _ _ _ _ _ _)
    isplitl [H5]
    · unfold owns; iexists _; isplitr
      swap; · iexact H5
      ipureintro; exact View.read_writes_eq_canon _ _ _ (cover4_B_5 c _ _ _ _ _ _ _ _ _ _ _ _ _ _ _ _ _ _ _ _ _ _ _ _ _ _)
    unfold owns; iexists _; isplitr
    swap; · iexact H6
    ipureintro; exact View.read_writes_eq_canon _ _ _ (cover4_B_6 c _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- Before the first point the invariant is the plain one. -/
theorem Phi0_4 (c : Dev nD) : (dat4 V c).Φ 0 = Pipeline.ΦA spec4 c := rfl

/-- After any point but the first the invariant gives the plain one back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Cert.Kernel.Frm

end
-- ==== Proof.KBn5.lean ====
import proofs.«156566_j1202590843053_1_alg».proof.Proof.Gen.Kernel.Launch
import proofs.«156566_j1202590843053_1_alg».proof.Proof.Gen.Kernel.Skeleton
import proofs.«156566_j1202590843053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of the batch-normalisation-and-relu kernel of region 5: at any contents `V` of the
    TensorCore's buffers when the region is entered, the block each window presents at a grid point, what the
    body leaves in the output window's staging buffer as a function of the input blocks, the body's triple, the
    pipeline's proof data and the body obligation at every grid point. -/

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched it
    there: where it was not fetched the block index has not moved, and the body leaves the block in place. The
    window is uncut and has no idle point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether or not the pipeline fetched it
    there: where it was not fetched the block index has not moved, and the body leaves the block in place. The
    window is uncut and has no idle point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether or not the pipeline fetched it
    there: where it was not fetched the block index has not moved, and the body leaves the block in place. The
    window is uncut and has no idle point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether or not the pipeline fetched it
    there: where it was not fetched the block index has not moved, and the body leaves the block in place. The
    window is uncut and has no idle point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, whether or not the pipeline fetched it
    there: where it was not fetched the block index has not moved, and the body leaves the block in place. The
    window is uncut and has no idle point. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 5's staging buffer after the body, from the input windows' blocks: its one store, of the normalised,
    scaled, shifted and clamped rows, over the whole buffer. -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨r5_0, k5_pay1 (View.ld x0 r5_0) (View.ld x1 r5_1) (View.ld x2 r5_1) (View.ld x3 r5_1) (View.ld x4 r5_1)⟩]

/-- The store's rectangle is the whole buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at contents `xW` and the output's at anything (the body
    reads the output buffer once before it overwrites it, and the value read is unused, so any contents will do),
    runs to the continuation holding the inputs' as they were and the output's at `out5_5` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer at its block and the output's at `out5_5` of the input blocks; the invariant
    is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's owed count pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frm
-- ==== Proof.KEdge6.lean ====
/- The frame half of region 6 of @main, the edge kernel `cc6__edge_kernel` (pipeline 6), at a PARAMETER `V`: the
   TensorCore's buffer contents when the region is entered. Each window's block at a grid point (`iblk6`), what the
   body leaves in the two output windows' staging buffers as a function of the six input blocks (`out6_6`, `out6_7`),
   the body's triple on whole staging memrefs (`sound_kernel6`), the pipeline's proof data (`dat6`) and the body
   obligation at every point (`body_obligation6`).

   The body reads its six inputs whole, and writes each output whole with ONE store; just before each store it also
   loads the output buffer (a value nobody reads), so the precondition keeps each output memref at SOME contents, which
   is all a load needs. The two stored values are opaque functions of the loaded blocks throughout: a 5120x128 by
   128x128 product plus a broadcast row each. -/
import proofs.«156566_j1202590843053_1_alg».proof.Proof.Gen.Kernel.Launch
import proofs.«156566_j1202590843053_1_alg».proof.Proof.Gen.Kernel.Skeleton
import proofs.«156566_j1202590843053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 6 of @main: `cc6__edge_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (when the pipeline
    does not fetch, the block index has not moved and the body left the block in place), for ANY proof data whose array
    is `V`'s (`hA`) and whose body leaves the block in place (`hafter`). The window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not (when the pipeline
    does not fetch, the block index has not moved and the body left the block in place), for ANY proof data whose array
    is `V`'s (`hA`) and whose body leaves the block in place (`hafter`). The window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not (when the pipeline
    does not fetch, the block index has not moved and the body left the block in place), for ANY proof data whose array
    is `V`'s (`hA`) and whose body leaves the block in place (`hafter`). The window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not (when the pipeline
    does not fetch, the block index has not moved and the body left the block in place), for ANY proof data whose array
    is `V`'s (`hA`) and whose body leaves the block in place (`hafter`). The window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not (when the pipeline
    does not fetch, the block index has not moved and the body left the block in place), for ANY proof data whose array
    is `V`'s (`hA`) and whose body leaves the block in place (`hafter`). The window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not (when the pipeline
    does not fetch, the block index has not moved and the body left the block in place), for ANY proof data whose array
    is `V`'s (`hA`) and whose body leaves the block in place (`hafter`). The window is uncut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer read or written whole -/

abbrev r6_0 : Rect S5120x128 := Rect.unit (s := S5120x128) ![0, 0] S5120x128.size inb_S5120x128_S5120x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0

/-! ## What the body leaves in each output window's buffer -/

/-- Window 6's staging buffer after the body, from the input windows' blocks: its one store as a piece. The stored
    value is the kernel's first stored payload, of the blocks of windows 0, 1, 2 and 3. -/
def out6_6 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r6_0, k6_pay2 (View.ld x0 r6_0) (View.ld x1 r6_0) (View.ld x2 r6_1) (View.ld x3 r6_2)⟩]

/-- The one store is of the whole buffer, so it covers it. -/
theorem cover6_6 (p0 : Vec F S5120x128 .f32) (y : S5120x128.Idx) :
    ∃ pc ∈ ([⟨r6_0, p0⟩] : List (View.Piece (Elt F) S5120x128 .f32)), y ∈ pc.1.set :=
  View.cover_of_tiled [⟨r6_0, p0⟩] S5120x128.size (by rfl) y

/-- Window 7's staging buffer after the body, from the input windows' blocks: its one store as a piece. The stored
    value is the kernel's second stored payload, of the blocks of windows 1, 4 and 5. -/
def out6_7 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r6_0, k6_pay3 (View.ld x1 r6_0) (View.ld x4 r6_1) (View.ld x5 r6_2)⟩]

/-- The one store is of the whole buffer, so it covers it. -/
theorem cover6_7 (p0 : Vec F S5120x128 .f32) (y : S5120x128.Idx) :
    ∃ pc ∈ ([⟨r6_0, p0⟩] : List (View.Piece (Elt F) S5120x128 .f32)), y ∈ pc.1.set :=
  View.cover_of_tiled [⟨r6_0, p0⟩] S5120x128.size (by rfl) y

/-! ## The body's triple -/

set_option maxHeartbeats 4000000 in
/-- The kernel body on whole staging memrefs, the inputs' at read contents `xW` and the outputs' at anything, runs to
    the continuation holding the inputs' as they were and each output's at `out6_W` of the inputs'. The printed
    function is its skeleton of loads and stores over the payloads, which is run symbolically. -/
theorem sound_kernel6 (c : Dev nD) (E : Set ℕ) (i : grid6.Coords) (arg1 : Memref sig .tc .vmem S5120x128 .f32) (harg1 : arg1.IsWhole) (arg2 : Memref sig .tc .vmem S5120x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5120x128 .f32) (harg7 : arg7.IsWhole) (arg8 : Memref sig .tc .vmem S5120x128 .f32) (harg8 : arg8.IsWhole)
    (x0 : Vec F S5120x128 .f32) (x1 : Vec F S5120x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5) ∗ owns (c : Thread nD τ) arg8 fullShare (out6_7 x0 x1 x2 x3 x4 x5)) -∗ K ⟨⟩))
      ⊢ wp frame (wpE (defs₀ (F := F)) Variants.none c none) E (cc6__edge_kernel i arg1 harg1 arg2 harg2 arg3 harg3 arg4 harg4 arg5 harg5 arg6 harg6 arg7 harg7 arg8 harg8) K := by
  simp only [cc6__edge_kernel_eq_skeleton]; unfold cc6__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_6 _)
  iexists _; isplitr
  swap; · iexact H7
  ipureintro
  exact View.read_writes_eq_canon _ _ _ (cover6_7 _)

/-! ## The pipeline's proof data -/

/-- The proof data of pipeline 6 on core `c`: the arrays as the region finds them (`V`); after the body at point
    `t` each input's buffer at its block and each output's at `out6_W` of the input blocks; the invariant is the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
    | ⟨7, _⟩ => out6_7 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t` (the obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Frm

end
-- ==== Proof.KNode7Run.lean ====
import proofs.«156566_j1202590843053_1_alg».proof.Proof.Gen.Kernel.Launch
import proofs.«156566_j1202590843053_1_alg».proof.Proof.Gen.Kernel.Skeleton
import proofs.«156566_j1202590843053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The node kernel of region 7: its branch condition and its whole-body runs -/

/-- The condition of the body's one conditional (reset the accumulators), from the grid coordinate. -/
abbrev cond7_0 (i : grid7.Coords) : Prop := (Scalar.cmpi .ne (Scalar.extui (Scalar.cmpi .eq (BitVec.ofNat 32 (i 0).val) 0#32)) 0#32) = 1#1
/-- It holds at the first grid point only. -/
theorem hcond7_0 : ∀ t : Fin cfg7.N, cond7_0 (grid7.coords t) ↔ t.val = 0 :=
  (by decide +kernel : ∀ t : Fin grid7.N, cond7_0 (grid7.coords t) ↔ t.val = 0)

set_option maxHeartbeats 4000000 in
/-- The node kernel's body at the first grid point (the accumulators are reset first): on whole
    staging memrefs, the inputs' at their contents and the outputs' at anything, the two accumulators at anything, the body
    runs to the continuation holding the inputs as they were and each output and accumulator with its stores written,
    the stores as lists of pieces (last first) the run itself finds. -/
noncomputable def kernelRun7_A (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__node_kernel_eq_skeleton]; unfold cc7__node_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

set_option maxHeartbeats 4000000 in
/-- The node kernel's body at a later grid point (the accumulators continue from what the point before left): on whole
    staging memrefs, the inputs' at their contents and the outputs' at anything, the two accumulators at the carried contents, the body
    runs to the continuation holding the inputs as they were and each output and accumulator with its stores written,
    the stores as lists of pieces (last first) the run itself finds. -/
noncomputable def kernelRun7_B (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__node_kernel_eq_skeleton]; unfold cc7__node_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Frm

end
-- ==== Proof.KNode7.lean ====
import proofs.«156566_j1202590843053_1_alg».proof.Proof.Gen.Kernel.Launch
import proofs.«156566_j1202590843053_1_alg».proof.Proof.Gen.Kernel.Skeleton
import proofs.«156566_j1202590843053_1_alg».proof.Proof.Gen.Kernel.Points
import proofs.«156566_j1202590843053_1_alg».proof.Proof.KNode7Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node kernel of region 7: what it leaves point by point, its proof data, its body obligation -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- No window is idle at any point: every output is stored into at every point. -/
theorem liveAt7 : ∀ (w : Fin cfg7.W) (t : Fin cfg7.N), cfg7.idle w (grid7.coords t) = false := by decide +kernel

/-- The two accumulators, whole scoped buffers of the kernel's own, passed beside the windows. -/
abbrev scM7_0 : Memref sig .tc .vmem S1x128 .f32 := Memref.whole cc7_scratch0
abbrev scM7_1 : Memref sig .tc .vmem S1x128 .f32 := Memref.whole cc7_scratch1

/-- The region's plain invariant with the two accumulators split out as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## What the outputs and the accumulators hold after each point -/

/-- Input window 0's block at point `t`, at its literal shape. -/
def blk7_0 (c : Dev nD) (t : Fin cfg7.N) : Vec F S5000x128 .f32 := iblk7 V c 0 t
/-- Input window 1's block at point `t`, at its literal shape. -/
def blk7_1 (c : Dev nD) (t : Fin cfg7.N) : Vec F S5000x128 .f32 := iblk7 V c 1 t
/-- Input window 2's block at point `t`, at its literal shape. -/
def blk7_2 (c : Dev nD) (t : Fin cfg7.N) : Vec F S128x128 .f32 := iblk7 V c 2 t
/-- Input window 3's block at point `t`, at its literal shape. -/
def blk7_3 (c : Dev nD) (t : Fin cfg7.N) : Vec F S1x128 .f32 := iblk7 V c 3 t

set_option maxHeartbeats 1000000 in
/-- The first point's whole-body run at the point's staging memrefs and input blocks. -/
def runA7 (c : Dev nD) (t : Fin cfg7.N) (h0 : t.val = 0) :=
  kernelRun7_A (F := F) c (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5)) (win7_6.stage (cfg7.slots t 6)) (hstage7_6 ((cfg7.slots t 6).cast nbuf7_6)) (Memref.whole cc7_scratch0) (Memref.isWhole_whole _) (Memref.whole cc7_scratch1) (Memref.isWhole_whole _) ((hcond7_0 t).mpr h0) (blk7_0 V c t) (blk7_1 V c t) (blk7_2 V c t) (blk7_3 V c t)

set_option maxHeartbeats 1000000 in
/-- A later point's whole-body run at the point's staging memrefs and input blocks, the accumulators at `s0`, `s1`. -/
def runB7 (c : Dev nD) (t : Fin cfg7.N) (h0 : t.val ≠ 0) (s0 s1 : Vec F S1x128 .f32) :=
  kernelRun7_B (F := F) c (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5)) (win7_6.stage (cfg7.slots t 6)) (hstage7_6 ((cfg7.slots t 6).cast nbuf7_6)) (Memref.whole cc7_scratch0) (Memref.isWhole_whole _) (Memref.whole cc7_scratch1) (Memref.isWhole_whole _) (fun h => h0 ((hcond7_0 t).mp h)) (blk7_0 V c t) (blk7_1 V c t) (blk7_2 V c t) (blk7_3 V c t) s0 s1

/-- What the first point leaves: the three outputs' staging buffers, then the two accumulators. -/
def caseA7 (c : Dev nD) (t : Fin cfg7.N) (h0 : t.val = 0) : Vec F S5000x128 .f32 × Vec F S1x128 .f32 × Vec F S1x128 .f32 × Vec F S1x128 .f32 × Vec F S1x128 .f32 :=
  (View.canon (runA7 V c t h0).1, View.canon (runA7 V c t h0).2.1, View.canon (runA7 V c t h0).2.2.1,
    View.canon (runA7 V c t h0).2.2.2.1, View.canon (runA7 V c t h0).2.2.2.2.1)

/-- What a later point leaves, from the accumulators' contents `s0`, `s1` it starts from. -/
def caseB7 (c : Dev nD) (t : Fin cfg7.N) (h0 : t.val ≠ 0) (s0 s1 : Vec F S1x128 .f32) : Vec F S5000x128 .f32 × Vec F S1x128 .f32 × Vec F S1x128 .f32 × Vec F S1x128 .f32 × Vec F S1x128 .f32 :=
  (View.canon (runB7 V c t h0 s0 s1).1, View.canon (runB7 V c t h0 s0 s1).2.1, View.canon (runB7 V c t h0 s0 s1).2.2.1,
    View.canon (runB7 V c t h0 s0 s1).2.2.2.1, View.canon (runB7 V c t h0 s0 s1).2.2.2.2.1)

/-- After the body at position `n`: the three outputs' staging buffers (the pre-normalisation rows of the block, the
    running column sums, the running column sums of squares) and the two accumulators. At the first point the accumulators
    are reset before the block is added; later they continue from what the point before left. -/
def outsAt7 (c : Dev nD) : (n : ℕ) → n < cfg7.N → Vec F S5000x128 .f32 × Vec F S1x128 .f32 × Vec F S1x128 .f32 × Vec F S1x128 .f32 × Vec F S1x128 .f32
  | 0, hn => caseA7 V c ⟨0, hn⟩ rfl
  | n + 1, hn => caseB7 V c ⟨n + 1, hn⟩ (Nat.succ_ne_zero n) (outsAt7 c n (Nat.lt_of_succ_lt hn)).2.2.2.1 (outsAt7 c n (Nat.lt_of_succ_lt hn)).2.2.2.2

theorem outsAt7_A (c : Dev nD) (t : Fin cfg7.N) (h0 : t.val = 0) :
    outsAt7 V c t.val t.isLt = caseA7 V c t h0 := by
  obtain ⟨n, hn⟩ := t
  cases n with
  | zero => rfl
  | succ n => exact absurd h0 (Nat.succ_ne_zero n)

theorem outsAt7_B (c : Dev nD) (t : Fin cfg7.N) (h0 : t.val ≠ 0) :
    outsAt7 V c t.val t.isLt = caseB7 V c t h0 (outsAt7 V c (t.val - 1) (Nat.lt_of_le_of_lt (Nat.sub_le _ _) t.isLt)).2.2.2.1
      (outsAt7 V c (t.val - 1) (Nat.lt_of_le_of_lt (Nat.sub_le _ _) t.isLt)).2.2.2.2 := by
  obtain ⟨n, hn⟩ := t
  cases n with
  | zero => exact absurd rfl h0
  | succ n => rfl

theorem cover7_A_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) (y : S5000x128.Idx) :
    ∃ pc ∈ (kernelRun7_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).1 S5000x128.size (by sl_kernel_rfl) y

theorem cover7_A_5 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) (y : S1x128.Idx) :
    ∃ pc ∈ (kernelRun7_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.1 S1x128.size (by sl_kernel_rfl) y

theorem cover7_A_6 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) (y : S1x128.Idx) :
    ∃ pc ∈ (kernelRun7_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.1 S1x128.size (by sl_kernel_rfl) y

theorem cover7_A_s0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) (y : S1x128.Idx) :
    ∃ pc ∈ (kernelRun7_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.2.1 S1x128.size (by sl_kernel_rfl) y

theorem cover7_A_s1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) (y : S1x128.Idx) :
    ∃ pc ∈ (kernelRun7_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.2.2.1 S1x128.size (by sl_kernel_rfl) y

theorem cover7_B_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).1 S5000x128.size (by sl_kernel_rfl) y

theorem cover7_B_5 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.1 S1x128.size (by sl_kernel_rfl) y

theorem cover7_B_6 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.1 S1x128.size (by sl_kernel_rfl) y

theorem cover7_B_s0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.2.1 S1x128.size (by sl_kernel_rfl) y

theorem cover7_B_s1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.2.2.1 S1x128.size (by sl_kernel_rfl) y

/-- Each window's current staging memref at point `t`, as the pipeline passes it to the body, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S128x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x128 .f32 := win7_6.stage (cfg7.slots t 6)
abbrev hs7_6 (t : Fin cfg7.N) : (ms7_6 t).IsWhole := hstage7_6 ((cfg7.slots t 6).cast nbuf7_6)

/-- The region invariant before position `n`: before the first point the plain one (every scoped buffer at anything);
    afterwards the two accumulators at what the point before left in them, the other scoped buffers at anything, the
    generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare (outsAt7 V c n hn).2.2.2.1 ∗ owns (c : Thread nD τ) scM7_1 fullShare (outsAt7 V c n hn).2.2.2.2)
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (outsAt7 V c n hn).2.2.2.1 ∗ owns (c : Thread nD τ) scM7_1 fullShare (outsAt7 V c n hn).2.2.2.2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (outsAt7 V c (n - 1) (by omega)).2.2.2.1 ∗ owns (c : Thread nD τ) scM7_1 fullShare (outsAt7 V c (n - 1) (by omega)).2.2.2.2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- The proof data of this region on core `c`: the arrays as the region finds them (`V`); after the body at point `t` each
    input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
theorem liveAt7_5 : ∀ t : Fin cfg7.N, cfg7.idle 5 (grid7.coords t) = false := by decide +kernel
theorem liveAt7_6 : ∀ t : Fin cfg7.N, cfg7.idle 6 (grid7.coords t) = false := by decide +kernel

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at any point: the inputs' memrefs hold their blocks; at the first point the accumulators come out of the plain
    invariant at anything and are reset; later they come at what the point before left; either way the run applies and the
    invariant takes the accumulators back at this point's contents. The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [show (dat7 V c).leavesExact 5 t = owns (c : Thread nD τ) (ms7_5 t) fullShare ((dat7 V c).after 5 t) from by
    unfold Dat.leavesExact; rw [liveAt7_5 t], after7_5]
  rw [show (dat7 V c).leavesExact 6 t = owns (c : Thread nD τ) (ms7_6 t) fullShare ((dat7 V c).after 6 t) from by
    unfold Dat.leavesExact; rw [liveAt7_6 t], after7_6]
  by_cases h0 : t.val = 0
  · rw [outsAt7_A V c t h0]; unfold caseA7 runA7; dsimp only
    rw [PhiS7_castSucc V c t, PhiS7_zero V c _ _ h0, PhiA7_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_A (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (blk7_0 V c t) (blk7_1 V c t) (blk7_2 V c t) (blk7_3 V c t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover7_A_s0 c _ _ _ _ _ _ _ _ _ _ _ _ _ _ _ _ _ _ _ _ _ _ _ _)
          · unfold owns; iexists _; isplitr
            swap; · iexact HS1
            ipureintro; exact View.read_writes_eq_canon _ _ _ (cover7_A_s1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover7_A_4 c _ _ _ _ _ _ _ _ _ _ _ _ _ _ _ _ _ _ _ _ _ _ _ _)
    isplitl [H5]
    · unfold owns; iexists _; isplitr
      swap; · iexact H5
      ipureintro; exact View.read_writes_eq_canon _ _ _ (cover7_A_5 c _ _ _ _ _ _ _ _ _ _ _ _ _ _ _ _ _ _ _ _ _ _ _ _)
    unfold owns; iexists _; isplitr
    swap; · iexact H6
    ipureintro; exact View.read_writes_eq_canon _ _ _ (cover7_A_6 c _ _ _ _ _ _ _ _ _ _ _ _ _ _ _ _ _ _ _ _ _ _ _ _)
  · rw [outsAt7_B V c t h0]; unfold caseB7 runB7; dsimp only
    rw [PhiS7_castSucc V c t, PhiS7_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_B (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (blk7_0 V c t) (blk7_1 V c t) (blk7_2 V c t) (blk7_3 V c t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover7_B_s0 c _ _ _ _ _ _ _ _ _ _ _ _ _ _ _ _ _ _ _ _ _ _ _ _ _ _)
          · unfold owns; iexists _; isplitr
            swap; · iexact HS1
            ipureintro; exact View.read_writes_eq_canon _ _ _ (cover7_B_s1 c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover7_B_4 c _ _ _ _ _ _ _ _ _ _ _ _ _ _ _ _ _ _ _ _ _ _ _ _ _ _)
    isplitl [H5]
    · unfold owns; iexists _; isplitr
      swap; · iexact H5
      ipureintro; exact View.read_writes_eq_canon _ _ _ (cover7_B_5 c _ _ _ _ _ _ _ _ _ _ _ _ _ _ _ _ _ _ _ _ _ _ _ _ _ _)
    unfold owns; iexists _; isplitr
    swap; · iexact H6
    ipureintro; exact View.read_writes_eq_canon _ _ _ (cover7_B_6 c _ _ _ _ _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- Before the first point the invariant is the plain one. -/
theorem Phi0_7 (c : Dev nD) : (dat7 V c).Φ 0 = Pipeline.ΦA spec7 c := rfl

/-- After any point but the first the invariant gives the plain one back: the accumulators' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout7 (c : Dev nD) : (dat7 V c).Φ (Fin.last cfg7.N) ⊢ Pipeline.ΦA spec7 c :=
  Phi_out7 V c _ (by rw [Fin.val_last]; have : cfg7.N = 10 := N_7; omega)

end Cert.Kernel.Frm

end
-- ==== Proof.KRun.lean ====
/- THE RUN of @main and its frame: @main is eight kernel regions between eight stretches of host operations
   (host stretch 0, region 0, host stretch 1, region 1, …, host stretch 7, region 7; nothing after region 7).
   The buffer contents at the seventeen segment boundaries are a fold from the launch memory (`W0` … `W16`): a host
   stretch leaves its operations' results, a region leaves each of its arrays at what its write-backs fold to and every
   other buffer as entered. Every pipeline's proof data is taken at its region's entry contents (`pdats`); a host
   stretch is a segment over the unscoped references, a region is a segment whose arrays are split out of the
   unscoped buffers at entry and put back at exit; the thread state between two segments is "every unscoped buffer at
   the boundary's contents, the generator register at some state, nothing owed". The launch over the sixteen segments
   gives `run`: every weakly fair execution terminates and the final memory holds every unscoped buffer at `W16`.
   No host operation and no region's output window writes an argument array, so `W16` at an argument walks back to the
   launch memory (`W16_main_argJ`), which gives `frame`. -/
import proofs.«156566_j1202590843053_1_alg».proof.Proof.KEdge0
import proofs.«156566_j1202590843053_1_alg».proof.Proof.KNode1
import proofs.«156566_j1202590843053_1_alg».proof.Proof.KBn2
import proofs.«156566_j1202590843053_1_alg».proof.Proof.KEdge3
import proofs.«156566_j1202590843053_1_alg».proof.Proof.KNode4
import proofs.«156566_j1202590843053_1_alg».proof.Proof.KBn5
import proofs.«156566_j1202590843053_1_alg».proof.Proof.KEdge6
import proofs.«156566_j1202590843053_1_alg».proof.Proof.KNode7
import proofs.«156566_j1202590843053_1_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A reference no operation of host stretch 0 writes holds after it what it held before. -/
theorem W1_host (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no OUTPUT window's array of region 0 leaves the region as it entered: either it is no array of
    the region at all, or it is an input window's array, which the pipeline only reads. -/
theorem W2_keep (c : Dev nD) (b : Ref sig .tc)
    (hb : ∀ w : Fin cfg0.W, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hh : (cfg0.win w).isOut
      · rfl
      · exact absurd rfl (hb w hh)
    exact (W2_arr m ρ c w).trans (((dat0 (V1 m ρ) c).arrAt_in w hin _).trans (A_eq0 (V1 m ρ) c w))
  · exact W2_of_ne m ρ c b fun w e => h ⟨w, e⟩

/-- After host stretch 1 (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- A reference no operation of host stretch 1 writes holds after it what it held before. -/
theorem W3_host (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer that is no OUTPUT window's array of region 1 leaves the region as it entered: either it is no array of
    the region at all, or it is an input window's array, which the pipeline only reads. -/
theorem W4_keep (c : Dev nD) (b : Ref sig .tc)
    (hb : ∀ w : Fin cfg1.W, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hh : (cfg1.win w).isOut
      · rfl
      · exact absurd rfl (hb w hh)
    exact (W4_arr m ρ c w).trans (((dat1 (V3 m ρ) c).arrAt_in w hin _).trans (A_eq1 (V3 m ρ) c w))
  · exact W4_of_ne m ρ c b fun w e => h ⟨w, e⟩

/-- After host stretch 2 (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- A reference no operation of host stretch 2 writes holds after it what it held before. -/
theorem W5_host (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer that is no OUTPUT window's array of region 2 leaves the region as it entered: either it is no array of
    the region at all, or it is an input window's array, which the pipeline only reads. -/
theorem W6_keep (c : Dev nD) (b : Ref sig .tc)
    (hb : ∀ w : Fin cfg2.W, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hh : (cfg2.win w).isOut
      · rfl
      · exact absurd rfl (hb w hh)
    exact (W6_arr m ρ c w).trans (((dat2 (V5 m ρ) c).arrAt_in w hin _).trans (A_eq2 (V5 m ρ) c w))
  · exact W6_of_ne m ρ c b fun w e => h ⟨w, e⟩

/-- After host stretch 3 (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- A reference no operation of host stretch 3 writes holds after it what it held before. -/
theorem W7_host (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer that is no OUTPUT window's array of region 3 leaves the region as it entered: either it is no array of
    the region at all, or it is an input window's array, which the pipeline only reads. -/
theorem W8_keep (c : Dev nD) (b : Ref sig .tc)
    (hb : ∀ w : Fin cfg3.W, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hh : (cfg3.win w).isOut
      · rfl
      · exact absurd rfl (hb w hh)
    exact (W8_arr m ρ c w).trans (((dat3 (V7 m ρ) c).arrAt_in w hin _).trans (A_eq3 (V7 m ρ) c w))
  · exact W8_of_ne m ρ c b fun w e => h ⟨w, e⟩

/-- After host stretch 4 (region 4's entry). -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- A reference no operation of host stretch 4 writes holds after it what it held before. -/
theorem W9_host (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: its arrays at what the pipeline leaves (the inputs as entered, each output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer that is no OUTPUT window's array of region 4 leaves the region as it entered: either it is no array of
    the region at all, or it is an input window's array, which the pipeline only reads. -/
theorem W10_keep (c : Dev nD) (b : Ref sig .tc)
    (hb : ∀ w : Fin cfg4.W, (cfg4.win w).isOut = true → Pipeline.arrRef spec4 w ≠ b) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      cases hh : (cfg4.win w).isOut
      · rfl
      · exact absurd rfl (hb w hh)
    exact (W10_arr m ρ c w).trans (((dat4 (V9 m ρ) c).arrAt_in w hin _).trans (A_eq4 (V9 m ρ) c w))
  · exact W10_of_ne m ρ c b fun w e => h ⟨w, e⟩

/-- After host stretch 5 (region 5's entry). -/
abbrev W11 : Dev nD → Valuation τ sig (Elt F) := fun c => StableHlo.after hostOps5 (W10 m ρ c)
/-- The same read at the TensorCore's references (what region 5's proof data take). -/
abbrev V11 : (c : Dev nD) → (b : Ref sig .tc) → Buf (Elt F) ((c : Thread nD τ).loc b) := fun c b => W11 m ρ c b
/-- A reference no operation of host stretch 5 writes holds after it what it held before. -/
theorem W11_host (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: its arrays at what the pipeline leaves (the inputs as entered, each output's write-backs
    folded), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves (`hF5`) and every other buffer what it
    held at entry (`hrest5`). -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer that is no OUTPUT window's array of region 5 leaves the region as it entered: either it is no array of
    the region at all, or it is an input window's array, which the pipeline only reads. -/
theorem W12_keep (c : Dev nD) (b : Ref sig .tc)
    (hb : ∀ w : Fin cfg5.W, (cfg5.win w).isOut = true → Pipeline.arrRef spec5 w ≠ b) :
    W12 m ρ c (Proc.devRef .tc b) = W11 m ρ c (Proc.devRef .tc b) := by
  by_cases h : ∃ w, Pipeline.arrRef spec5 w = b
  · obtain ⟨w, rfl⟩ := h
    have hin : (cfg5.win w).isOut = false := by
      cases hh : (cfg5.win w).isOut
      · rfl
      · exact absurd rfl (hb w hh)
    exact (W12_arr m ρ c w).trans (((dat5 (V11 m ρ) c).arrAt_in w hin _).trans (A_eq5 (V11 m ρ) c w))
  · exact W12_of_ne m ρ c b fun w e => h ⟨w, e⟩

/-- After host stretch 6 (region 6's entry). -/
abbrev W13 : Dev nD → Valuation τ sig (Elt F) := fun c => StableHlo.after hostOps6 (W12 m ρ c)
/-- The same read at the TensorCore's references (what region 6's proof data take). -/
abbrev V13 : (c : Dev nD) → (b : Ref sig .tc) → Buf (Elt F) ((c : Thread nD τ).loc b) := fun c b => W13 m ρ c b
/-- A reference no operation of host stretch 6 writes holds after it what it held before. -/
theorem W13_host (c : Dev nD) (r : Ref sig .tc) (h : r ∉ hostOps6_W) :
    W13 m ρ c (Proc.devRef .tc r) = W12 m ρ c (Proc.devRef .tc r) :=
  StableHlo.after_of_writes_sub hostOps6 _ hostOps6_writes h
/-- At region 6's exit: its arrays at what the pipeline leaves (the inputs as entered, each output's write-backs
    folded), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves (`hF6`) and every other buffer what it
    held at entry (`hrest6`). -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A buffer that is no OUTPUT window's array of region 6 leaves the region as it entered: either it is no array of
    the region at all, or it is an input window's array, which the pipeline only reads. -/
theorem W14_keep (c : Dev nD) (b : Ref sig .tc)
    (hb : ∀ w : Fin cfg6.W, (cfg6.win w).isOut = true → Pipeline.arrRef spec6 w ≠ b) :
    W14 m ρ c (Proc.devRef .tc b) = W13 m ρ c (Proc.devRef .tc b) := by
  by_cases h : ∃ w, Pipeline.arrRef spec6 w = b
  · obtain ⟨w, rfl⟩ := h
    have hin : (cfg6.win w).isOut = false := by
      cases hh : (cfg6.win w).isOut
      · rfl
      · exact absurd rfl (hb w hh)
    exact (W14_arr m ρ c w).trans (((dat6 (V13 m ρ) c).arrAt_in w hin _).trans (A_eq6 (V13 m ρ) c w))
  · exact W14_of_ne m ρ c b fun w e => h ⟨w, e⟩

/-- After host stretch 7 (region 7's entry). -/
abbrev W15 : Dev nD → Valuation τ sig (Elt F) := fun c => StableHlo.after hostOps7 (W14 m ρ c)
/-- The same read at the TensorCore's references (what region 7's proof data take). -/
abbrev V15 : (c : Dev nD) → (b : Ref sig .tc) → Buf (Elt F) ((c : Thread nD τ).loc b) := fun c b => W15 m ρ c b
/-- A reference no operation of host stretch 7 writes holds after it what it held before. -/
theorem W15_host (c : Dev nD) (r : Ref sig .tc) (h : r ∉ hostOps7_W) :
    W15 m ρ c (Proc.devRef .tc r) = W14 m ρ c (Proc.devRef .tc r) :=
  StableHlo.after_of_writes_sub hostOps7 _ hostOps7_writes h
/-- At region 7's exit: its arrays at what the pipeline leaves (the inputs as entered, each output's write-backs
    folded), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves (`hF7`) and every other buffer what it
    held at entry (`hrest7`). -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A buffer that is no OUTPUT window's array of region 7 leaves the region as it entered: either it is no array of
    the region at all, or it is an input window's array, which the pipeline only reads. -/
theorem W16_keep (c : Dev nD) (b : Ref sig .tc)
    (hb : ∀ w : Fin cfg7.W, (cfg7.win w).isOut = true → Pipeline.arrRef spec7 w ≠ b) :
    W16 m ρ c (Proc.devRef .tc b) = W15 m ρ c (Proc.devRef .tc b) := by
  by_cases h : ∃ w, Pipeline.arrRef spec7 w = b
  · obtain ⟨w, rfl⟩ := h
    have hin : (cfg7.win w).isOut = false := by
      cases hh : (cfg7.win w).isOut
      · rfl
      · exact absurd rfl (hb w hh)
    exact (W16_arr m ρ c w).trans (((dat7 (V15 m ρ) c).arrAt_in w hin _).trans (A_eq7 (V15 m ρ) c w))
  · exact W16_of_ne m ρ c b fun w e => h ⟨w, e⟩

/-! ### The arguments end as launched: no host operation writes one, and a region reads it through an input window
    or does not touch it, so the fold at an argument's buffer walks back to the launch memory -/
theorem W16_main_arg0 (c : Dev nD) : W16 m ρ c (Proc.devRef .tc main_arg0) = m ((c : Thread nD τ).loc main_arg0) :=
  (W16_keep m ρ c main_arg0 (by decide)).trans <| (W15_host m ρ c main_arg0 (by decide)).trans <|
    (W14_keep m ρ c main_arg0 (by decide)).trans <| (W13_host m ρ c main_arg0 (by decide)).trans <|
    (W12_keep m ρ c main_arg0 (by decide)).trans <| (W11_host m ρ c main_arg0 (by decide)).trans <|
    (W10_keep m ρ c main_arg0 (by decide)).trans <| (W9_host m ρ c main_arg0 (by decide)).trans <|
    (W8_keep m ρ c main_arg0 (by decide)).trans <| (W7_host m ρ c main_arg0 (by decide)).trans <|
    (W6_keep m ρ c main_arg0 (by decide)).trans <| (W5_host m ρ c main_arg0 (by decide)).trans <|
    (W4_keep m ρ c main_arg0 (by decide)).trans <| (W3_host m ρ c main_arg0 (by decide)).trans <|
    (W2_keep m ρ c main_arg0 (by decide)).trans <| (W1_host m ρ c main_arg0 (by decide)).trans <|
    rfl
theorem W16_main_arg1 (c : Dev nD) : W16 m ρ c (Proc.devRef .tc main_arg1) = m ((c : Thread nD τ).loc main_arg1) :=
  (W16_keep m ρ c main_arg1 (by decide)).trans <| (W15_host m ρ c main_arg1 (by decide)).trans <|
    (W14_keep m ρ c main_arg1 (by decide)).trans <| (W13_host m ρ c main_arg1 (by decide)).trans <|
    (W12_keep m ρ c main_arg1 (by decide)).trans <| (W11_host m ρ c main_arg1 (by decide)).trans <|
    (W10_keep m ρ c main_arg1 (by decide)).trans <| (W9_host m ρ c main_arg1 (by decide)).trans <|
    (W8_keep m ρ c main_arg1 (by decide)).trans <| (W7_host m ρ c main_arg1 (by decide)).trans <|
    (W6_keep m ρ c main_arg1 (by decide)).trans <| (W5_host m ρ c main_arg1 (by decide)).trans <|
    (W4_keep m ρ c main_arg1 (by decide)).trans <| (W3_host m ρ c main_arg1 (by decide)).trans <|
    (W2_keep m ρ c main_arg1 (by decide)).trans <| (W1_host m ρ c main_arg1 (by decide)).trans <|
    rfl
theorem W16_main_arg2 (c : Dev nD) : W16 m ρ c (Proc.devRef .tc main_arg2) = m ((c : Thread nD τ).loc main_arg2) :=
  (W16_keep m ρ c main_arg2 (by decide)).trans <| (W15_host m ρ c main_arg2 (by decide)).trans <|
    (W14_keep m ρ c main_arg2 (by decide)).trans <| (W13_host m ρ c main_arg2 (by decide)).trans <|
    (W12_keep m ρ c main_arg2 (by decide)).trans <| (W11_host m ρ c main_arg2 (by decide)).trans <|
    (W10_keep m ρ c main_arg2 (by decide)).trans <| (W9_host m ρ c main_arg2 (by decide)).trans <|
    (W8_keep m ρ c main_arg2 (by decide)).trans <| (W7_host m ρ c main_arg2 (by decide)).trans <|
    (W6_keep m ρ c main_arg2 (by decide)).trans <| (W5_host m ρ c main_arg2 (by decide)).trans <|
    (W4_keep m ρ c main_arg2 (by decide)).trans <| (W3_host m ρ c main_arg2 (by decide)).trans <|
    (W2_keep m ρ c main_arg2 (by decide)).trans <| (W1_host m ρ c main_arg2 (by decide)).trans <|
    rfl
theorem W16_main_arg3 (c : Dev nD) : W16 m ρ c (Proc.devRef .tc main_arg3) = m ((c : Thread nD τ).loc main_arg3) :=
  (W16_keep m ρ c main_arg3 (by decide)).trans <| (W15_host m ρ c main_arg3 (by decide)).trans <|
    (W14_keep m ρ c main_arg3 (by decide)).trans <| (W13_host m ρ c main_arg3 (by decide)).trans <|
    (W12_keep m ρ c main_arg3 (by decide)).trans <| (W11_host m ρ c main_arg3 (by decide)).trans <|
    (W10_keep m ρ c main_arg3 (by decide)).trans <| (W9_host m ρ c main_arg3 (by decide)).trans <|
    (W8_keep m ρ c main_arg3 (by decide)).trans <| (W7_host m ρ c main_arg3 (by decide)).trans <|
    (W6_keep m ρ c main_arg3 (by decide)).trans <| (W5_host m ρ c main_arg3 (by decide)).trans <|
    (W4_keep m ρ c main_arg3 (by decide)).trans <| (W3_host m ρ c main_arg3 (by decide)).trans <|
    (W2_keep m ρ c main_arg3 (by decide)).trans <| (W1_host m ρ c main_arg3 (by decide)).trans <|
    rfl
theorem W16_main_arg4 (c : Dev nD) : W16 m ρ c (Proc.devRef .tc main_arg4) = m ((c : Thread nD τ).loc main_arg4) :=
  (W16_keep m ρ c main_arg4 (by decide)).trans <| (W15_host m ρ c main_arg4 (by decide)).trans <|
    (W14_keep m ρ c main_arg4 (by decide)).trans <| (W13_host m ρ c main_arg4 (by decide)).trans <|
    (W12_keep m ρ c main_arg4 (by decide)).trans <| (W11_host m ρ c main_arg4 (by decide)).trans <|
    (W10_keep m ρ c main_arg4 (by decide)).trans <| (W9_host m ρ c main_arg4 (by decide)).trans <|
    (W8_keep m ρ c main_arg4 (by decide)).trans <| (W7_host m ρ c main_arg4 (by decide)).trans <|
    (W6_keep m ρ c main_arg4 (by decide)).trans <| (W5_host m ρ c main_arg4 (by decide)).trans <|
    (W4_keep m ρ c main_arg4 (by decide)).trans <| (W3_host m ρ c main_arg4 (by decide)).trans <|
    (W2_keep m ρ c main_arg4 (by decide)).trans <| (W1_host m ρ c main_arg4 (by decide)).trans <|
    rfl
theorem W16_main_arg5 (c : Dev nD) : W16 m ρ c (Proc.devRef .tc main_arg5) = m ((c : Thread nD τ).loc main_arg5) :=
  (W16_keep m ρ c main_arg5 (by decide)).trans <| (W15_host m ρ c main_arg5 (by decide)).trans <|
    (W14_keep m ρ c main_arg5 (by decide)).trans <| (W13_host m ρ c main_arg5 (by decide)).trans <|
    (W12_keep m ρ c main_arg5 (by decide)).trans <| (W11_host m ρ c main_arg5 (by decide)).trans <|
    (W10_keep m ρ c main_arg5 (by decide)).trans <| (W9_host m ρ c main_arg5 (by decide)).trans <|
    (W8_keep m ρ c main_arg5 (by decide)).trans <| (W7_host m ρ c main_arg5 (by decide)).trans <|
    (W6_keep m ρ c main_arg5 (by decide)).trans <| (W5_host m ρ c main_arg5 (by decide)).trans <|
    (W4_keep m ρ c main_arg5 (by decide)).trans <| (W3_host m ρ c main_arg5 (by decide)).trans <|
    (W2_keep m ρ c main_arg5 (by decide)).trans <| (W1_host m ρ c main_arg5 (by decide)).trans <|
    rfl
theorem W16_main_arg6 (c : Dev nD) : W16 m ρ c (Proc.devRef .tc main_arg6) = m ((c : Thread nD τ).loc main_arg6) :=
  (W16_keep m ρ c main_arg6 (by decide)).trans <| (W15_host m ρ c main_arg6 (by decide)).trans <|
    (W14_keep m ρ c main_arg6 (by decide)).trans <| (W13_host m ρ c main_arg6 (by decide)).trans <|
    (W12_keep m ρ c main_arg6 (by decide)).trans <| (W11_host m ρ c main_arg6 (by decide)).trans <|
    (W10_keep m ρ c main_arg6 (by decide)).trans <| (W9_host m ρ c main_arg6 (by decide)).trans <|
    (W8_keep m ρ c main_arg6 (by decide)).trans <| (W7_host m ρ c main_arg6 (by decide)).trans <|
    (W6_keep m ρ c main_arg6 (by decide)).trans <| (W5_host m ρ c main_arg6 (by decide)).trans <|
    (W4_keep m ρ c main_arg6 (by decide)).trans <| (W3_host m ρ c main_arg6 (by decide)).trans <|
    (W2_keep m ρ c main_arg6 (by decide)).trans <| (W1_host m ρ c main_arg6 (by decide)).trans <|
    rfl
theorem W16_main_arg7 (c : Dev nD) : W16 m ρ c (Proc.devRef .tc main_arg7) = m ((c : Thread nD τ).loc main_arg7) :=
  (W16_keep m ρ c main_arg7 (by decide)).trans <| (W15_host m ρ c main_arg7 (by decide)).trans <|
    (W14_keep m ρ c main_arg7 (by decide)).trans <| (W13_host m ρ c main_arg7 (by decide)).trans <|
    (W12_keep m ρ c main_arg7 (by decide)).trans <| (W11_host m ρ c main_arg7 (by decide)).trans <|
    (W10_keep m ρ c main_arg7 (by decide)).trans <| (W9_host m ρ c main_arg7 (by decide)).trans <|
    (W8_keep m ρ c main_arg7 (by decide)).trans <| (W7_host m ρ c main_arg7 (by decide)).trans <|
    (W6_keep m ρ c main_arg7 (by decide)).trans <| (W5_host m ρ c main_arg7 (by decide)).trans <|
    (W4_keep m ρ c main_arg7 (by decide)).trans <| (W3_host m ρ c main_arg7 (by decide)).trans <|
    (W2_keep m ρ c main_arg7 (by decide)).trans <| (W1_host m ρ c main_arg7 (by decide)).trans <|
    rfl
theorem W16_main_arg8 (c : Dev nD) : W16 m ρ c (Proc.devRef .tc main_arg8) = m ((c : Thread nD τ).loc main_arg8) :=
  (W16_keep m ρ c main_arg8 (by decide)).trans <| (W15_host m ρ c main_arg8 (by decide)).trans <|
    (W14_keep m ρ c main_arg8 (by decide)).trans <| (W13_host m ρ c main_arg8 (by decide)).trans <|
    (W12_keep m ρ c main_arg8 (by decide)).trans <| (W11_host m ρ c main_arg8 (by decide)).trans <|
    (W10_keep m ρ c main_arg8 (by decide)).trans <| (W9_host m ρ c main_arg8 (by decide)).trans <|
    (W8_keep m ρ c main_arg8 (by decide)).trans <| (W7_host m ρ c main_arg8 (by decide)).trans <|
    (W6_keep m ρ c main_arg8 (by decide)).trans <| (W5_host m ρ c main_arg8 (by decide)).trans <|
    (W4_keep m ρ c main_arg8 (by decide)).trans <| (W3_host m ρ c main_arg8 (by decide)).trans <|
    (W2_keep m ρ c main_arg8 (by decide)).trans <| (W1_host m ρ c main_arg8 (by decide)).trans <|
    rfl
theorem W16_main_arg9 (c : Dev nD) : W16 m ρ c (Proc.devRef .tc main_arg9) = m ((c : Thread nD τ).loc main_arg9) :=
  (W16_keep m ρ c main_arg9 (by decide)).trans <| (W15_host m ρ c main_arg9 (by decide)).trans <|
    (W14_keep m ρ c main_arg9 (by decide)).trans <| (W13_host m ρ c main_arg9 (by decide)).trans <|
    (W12_keep m ρ c main_arg9 (by decide)).trans <| (W11_host m ρ c main_arg9 (by decide)).trans <|
    (W10_keep m ρ c main_arg9 (by decide)).trans <| (W9_host m ρ c main_arg9 (by decide)).trans <|
    (W8_keep m ρ c main_arg9 (by decide)).trans <| (W7_host m ρ c main_arg9 (by decide)).trans <|
    (W6_keep m ρ c main_arg9 (by decide)).trans <| (W5_host m ρ c main_arg9 (by decide)).trans <|
    (W4_keep m ρ c main_arg9 (by decide)).trans <| (W3_host m ρ c main_arg9 (by decide)).trans <|
    (W2_keep m ρ c main_arg9 (by decide)).trans <| (W1_host m ρ c main_arg9 (by decide)).trans <|
    rfl
theorem W16_main_arg10 (c : Dev nD) : W16 m ρ c (Proc.devRef .tc main_arg10) = m ((c : Thread nD τ).loc main_arg10) :=
  (W16_keep m ρ c main_arg10 (by decide)).trans <| (W15_host m ρ c main_arg10 (by decide)).trans <|
    (W14_keep m ρ c main_arg10 (by decide)).trans <| (W13_host m ρ c main_arg10 (by decide)).trans <|
    (W12_keep m ρ c main_arg10 (by decide)).trans <| (W11_host m ρ c main_arg10 (by decide)).trans <|
    (W10_keep m ρ c main_arg10 (by decide)).trans <| (W9_host m ρ c main_arg10 (by decide)).trans <|
    (W8_keep m ρ c main_arg10 (by decide)).trans <| (W7_host m ρ c main_arg10 (by decide)).trans <|
    (W6_keep m ρ c main_arg10 (by decide)).trans <| (W5_host m ρ c main_arg10 (by decide)).trans <|
    (W4_keep m ρ c main_arg10 (by decide)).trans <| (W3_host m ρ c main_arg10 (by decide)).trans <|
    (W2_keep m ρ c main_arg10 (by decide)).trans <| (W1_host m ρ c main_arg10 (by decide)).trans <|
    rfl

/-! ## The proof data family and the thread state -/

/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it ends with
    those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W16`, the
    generator register at some state. -/
abbrev Tₙ (c : Dev nD) : sProp 𝕄 := iprop(StableHlo.held (c : Thread nD τ) (Pipeline.ucRefs τ sig) (W16 m ρ c) ∗ ∃ r, prngReg c r)

/-! ## The regions as segments -/

set_option backward.isDefEq.respectTransparency.types false in
/-- REGION 0 over the thread state: entered from every unscoped buffer at `W1`, left at `W2`. Its arrays are
    split out of the unscoped buffers at entry and put back at the exit contents; the generator register goes into
    the pipeline's invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers at entry and put back at the exit contents; the generator register goes into
    the pipeline's invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi0_1 _ c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 _ c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers at entry and put back at the exit contents; the generator register goes into
    the pipeline's invariant and comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are
    split out of the unscoped buffers at entry and put back at the exit contents; the generator register goes into
    the pipeline's invariant and comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m ρ 3 c).Φ (Fin.last _) = Pipeline.ΦA spec3 c from rfl]
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays are
    split out of the unscoped buffers at entry and put back at the exit contents; the generator register goes into
    the pipeline's invariant and comes out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun w => A_eq4 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from Phi0_4 _ c]; unfold Pipeline.ΦA
    iintro ⟨Hp, -, Hr⟩
    isplitl [Hr]; · iexact Hr
    iexact Hp
  hout c := by
    rw [Pipeline.ownSems0_none]
    refine (show (pdats m ρ 4 c).Φ (Fin.last _) ⊢ Pipeline.ΦA spec4 c from hout4 _ c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its arrays are
    split out of the unscoped buffers at entry and put back at the exit contents; the generator register goes into
    the pipeline's invariant and comes out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun w => A_eq5 (V11 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    rw [show (pdats m ρ 5 c).Φ (Fin.last _) = Pipeline.ΦA spec5 c from rfl]
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W13`, left at `W14`. Its arrays are
    split out of the unscoped buffers at entry and put back at the exit contents; the generator register goes into
    the pipeline's invariant and comes out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun w => A_eq6 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none]
    rw [show (pdats m ρ 6 c).Φ (Fin.last _) = Pipeline.ΦA spec6 c from rfl]
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W15`, left at `W16`. Its arrays are
    split out of the unscoped buffers at entry and put back at the exit contents; the generator register goes into
    the pipeline's invariant and comes out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun w => A_eq7 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from Phi0_7 _ c]; unfold Pipeline.ΦA
    iintro ⟨Hp, -, Hr⟩
    isplitl [Hr]; · iexact Hr
    iexact Hp
  hout c := by
    rw [Pipeline.ownSems0_none]
    refine (show (pdats m ρ 7 c).Φ (Fin.last _) ⊢ Pipeline.ΦA spec7 c from hout7 _ c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's sixteen segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ) ]
/-- @main IS the run of the segments: @main is the chain of its items, and the segments' run is the chain of their
    programs, the same list. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds every unscoped buffer of every core at the last
    boundary's contents `W16`: the launch over the segments, the last thread state read against the final state. -/
theorem run : θ_run defs (onTc (τ := τ) (main (F := F))) ⟨m, fun _ => 0, ρ⟩
    (fun r => ∀ c : Dev nD, ∀ b ∈ Pipeline.ucRefs τ sig, r.2.mem ((c : Thread nD τ).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun _ h => h)

/-- THE FRAME: every weakly fair execution of @main terminates, nothing faulting, and every final state has the eleven
    argument arrays as launched: `run`, each argument's buffer read off the last boundary's contents (`W16_main_argJ`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c),
     (h c _ (mem_uc main_arg10 (by decide))).trans (W16_main_arg10 m ρ c)⟩) (run m ρ)

end Cert.Kernel.Frm

end
-- ==== Proof.KiEdge0.lean ====
/- The frame half of region 0 of @main, the edge kernel `cc0__edge_kernel` (pipeline 0), at a PARAMETER `V`: the
   TensorCore's buffer contents when the region is entered. Each window's block at a grid point (`iblk0`), what the
   body leaves in the two output windows' staging buffers as a function of the six input blocks (`out0_6`, `out0_7`),
   the body's triple on whole staging memrefs (`sound_kernel0`), the pipeline's proof data (`dat0`) and the body
   obligation at every point (`body_obligation0`).

   The body reads its six inputs whole, and writes each output whole with ONE store; just before each store it also
   loads the output buffer (a value nobody reads), so the precondition keeps each output memref at SOME contents, which
   is all a load needs. The two stored values are opaque functions of the loaded blocks throughout: a 5120x128 by
   128x128 product plus a broadcast row each. -/
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: `cc0__edge_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when the pipeline
    does not fetch, the block index has not moved and the body left the block in place), for ANY proof data whose array
    is `V`'s (`hA`) and whose body leaves the block in place (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (when the pipeline
    does not fetch, the block index has not moved and the body left the block in place), for ANY proof data whose array
    is `V`'s (`hA`) and whose body leaves the block in place (`hafter`). The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (when the pipeline
    does not fetch, the block index has not moved and the body left the block in place), for ANY proof data whose array
    is `V`'s (`hA`) and whose body leaves the block in place (`hafter`). The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (when the pipeline
    does not fetch, the block index has not moved and the body left the block in place), for ANY proof data whose array
    is `V`'s (`hA`) and whose body leaves the block in place (`hafter`). The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (when the pipeline
    does not fetch, the block index has not moved and the body left the block in place), for ANY proof data whose array
    is `V`'s (`hA`) and whose body leaves the block in place (`hafter`). The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (when the pipeline
    does not fetch, the block index has not moved and the body left the block in place), for ANY proof data whose array
    is `V`'s (`hA`) and whose body leaves the block in place (`hafter`). The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_0 : Rect S5120x128 := Rect.unit (s := S5120x128) ![0, 0] S5120x128.size inb_S5120x128_S5120x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in each output window's buffer -/

/-- Window 6's staging buffer after the body, from the input windows' blocks: its one store as a piece. The stored
    value is the first payload, of the blocks of windows 0, 1, 2 and 3. -/
def out0_6 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r0_0, k0_pay1 (View.ld x0 r0_0) (View.ld x1 r0_0) (View.ld x2 r0_1) (View.ld x3 r0_2)⟩]

/-- The one store is of the whole buffer, so it covers it. -/
theorem cover0_6 (p0 : Vec F S5120x128 .f32) (y : S5120x128.Idx) :
    ∃ pc ∈ ([⟨r0_0, p0⟩] : List (View.Piece (Elt F) S5120x128 .f32)), y ∈ pc.1.set :=
  View.cover_of_tiled [⟨r0_0, p0⟩] S5120x128.size (by rfl) y

/-- Window 7's staging buffer after the body, from the input windows' blocks: its one store as a piece. The stored
    value is the second payload, of the blocks of windows 1, 4 and 5. -/
def out0_7 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r0_0, k0_pay2 (View.ld x1 r0_0) (View.ld x4 r0_1) (View.ld x5 r0_2)⟩]

/-- The one store is of the whole buffer, so it covers it. -/
theorem cover0_7 (p0 : Vec F S5120x128 .f32) (y : S5120x128.Idx) :
    ∃ pc ∈ ([⟨r0_0, p0⟩] : List (View.Piece (Elt F) S5120x128 .f32)), y ∈ pc.1.set :=
  View.cover_of_tiled [⟨r0_0, p0⟩] S5120x128.size (by rfl) y

/-! ## The body's triple -/

set_option maxHeartbeats 4000000 in
/-- The kernel body on whole staging memrefs, the inputs' at read contents `xW` and the outputs' at anything, runs to
    the continuation holding the inputs' as they were and each output's at `out0_W` of the inputs'. The printed
    function is its skeleton of loads and stores over the payloads, which is run symbolically. -/
theorem sound_kernel0 (c : Dev nD) (E : Set ℕ) (i : grid0.Coords) (arg1 : Memref sig .tc .vmem S5120x128 .f32) (harg1 : arg1.IsWhole) (arg2 : Memref sig .tc .vmem S5120x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5120x128 .f32) (harg7 : arg7.IsWhole) (arg8 : Memref sig .tc .vmem S5120x128 .f32) (harg8 : arg8.IsWhole)
    (x0 : Vec F S5120x128 .f32) (x1 : Vec F S5120x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them (`V`); after the body at point
    `t` each input's buffer at its block and each output's at `out0_W` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KiNode1Run.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The node kernel of region 1: its branch condition and its whole-body runs -/

/-- The condition of the body's one conditional (reset the accumulators), from the grid coordinate. -/
abbrev cond1_0 (i : grid1.Coords) : Prop := (Scalar.cmpi .ne (Scalar.extui (Scalar.cmpi .eq (BitVec.ofNat 32 (i 0).val) 0#32)) 0#32) = 1#1
/-- It holds at the first grid point only. -/
theorem hcond1_0 : ∀ t : Fin cfg1.N, cond1_0 (grid1.coords t) ↔ t.val = 0 :=
  (by decide +kernel : ∀ t : Fin grid1.N, cond1_0 (grid1.coords t) ↔ t.val = 0)

set_option maxHeartbeats 4000000 in
/-- The node kernel's body at the first grid point (the accumulators are reset first): on whole
    staging memrefs, the inputs' at their contents and the outputs' at anything, the two accumulators at anything, the body
    runs to the continuation holding the inputs as they were and each output and accumulator with its stores written,
    the stores as lists of pieces (last first) the run itself finds. -/
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__node_kernel_eq_skeleton]; unfold cc1__node_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

set_option maxHeartbeats 4000000 in
/-- The node kernel's body at a later grid point (the accumulators continue from what the point before left): on whole
    staging memrefs, the inputs' at their contents and the outputs' at anything, the two accumulators at the carried contents, the body
    runs to the continuation holding the inputs as they were and each output and accumulator with its stores written,
    the stores as lists of pieces (last first) the run itself finds. -/
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__node_kernel_eq_skeleton]; unfold cc1__node_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Frm

end
-- ==== Proof.KiNode1.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import proofs.«156566_j1202590843053_1_alg».proof.Proof.KiNode1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node kernel of region 1: what it leaves point by point, its proof data, its body obligation -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- No window is idle at any point: every output is stored into at every point. -/
theorem liveAt1 : ∀ (w : Fin cfg1.W) (t : Fin cfg1.N), cfg1.idle w (grid1.coords t) = false := by decide +kernel

/-- The two accumulators, whole scoped buffers of the kernel's own, passed beside the windows. -/
abbrev scM1_0 : Memref sig .tc .vmem S1x128 .f32 := Memref.whole cc1_scratch0
abbrev scM1_1 : Memref sig .tc .vmem S1x128 .f32 := Memref.whole cc1_scratch1

/-- The region's plain invariant with the two accumulators split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## What the outputs and the accumulators hold after each point -/

/-- Input window 0's block at point `t`, at its literal shape. -/
def blk1_0 (c : Dev nD) (t : Fin cfg1.N) : Vec F S5000x128 .f32 := iblk1 V c 0 t
/-- Input window 1's block at point `t`, at its literal shape. -/
def blk1_1 (c : Dev nD) (t : Fin cfg1.N) : Vec F S5000x128 .f32 := iblk1 V c 1 t
/-- Input window 2's block at point `t`, at its literal shape. -/
def blk1_2 (c : Dev nD) (t : Fin cfg1.N) : Vec F S128x128 .f32 := iblk1 V c 2 t
/-- Input window 3's block at point `t`, at its literal shape. -/
def blk1_3 (c : Dev nD) (t : Fin cfg1.N) : Vec F S1x128 .f32 := iblk1 V c 3 t

set_option maxHeartbeats 1000000 in
/-- The first point's whole-body run at the point's staging memrefs and input blocks. -/
def runA1 (c : Dev nD) (t : Fin cfg1.N) (h0 : t.val = 0) :=
  kernelRun1_A (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _) (Memref.whole cc1_scratch1) (Memref.isWhole_whole _) ((hcond1_0 t).mpr h0) (blk1_0 V c t) (blk1_1 V c t) (blk1_2 V c t) (blk1_3 V c t)

set_option maxHeartbeats 1000000 in
/-- A later point's whole-body run at the point's staging memrefs and input blocks, the accumulators at `s0`, `s1`. -/
def runB1 (c : Dev nD) (t : Fin cfg1.N) (h0 : t.val ≠ 0) (s0 s1 : Vec F S1x128 .f32) :=
  kernelRun1_B (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _) (Memref.whole cc1_scratch1) (Memref.isWhole_whole _) (fun h => h0 ((hcond1_0 t).mp h)) (blk1_0 V c t) (blk1_1 V c t) (blk1_2 V c t) (blk1_3 V c t) s0 s1

/-- What the first point leaves: the three outputs' staging buffers, then the two accumulators. -/
def caseA1 (c : Dev nD) (t : Fin cfg1.N) (h0 : t.val = 0) : Vec F S5000x128 .f32 × Vec F S1x128 .f32 × Vec F S1x128 .f32 × Vec F S1x128 .f32 × Vec F S1x128 .f32 :=
  (View.canon (runA1 V c t h0).1, View.canon (runA1 V c t h0).2.1, View.canon (runA1 V c t h0).2.2.1,
    View.canon (runA1 V c t h0).2.2.2.1, View.canon (runA1 V c t h0).2.2.2.2.1)

/-- What a later point leaves, from the accumulators' contents `s0`, `s1` it starts from. -/
def caseB1 (c : Dev nD) (t : Fin cfg1.N) (h0 : t.val ≠ 0) (s0 s1 : Vec F S1x128 .f32) : Vec F S5000x128 .f32 × Vec F S1x128 .f32 × Vec F S1x128 .f32 × Vec F S1x128 .f32 × Vec F S1x128 .f32 :=
  (View.canon (runB1 V c t h0 s0 s1).1, View.canon (runB1 V c t h0 s0 s1).2.1, View.canon (runB1 V c t h0 s0 s1).2.2.1,
    View.canon (runB1 V c t h0 s0 s1).2.2.2.1, View.canon (runB1 V c t h0 s0 s1).2.2.2.2.1)

/-- After the body at position `n`: the three outputs' staging buffers (the pre-normalisation rows of the block, the
    running column sums, the running column sums of squares) and the two accumulators. At the first point the accumulators
    are reset before the block is added; later they continue from what the point before left. -/
def outsAt1 (c : Dev nD) : (n : ℕ) → n < cfg1.N → Vec F S5000x128 .f32 × Vec F S1x128 .f32 × Vec F S1x128 .f32 × Vec F S1x128 .f32 × Vec F S1x128 .f32
  | 0, hn => caseA1 V c ⟨0, hn⟩ rfl
  | n + 1, hn => caseB1 V c ⟨n + 1, hn⟩ (Nat.succ_ne_zero n) (outsAt1 c n (Nat.lt_of_succ_lt hn)).2.2.2.1 (outsAt1 c n (Nat.lt_of_succ_lt hn)).2.2.2.2

theorem outsAt1_A (c : Dev nD) (t : Fin cfg1.N) (h0 : t.val = 0) :
    outsAt1 V c t.val t.isLt = caseA1 V c t h0 := by
  obtain ⟨n, hn⟩ := t
  cases n with
  | zero => rfl
  | succ n => exact absurd h0 (Nat.succ_ne_zero n)

theorem outsAt1_B (c : Dev nD) (t : Fin cfg1.N) (h0 : t.val ≠ 0) :
    outsAt1 V c t.val t.isLt = caseB1 V c t h0 (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd rfl h0
  | succ n => rfl

theorem cover1_A_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) (y : S5000x128.Idx) :
    ∃ pc ∈ (kernelRun1_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).1 S5000x128.size (by sl_kernel_rfl) y

theorem cover1_A_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.1 S1x128.size (by sl_kernel_rfl) y

theorem cover1_A_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.1 S1x128.size (by sl_kernel_rfl) y

theorem cover1_A_s0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.2.1 S1x128.size (by sl_kernel_rfl) y

theorem cover1_A_s1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) (y : S1x128.Idx) :
    ∃ pc ∈ (kernelRun1_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3).2.2.2.2.1 S1x128.size (by sl_kernel_rfl) y

theorem cover1_B_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).1 S5000x128.size (by sl_kernel_rfl) y

theorem cover1_B_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.1 S1x128.size (by sl_kernel_rfl) y

theorem cover1_B_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.1 S1x128.size (by sl_kernel_rfl) y

theorem cover1_B_s0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.2.1 S1x128.size (by sl_kernel_rfl) y

theorem cover1_B_s1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 xs0 xs1).2.2.2.2.1 S1x128.size (by sl_kernel_rfl) y

/-- Each window's current staging memref at point `t`, as the pipeline passes it to the body, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)

/-- The region invariant before position `n`: before the first point the plain one (every scoped buffer at anything);
    afterwards the two accumulators at what the point before left in them, the other scoped buffers at anything, the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.2.1 ∗ owns (c : Thread nD τ) scM1_1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.2.1 ∗ owns (c : Thread nD τ) scM1_1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.2.1 ∗ owns (c : Thread nD τ) scM1_1 fullShare (outsAt1 V c (n - 1) (by omega)).2.2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of this region on core `c`: the arrays as the region finds them (`V`); after the body at point `t` each
    input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; at the first point the accumulators come out of the plain
    invariant at anything and are reset; later they come at what the point before left; either way the run applies and the
    invariant takes the accumulators back at this point's contents. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val = 0
  · rw [outsAt1_A V c t h0]; unfold caseA1 runA1; dsimp only
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (blk1_0 V c t) (blk1_1 V c t) (blk1_2 V c t) (blk1_3 V c t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover1_A_s0 c _ _ _ _ _ _ _ _ _ _ _ _ _ _ _ _ _ _ _ _ _ _ _ _)
          · unfold owns; iexists _; isplitr
            swap; · iexact HS1
            ipureintro; exact View.read_writes_eq_canon _ _ _ (cover1_A_s1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover1_A_4 c _ _ _ _ _ _ _ _ _ _ _ _ _ _ _ _ _ _ _ _ _ _ _ _)
    isplitl [H5]
    · unfold owns; iexists _; isplitr
      swap; · iexact H5
      ipureintro; exact View.read_writes_eq_canon _ _ _ (cover1_A_5 c _ _ _ _ _ _ _ _ _ _ _ _ _ _ _ _ _ _ _ _ _ _ _ _)
    unfold owns; iexists _; isplitr
    swap; · iexact H6
    ipureintro; exact View.read_writes_eq_canon _ _ _ (cover1_A_6 c _ _ _ _ _ _ _ _ _ _ _ _ _ _ _ _ _ _ _ _ _ _ _ _)
  · rw [outsAt1_B V c t h0]; unfold caseB1 runB1; dsimp only
    rw [PhiS1_castSucc V c t, PhiS1_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (blk1_0 V c t) (blk1_1 V c t) (blk1_2 V c t) (blk1_3 V c t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover1_B_s0 c _ _ _ _ _ _ _ _ _ _ _ _ _ _ _ _ _ _ _ _ _ _ _ _ _ _)
          · unfold owns; iexists _; isplitr
            swap; · iexact HS1
            ipureintro; exact View.read_writes_eq_canon _ _ _ (cover1_B_s1 c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover1_B_4 c _ _ _ _ _ _ _ _ _ _ _ _ _ _ _ _ _ _ _ _ _ _ _ _ _ _)
    isplitl [H5]
    · unfold owns; iexists _; isplitr
      swap; · iexact H5
      ipureintro; exact View.read_writes_eq_canon _ _ _ (cover1_B_5 c _ _ _ _ _ _ _ _ _ _ _ _ _ _ _ _ _ _ _ _ _ _ _ _ _ _)
    unfold owns; iexists _; isplitr
    swap; · iexact H6
    ipureintro; exact View.read_writes_eq_canon _ _ _ (cover1_B_6 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the plain one. -/
theorem Phi0_1 (c : Dev nD) : (dat1 V c).Φ 0 = Pipeline.ΦA spec1 c := rfl

/-- After any point but the first the invariant gives the plain one back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Frm

end
-- ==== Proof.KiBn2.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of the batch-normalisation-and-relu kernel of region 2: at any contents `V` of the
    TensorCore's buffers when the region is entered, the block each window presents at a grid point, what the
    body leaves in the output window's staging buffer as a function of the input blocks, the body's triple, the
    pipeline's proof data and the body obligation at every grid point. -/

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the pipeline fetched it
    there: where it was not fetched the block index has not moved, and the body leaves the block in place. The
    window is uncut and has no idle point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether or not the pipeline fetched it
    there: where it was not fetched the block index has not moved, and the body leaves the block in place. The
    window is uncut and has no idle point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether or not the pipeline fetched it
    there: where it was not fetched the block index has not moved, and the body leaves the block in place. The
    window is uncut and has no idle point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether or not the pipeline fetched it
    there: where it was not fetched the block index has not moved, and the body leaves the block in place. The
    window is uncut and has no idle point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, whether or not the pipeline fetched it
    there: where it was not fetched the block index has not moved, and the body leaves the block in place. The
    window is uncut and has no idle point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 5's staging buffer after the body, from the input windows' blocks: its one store, of the normalised,
    scaled, shifted and clamped rows, over the whole buffer. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_0, k2_pay1 (View.ld x0 r2_0) (View.ld x1 r2_1) (View.ld x2 r2_1) (View.ld x3 r2_1) (View.ld x4 r2_1)⟩]

/-- The store's rectangle is the whole buffer, so it covers it. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at contents `xW` and the output's at anything (the body
    reads the output buffer once before it overwrites it, and the value read is unused, so any contents will do),
    runs to the continuation holding the inputs' as they were and the output's at `out2_5` of the inputs'. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and the output's at `out2_5` of the input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm
-- ==== Proof.KiEdge3.lean ====
/- The frame half of region 3 of @main, the edge kernel `cc3__edge_kernel` (pipeline 3), at a PARAMETER `V`: the
   TensorCore's buffer contents when the region is entered. Each window's block at a grid point (`iblk3`), what the
   body leaves in the two output windows' staging buffers as a function of the six input blocks (`out3_6`, `out3_7`),
   the body's triple on whole staging memrefs (`sound_kernel3`), the pipeline's proof data (`dat3`) and the body
   obligation at every point (`body_obligation3`).

   The body reads its six inputs whole, and writes each output whole with ONE store; just before each store it also
   loads the output buffer (a value nobody reads), so the precondition keeps each output memref at SOME contents, which
   is all a load needs. The two stored values are opaque functions of the loaded blocks throughout: a 5120x128 by
   128x128 product plus a broadcast row each. -/
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 3 of @main: `cc3__edge_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (when the pipeline
    does not fetch, the block index has not moved and the body left the block in place), for ANY proof data whose array
    is `V`'s (`hA`) and whose body leaves the block in place (`hafter`). The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (when the pipeline
    does not fetch, the block index has not moved and the body left the block in place), for ANY proof data whose array
    is `V`'s (`hA`) and whose body leaves the block in place (`hafter`). The window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (when the pipeline
    does not fetch, the block index has not moved and the body left the block in place), for ANY proof data whose array
    is `V`'s (`hA`) and whose body leaves the block in place (`hafter`). The window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (when the pipeline
    does not fetch, the block index has not moved and the body left the block in place), for ANY proof data whose array
    is `V`'s (`hA`) and whose body leaves the block in place (`hafter`). The window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (when the pipeline
    does not fetch, the block index has not moved and the body left the block in place), for ANY proof data whose array
    is `V`'s (`hA`) and whose body leaves the block in place (`hafter`). The window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (when the pipeline
    does not fetch, the block index has not moved and the body left the block in place), for ANY proof data whose array
    is `V`'s (`hA`) and whose body leaves the block in place (`hafter`). The window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer read or written whole -/

abbrev r3_0 : Rect S5120x128 := Rect.unit (s := S5120x128) ![0, 0] S5120x128.size inb_S5120x128_S5120x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in each output window's buffer -/

/-- Window 6's staging buffer after the body, from the input windows' blocks: its one store as a piece. The stored
    value is the kernel's first stored payload, of the blocks of windows 0, 1, 2 and 3. -/
def out3_6 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r3_0, k3_pay2 (View.ld x0 r3_0) (View.ld x1 r3_0) (View.ld x2 r3_1) (View.ld x3 r3_2)⟩]

/-- The one store is of the whole buffer, so it covers it. -/
theorem cover3_6 (p0 : Vec F S5120x128 .f32) (y : S5120x128.Idx) :
    ∃ pc ∈ ([⟨r3_0, p0⟩] : List (View.Piece (Elt F) S5120x128 .f32)), y ∈ pc.1.set :=
  View.cover_of_tiled [⟨r3_0, p0⟩] S5120x128.size (by rfl) y

/-- Window 7's staging buffer after the body, from the input windows' blocks: its one store as a piece. The stored
    value is the kernel's second stored payload, of the blocks of windows 1, 4 and 5. -/
def out3_7 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r3_0, k3_pay3 (View.ld x1 r3_0) (View.ld x4 r3_1) (View.ld x5 r3_2)⟩]

/-- The one store is of the whole buffer, so it covers it. -/
theorem cover3_7 (p0 : Vec F S5120x128 .f32) (y : S5120x128.Idx) :
    ∃ pc ∈ ([⟨r3_0, p0⟩] : List (View.Piece (Elt F) S5120x128 .f32)), y ∈ pc.1.set :=
  View.cover_of_tiled [⟨r3_0, p0⟩] S5120x128.size (by rfl) y

/-! ## The body's triple -/

set_option maxHeartbeats 4000000 in
/-- The kernel body on whole staging memrefs, the inputs' at read contents `xW` and the outputs' at anything, runs to
    the continuation holding the inputs' as they were and each output's at `out3_W` of the inputs'. The printed
    function is its skeleton of loads and stores over the payloads, which is run symbolically. -/
theorem sound_kernel3 (c : Dev nD) (E : Set ℕ) (i : grid3.Coords) (arg1 : Memref sig .tc .vmem S5120x128 .f32) (harg1 : arg1.IsWhole) (arg2 : Memref sig .tc .vmem S5120x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5120x128 .f32) (harg7 : arg7.IsWhole) (arg8 : Memref sig .tc .vmem S5120x128 .f32) (harg8 : arg8.IsWhole)
    (x0 : Vec F S5120x128 .f32) (x1 : Vec F S5120x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5) ∗ owns (c : Thread nD τ) arg8 fullShare (out3_7 x0 x1 x2 x3 x4 x5)) -∗ K ⟨⟩))
      ⊢ wp frame (wpE (defs₀ (F := F)) Variants.none c none) E (cc3__edge_kernel i arg1 harg1 arg2 harg2 arg3 harg3 arg4 harg4 arg5 harg5 arg6 harg6 arg7 harg7 arg8 harg8) K := by
  simp only [cc3__edge_kernel_eq_skeleton]; unfold cc3__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-! ## The pipeline's proof data -/

/-- The proof data of pipeline 3 on core `c`: the arrays as the region finds them (`V`); after the body at point
    `t` each input's buffer at its block and each output's at `out3_W` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KiNode4Run.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The node kernel of region 4: its branch condition and its whole-body runs -/

/-- The condition of the body's one conditional (reset the accumulators), from the grid coordinate. -/
abbrev cond4_0 (i : grid4.Coords) : Prop := (Scalar.cmpi .ne (Scalar.extui (Scalar.cmpi .eq (BitVec.ofNat 32 (i 0).val) 0#32)) 0#32) = 1#1
/-- It holds at the first grid point only. -/
theorem hcond4_0 : ∀ t : Fin cfg4.N, cond4_0 (grid4.coords t) ↔ t.val = 0 :=
  (by decide +kernel : ∀ t : Fin grid4.N, cond4_0 (grid4.coords t) ↔ t.val = 0)

set_option maxHeartbeats 4000000 in
/-- The node kernel's body at the first grid point (the accumulators are reset first): on whole
    staging memrefs, the inputs' at their contents and the outputs' at anything, the two accumulators at anything, the body
    runs to the continuation holding the inputs as they were and each output and accumulator with its stores written,
    the stores as lists of pieces (last first) the run itself finds. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__node_kernel_eq_skeleton]; unfold cc4__node_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

set_option maxHeartbeats 4000000 in
/-- The node kernel's body at a later grid point (the accumulators continue from what the point before left): on whole
    staging memrefs, the inputs' at their contents and the outputs' at anything, the two accumulators at the carried contents, the body
    runs to the continuation holding the inputs as they were and each output and accumulator with its stores written,
    the stores as lists of pieces (last first) the run itself finds. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__node_kernel_eq_skeleton]; unfold cc4__node_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Frm

end
-- ==== Proof.KiNode4.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import proofs.«156566_j1202590843053_1_alg».proof.Proof.KiNode4Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node kernel of region 4: what it leaves point by point, its proof data, its body obligation -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- No window is idle at any point: every output is stored into at every point. -/
theorem liveAt4 : ∀ (w : Fin cfg4.W) (t : Fin cfg4.N), cfg4.idle w (grid4.coords t) = false := by decide +kernel

/-- The two accumulators, whole scoped buffers of the kernel's own, passed beside the windows. -/
abbrev scM4_0 : Memref sig .tc .vmem S1x128 .f32 := Memref.whole cc4_scratch0
abbrev scM4_1 : Memref sig .tc .vmem S1x128 .f32 := Memref.whole cc4_scratch1

/-- The region's plain invariant with the two accumulators split out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## What the outputs and the accumulators hold after each point -/

/-- Input window 0's block at point `t`, at its literal shape. -/
def blk4_0 (c : Dev nD) (t : Fin cfg4.N) : Vec F S5000x128 .f32 := iblk4 V c 0 t
/-- Input window 1's block at point `t`, at its literal shape. -/
def blk4_1 (c : Dev nD) (t : Fin cfg4.N) : Vec F S5000x128 .f32 := iblk4 V c 1 t
/-- Input window 2's block at point `t`, at its literal shape. -/
def blk4_2 (c : Dev nD) (t : Fin cfg4.N) : Vec F S128x128 .f32 := iblk4 V c 2 t
/-- Input window 3's block at point `t`, at its literal shape. -/
def blk4_3 (c : Dev nD) (t : Fin cfg4.N) : Vec F S1x128 .f32 := iblk4 V c 3 t

set_option maxHeartbeats 1000000 in
/-- The first point's whole-body run at the point's staging memrefs and input blocks. -/
def runA4 (c : Dev nD) (t : Fin cfg4.N) (h0 : t.val = 0) :=
  kernelRun4_A (F := F) c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (Memref.whole cc4_scratch0) (Memref.isWhole_whole _) (Memref.whole cc4_scratch1) (Memref.isWhole_whole _) ((hcond4_0 t).mpr h0) (blk4_0 V c t) (blk4_1 V c t) (blk4_2 V c t) (blk4_3 V c t)

set_option maxHeartbeats 1000000 in
/-- A later point's whole-body run at the point's staging memrefs and input blocks, the accumulators at `s0`, `s1`. -/
def runB4 (c : Dev nD) (t : Fin cfg4.N) (h0 : t.val ≠ 0) (s0 s1 : Vec F S1x128 .f32) :=
  kernelRun4_B (F := F) c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (Memref.whole cc4_scratch0) (Memref.isWhole_whole _) (Memref.whole cc4_scratch1) (Memref.isWhole_whole _) (fun h => h0 ((hcond4_0 t).mp h)) (blk4_0 V c t) (blk4_1 V c t) (blk4_2 V c t) (blk4_3 V c t) s0 s1

/-- What the first point leaves: the three outputs' staging buffers, then the two accumulators. -/
def caseA4 (c : Dev nD) (t : Fin cfg4.N) (h0 : t.val = 0) : Vec F S5000x128 .f32 × Vec F S1x128 .f32 × Vec F S1x128 .f32 × Vec F S1x128 .f32 × Vec F S1x128 .f32 :=
  (View.canon (runA4 V c t h0).1, View.canon (runA4 V c t h0).2.1, View.canon (runA4 V c t h0).2.2.1,
    View.canon (runA4 V c t h0).2.2.2.1, View.canon (runA4 V c t h0).2.2.2.2.1)

/-- What a later point leaves, from the accumulators' contents `s0`, `s1` it starts from. -/
def caseB4 (c : Dev nD) (t : Fin cfg4.N) (h0 : t.val ≠ 0) (s0 s1 : Vec F S1x128 .f32) : Vec F S5000x128 .f32 × Vec F S1x128 .f32 × Vec F S1x128 .f32 × Vec F S1x128 .f32 × Vec F S1x128 .f32 :=
  (View.canon (runB4 V c t h0 s0 s1).1, View.canon (runB4 V c t h0 s0 s1).2.1, View.canon (runB4 V c t h0 s0 s1).2.2.1,
    View.canon (runB4 V c t h0 s0 s1).2.2.2.1, View.canon (runB4 V c t h0 s0 s1).2.2.2.2.1)

/-- After the body at position `n`: the three outputs' staging buffers (the pre-normalisation rows of the block, the
    running column sums, the running column sums of squares) and the two accumulators. At the first point the accumulators
    are reset before the block is added; later they continue from what the point before left. -/
def outsAt4 (c : Dev nD) : (n : ℕ) → n < cfg4.N → Vec F S5000x128 .f32 × Vec F S1x128 .f32 × Vec F S1x128 .f32 × Vec F S1x128 .f32 × Vec F S1x128 .f32
  | 0, hn => caseA4 V c ⟨0, hn⟩ rfl
  | n + 1, hn => caseB4 V c ⟨n + 1, hn⟩ (Nat.succ_ne_zero n) (outsAt4 c n (Nat.lt_of_succ_lt hn)).2.2.2.1 (outsAt4 c n (Nat.lt_of_succ_lt hn)).2.2.2.2

theorem outsAt4_A (c : Dev nD) (t : Fin cfg4.N) (h0 : t.val = 0) :
    outsAt4 V c t.val t.isLt = caseA4 V c t h0 := by
  obtain ⟨n, hn⟩ := t
  cases n with
  | zero => rfl
  | succ n => exact absurd h0 (Nat.succ_ne_zero n)

theorem outsAt4_B (c : Dev nD) (t : Fin cfg4.N) (h0 : t.val ≠ 0) :
    outsAt4 V c t.val t.isLt = caseB4 V c t h0 (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd rfl h0
  | succ n => rfl

theorem cover4_A_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (y : S5000x128.Idx) :
    ∃ pc ∈ (kernelRun4_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).1 S5000x128.size (by sl_kernel_rfl) y

theorem cover4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.1 S1x128.size (by sl_kernel_rfl) y

theorem cover4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.1 S1x128.size (by sl_kernel_rfl) y

theorem cover4_A_s0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.2.1 S1x128.size (by sl_kernel_rfl) y

theorem cover4_A_s1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3).2.2.2.2.1 S1x128.size (by sl_kernel_rfl) y

theorem cover4_B_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).1 S5000x128.size (by sl_kernel_rfl) y

theorem cover4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.1 S1x128.size (by sl_kernel_rfl) y

theorem cover4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.1 S1x128.size (by sl_kernel_rfl) y

theorem cover4_B_s0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.2.1 S1x128.size (by sl_kernel_rfl) y

theorem cover4_B_s1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 xs0 xs1).2.2.2.2.1 S1x128.size (by sl_kernel_rfl) y

/-- Each window's current staging memref at point `t`, as the pipeline passes it to the body, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)

/-- The region invariant before position `n`: before the first point the plain one (every scoped buffer at anything);
    afterwards the two accumulators at what the point before left in them, the other scoped buffers at anything, the
    generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of this region on core `c`: the arrays as the region finds them (`V`); after the body at point `t` each
    input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; at the first point the accumulators come out of the plain
    invariant at anything and are reset; later they come at what the point before left; either way the run applies and the
    invariant takes the accumulators back at this point's contents. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  by_cases h0 : t.val = 0
  · rw [outsAt4_A V c t h0]; unfold caseA4 runA4; dsimp only
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (blk4_0 V c t) (blk4_1 V c t) (blk4_2 V c t) (blk4_3 V c t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover4_A_s0 c _ _ _ _ _ _ _ _ _ _ _ _ _ _ _ _ _ _ _ _ _ _ _ _)
          · unfold owns; iexists _; isplitr
            swap; · iexact HS1
            ipureintro; exact View.read_writes_eq_canon _ _ _ (cover4_A_s1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover4_A_4 c _ _ _ _ _ _ _ _ _ _ _ _ _ _ _ _ _ _ _ _ _ _ _ _)
    isplitl [H5]
    · unfold owns; iexists _; isplitr
      swap; · iexact H5
      ipureintro; exact View.read_writes_eq_canon _ _ _ (cover4_A_5 c _ _ _ _ _ _ _ _ _ _ _ _ _ _ _ _ _ _ _ _ _ _ _ _)
    unfold owns; iexists _; isplitr
    swap; · iexact H6
    ipureintro; exact View.read_writes_eq_canon _ _ _ (cover4_A_6 c _ _ _ _ _ _ _ _ _ _ _ _ _ _ _ _ _ _ _ _ _ _ _ _)
  · rw [outsAt4_B V c t h0]; unfold caseB4 runB4; dsimp only
    rw [PhiS4_castSucc V c t, PhiS4_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (blk4_0 V c t) (blk4_1 V c t) (blk4_2 V c t) (blk4_3 V c t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover4_B_s0 c _ _ _ _ _ _ _ _ _ _ _ _ _ _ _ _ _ _ _ _ _ _ _ _ _ _)
          · unfold owns; iexists _; isplitr
            swap; · iexact HS1
            ipureintro; exact View.read_writes_eq_canon _ _ _ (cover4_B_s1 c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover4_B_4 c _ _ _ _ _ _ _ _ _ _ _ _ _ _ _ _ _ _ _ _ _ _ _ _ _ _)
    isplitl [H5]
    · unfold owns; iexists _; isplitr
      swap; · iexact H5
      ipureintro; exact View.read_writes_eq_canon _ _ _ (cover4_B_5 c _ _ _ _ _ _ _ _ _ _ _ _ _ _ _ _ _ _ _ _ _ _ _ _ _ _)
    unfold owns; iexists _; isplitr
    swap; · iexact H6
    ipureintro; exact View.read_writes_eq_canon _ _ _ (cover4_B_6 c _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- Before the first point the invariant is the plain one. -/
theorem Phi0_4 (c : Dev nD) : (dat4 V c).Φ 0 = Pipeline.ΦA spec4 c := rfl

/-- After any point but the first the invariant gives the plain one back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Cert.KernelIdeal.Frm

end
-- ==== Proof.KiBn5.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of the batch-normalisation-and-relu kernel of region 5: at any contents `V` of the
    TensorCore's buffers when the region is entered, the block each window presents at a grid point, what the
    body leaves in the output window's staging buffer as a function of the input blocks, the body's triple, the
    pipeline's proof data and the body obligation at every grid point. -/

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched it
    there: where it was not fetched the block index has not moved, and the body leaves the block in place. The
    window is uncut and has no idle point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether or not the pipeline fetched it
    there: where it was not fetched the block index has not moved, and the body leaves the block in place. The
    window is uncut and has no idle point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether or not the pipeline fetched it
    there: where it was not fetched the block index has not moved, and the body leaves the block in place. The
    window is uncut and has no idle point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether or not the pipeline fetched it
    there: where it was not fetched the block index has not moved, and the body leaves the block in place. The
    window is uncut and has no idle point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, whether or not the pipeline fetched it
    there: where it was not fetched the block index has not moved, and the body leaves the block in place. The
    window is uncut and has no idle point. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 5's staging buffer after the body, from the input windows' blocks: its one store, of the normalised,
    scaled, shifted and clamped rows, over the whole buffer. -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨r5_0, k5_pay1 (View.ld x0 r5_0) (View.ld x1 r5_1) (View.ld x2 r5_1) (View.ld x3 r5_1) (View.ld x4 r5_1)⟩]

/-- The store's rectangle is the whole buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at contents `xW` and the output's at anything (the body
    reads the output buffer once before it overwrites it, and the value read is unused, so any contents will do),
    runs to the continuation holding the inputs' as they were and the output's at `out5_5` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer at its block and the output's at `out5_5` of the input blocks; the invariant
    is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's owed count pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frm
-- ==== Proof.KiEdge6.lean ====
/- The frame half of region 6 of @main, the edge kernel `cc6__edge_kernel` (pipeline 6), at a PARAMETER `V`: the
   TensorCore's buffer contents when the region is entered. Each window's block at a grid point (`iblk6`), what the
   body leaves in the two output windows' staging buffers as a function of the six input blocks (`out6_6`, `out6_7`),
   the body's triple on whole staging memrefs (`sound_kernel6`), the pipeline's proof data (`dat6`) and the body
   obligation at every point (`body_obligation6`).

   The body reads its six inputs whole, and writes each output whole with ONE store; just before each store it also
   loads the output buffer (a value nobody reads), so the precondition keeps each output memref at SOME contents, which
   is all a load needs. The two stored values are opaque functions of the loaded blocks throughout: a 5120x128 by
   128x128 product plus a broadcast row each. -/
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 6 of @main: `cc6__edge_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (when the pipeline
    does not fetch, the block index has not moved and the body left the block in place), for ANY proof data whose array
    is `V`'s (`hA`) and whose body leaves the block in place (`hafter`). The window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not (when the pipeline
    does not fetch, the block index has not moved and the body left the block in place), for ANY proof data whose array
    is `V`'s (`hA`) and whose body leaves the block in place (`hafter`). The window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not (when the pipeline
    does not fetch, the block index has not moved and the body left the block in place), for ANY proof data whose array
    is `V`'s (`hA`) and whose body leaves the block in place (`hafter`). The window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not (when the pipeline
    does not fetch, the block index has not moved and the body left the block in place), for ANY proof data whose array
    is `V`'s (`hA`) and whose body leaves the block in place (`hafter`). The window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not (when the pipeline
    does not fetch, the block index has not moved and the body left the block in place), for ANY proof data whose array
    is `V`'s (`hA`) and whose body leaves the block in place (`hafter`). The window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not (when the pipeline
    does not fetch, the block index has not moved and the body left the block in place), for ANY proof data whose array
    is `V`'s (`hA`) and whose body leaves the block in place (`hafter`). The window is uncut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer read or written whole -/

abbrev r6_0 : Rect S5120x128 := Rect.unit (s := S5120x128) ![0, 0] S5120x128.size inb_S5120x128_S5120x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0

/-! ## What the body leaves in each output window's buffer -/

/-- Window 6's staging buffer after the body, from the input windows' blocks: its one store as a piece. The stored
    value is the kernel's first stored payload, of the blocks of windows 0, 1, 2 and 3. -/
def out6_6 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r6_0, k6_pay2 (View.ld x0 r6_0) (View.ld x1 r6_0) (View.ld x2 r6_1) (View.ld x3 r6_2)⟩]

/-- The one store is of the whole buffer, so it covers it. -/
theorem cover6_6 (p0 : Vec F S5120x128 .f32) (y : S5120x128.Idx) :
    ∃ pc ∈ ([⟨r6_0, p0⟩] : List (View.Piece (Elt F) S5120x128 .f32)), y ∈ pc.1.set :=
  View.cover_of_tiled [⟨r6_0, p0⟩] S5120x128.size (by rfl) y

/-- Window 7's staging buffer after the body, from the input windows' blocks: its one store as a piece. The stored
    value is the kernel's second stored payload, of the blocks of windows 1, 4 and 5. -/
def out6_7 (x0 : Vec F S5120x128 .f32) (x1 : Vec F S5120x128 .f32) (x2 : Vec F S128x128 .f32) (x3 : Vec F S1x128 .f32) (x4 : Vec F S128x128 .f32) (x5 : Vec F S1x128 .f32) : Vec F S5120x128 .f32 :=
  View.canon [⟨r6_0, k6_pay3 (View.ld x1 r6_0) (View.ld x4 r6_1) (View.ld x5 r6_2)⟩]

/-- The one store is of the whole buffer, so it covers it. -/
theorem cover6_7 (p0 : Vec F S5120x128 .f32) (y : S5120x128.Idx) :
    ∃ pc ∈ ([⟨r6_0, p0⟩] : List (View.Piece (Elt F) S5120x128 .f32)), y ∈ pc.1.set :=
  View.cover_of_tiled [⟨r6_0, p0⟩] S5120x128.size (by rfl) y

/-! ## The body's triple -/

set_option maxHeartbeats 4000000 in
/-- The kernel body on whole staging memrefs, the inputs' at read contents `xW` and the outputs' at anything, runs to
    the continuation holding the inputs' as they were and each output's at `out6_W` of the inputs'. The printed
    function is its skeleton of loads and stores over the payloads, which is run symbolically. -/
theorem sound_kernel6 (c : Dev nD) (E : Set ℕ) (i : grid6.Coords) (arg1 : Memref sig .tc .vmem S5120x128 .f32) (harg1 : arg1.IsWhole) (arg2 : Memref sig .tc .vmem S5120x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5120x128 .f32) (harg7 : arg7.IsWhole) (arg8 : Memref sig .tc .vmem S5120x128 .f32) (harg8 : arg8.IsWhole)
    (x0 : Vec F S5120x128 .f32) (x1 : Vec F S5120x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5) ∗ owns (c : Thread nD τ) arg8 fullShare (out6_7 x0 x1 x2 x3 x4 x5)) -∗ K ⟨⟩))
      ⊢ wp frame (wpE (defs₀ (F := F)) Variants.none c none) E (cc6__edge_kernel i arg1 harg1 arg2 harg2 arg3 harg3 arg4 harg4 arg5 harg5 arg6 harg6 arg7 harg7 arg8 harg8) K := by
  simp only [cc6__edge_kernel_eq_skeleton]; unfold cc6__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_6 _)
  iexists _; isplitr
  swap; · iexact H7
  ipureintro
  exact View.read_writes_eq_canon _ _ _ (cover6_7 _)

/-! ## The pipeline's proof data -/

/-- The proof data of pipeline 6 on core `c`: the arrays as the region finds them (`V`); after the body at point
    `t` each input's buffer at its block and each output's at `out6_W` of the input blocks; the invariant is the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
    | ⟨7, _⟩ => out6_7 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t` (the obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frm

end
-- ==== Proof.KiNode7Run.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The node kernel of region 7: its branch condition and its whole-body runs -/

/-- The condition of the body's one conditional (reset the accumulators), from the grid coordinate. -/
abbrev cond7_0 (i : grid7.Coords) : Prop := (Scalar.cmpi .ne (Scalar.extui (Scalar.cmpi .eq (BitVec.ofNat 32 (i 0).val) 0#32)) 0#32) = 1#1
/-- It holds at the first grid point only. -/
theorem hcond7_0 : ∀ t : Fin cfg7.N, cond7_0 (grid7.coords t) ↔ t.val = 0 :=
  (by decide +kernel : ∀ t : Fin grid7.N, cond7_0 (grid7.coords t) ↔ t.val = 0)

set_option maxHeartbeats 4000000 in
/-- The node kernel's body at the first grid point (the accumulators are reset first): on whole
    staging memrefs, the inputs' at their contents and the outputs' at anything, the two accumulators at anything, the body
    runs to the continuation holding the inputs as they were and each output and accumulator with its stores written,
    the stores as lists of pieces (last first) the run itself finds. -/
noncomputable def kernelRun7_A (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__node_kernel_eq_skeleton]; unfold cc7__node_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

set_option maxHeartbeats 4000000 in
/-- The node kernel's body at a later grid point (the accumulators continue from what the point before left): on whole
    staging memrefs, the inputs' at their contents and the outputs' at anything, the two accumulators at the carried contents, the body
    runs to the continuation holding the inputs as they were and each output and accumulator with its stores written,
    the stores as lists of pieces (last first) the run itself finds. -/
noncomputable def kernelRun7_B (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__node_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc7__node_kernel_eq_skeleton]; unfold cc7__node_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Frm

end
-- ==== Proof.KiNode7.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import proofs.«156566_j1202590843053_1_alg».proof.Proof.KiNode7Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node kernel of region 7: what it leaves point by point, its proof data, its body obligation -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- No window is idle at any point: every output is stored into at every point. -/
theorem liveAt7 : ∀ (w : Fin cfg7.W) (t : Fin cfg7.N), cfg7.idle w (grid7.coords t) = false := by decide +kernel

/-- The two accumulators, whole scoped buffers of the kernel's own, passed beside the windows. -/
abbrev scM7_0 : Memref sig .tc .vmem S1x128 .f32 := Memref.whole cc7_scratch0
abbrev scM7_1 : Memref sig .tc .vmem S1x128 .f32 := Memref.whole cc7_scratch1

/-- The region's plain invariant with the two accumulators split out as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## What the outputs and the accumulators hold after each point -/

/-- Input window 0's block at point `t`, at its literal shape. -/
def blk7_0 (c : Dev nD) (t : Fin cfg7.N) : Vec F S5000x128 .f32 := iblk7 V c 0 t
/-- Input window 1's block at point `t`, at its literal shape. -/
def blk7_1 (c : Dev nD) (t : Fin cfg7.N) : Vec F S5000x128 .f32 := iblk7 V c 1 t
/-- Input window 2's block at point `t`, at its literal shape. -/
def blk7_2 (c : Dev nD) (t : Fin cfg7.N) : Vec F S128x128 .f32 := iblk7 V c 2 t
/-- Input window 3's block at point `t`, at its literal shape. -/
def blk7_3 (c : Dev nD) (t : Fin cfg7.N) : Vec F S1x128 .f32 := iblk7 V c 3 t

set_option maxHeartbeats 1000000 in
/-- The first point's whole-body run at the point's staging memrefs and input blocks. -/
def runA7 (c : Dev nD) (t : Fin cfg7.N) (h0 : t.val = 0) :=
  kernelRun7_A (F := F) c (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5)) (win7_6.stage (cfg7.slots t 6)) (hstage7_6 ((cfg7.slots t 6).cast nbuf7_6)) (Memref.whole cc7_scratch0) (Memref.isWhole_whole _) (Memref.whole cc7_scratch1) (Memref.isWhole_whole _) ((hcond7_0 t).mpr h0) (blk7_0 V c t) (blk7_1 V c t) (blk7_2 V c t) (blk7_3 V c t)

set_option maxHeartbeats 1000000 in
/-- A later point's whole-body run at the point's staging memrefs and input blocks, the accumulators at `s0`, `s1`. -/
def runB7 (c : Dev nD) (t : Fin cfg7.N) (h0 : t.val ≠ 0) (s0 s1 : Vec F S1x128 .f32) :=
  kernelRun7_B (F := F) c (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5)) (win7_6.stage (cfg7.slots t 6)) (hstage7_6 ((cfg7.slots t 6).cast nbuf7_6)) (Memref.whole cc7_scratch0) (Memref.isWhole_whole _) (Memref.whole cc7_scratch1) (Memref.isWhole_whole _) (fun h => h0 ((hcond7_0 t).mp h)) (blk7_0 V c t) (blk7_1 V c t) (blk7_2 V c t) (blk7_3 V c t) s0 s1

/-- What the first point leaves: the three outputs' staging buffers, then the two accumulators. -/
def caseA7 (c : Dev nD) (t : Fin cfg7.N) (h0 : t.val = 0) : Vec F S5000x128 .f32 × Vec F S1x128 .f32 × Vec F S1x128 .f32 × Vec F S1x128 .f32 × Vec F S1x128 .f32 :=
  (View.canon (runA7 V c t h0).1, View.canon (runA7 V c t h0).2.1, View.canon (runA7 V c t h0).2.2.1,
    View.canon (runA7 V c t h0).2.2.2.1, View.canon (runA7 V c t h0).2.2.2.2.1)

/-- What a later point leaves, from the accumulators' contents `s0`, `s1` it starts from. -/
def caseB7 (c : Dev nD) (t : Fin cfg7.N) (h0 : t.val ≠ 0) (s0 s1 : Vec F S1x128 .f32) : Vec F S5000x128 .f32 × Vec F S1x128 .f32 × Vec F S1x128 .f32 × Vec F S1x128 .f32 × Vec F S1x128 .f32 :=
  (View.canon (runB7 V c t h0 s0 s1).1, View.canon (runB7 V c t h0 s0 s1).2.1, View.canon (runB7 V c t h0 s0 s1).2.2.1,
    View.canon (runB7 V c t h0 s0 s1).2.2.2.1, View.canon (runB7 V c t h0 s0 s1).2.2.2.2.1)

/-- After the body at position `n`: the three outputs' staging buffers (the pre-normalisation rows of the block, the
    running column sums, the running column sums of squares) and the two accumulators. At the first point the accumulators
    are reset before the block is added; later they continue from what the point before left. -/
def outsAt7 (c : Dev nD) : (n : ℕ) → n < cfg7.N → Vec F S5000x128 .f32 × Vec F S1x128 .f32 × Vec F S1x128 .f32 × Vec F S1x128 .f32 × Vec F S1x128 .f32
  | 0, hn => caseA7 V c ⟨0, hn⟩ rfl
  | n + 1, hn => caseB7 V c ⟨n + 1, hn⟩ (Nat.succ_ne_zero n) (outsAt7 c n (Nat.lt_of_succ_lt hn)).2.2.2.1 (outsAt7 c n (Nat.lt_of_succ_lt hn)).2.2.2.2

theorem outsAt7_A (c : Dev nD) (t : Fin cfg7.N) (h0 : t.val = 0) :
    outsAt7 V c t.val t.isLt = caseA7 V c t h0 := by
  obtain ⟨n, hn⟩ := t
  cases n with
  | zero => rfl
  | succ n => exact absurd h0 (Nat.succ_ne_zero n)

theorem outsAt7_B (c : Dev nD) (t : Fin cfg7.N) (h0 : t.val ≠ 0) :
    outsAt7 V c t.val t.isLt = caseB7 V c t h0 (outsAt7 V c (t.val - 1) (Nat.lt_of_le_of_lt (Nat.sub_le _ _) t.isLt)).2.2.2.1
      (outsAt7 V c (t.val - 1) (Nat.lt_of_le_of_lt (Nat.sub_le _ _) t.isLt)).2.2.2.2 := by
  obtain ⟨n, hn⟩ := t
  cases n with
  | zero => exact absurd rfl h0
  | succ n => rfl

theorem cover7_A_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) (y : S5000x128.Idx) :
    ∃ pc ∈ (kernelRun7_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).1 S5000x128.size (by sl_kernel_rfl) y

theorem cover7_A_5 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) (y : S1x128.Idx) :
    ∃ pc ∈ (kernelRun7_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.1 S1x128.size (by sl_kernel_rfl) y

theorem cover7_A_6 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) (y : S1x128.Idx) :
    ∃ pc ∈ (kernelRun7_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.1 S1x128.size (by sl_kernel_rfl) y

theorem cover7_A_s0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) (y : S1x128.Idx) :
    ∃ pc ∈ (kernelRun7_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.2.1 S1x128.size (by sl_kernel_rfl) y

theorem cover7_A_s1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) (y : S1x128.Idx) :
    ∃ pc ∈ (kernelRun7_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun7_A c i arg1 harg1 arg2 harg2 arg3 harg3 arg4 harg4 arg5 harg5 arg6 harg6 arg7 harg7 arg8 harg8 arg9 harg9 hc0 x0 x1 x2 x3).2.2.2.2.1 S1x128.size (by sl_kernel_rfl) y

theorem cover7_B_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) (y : S5000x128.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).1 S5000x128.size (by sl_kernel_rfl) y

theorem cover7_B_5 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.1 S1x128.size (by sl_kernel_rfl) y

theorem cover7_B_6 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.1 S1x128.size (by sl_kernel_rfl) y

theorem cover7_B_s0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.2.1 S1x128.size (by sl_kernel_rfl) y

theorem cover7_B_s1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun7_B c i arg1 harg1 arg2 harg2 arg3 harg3 arg4 harg4 arg5 harg5 arg6 harg6 arg7 harg7 arg8 harg8 arg9 harg9 hc0 x0 x1 x2 x3 xs0 xs1).2.2.2.2.1, y ∈ pc.1.set :=
  View.cover_of_tiledL (kernelRun7_B c i arg1 harg1 arg2 harg2 arg3 harg3 arg4 harg4 arg5 harg5 arg6 harg6 arg7 harg7 arg8 harg8 arg9 harg9 hc0 x0 x1 x2 x3 xs0 xs1).2.2.2.2.1 S1x128.size (by sl_kernel_rfl) y

/-- Each window's current staging memref at point `t`, as the pipeline passes it to the body, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S128x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x128 .f32 := win7_6.stage (cfg7.slots t 6)
abbrev hs7_6 (t : Fin cfg7.N) : (ms7_6 t).IsWhole := hstage7_6 ((cfg7.slots t 6).cast nbuf7_6)

/-- The region invariant before position `n`: before the first point the plain one (every scoped buffer at anything);
    afterwards the two accumulators at what the point before left in them, the other scoped buffers at anything, the
    generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare (outsAt7 V c n hn).2.2.2.1 ∗ owns (c : Thread nD τ) scM7_1 fullShare (outsAt7 V c n hn).2.2.2.2)
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (outsAt7 V c n hn).2.2.2.1 ∗ owns (c : Thread nD τ) scM7_1 fullShare (outsAt7 V c n hn).2.2.2.2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (outsAt7 V c (n - 1) (by omega)).2.2.2.1 ∗ owns (c : Thread nD τ) scM7_1 fullShare (outsAt7 V c (n - 1) (by omega)).2.2.2.2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- The proof data of this region on core `c`: the arrays as the region finds them (`V`); after the body at point `t` each
    input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
theorem liveAt7_5 : ∀ t : Fin cfg7.N, cfg7.idle 5 (grid7.coords t) = false := by decide +kernel
theorem liveAt7_6 : ∀ t : Fin cfg7.N, cfg7.idle 6 (grid7.coords t) = false := by decide +kernel

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at any point: the inputs' memrefs hold their blocks; at the first point the accumulators come out of the plain
    invariant at anything and are reset; later they come at what the point before left; either way the run applies and the
    invariant takes the accumulators back at this point's contents. The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [show (dat7 V c).leavesExact 5 t = owns (c : Thread nD τ) (ms7_5 t) fullShare ((dat7 V c).after 5 t) from by
    unfold Dat.leavesExact; rw [liveAt7_5 t], after7_5]
  rw [show (dat7 V c).leavesExact 6 t = owns (c : Thread nD τ) (ms7_6 t) fullShare ((dat7 V c).after 6 t) from by
    unfold Dat.leavesExact; rw [liveAt7_6 t], after7_6]
  by_cases h0 : t.val = 0
  · rw [outsAt7_A V c t h0]; unfold caseA7 runA7; dsimp only
    rw [PhiS7_castSucc V c t, PhiS7_zero V c _ _ h0, PhiA7_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_A (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (blk7_0 V c t) (blk7_1 V c t) (blk7_2 V c t) (blk7_3 V c t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover7_A_s0 c _ _ _ _ _ _ _ _ _ _ _ _ _ _ _ _ _ _ _ _ _ _ _ _)
          · unfold owns; iexists _; isplitr
            swap; · iexact HS1
            ipureintro; exact View.read_writes_eq_canon _ _ _ (cover7_A_s1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover7_A_4 c _ _ _ _ _ _ _ _ _ _ _ _ _ _ _ _ _ _ _ _ _ _ _ _)
    isplitl [H5]
    · unfold owns; iexists _; isplitr
      swap; · iexact H5
      ipureintro; exact View.read_writes_eq_canon _ _ _ (cover7_A_5 c _ _ _ _ _ _ _ _ _ _ _ _ _ _ _ _ _ _ _ _ _ _ _ _)
    unfold owns; iexists _; isplitr
    swap; · iexact H6
    ipureintro; exact View.read_writes_eq_canon _ _ _ (cover7_A_6 c _ _ _ _ _ _ _ _ _ _ _ _ _ _ _ _ _ _ _ _ _ _ _ _)
  · rw [outsAt7_B V c t h0]; unfold caseB7 runB7; dsimp only
    rw [PhiS7_castSucc V c t, PhiS7_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_B (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (blk7_0 V c t) (blk7_1 V c t) (blk7_2 V c t) (blk7_3 V c t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover7_B_s0 c _ _ _ _ _ _ _ _ _ _ _ _ _ _ _ _ _ _ _ _ _ _ _ _ _ _)
          · unfold owns; iexists _; isplitr
            swap; · iexact HS1
            ipureintro; exact View.read_writes_eq_canon _ _ _ (cover7_B_s1 c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (cover7_B_4 c _ _ _ _ _ _ _ _ _ _ _ _ _ _ _ _ _ _ _ _ _ _ _ _ _ _)
    isplitl [H5]
    · unfold owns; iexists _; isplitr
      swap; · iexact H5
      ipureintro; exact View.read_writes_eq_canon _ _ _ (cover7_B_5 c _ _ _ _ _ _ _ _ _ _ _ _ _ _ _ _ _ _ _ _ _ _ _ _ _ _)
    unfold owns; iexists _; isplitr
    swap; · iexact H6
    ipureintro; exact View.read_writes_eq_canon _ _ _ (cover7_B_6 c _ _ _ _ _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- Before the first point the invariant is the plain one. -/
theorem Phi0_7 (c : Dev nD) : (dat7 V c).Φ 0 = Pipeline.ΦA spec7 c := rfl

/-- After any point but the first the invariant gives the plain one back: the accumulators' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout7 (c : Dev nD) : (dat7 V c).Φ (Fin.last cfg7.N) ⊢ Pipeline.ΦA spec7 c :=
  Phi_out7 V c _ (by rw [Fin.val_last]; have : cfg7.N = 10 := N_7; omega)

end Cert.KernelIdeal.Frm

end
-- ==== Proof.KiRun.lean ====
/- THE RUN of @main and its frame: @main is eight kernel regions between eight stretches of host operations
   (host stretch 0, region 0, host stretch 1, region 1, …, host stretch 7, region 7; nothing after region 7).
   The buffer contents at the seventeen segment boundaries are a fold from the launch memory (`W0` … `W16`): a host
   stretch leaves its operations' results, a region leaves each of its arrays at what its write-backs fold to and every
   other buffer as entered. Every pipeline's proof data is taken at its region's entry contents (`pdats`); a host
   stretch is a segment over the unscoped references, a region is a segment whose arrays are split out of the
   unscoped buffers at entry and put back at exit; the thread state between two segments is "every unscoped buffer at
   the boundary's contents, the generator register at some state, nothing owed". The launch over the sixteen segments
   gives `run`: every weakly fair execution terminates and the final memory holds every unscoped buffer at `W16`.
   No host operation and no region's output window writes an argument array, so `W16` at an argument walks back to the
   launch memory (`W16_main_argJ`), which gives `frame`. -/
import proofs.«156566_j1202590843053_1_alg».proof.Proof.KiEdge0
import proofs.«156566_j1202590843053_1_alg».proof.Proof.KiNode1
import proofs.«156566_j1202590843053_1_alg».proof.Proof.KiBn2
import proofs.«156566_j1202590843053_1_alg».proof.Proof.KiEdge3
import proofs.«156566_j1202590843053_1_alg».proof.Proof.KiNode4
import proofs.«156566_j1202590843053_1_alg».proof.Proof.KiBn5
import proofs.«156566_j1202590843053_1_alg».proof.Proof.KiEdge6
import proofs.«156566_j1202590843053_1_alg».proof.Proof.KiNode7
import proofs.«156566_j1202590843053_1_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A reference no operation of host stretch 0 writes holds after it what it held before. -/
theorem W1_host (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no OUTPUT window's array of region 0 leaves the region as it entered: either it is no array of
    the region at all, or it is an input window's array, which the pipeline only reads. -/
theorem W2_keep (c : Dev nD) (b : Ref sig .tc)
    (hb : ∀ w : Fin cfg0.W, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hh : (cfg0.win w).isOut
      · rfl
      · exact absurd rfl (hb w hh)
    exact (W2_arr m ρ c w).trans (((dat0 (V1 m ρ) c).arrAt_in w hin _).trans (A_eq0 (V1 m ρ) c w))
  · exact W2_of_ne m ρ c b fun w e => h ⟨w, e⟩

/-- After host stretch 1 (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- A reference no operation of host stretch 1 writes holds after it what it held before. -/
theorem W3_host (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer that is no OUTPUT window's array of region 1 leaves the region as it entered: either it is no array of
    the region at all, or it is an input window's array, which the pipeline only reads. -/
theorem W4_keep (c : Dev nD) (b : Ref sig .tc)
    (hb : ∀ w : Fin cfg1.W, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hh : (cfg1.win w).isOut
      · rfl
      · exact absurd rfl (hb w hh)
    exact (W4_arr m ρ c w).trans (((dat1 (V3 m ρ) c).arrAt_in w hin _).trans (A_eq1 (V3 m ρ) c w))
  · exact W4_of_ne m ρ c b fun w e => h ⟨w, e⟩

/-- After host stretch 2 (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- A reference no operation of host stretch 2 writes holds after it what it held before. -/
theorem W5_host (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer that is no OUTPUT window's array of region 2 leaves the region as it entered: either it is no array of
    the region at all, or it is an input window's array, which the pipeline only reads. -/
theorem W6_keep (c : Dev nD) (b : Ref sig .tc)
    (hb : ∀ w : Fin cfg2.W, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hh : (cfg2.win w).isOut
      · rfl
      · exact absurd rfl (hb w hh)
    exact (W6_arr m ρ c w).trans (((dat2 (V5 m ρ) c).arrAt_in w hin _).trans (A_eq2 (V5 m ρ) c w))
  · exact W6_of_ne m ρ c b fun w e => h ⟨w, e⟩

/-- After host stretch 3 (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- A reference no operation of host stretch 3 writes holds after it what it held before. -/
theorem W7_host (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer that is no OUTPUT window's array of region 3 leaves the region as it entered: either it is no array of
    the region at all, or it is an input window's array, which the pipeline only reads. -/
theorem W8_keep (c : Dev nD) (b : Ref sig .tc)
    (hb : ∀ w : Fin cfg3.W, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hh : (cfg3.win w).isOut
      · rfl
      · exact absurd rfl (hb w hh)
    exact (W8_arr m ρ c w).trans (((dat3 (V7 m ρ) c).arrAt_in w hin _).trans (A_eq3 (V7 m ρ) c w))
  · exact W8_of_ne m ρ c b fun w e => h ⟨w, e⟩

/-- After host stretch 4 (region 4's entry). -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- A reference no operation of host stretch 4 writes holds after it what it held before. -/
theorem W9_host (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: its arrays at what the pipeline leaves (the inputs as entered, each output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer that is no OUTPUT window's array of region 4 leaves the region as it entered: either it is no array of
    the region at all, or it is an input window's array, which the pipeline only reads. -/
theorem W10_keep (c : Dev nD) (b : Ref sig .tc)
    (hb : ∀ w : Fin cfg4.W, (cfg4.win w).isOut = true → Pipeline.arrRef spec4 w ≠ b) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      cases hh : (cfg4.win w).isOut
      · rfl
      · exact absurd rfl (hb w hh)
    exact (W10_arr m ρ c w).trans (((dat4 (V9 m ρ) c).arrAt_in w hin _).trans (A_eq4 (V9 m ρ) c w))
  · exact W10_of_ne m ρ c b fun w e => h ⟨w, e⟩

/-- After host stretch 5 (region 5's entry). -/
abbrev W11 : Dev nD → Valuation τ sig (Elt F) := fun c => StableHlo.after hostOps5 (W10 m ρ c)
/-- The same read at the TensorCore's references (what region 5's proof data take). -/
abbrev V11 : (c : Dev nD) → (b : Ref sig .tc) → Buf (Elt F) ((c : Thread nD τ).loc b) := fun c b => W11 m ρ c b
/-- A reference no operation of host stretch 5 writes holds after it what it held before. -/
theorem W11_host (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: its arrays at what the pipeline leaves (the inputs as entered, each output's write-backs
    folded), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves (`hF5`) and every other buffer what it
    held at entry (`hrest5`). -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer that is no OUTPUT window's array of region 5 leaves the region as it entered: either it is no array of
    the region at all, or it is an input window's array, which the pipeline only reads. -/
theorem W12_keep (c : Dev nD) (b : Ref sig .tc)
    (hb : ∀ w : Fin cfg5.W, (cfg5.win w).isOut = true → Pipeline.arrRef spec5 w ≠ b) :
    W12 m ρ c (Proc.devRef .tc b) = W11 m ρ c (Proc.devRef .tc b) := by
  by_cases h : ∃ w, Pipeline.arrRef spec5 w = b
  · obtain ⟨w, rfl⟩ := h
    have hin : (cfg5.win w).isOut = false := by
      cases hh : (cfg5.win w).isOut
      · rfl
      · exact absurd rfl (hb w hh)
    exact (W12_arr m ρ c w).trans (((dat5 (V11 m ρ) c).arrAt_in w hin _).trans (A_eq5 (V11 m ρ) c w))
  · exact W12_of_ne m ρ c b fun w e => h ⟨w, e⟩

/-- After host stretch 6 (region 6's entry). -/
abbrev W13 : Dev nD → Valuation τ sig (Elt F) := fun c => StableHlo.after hostOps6 (W12 m ρ c)
/-- The same read at the TensorCore's references (what region 6's proof data take). -/
abbrev V13 : (c : Dev nD) → (b : Ref sig .tc) → Buf (Elt F) ((c : Thread nD τ).loc b) := fun c b => W13 m ρ c b
/-- A reference no operation of host stretch 6 writes holds after it what it held before. -/
theorem W13_host (c : Dev nD) (r : Ref sig .tc) (h : r ∉ hostOps6_W) :
    W13 m ρ c (Proc.devRef .tc r) = W12 m ρ c (Proc.devRef .tc r) :=
  StableHlo.after_of_writes_sub hostOps6 _ hostOps6_writes h
/-- At region 6's exit: its arrays at what the pipeline leaves (the inputs as entered, each output's write-backs
    folded), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves (`hF6`) and every other buffer what it
    held at entry (`hrest6`). -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A buffer that is no OUTPUT window's array of region 6 leaves the region as it entered: either it is no array of
    the region at all, or it is an input window's array, which the pipeline only reads. -/
theorem W14_keep (c : Dev nD) (b : Ref sig .tc)
    (hb : ∀ w : Fin cfg6.W, (cfg6.win w).isOut = true → Pipeline.arrRef spec6 w ≠ b) :
    W14 m ρ c (Proc.devRef .tc b) = W13 m ρ c (Proc.devRef .tc b) := by
  by_cases h : ∃ w, Pipeline.arrRef spec6 w = b
  · obtain ⟨w, rfl⟩ := h
    have hin : (cfg6.win w).isOut = false := by
      cases hh : (cfg6.win w).isOut
      · rfl
      · exact absurd rfl (hb w hh)
    exact (W14_arr m ρ c w).trans (((dat6 (V13 m ρ) c).arrAt_in w hin _).trans (A_eq6 (V13 m ρ) c w))
  · exact W14_of_ne m ρ c b fun w e => h ⟨w, e⟩

/-- After host stretch 7 (region 7's entry). -/
abbrev W15 : Dev nD → Valuation τ sig (Elt F) := fun c => StableHlo.after hostOps7 (W14 m ρ c)
/-- The same read at the TensorCore's references (what region 7's proof data take). -/
abbrev V15 : (c : Dev nD) → (b : Ref sig .tc) → Buf (Elt F) ((c : Thread nD τ).loc b) := fun c b => W15 m ρ c b
/-- A reference no operation of host stretch 7 writes holds after it what it held before. -/
theorem W15_host (c : Dev nD) (r : Ref sig .tc) (h : r ∉ hostOps7_W) :
    W15 m ρ c (Proc.devRef .tc r) = W14 m ρ c (Proc.devRef .tc r) :=
  StableHlo.after_of_writes_sub hostOps7 _ hostOps7_writes h
/-- At region 7's exit: its arrays at what the pipeline leaves (the inputs as entered, each output's write-backs
    folded), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves (`hF7`) and every other buffer what it
    held at entry (`hrest7`). -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A buffer that is no OUTPUT window's array of region 7 leaves the region as it entered: either it is no array of
    the region at all, or it is an input window's array, which the pipeline only reads. -/
theorem W16_keep (c : Dev nD) (b : Ref sig .tc)
    (hb : ∀ w : Fin cfg7.W, (cfg7.win w).isOut = true → Pipeline.arrRef spec7 w ≠ b) :
    W16 m ρ c (Proc.devRef .tc b) = W15 m ρ c (Proc.devRef .tc b) := by
  by_cases h : ∃ w, Pipeline.arrRef spec7 w = b
  · obtain ⟨w, rfl⟩ := h
    have hin : (cfg7.win w).isOut = false := by
      cases hh : (cfg7.win w).isOut
      · rfl
      · exact absurd rfl (hb w hh)
    exact (W16_arr m ρ c w).trans (((dat7 (V15 m ρ) c).arrAt_in w hin _).trans (A_eq7 (V15 m ρ) c w))
  · exact W16_of_ne m ρ c b fun w e => h ⟨w, e⟩

/-! ### The arguments end as launched: no host operation writes one, and a region reads it through an input window
    or does not touch it, so the fold at an argument's buffer walks back to the launch memory -/
theorem W16_main_arg0 (c : Dev nD) : W16 m ρ c (Proc.devRef .tc main_arg0) = m ((c : Thread nD τ).loc main_arg0) :=
  (W16_keep m ρ c main_arg0 (by decide)).trans <| (W15_host m ρ c main_arg0 (by decide)).trans <|
    (W14_keep m ρ c main_arg0 (by decide)).trans <| (W13_host m ρ c main_arg0 (by decide)).trans <|
    (W12_keep m ρ c main_arg0 (by decide)).trans <| (W11_host m ρ c main_arg0 (by decide)).trans <|
    (W10_keep m ρ c main_arg0 (by decide)).trans <| (W9_host m ρ c main_arg0 (by decide)).trans <|
    (W8_keep m ρ c main_arg0 (by decide)).trans <| (W7_host m ρ c main_arg0 (by decide)).trans <|
    (W6_keep m ρ c main_arg0 (by decide)).trans <| (W5_host m ρ c main_arg0 (by decide)).trans <|
    (W4_keep m ρ c main_arg0 (by decide)).trans <| (W3_host m ρ c main_arg0 (by decide)).trans <|
    (W2_keep m ρ c main_arg0 (by decide)).trans <| (W1_host m ρ c main_arg0 (by decide)).trans <|
    rfl
theorem W16_main_arg1 (c : Dev nD) : W16 m ρ c (Proc.devRef .tc main_arg1) = m ((c : Thread nD τ).loc main_arg1) :=
  (W16_keep m ρ c main_arg1 (by decide)).trans <| (W15_host m ρ c main_arg1 (by decide)).trans <|
    (W14_keep m ρ c main_arg1 (by decide)).trans <| (W13_host m ρ c main_arg1 (by decide)).trans <|
    (W12_keep m ρ c main_arg1 (by decide)).trans <| (W11_host m ρ c main_arg1 (by decide)).trans <|
    (W10_keep m ρ c main_arg1 (by decide)).trans <| (W9_host m ρ c main_arg1 (by decide)).trans <|
    (W8_keep m ρ c main_arg1 (by decide)).trans <| (W7_host m ρ c main_arg1 (by decide)).trans <|
    (W6_keep m ρ c main_arg1 (by decide)).trans <| (W5_host m ρ c main_arg1 (by decide)).trans <|
    (W4_keep m ρ c main_arg1 (by decide)).trans <| (W3_host m ρ c main_arg1 (by decide)).trans <|
    (W2_keep m ρ c main_arg1 (by decide)).trans <| (W1_host m ρ c main_arg1 (by decide)).trans <|
    rfl
theorem W16_main_arg2 (c : Dev nD) : W16 m ρ c (Proc.devRef .tc main_arg2) = m ((c : Thread nD τ).loc main_arg2) :=
  (W16_keep m ρ c main_arg2 (by decide)).trans <| (W15_host m ρ c main_arg2 (by decide)).trans <|
    (W14_keep m ρ c main_arg2 (by decide)).trans <| (W13_host m ρ c main_arg2 (by decide)).trans <|
    (W12_keep m ρ c main_arg2 (by decide)).trans <| (W11_host m ρ c main_arg2 (by decide)).trans <|
    (W10_keep m ρ c main_arg2 (by decide)).trans <| (W9_host m ρ c main_arg2 (by decide)).trans <|
    (W8_keep m ρ c main_arg2 (by decide)).trans <| (W7_host m ρ c main_arg2 (by decide)).trans <|
    (W6_keep m ρ c main_arg2 (by decide)).trans <| (W5_host m ρ c main_arg2 (by decide)).trans <|
    (W4_keep m ρ c main_arg2 (by decide)).trans <| (W3_host m ρ c main_arg2 (by decide)).trans <|
    (W2_keep m ρ c main_arg2 (by decide)).trans <| (W1_host m ρ c main_arg2 (by decide)).trans <|
    rfl
theorem W16_main_arg3 (c : Dev nD) : W16 m ρ c (Proc.devRef .tc main_arg3) = m ((c : Thread nD τ).loc main_arg3) :=
  (W16_keep m ρ c main_arg3 (by decide)).trans <| (W15_host m ρ c main_arg3 (by decide)).trans <|
    (W14_keep m ρ c main_arg3 (by decide)).trans <| (W13_host m ρ c main_arg3 (by decide)).trans <|
    (W12_keep m ρ c main_arg3 (by decide)).trans <| (W11_host m ρ c main_arg3 (by decide)).trans <|
    (W10_keep m ρ c main_arg3 (by decide)).trans <| (W9_host m ρ c main_arg3 (by decide)).trans <|
    (W8_keep m ρ c main_arg3 (by decide)).trans <| (W7_host m ρ c main_arg3 (by decide)).trans <|
    (W6_keep m ρ c main_arg3 (by decide)).trans <| (W5_host m ρ c main_arg3 (by decide)).trans <|
    (W4_keep m ρ c main_arg3 (by decide)).trans <| (W3_host m ρ c main_arg3 (by decide)).trans <|
    (W2_keep m ρ c main_arg3 (by decide)).trans <| (W1_host m ρ c main_arg3 (by decide)).trans <|
    rfl
theorem W16_main_arg4 (c : Dev nD) : W16 m ρ c (Proc.devRef .tc main_arg4) = m ((c : Thread nD τ).loc main_arg4) :=
  (W16_keep m ρ c main_arg4 (by decide)).trans <| (W15_host m ρ c main_arg4 (by decide)).trans <|
    (W14_keep m ρ c main_arg4 (by decide)).trans <| (W13_host m ρ c main_arg4 (by decide)).trans <|
    (W12_keep m ρ c main_arg4 (by decide)).trans <| (W11_host m ρ c main_arg4 (by decide)).trans <|
    (W10_keep m ρ c main_arg4 (by decide)).trans <| (W9_host m ρ c main_arg4 (by decide)).trans <|
    (W8_keep m ρ c main_arg4 (by decide)).trans <| (W7_host m ρ c main_arg4 (by decide)).trans <|
    (W6_keep m ρ c main_arg4 (by decide)).trans <| (W5_host m ρ c main_arg4 (by decide)).trans <|
    (W4_keep m ρ c main_arg4 (by decide)).trans <| (W3_host m ρ c main_arg4 (by decide)).trans <|
    (W2_keep m ρ c main_arg4 (by decide)).trans <| (W1_host m ρ c main_arg4 (by decide)).trans <|
    rfl
theorem W16_main_arg5 (c : Dev nD) : W16 m ρ c (Proc.devRef .tc main_arg5) = m ((c : Thread nD τ).loc main_arg5) :=
  (W16_keep m ρ c main_arg5 (by decide)).trans <| (W15_host m ρ c main_arg5 (by decide)).trans <|
    (W14_keep m ρ c main_arg5 (by decide)).trans <| (W13_host m ρ c main_arg5 (by decide)).trans <|
    (W12_keep m ρ c main_arg5 (by decide)).trans <| (W11_host m ρ c main_arg5 (by decide)).trans <|
    (W10_keep m ρ c main_arg5 (by decide)).trans <| (W9_host m ρ c main_arg5 (by decide)).trans <|
    (W8_keep m ρ c main_arg5 (by decide)).trans <| (W7_host m ρ c main_arg5 (by decide)).trans <|
    (W6_keep m ρ c main_arg5 (by decide)).trans <| (W5_host m ρ c main_arg5 (by decide)).trans <|
    (W4_keep m ρ c main_arg5 (by decide)).trans <| (W3_host m ρ c main_arg5 (by decide)).trans <|
    (W2_keep m ρ c main_arg5 (by decide)).trans <| (W1_host m ρ c main_arg5 (by decide)).trans <|
    rfl
theorem W16_main_arg6 (c : Dev nD) : W16 m ρ c (Proc.devRef .tc main_arg6) = m ((c : Thread nD τ).loc main_arg6) :=
  (W16_keep m ρ c main_arg6 (by decide)).trans <| (W15_host m ρ c main_arg6 (by decide)).trans <|
    (W14_keep m ρ c main_arg6 (by decide)).trans <| (W13_host m ρ c main_arg6 (by decide)).trans <|
    (W12_keep m ρ c main_arg6 (by decide)).trans <| (W11_host m ρ c main_arg6 (by decide)).trans <|
    (W10_keep m ρ c main_arg6 (by decide)).trans <| (W9_host m ρ c main_arg6 (by decide)).trans <|
    (W8_keep m ρ c main_arg6 (by decide)).trans <| (W7_host m ρ c main_arg6 (by decide)).trans <|
    (W6_keep m ρ c main_arg6 (by decide)).trans <| (W5_host m ρ c main_arg6 (by decide)).trans <|
    (W4_keep m ρ c main_arg6 (by decide)).trans <| (W3_host m ρ c main_arg6 (by decide)).trans <|
    (W2_keep m ρ c main_arg6 (by decide)).trans <| (W1_host m ρ c main_arg6 (by decide)).trans <|
    rfl
theorem W16_main_arg7 (c : Dev nD) : W16 m ρ c (Proc.devRef .tc main_arg7) = m ((c : Thread nD τ).loc main_arg7) :=
  (W16_keep m ρ c main_arg7 (by decide)).trans <| (W15_host m ρ c main_arg7 (by decide)).trans <|
    (W14_keep m ρ c main_arg7 (by decide)).trans <| (W13_host m ρ c main_arg7 (by decide)).trans <|
    (W12_keep m ρ c main_arg7 (by decide)).trans <| (W11_host m ρ c main_arg7 (by decide)).trans <|
    (W10_keep m ρ c main_arg7 (by decide)).trans <| (W9_host m ρ c main_arg7 (by decide)).trans <|
    (W8_keep m ρ c main_arg7 (by decide)).trans <| (W7_host m ρ c main_arg7 (by decide)).trans <|
    (W6_keep m ρ c main_arg7 (by decide)).trans <| (W5_host m ρ c main_arg7 (by decide)).trans <|
    (W4_keep m ρ c main_arg7 (by decide)).trans <| (W3_host m ρ c main_arg7 (by decide)).trans <|
    (W2_keep m ρ c main_arg7 (by decide)).trans <| (W1_host m ρ c main_arg7 (by decide)).trans <|
    rfl
theorem W16_main_arg8 (c : Dev nD) : W16 m ρ c (Proc.devRef .tc main_arg8) = m ((c : Thread nD τ).loc main_arg8) :=
  (W16_keep m ρ c main_arg8 (by decide)).trans <| (W15_host m ρ c main_arg8 (by decide)).trans <|
    (W14_keep m ρ c main_arg8 (by decide)).trans <| (W13_host m ρ c main_arg8 (by decide)).trans <|
    (W12_keep m ρ c main_arg8 (by decide)).trans <| (W11_host m ρ c main_arg8 (by decide)).trans <|
    (W10_keep m ρ c main_arg8 (by decide)).trans <| (W9_host m ρ c main_arg8 (by decide)).trans <|
    (W8_keep m ρ c main_arg8 (by decide)).trans <| (W7_host m ρ c main_arg8 (by decide)).trans <|
    (W6_keep m ρ c main_arg8 (by decide)).trans <| (W5_host m ρ c main_arg8 (by decide)).trans <|
    (W4_keep m ρ c main_arg8 (by decide)).trans <| (W3_host m ρ c main_arg8 (by decide)).trans <|
    (W2_keep m ρ c main_arg8 (by decide)).trans <| (W1_host m ρ c main_arg8 (by decide)).trans <|
    rfl
theorem W16_main_arg9 (c : Dev nD) : W16 m ρ c (Proc.devRef .tc main_arg9) = m ((c : Thread nD τ).loc main_arg9) :=
  (W16_keep m ρ c main_arg9 (by decide)).trans <| (W15_host m ρ c main_arg9 (by decide)).trans <|
    (W14_keep m ρ c main_arg9 (by decide)).trans <| (W13_host m ρ c main_arg9 (by decide)).trans <|
    (W12_keep m ρ c main_arg9 (by decide)).trans <| (W11_host m ρ c main_arg9 (by decide)).trans <|
    (W10_keep m ρ c main_arg9 (by decide)).trans <| (W9_host m ρ c main_arg9 (by decide)).trans <|
    (W8_keep m ρ c main_arg9 (by decide)).trans <| (W7_host m ρ c main_arg9 (by decide)).trans <|
    (W6_keep m ρ c main_arg9 (by decide)).trans <| (W5_host m ρ c main_arg9 (by decide)).trans <|
    (W4_keep m ρ c main_arg9 (by decide)).trans <| (W3_host m ρ c main_arg9 (by decide)).trans <|
    (W2_keep m ρ c main_arg9 (by decide)).trans <| (W1_host m ρ c main_arg9 (by decide)).trans <|
    rfl
theorem W16_main_arg10 (c : Dev nD) : W16 m ρ c (Proc.devRef .tc main_arg10) = m ((c : Thread nD τ).loc main_arg10) :=
  (W16_keep m ρ c main_arg10 (by decide)).trans <| (W15_host m ρ c main_arg10 (by decide)).trans <|
    (W14_keep m ρ c main_arg10 (by decide)).trans <| (W13_host m ρ c main_arg10 (by decide)).trans <|
    (W12_keep m ρ c main_arg10 (by decide)).trans <| (W11_host m ρ c main_arg10 (by decide)).trans <|
    (W10_keep m ρ c main_arg10 (by decide)).trans <| (W9_host m ρ c main_arg10 (by decide)).trans <|
    (W8_keep m ρ c main_arg10 (by decide)).trans <| (W7_host m ρ c main_arg10 (by decide)).trans <|
    (W6_keep m ρ c main_arg10 (by decide)).trans <| (W5_host m ρ c main_arg10 (by decide)).trans <|
    (W4_keep m ρ c main_arg10 (by decide)).trans <| (W3_host m ρ c main_arg10 (by decide)).trans <|
    (W2_keep m ρ c main_arg10 (by decide)).trans <| (W1_host m ρ c main_arg10 (by decide)).trans <|
    rfl

/-! ## The proof data family and the thread state -/

/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it ends with
    those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W16`, the
    generator register at some state. -/
abbrev Tₙ (c : Dev nD) : sProp 𝕄 := iprop(StableHlo.held (c : Thread nD τ) (Pipeline.ucRefs τ sig) (W16 m ρ c) ∗ ∃ r, prngReg c r)

/-! ## The regions as segments -/

set_option backward.isDefEq.respectTransparency.types false in
/-- REGION 0 over the thread state: entered from every unscoped buffer at `W1`, left at `W2`. Its arrays are
    split out of the unscoped buffers at entry and put back at the exit contents; the generator register goes into
    the pipeline's invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers at entry and put back at the exit contents; the generator register goes into
    the pipeline's invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi0_1 _ c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 _ c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers at entry and put back at the exit contents; the generator register goes into
    the pipeline's invariant and comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are
    split out of the unscoped buffers at entry and put back at the exit contents; the generator register goes into
    the pipeline's invariant and comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m ρ 3 c).Φ (Fin.last _) = Pipeline.ΦA spec3 c from rfl]
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays are
    split out of the unscoped buffers at entry and put back at the exit contents; the generator register goes into
    the pipeline's invariant and comes out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun w => A_eq4 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from Phi0_4 _ c]; unfold Pipeline.ΦA
    iintro ⟨Hp, -, Hr⟩
    isplitl [Hr]; · iexact Hr
    iexact Hp
  hout c := by
    rw [Pipeline.ownSems0_none]
    refine (show (pdats m ρ 4 c).Φ (Fin.last _) ⊢ Pipeline.ΦA spec4 c from hout4 _ c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its arrays are
    split out of the unscoped buffers at entry and put back at the exit contents; the generator register goes into
    the pipeline's invariant and comes out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun w => A_eq5 (V11 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    rw [show (pdats m ρ 5 c).Φ (Fin.last _) = Pipeline.ΦA spec5 c from rfl]
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W13`, left at `W14`. Its arrays are
    split out of the unscoped buffers at entry and put back at the exit contents; the generator register goes into
    the pipeline's invariant and comes out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun w => A_eq6 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none]
    rw [show (pdats m ρ 6 c).Φ (Fin.last _) = Pipeline.ΦA spec6 c from rfl]
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W15`, left at `W16`. Its arrays are
    split out of the unscoped buffers at entry and put back at the exit contents; the generator register goes into
    the pipeline's invariant and comes out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun w => A_eq7 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from Phi0_7 _ c]; unfold Pipeline.ΦA
    iintro ⟨Hp, -, Hr⟩
    isplitl [Hr]; · iexact Hr
    iexact Hp
  hout c := by
    rw [Pipeline.ownSems0_none]
    refine (show (pdats m ρ 7 c).Φ (Fin.last _) ⊢ Pipeline.ΦA spec7 c from hout7 _ c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's sixteen segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ) ]
/-- @main IS the run of the segments: @main is the chain of its items, and the segments' run is the chain of their
    programs, the same list. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds every unscoped buffer of every core at the last
    boundary's contents `W16`: the launch over the segments, the last thread state read against the final state. -/
theorem run : θ_run defs (onTc (τ := τ) (main (F := F))) ⟨m, fun _ => 0, ρ⟩
    (fun r => ∀ c : Dev nD, ∀ b ∈ Pipeline.ucRefs τ sig, r.2.mem ((c : Thread nD τ).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun _ h => h)

/-- THE FRAME: every weakly fair execution of @main terminates, nothing faulting, and every final state has the eleven
    argument arrays as launched: `run`, each argument's buffer read off the last boundary's contents (`W16_main_argJ`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c),
     (h c _ (mem_uc main_arg10 (by decide))).trans (W16_main_arg10 m ρ c)⟩) (run m ρ)

end Cert.KernelIdeal.Frm

end
-- ==== Proof.RefFrame.lean ====
import proofs.«156566_j1202590843053_1_alg».proof.Defs
import proofs.«156566_j1202590843053_1_alg».proof.Proof.Gen.ReferenceIdeal
import proofs.«156566_j1202590843053_1_alg».proof.Proof.Gen.Pre_finite_inputs
import proofs.«156566_j1202590843053_1_alg».proof.Proof.RefRunP

noncomputable section

namespace Cert.Proof.RefFrame

open Idealize.ShloMosaic Idealize.SL.Sem

/-- The reference is a host program: its run ends at the composed term of its operations with the argument
    arrays unchanged; the frame claim keeps only the second half. -/
theorem frame_ri : @Cert.frame_ReferenceIdeal Cert.ReferenceIdeal.Gen.facts Cert.Pre_finite_inputs.Gen.facts := fun m ρ _ =>
  (θ_run Cert.ReferenceIdeal.defs _ _).mono (fun _ h c => (h c).2.2) (Cert.ReferenceIdeal.ValueP.run (F := Ideal) m ρ)

end Cert.Proof.RefFrame

end
-- ==== Proof.KiWeights.lean ====
import proofs.«156566_j1202590843053_1_alg».proof.Proof.KiRun
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.StableHlo Idealize.ShloMosaic.ValueIdx
open Idealize.SL Idealize.SL.Sem

variable (m : (ℓ : Loc nD τ sig) → Buf (Elt Ideal) ℓ) (ρ : Dev nD → PrngReg)

/-! # The relation weights and biases as the edge regions find them

The host transposes the relation weights once (`w_rel[l, f, d] ↦ w_rel_t[l, d, f]`) and, before each edge region, slices
out the layer's matrix and bias row. Read at an index these are entries of the argument arrays. -/

/-- The transposed relation weights, formed once by the first host stretch. -/
theorem W1_v11 (c : Dev nD) : (W1 m ρ c (Proc.devRef .tc main_v11) : S3x128x128.Idx → EReal)
    = transpose S3x128x128 [0, 2, 1] (m ((c : Thread nD τ).loc main_arg6)) transposes_S3x128x128_S3x128x128_0_2_1 := by
  show StableHlo.after hostOps0 (W0 m ρ c) (Proc.devRef .tc main_v11) = _
  after_results <;> rfl

theorem v11_at (c : Dev nD) (l : Fin 3) (d f : Fin 128) :
    (W1 m ρ c (Proc.devRef .tc main_v11) : S3x128x128.Idx → EReal) (ix3 l d f) = m ((c : Thread nD τ).loc main_arg6) (ix3 l f d) := by
  rw [W1_v11]
  exact transpose_apply _ _ _ (ix3 l d f) (ix3 l f d) (fun b => by
    match b with
    | ⟨0, _⟩ => rfl
    | ⟨1, _⟩ => rfl
    | ⟨2, _⟩ => rfl)

/-- Layer 0's relation matrix as edge region 0 finds it. -/
theorem V1_v25 (c : Dev nD) : (V1 m ρ c main_v25 : S128x128.Idx → EReal)
    = shapeCast S128x128 (extractStridedSlice S1x128x128 ![0, 0, 0]
        (transpose S3x128x128 [0, 2, 1] (m ((c : Thread nD τ).loc main_arg6)) transposes_S3x128x128_S3x128x128_0_2_1)
        slices_S3x128x128_S1x128x128_0_0_0) shapeCasts_S1x128x128_S128x128 := by
  show StableHlo.after hostOps0 (W0 m ρ c) (Proc.devRef .tc main_v25) = _
  after_results <;> rfl

theorem v25_at (c : Dev nD) (d f : Fin 128) :
    (V1 m ρ c main_v25 : S128x128.Idx → EReal) (ix2 d f) = m ((c : Thread nD τ).loc main_arg6) (ix3 0 f d) := by
  rw [V1_v25]
  refine (shapeCast_1ab_ab_apply _ _ d f).trans ?_
  refine (extractStridedSlice_apply _ _ _ (ix3 0 d f) (ix3 0 d f) (fun a => by
    match a with
    | ⟨0, _⟩ => rfl
    | ⟨1, _⟩ => simp
    | ⟨2, _⟩ => simp)).trans ?_
  exact transpose_apply _ _ _ (ix3 0 d f) (ix3 0 f d) (fun b => by
    match b with
    | ⟨0, _⟩ => rfl
    | ⟨1, _⟩ => rfl
    | ⟨2, _⟩ => rfl)

/-- Layer 0's relation bias row as edge region 0 finds it. -/
theorem V1_v29 (c : Dev nD) : (V1 m ρ c main_v29 : S1x128.Idx → EReal)
    = shapeCast S1x128 (shapeCast S128 (extractStridedSlice S1x128 ![0, 0] (m ((c : Thread nD τ).loc main_arg7)) slices_S3x128_S1x128_0_0)
        shapeCasts_S1x128_S128) shapeCasts_S128_S1x128 := by
  show StableHlo.after hostOps0 (W0 m ρ c) (Proc.devRef .tc main_v29) = _
  after_results <;> rfl

theorem v29_at (c : Dev nD) (f : Fin 128) :
    (V1 m ρ c main_v29 : S1x128.Idx → EReal) (ix2 0 f) = m ((c : Thread nD τ).loc main_arg7) (ix2 0 f) := by
  rw [V1_v29]
  refine (shapeCast_a_1a_apply _ _ 0 f).trans ?_
  refine (shapeCast_1a_a_apply _ _ f).trans ?_
  exact extractStridedSlice_apply _ _ _ (ix2 0 f) (ix2 0 f) (fun a => by
    match a with
    | ⟨0, _⟩ => rfl
    | ⟨1, _⟩ => simp)

/-! ## Layer 1 -/

theorem W6_v11 (c : Dev nD) : W6 m ρ c (Proc.devRef .tc main_v11) = W1 m ρ c (Proc.devRef .tc main_v11) :=
  (W6_keep m ρ c main_v11 (by decide)).trans <|
    (W5_host m ρ c main_v11 (by decide)).trans <|
    (W4_keep m ρ c main_v11 (by decide)).trans <|
    (W3_host m ρ c main_v11 (by decide)).trans <|
    (W2_keep m ρ c main_v11 (by decide)).trans <| rfl

theorem W6_arg7 (c : Dev nD) : W6 m ρ c (Proc.devRef .tc main_arg7) = m ((c : Thread nD τ).loc main_arg7) :=
  (W6_keep m ρ c main_arg7 (by decide)).trans <|
    (W5_host m ρ c main_arg7 (by decide)).trans <|
    (W4_keep m ρ c main_arg7 (by decide)).trans <|
    (W3_host m ρ c main_arg7 (by decide)).trans <|
    (W2_keep m ρ c main_arg7 (by decide)).trans <|
    (W1_host m ρ c main_arg7 (by decide)).trans <| rfl

theorem V7_v67 (c : Dev nD) : (V7 m ρ c main_v67 : S128x128.Idx → EReal)
    = shapeCast S128x128 (extractStridedSlice S1x128x128 ![1, 0, 0] (W6 m ρ c (Proc.devRef .tc main_v11) : S3x128x128.Idx → EReal)
        slices_S3x128x128_S1x128x128_1_0_0) shapeCasts_S1x128x128_S128x128 := by
  show StableHlo.after hostOps3 (W6 m ρ c) (Proc.devRef .tc main_v67) = _
  after_results <;> rfl

theorem v67_at (c : Dev nD) (d f : Fin 128) :
    (V7 m ρ c main_v67 : S128x128.Idx → EReal) (ix2 d f) = m ((c : Thread nD τ).loc main_arg6) (ix3 1 f d) := by
  rw [V7_v67, W6_v11]
  refine (shapeCast_1ab_ab_apply _ _ d f).trans ?_
  refine (extractStridedSlice_apply _ _ _ (ix3 0 d f) (ix3 1 d f) (fun a => by
    match a with
    | ⟨0, _⟩ => rfl
    | ⟨1, _⟩ => simp
    | ⟨2, _⟩ => simp)).trans ?_
  exact v11_at m ρ c 1 d f

theorem V7_v71 (c : Dev nD) : (V7 m ρ c main_v71 : S1x128.Idx → EReal)
    = shapeCast S1x128 (shapeCast S128 (extractStridedSlice S1x128 ![1, 0] (W6 m ρ c (Proc.devRef .tc main_arg7) : S3x128.Idx → EReal) slices_S3x128_S1x128_1_0)
        shapeCasts_S1x128_S128) shapeCasts_S128_S1x128 := by
  show StableHlo.after hostOps3 (W6 m ρ c) (Proc.devRef .tc main_v71) = _
  after_results <;> rfl

theorem v71_at (c : Dev nD) (f : Fin 128) :
    (V7 m ρ c main_v71 : S1x128.Idx → EReal) (ix2 0 f) = m ((c : Thread nD τ).loc main_arg7) (ix2 1 f) := by
  rw [V7_v71, W6_arg7]
  refine (shapeCast_a_1a_apply _ _ 0 f).trans ?_
  refine (shapeCast_1a_a_apply _ _ f).trans ?_
  exact extractStridedSlice_apply _ _ _ (ix2 0 f) (ix2 1 f) (fun a => by
    match a with
    | ⟨0, _⟩ => rfl
    | ⟨1, _⟩ => simp)

/-! ## Layer 2 -/

theorem W12_v11 (c : Dev nD) : W12 m ρ c (Proc.devRef .tc main_v11) = W1 m ρ c (Proc.devRef .tc main_v11) :=
  (W12_keep m ρ c main_v11 (by decide)).trans <|
    (W11_host m ρ c main_v11 (by decide)).trans <|
    (W10_keep m ρ c main_v11 (by decide)).trans <|
    (W9_host m ρ c main_v11 (by decide)).trans <|
    (W8_keep m ρ c main_v11 (by decide)).trans <|
    (W7_host m ρ c main_v11 (by decide)).trans <|
    (W6_keep m ρ c main_v11 (by decide)).trans <|
    (W5_host m ρ c main_v11 (by decide)).trans <|
    (W4_keep m ρ c main_v11 (by decide)).trans <|
    (W3_host m ρ c main_v11 (by decide)).trans <|
    (W2_keep m ρ c main_v11 (by decide)).trans <| rfl

theorem W12_arg7 (c : Dev nD) : W12 m ρ c (Proc.devRef .tc main_arg7) = m ((c : Thread nD τ).loc main_arg7) :=
  (W12_keep m ρ c main_arg7 (by decide)).trans <|
    (W11_host m ρ c main_arg7 (by decide)).trans <|
    (W10_keep m ρ c main_arg7 (by decide)).trans <|
    (W9_host m ρ c main_arg7 (by decide)).trans <|
    (W8_keep m ρ c main_arg7 (by decide)).trans <|
    (W7_host m ρ c main_arg7 (by decide)).trans <|
    (W6_keep m ρ c main_arg7 (by decide)).trans <|
    (W5_host m ρ c main_arg7 (by decide)).trans <|
    (W4_keep m ρ c main_arg7 (by decide)).trans <|
    (W3_host m ρ c main_arg7 (by decide)).trans <|
    (W2_keep m ρ c main_arg7 (by decide)).trans <|
    (W1_host m ρ c main_arg7 (by decide)).trans <| rfl

theorem V13_v109 (c : Dev nD) : (V13 m ρ c main_v109 : S128x128.Idx → EReal)
    = shapeCast S128x128 (extractStridedSlice S1x128x128 ![2, 0, 0] (W12 m ρ c (Proc.devRef .tc main_v11) : S3x128x128.Idx → EReal)
        slices_S3x128x128_S1x128x128_2_0_0) shapeCasts_S1x128x128_S128x128 := by
  show StableHlo.after hostOps6 (W12 m ρ c) (Proc.devRef .tc main_v109) = _
  after_results <;> rfl

theorem v109_at (c : Dev nD) (d f : Fin 128) :
    (V13 m ρ c main_v109 : S128x128.Idx → EReal) (ix2 d f) = m ((c : Thread nD τ).loc main_arg6) (ix3 2 f d) := by
  rw [V13_v109, W12_v11]
  refine (shapeCast_1ab_ab_apply _ _ d f).trans ?_
  refine (extractStridedSlice_apply _ _ _ (ix3 0 d f) (ix3 2 d f) (fun a => by
    match a with
    | ⟨0, _⟩ => rfl
    | ⟨1, _⟩ => simp
    | ⟨2, _⟩ => simp)).trans ?_
  exact v11_at m ρ c 2 d f

theorem V13_v113 (c : Dev nD) : (V13 m ρ c main_v113 : S1x128.Idx → EReal)
    = shapeCast S1x128 (shapeCast S128 (extractStridedSlice S1x128 ![2, 0] (W12 m ρ c (Proc.devRef .tc main_arg7) : S3x128.Idx → EReal) slices_S3x128_S1x128_2_0)
        shapeCasts_S1x128_S128) shapeCasts_S128_S1x128 := by
  show StableHlo.after hostOps6 (W12 m ρ c) (Proc.devRef .tc main_v113) = _
  after_results <;> rfl

theorem v113_at (c : Dev nD) (f : Fin 128) :
    (V13 m ρ c main_v113 : S1x128.Idx → EReal) (ix2 0 f) = m ((c : Thread nD τ).loc main_arg7) (ix2 2 f) := by
  rw [V13_v113, W12_arg7]
  refine (shapeCast_a_1a_apply _ _ 0 f).trans ?_
  refine (shapeCast_1a_a_apply _ _ f).trans ?_
  exact extractStridedSlice_apply _ _ _ (ix2 0 f) (ix2 2 f) (fun a => by
    match a with
    | ⟨0, _⟩ => rfl
    | ⟨1, _⟩ => simp)

end Cert.KernelIdeal.Frm

end
-- ==== Proof.KiEdgeDot.lean ====
/- The edge kernel's arithmetic at an index, at the exact instance (a float is an extended real, every operation the
   textbook one). The kernel multiplies a block of 5120 rows by a 128x128 matrix into a zero accumulator and adds a
   bias row broadcast down the rows. Read at row `p`, column `q`:
     * the product is the plain sum over the contracted axis, Σ_d A[p,d]·B[d,q] (`edge_matmul_at`);
     * the broadcast row is the bias at column `q` (`edge_bias_at`).
   Then the two whole-array functions the edge regions compute, index by index (`edgeMsg`, `edgeRel`): for row `e` and
   column `f`, (Σ_d (xg[e,d]·ea[e,d])·w[d,f]) + b[0,f] and (Σ_d ea[e,d]·w[d,f]) + b[0,f]. These mention no region: the
   three edge regions of the program compute the same two functions of their six arrays. -/
import proofs.«156566_j1202590843053_1_alg».proof.Proof.Gen.KernelIdeal
import Idealize.ShloMosaic.PureOps.Ideal.Laws
import Idealize.ShloMosaic.Lib.ValueIdx
import Idealize.ShloMosaic.Lib.Pipeline.Value

set_option maxRecDepth 16384

noncomputable section

namespace Cert.KernelIdeal.Frm

open Cert.KernelIdeal Cert.KernelIdeal.Gen
open Idealize.ShloMosaic Idealize.ShloMosaic.ValueIdx

/-- The product's dimension record: the left operand's axis 1 is contracted with the right operand's axis 0. -/
abbrev edgeDot : DotDims S5120x128 S128x128 S5120x128 := dot_S5120x128_S128x128_S5120x128_1_0_0_1_n_n

/-! ## The operand indices of the product at an output index and a contraction index -/

theorem edgeDot_lhs0 (i : S5120x128.Idx) (k : edgeDot.contr.Idx) : (edgeDot.lhsIdx i k 0).val = (i 0).val := by
  unfold DotDims.lhsIdx
  rw [dif_neg (show ¬(0 : Fin S5120x128.rank) ∈ edgeDot.lhsBatch by decide), dif_pos (show (0 : Fin S5120x128.rank) ∈ edgeDot.lhsNonContracting by decide)]
  rfl
theorem edgeDot_lhs1 (i : S5120x128.Idx) (k : edgeDot.contr.Idx) : (edgeDot.lhsIdx i k 1).val = (k ⟨0, by decide⟩).val :=
  edgeDot.lhsIdx_val_of_single rfl i k
theorem edgeDot_rhs0 (i : S5120x128.Idx) (k : edgeDot.contr.Idx) : (edgeDot.rhsIdx i k 0).val = (k ⟨0, by decide⟩).val :=
  edgeDot.rhsIdx_val_of_single rfl i k
theorem edgeDot_rhs1 (i : S5120x128.Idx) (k : edgeDot.contr.Idx) : (edgeDot.rhsIdx i k 1).val = (i 1).val := by
  unfold DotDims.rhsIdx
  rw [dif_neg (show ¬(1 : Fin S128x128.rank) ∈ edgeDot.rhsBatch by decide), dif_pos (show (1 : Fin S128x128.rank) ∈ edgeDot.rhsNonContracting by decide)]
  rfl

/-! ## The product and the bias at an index -/

/-- The product into the zero accumulator, at row `p` and column `q`: the sum over the contracted axis. -/
theorem edge_matmul_at {φ₁ φ₂ : FTy} (A : FVec Ideal S5120x128 φ₁) (B : FVec Ideal S128x128 φ₂) (p : Fin 5120) (q : Fin 128) :
    FloatOps.matmul edgeDot none A B (constant (F := Ideal) S5120x128 .f32 0x00000000#32) (ix2 p q)
      = ∑ d : Fin 128, A (ix2 p d) * B (ix2 d q) := by
  refine (Ideal.matmul_constant_zero_apply edgeDot none A B (ix2 p q)).trans ?_
  rw [← Equiv.sum_comp (contrEquiv1 edgeDot 128 rfl rfl).symm]
  refine Finset.sum_congr rfl fun k _ => ?_
  have hk := contrEquiv1_symm_val edgeDot 128 rfl rfl k
  have el : edgeDot.lhsIdx (ix2 p q) ((contrEquiv1 edgeDot 128 rfl rfl).symm k) = ix2 p k := funext fun a => Fin.ext (by
    match a with
    | ⟨0, _⟩ => exact edgeDot_lhs0 _ _
    | ⟨1, _⟩ => exact (edgeDot_lhs1 _ _).trans hk)
  have er : edgeDot.rhsIdx (ix2 p q) ((contrEquiv1 edgeDot 128 rfl rfl).symm k) = ix2 k q := funext fun a => Fin.ext (by
    match a with
    | ⟨0, _⟩ => exact (edgeDot_rhs0 _ _).trans hk
    | ⟨1, _⟩ => exact edgeDot_rhs1 _ _)
  rw [el, er]

/-- The bias row broadcast down the 5120 rows, at row `p` and column `q`: the bias at column `q`. -/
theorem edge_bias_at (b : FVec Ideal S1x128 .f32) (p : Fin 5120) (q : Fin 128) :
    broadcastTo S5120x128 b broadcasts_S1x128_S5120x128 (ix2 p q) = b (ix2 0 q) :=
  broadcastTo_apply b broadcasts_S1x128_S5120x128 (ix2 p q) (ix2 0 q) (fun a => by
    match a with
    | ⟨0, _⟩ => rfl
    | ⟨1, _⟩ => rfl)

/-! ## The two whole-array functions of an edge region -/

/-- The message array: at edge `e`, channel `f`, (Σ_d (xg[e,d]·ea[e,d])·w[d,f]) + b[0,f]. -/
def edgeMsg (xg ea : S640000x128.Idx → EReal) (w : S128x128.Idx → EReal) (b : S1x128.Idx → EReal) : S640000x128.Idx → EReal :=
  fun i => (∑ d : Fin 128, (xg (ix2 (i 0) d) * ea (ix2 (i 0) d)) * w (ix2 d (i 1))) + b (ix2 0 (i 1))

/-- The new edge attributes: at edge `e`, channel `f`, (Σ_d ea[e,d]·w[d,f]) + b[0,f]. -/
def edgeRel (ea : S640000x128.Idx → EReal) (w : S128x128.Idx → EReal) (b : S1x128.Idx → EReal) : S640000x128.Idx → EReal :=
  fun i => (∑ d : Fin 128, ea (ix2 (i 0) d) * w (ix2 d (i 1))) + b (ix2 0 (i 1))

end Cert.KernelIdeal.Frm

end
-- ==== Proof.KiEdgeValue.lean ====
/- THE VALUE of edge region 0 at the exact instance (a float is an extended real, every operation the textbook
   one, a change of float format the identity). The body's two stored values at an index are the message sum and
   the new-attribute sum of the blocks it loaded (`pay0_msg_at`, `pay0_rel_at`); each output window tiles its
   640000x128 array by 125 blocks of 5120 rows, every block written back, so after the region each output array is
   ONE function of the region-entry arrays, index by index (`final0_6`, `final0_7`). -/
import proofs.«156566_j1202590843053_1_alg».proof.Proof.KiEdge0
import proofs.«156566_j1202590843053_1_alg».proof.Proof.KiEdgeDot

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.ShloMosaic.Pipeline (Dat Cfg Window)

/-! ## The body's stored values at an index -/

/-- The first stored value at row `p`, column `q` of the block: (Σ_d (x0[p,d]·x1[p,d])·x2[d,q]) + x3[0,q]. The casts to
    the same shape and the changes of format are the identity; the product into the zero accumulator is the plain
    sum; the bias row is broadcast down the rows. -/
theorem pay0_msg_at (x0 x1 : Vec Ideal S5120x128 .f32) (x2 : Vec Ideal S128x128 .f32) (x3 : Vec Ideal S1x128 .f32)
    (p : Fin 5120) (q : Fin 128) :
    k0_pay1 (F := Ideal) x0 x1 x2 x3 (ix2 p q)
      = (∑ d : Fin 128, (x0 (ix2 p d) * x1 (ix2 p d)) * x2 (ix2 d q)) + x3 (ix2 0 q) := by
  unfold k0_pay1
  rw [shapeCast_self, shapeCast_self, shapeCast_self]
  exact congrArg₂ (· + ·) (edge_matmul_at _ _ p q) (edge_bias_at x3 p q)

/-- The second stored value at row `p`, column `q` of the block: (Σ_d x1[p,d]·x4[d,q]) + x5[0,q]. -/
theorem pay0_rel_at (x1 : Vec Ideal S5120x128 .f32) (x4 : Vec Ideal S128x128 .f32) (x5 : Vec Ideal S1x128 .f32)
    (p : Fin 5120) (q : Fin 128) :
    k0_pay2 (F := Ideal) x1 x4 x5 (ix2 p q)
      = (∑ d : Fin 128, x1 (ix2 p d) * x4 (ix2 d q)) + x5 (ix2 0 q) := by
  unfold k0_pay2
  rw [shapeCast_self, shapeCast_self]
  exact congrArg₂ (· + ·) (edge_matmul_at _ _ p q) (edge_bias_at x5 p q)

/-- The first stored value against the whole-array function: when the loaded blocks are rows of the arrays `xg`, `ea`
    (row `p` of the block being row `e` of the array) and the whole matrix and bias row, the value at row `p`, column `q`
    is the message array at row `e`, column `q`. -/
theorem pay0_msg_block (xg ea : S640000x128.Idx → EReal) (w : S128x128.Idx → EReal) (b : S1x128.Idx → EReal)
    (x0 x1 : Vec Ideal S5120x128 .f32) (x2 : Vec Ideal S128x128 .f32) (x3 : Vec Ideal S1x128 .f32)
    (e : Fin 640000) (p : Fin 5120) (q : Fin 128)
    (h0 : ∀ d : Fin 128, x0 (ix2 p d) = xg (ix2 e d)) (h1 : ∀ d : Fin 128, x1 (ix2 p d) = ea (ix2 e d))
    (h2 : ∀ d : Fin 128, x2 (ix2 d q) = w (ix2 d q)) (h3 : x3 (ix2 0 q) = b (ix2 0 q)) :
    k0_pay1 (F := Ideal) x0 x1 x2 x3 (ix2 p q) = edgeMsg xg ea w b (ix2 e q) := by
  refine (pay0_msg_at x0 x1 x2 x3 p q).trans ?_
  show _ = (∑ d : Fin 128, (xg (ix2 e d) * ea (ix2 e d)) * w (ix2 d q)) + b (ix2 0 q)
  rw [h3]
  exact congrArg (· + b (ix2 0 q)) (Finset.sum_congr rfl fun d _ => by rw [h0 d, h1 d, h2 d])

/-- The second stored value against the whole-array function, likewise. -/
theorem pay0_rel_block (ea : S640000x128.Idx → EReal) (w : S128x128.Idx → EReal) (b : S1x128.Idx → EReal)
    (x1 : Vec Ideal S5120x128 .f32) (x4 : Vec Ideal S128x128 .f32) (x5 : Vec Ideal S1x128 .f32)
    (e : Fin 640000) (p : Fin 5120) (q : Fin 128)
    (h1 : ∀ d : Fin 128, x1 (ix2 p d) = ea (ix2 e d))
    (h4 : ∀ d : Fin 128, x4 (ix2 d q) = w (ix2 d q)) (h5 : x5 (ix2 0 q) = b (ix2 0 q)) :
    k0_pay2 (F := Ideal) x1 x4 x5 (ix2 p q) = edgeRel ea w b (ix2 e q) := by
  refine (pay0_rel_at x1 x4 x5 p q).trans ?_
  show _ = (∑ d : Fin 128, ea (ix2 e d) * w (ix2 d q)) + b (ix2 0 q)
  rw [h5]
  exact congrArg (· + b (ix2 0 q)) (Finset.sum_congr rfl fun d _ => by rw [h1 d, h4 d])

/-! ## From blocks to the arrays -/

-- the TensorCore's buffer contents when the region is entered, at the exact instance
variable (V : (c : Dev nD) → (b : Ref sig .tc) → Buf (Elt Ideal) ((c : Thread nD τ).loc b))

theorem hz0 : (![0, 0] : Fin 2 → Nat) = fun _ => 0 := funext fun a => by fin_cases a <;> rfl

/-- The message array region 0 computes, of the region-entry arrays of windows 0, 1, 2, 3. -/
abbrev G0_6 (c : Dev nD) : S640000x128.Idx → EReal :=
  edgeMsg (V c (Pipeline.arrRef spec0 0)) (V c (Pipeline.arrRef spec0 1)) (V c (Pipeline.arrRef spec0 2)) (V c (Pipeline.arrRef spec0 3))
/-- The new edge attributes region 0 computes, of the region-entry arrays of windows 1, 4, 5. -/
abbrev G0_7 (c : Dev nD) : S640000x128.Idx → EReal :=
  edgeRel (V c (Pipeline.arrRef spec0 1)) (V c (Pipeline.arrRef spec0 4)) (V c (Pipeline.arrRef spec0 5))

/-- The printed index maps, decided over the grid: the two long inputs and the two outputs move together down the
    rows, one block of 5120 rows per point; the matrices and the bias rows stay at block 0. -/
theorem idx_facts0 : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_7.index t (0 : Fin 2) = win0_6.index t (0 : Fin 2)
    ∧ win0_7.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (1 : Fin 2) = 0
    ∧ win0_6.index t (0 : Fin 2) ≤ 124 :=
  (by decide +kernel : ∀ t : Fin grid0.N, _)

/-- Every one of the 125 row blocks is some point's, for both outputs. -/
theorem idx_onto0 : ∀ (q0 : Fin 125), ∃ t : Fin cfg0.N, win0_6.index t = ![q0.val, 0] ∧ win0_7.index t = ![q0.val, 0] :=
  (by decide +kernel : ∀ (q0 : Fin 125), ∃ t : Fin grid0.N, win0_6.index t = ![q0.val, 0] ∧ win0_7.index t = ![q0.val, 0])

set_option maxHeartbeats 1600000 in
/-- WHAT POINT `t` WRITES BACK of window 6 is block `t` of `G0_6`: the stored value at row `p`, column `q` of the block
    is the sum over the loaded blocks, each loaded block is its array read at rows 5120·t … 5120·t+5119 (the two long
    inputs) or the whole array (the matrix and the bias row), and row `p` of block `t` is row 5120·t+p of the array. -/
theorem flushed0_6_eq (c : Dev nD) (t : Fin cfg0.N) :
    (dat0 V c).flushed 6 t = ((cfg0.win 6).blk t).view.read (Elt Ideal) (G0_6 V c) := by
  show (cfg0.win 6).cut (grid0.coords t) ((dat0 V c).after 6 t) = _
  rw [after0_6]
  unfold out0_6
  rw [View.canon_unit_zero hz0]
  simp only [View.ld_unit_zero (S := S5120x128) hz0, View.ld_unit_zero (S := S128x128) hz0, View.ld_unit_zero (S := S1x128) hz0]
  obtain ⟨f0, f1, f2, f3, f4, f5, f6, f7, f8, f9, f10, f11, f12, f13, f14, f15⟩ := idx_facts0 t
  funext j
  obtain ⟨p, q, rfl⟩ : ∃ (p : Fin 5120) (q : Fin 128), j = ix2 p q := ⟨j 0, j 1, eq_ix2 j⟩
  have hp : p.val < 5120 := p.isLt
  have hq : q.val < 128 := q.isLt
  let e : Fin 640000 := ⟨win0_6.index t (0 : Fin 2) * 5120 + p.val, by omega⟩
  have hout : ((cfg0.win 6).blk t).view.emb (ix2 p q) = (ix2 e q : S640000x128.Idx) := by
    funext a; apply Fin.ext
    match a with
    | ⟨0, _⟩ => show win0_6.index t (0 : Fin 2) * 5120 + 1 * p.val = win0_6.index t (0 : Fin 2) * 5120 + p.val; omega
    | ⟨1, _⟩ => show win0_6.index t (1 : Fin 2) * 128 + 1 * q.val = q.val; omega
  show k0_pay1 (F := Ideal) (iblk0 V c 0 t) (iblk0 V c 1 t) (iblk0 V c 2 t) (iblk0 V c 3 t) (ix2 p q) = G0_6 V c (((cfg0.win 6).blk t).view.emb (ix2 p q))
  rw [hout]
  have h0 : ∀ d : Fin 128, ((cfg0.win 0).blk t).view.emb (ix2 p d) = (ix2 e d : S640000x128.Idx) := fun d => by
    funext a; apply Fin.ext
    match a with
    | ⟨0, _⟩ => show win0_0.index t (0 : Fin 2) * 5120 + 1 * p.val = win0_6.index t (0 : Fin 2) * 5120 + p.val; omega
    | ⟨1, _⟩ => show win0_0.index t (1 : Fin 2) * 128 + 1 * d.val = d.val; omega
  have h1 : ∀ d : Fin 128, ((cfg0.win 1).blk t).view.emb (ix2 p d) = (ix2 e d : S640000x128.Idx) := fun d => by
    funext a; apply Fin.ext
    match a with
    | ⟨0, _⟩ => show win0_1.index t (0 : Fin 2) * 5120 + 1 * p.val = win0_6.index t (0 : Fin 2) * 5120 + p.val; omega
    | ⟨1, _⟩ => show win0_1.index t (1 : Fin 2) * 128 + 1 * d.val = d.val; omega
  have h2 : ∀ d : Fin 128, ((cfg0.win 2).blk t).view.emb (ix2 d q) = (ix2 d q : S128x128.Idx) := fun d => by
    funext a; apply Fin.ext
    match a with
    | ⟨0, _⟩ => show win0_2.index t (0 : Fin 2) * 128 + 1 * d.val = d.val; omega
    | ⟨1, _⟩ => show win0_2.index t (1 : Fin 2) * 128 + 1 * q.val = q.val; omega
  have h3 : ((cfg0.win 3).blk t).view.emb (ix2 (0 : Fin 1) q) = (ix2 (0 : Fin 1) q : S1x128.Idx) := by
    funext a; apply Fin.ext
    match a with
    | ⟨0, _⟩ => show win0_3.index t (0 : Fin 2) * 1 + 1 * 0 = 0; omega
    | ⟨1, _⟩ => show win0_3.index t (1 : Fin 2) * 128 + 1 * q.val = q.val; omega
  exact pay0_msg_block (V c (Pipeline.arrRef spec0 0)) (V c (Pipeline.arrRef spec0 1)) (V c (Pipeline.arrRef spec0 2)) (V c (Pipeline.arrRef spec0 3)) (iblk0 V c 0 t) (iblk0 V c 1 t) (iblk0 V c 2 t) (iblk0 V c 3 t) e p q
    (fun d => congrArg (V c (Pipeline.arrRef spec0 0)) (h0 d)) (fun d => congrArg (V c (Pipeline.arrRef spec0 1)) (h1 d)) (fun d => congrArg (V c (Pipeline.arrRef spec0 2)) (h2 d)) (congrArg (V c (Pipeline.arrRef spec0 3)) h3)

/-- An index of the array is in point `t`'s block of window 6 iff each coordinate is in the block's range on its axis. -/
theorem mem_blk0_6 (t : Fin cfg0.N) (i : S640000x128.Idx) :
    i ∈ ((cfg0.win 6).blk t).view.set ↔ ∀ a : Fin 2, win0_6.index t a * S5120x128.size a ≤ (i a).val ∧ (i a).val < win0_6.index t a * S5120x128.size a + S5120x128.size a := by
  show i ∈ ((View.whole main_v30_0).slice (win0_6.rect t)).set ↔ _
  rw [View.set_slice_whole, Rect.mem_set_unit]
  exact Iff.rfl

/-- Every index of the array is in some written-back block of window 6: row `r` is in the block of point `r / 5120`. -/
theorem covered0_6 (i : S640000x128.Idx) :
    ∃ t : Fin cfg0.N, (cfg0.win 6).flush t = true ∧ i ∈ ((cfg0.win 6).blk t).view.set := by
  have hi0 : (i 0).val < 640000 := (i 0).isLt
  have hi1 : (i 1).val < 128 := (i 1).isLt
  obtain ⟨t, ht6, ht7⟩ := idx_onto0 ⟨(i 0).val / 5120, by omega⟩
  have q0 : win0_6.index t (0 : Fin 2) = (i 0).val / 5120 := congrFun ht6 0
  have q1 : win0_6.index t (1 : Fin 2) = 0 := congrFun ht6 1
  refine ⟨t, flush0_6 t, ?_⟩
  rw [mem_blk0_6]
  intro a
  match a with
  | ⟨0, _⟩ => show win0_6.index t (0 : Fin 2) * 5120 ≤ (i 0).val ∧ (i 0).val < win0_6.index t (0 : Fin 2) * 5120 + 5120; omega
  | ⟨1, _⟩ => show win0_6.index t (1 : Fin 2) * 128 ≤ (i 1).val ∧ (i 1).val < win0_6.index t (1 : Fin 2) * 128 + 128; omega

/-- THE ARRAY of window 6 after the region: one function of the region-entry arrays. -/
theorem final0_6 (c : Dev nD) : (dat0 V c).arrAt 6 cfg0.N = G0_6 V c :=
  (dat0 V c).arrAt_eq_of_cover 6 (G0_6 V c) (fun t _ => flushed0_6_eq V c t) (covered0_6)

set_option maxHeartbeats 1600000 in
/-- WHAT POINT `t` WRITES BACK of window 7 is block `t` of `G0_7`: the stored value at row `p`, column `q` of the block
    is the sum over the loaded blocks, each loaded block is its array read at rows 5120·t … 5120·t+5119 (the two long
    inputs) or the whole array (the matrix and the bias row), and row `p` of block `t` is row 5120·t+p of the array. -/
theorem flushed0_7_eq (c : Dev nD) (t : Fin cfg0.N) :
    (dat0 V c).flushed 7 t = ((cfg0.win 7).blk t).view.read (Elt Ideal) (G0_7 V c) := by
  show (cfg0.win 7).cut (grid0.coords t) ((dat0 V c).after 7 t) = _
  rw [after0_7]
  unfold out0_7
  rw [View.canon_unit_zero hz0]
  simp only [View.ld_unit_zero (S := S5120x128) hz0, View.ld_unit_zero (S := S128x128) hz0, View.ld_unit_zero (S := S1x128) hz0]
  obtain ⟨f0, f1, f2, f3, f4, f5, f6, f7, f8, f9, f10, f11, f12, f13, f14, f15⟩ := idx_facts0 t
  funext j
  obtain ⟨p, q, rfl⟩ : ∃ (p : Fin 5120) (q : Fin 128), j = ix2 p q := ⟨j 0, j 1, eq_ix2 j⟩
  have hp : p.val < 5120 := p.isLt
  have hq : q.val < 128 := q.isLt
  let e : Fin 640000 := ⟨win0_6.index t (0 : Fin 2) * 5120 + p.val, by omega⟩
  have hout : ((cfg0.win 7).blk t).view.emb (ix2 p q) = (ix2 e q : S640000x128.Idx) := by
    funext a; apply Fin.ext
    match a with
    | ⟨0, _⟩ => show win0_7.index t (0 : Fin 2) * 5120 + 1 * p.val = win0_6.index t (0 : Fin 2) * 5120 + p.val; omega
    | ⟨1, _⟩ => show win0_7.index t (1 : Fin 2) * 128 + 1 * q.val = q.val; omega
  show k0_pay2 (F := Ideal) (iblk0 V c 1 t) (iblk0 V c 4 t) (iblk0 V c 5 t) (ix2 p q) = G0_7 V c (((cfg0.win 7).blk t).view.emb (ix2 p q))
  rw [hout]
  have h1 : ∀ d : Fin 128, ((cfg0.win 1).blk t).view.emb (ix2 p d) = (ix2 e d : S640000x128.Idx) := fun d => by
    funext a; apply Fin.ext
    match a with
    | ⟨0, _⟩ => show win0_1.index t (0 : Fin 2) * 5120 + 1 * p.val = win0_6.index t (0 : Fin 2) * 5120 + p.val; omega
    | ⟨1, _⟩ => show win0_1.index t (1 : Fin 2) * 128 + 1 * d.val = d.val; omega
  have h4 : ∀ d : Fin 128, ((cfg0.win 4).blk t).view.emb (ix2 d q) = (ix2 d q : S128x128.Idx) := fun d => by
    funext a; apply Fin.ext
    match a with
    | ⟨0, _⟩ => show win0_4.index t (0 : Fin 2) * 128 + 1 * d.val = d.val; omega
    | ⟨1, _⟩ => show win0_4.index t (1 : Fin 2) * 128 + 1 * q.val = q.val; omega
  have h5 : ((cfg0.win 5).blk t).view.emb (ix2 (0 : Fin 1) q) = (ix2 (0 : Fin 1) q : S1x128.Idx) := by
    funext a; apply Fin.ext
    match a with
    | ⟨0, _⟩ => show win0_5.index t (0 : Fin 2) * 1 + 1 * 0 = 0; omega
    | ⟨1, _⟩ => show win0_5.index t (1 : Fin 2) * 128 + 1 * q.val = q.val; omega
  exact pay0_rel_block (V c (Pipeline.arrRef spec0 1)) (V c (Pipeline.arrRef spec0 4)) (V c (Pipeline.arrRef spec0 5)) (iblk0 V c 1 t) (iblk0 V c 4 t) (iblk0 V c 5 t) e p q
    (fun d => congrArg (V c (Pipeline.arrRef spec0 1)) (h1 d)) (fun d => congrArg (V c (Pipeline.arrRef spec0 4)) (h4 d)) (congrArg (V c (Pipeline.arrRef spec0 5)) h5)

/-- An index of the array is in point `t`'s block of window 7 iff each coordinate is in the block's range on its axis. -/
theorem mem_blk0_7 (t : Fin cfg0.N) (i : S640000x128.Idx) :
    i ∈ ((cfg0.win 7).blk t).view.set ↔ ∀ a : Fin 2, win0_7.index t a * S5120x128.size a ≤ (i a).val ∧ (i a).val < win0_7.index t a * S5120x128.size a + S5120x128.size a := by
  show i ∈ ((View.whole main_v30_1).slice (win0_7.rect t)).set ↔ _
  rw [View.set_slice_whole, Rect.mem_set_unit]
  exact Iff.rfl

/-- Every index of the array is in some written-back block of window 7: row `r` is in the block of point `r / 5120`. -/
theorem covered0_7 (i : S640000x128.Idx) :
    ∃ t : Fin cfg0.N, (cfg0.win 7).flush t = true ∧ i ∈ ((cfg0.win 7).blk t).view.set := by
  have hi0 : (i 0).val < 640000 := (i 0).isLt
  have hi1 : (i 1).val < 128 := (i 1).isLt
  obtain ⟨t, ht6, ht7⟩ := idx_onto0 ⟨(i 0).val / 5120, by omega⟩
  have q0 : win0_7.index t (0 : Fin 2) = (i 0).val / 5120 := congrFun ht7 0
  have q1 : win0_7.index t (1 : Fin 2) = 0 := congrFun ht7 1
  refine ⟨t, flush0_7 t, ?_⟩
  rw [mem_blk0_7]
  intro a
  match a with
  | ⟨0, _⟩ => show win0_7.index t (0 : Fin 2) * 5120 ≤ (i 0).val ∧ (i 0).val < win0_7.index t (0 : Fin 2) * 5120 + 5120; omega
  | ⟨1, _⟩ => show win0_7.index t (1 : Fin 2) * 128 ≤ (i 1).val ∧ (i 1).val < win0_7.index t (1 : Fin 2) * 128 + 128; omega

/-- THE ARRAY of window 7 after the region: one function of the region-entry arrays. -/
theorem final0_7 (c : Dev nD) : (dat0 V c).arrAt 7 cfg0.N = G0_7 V c :=
  (dat0 V c).arrAt_eq_of_cover 7 (G0_7 V c) (fun t _ => flushed0_7_eq V c t) (covered0_7)

end Cert.KernelIdeal.Frm

end
-- ==== Proof.KiEdgeValue3.lean ====
/- THE VALUE of edge region 3 at the exact instance (a float is an extended real, every operation the textbook
   one, a change of float format the identity). The body's two stored values at an index are the message sum and
   the new-attribute sum of the blocks it loaded (`pay3_msg_at`, `pay3_rel_at`); each output window tiles its
   640000x128 array by 125 blocks of 5120 rows, every block written back, so after the region each output array is
   ONE function of the region-entry arrays, index by index (`final3_6`, `final3_7`). -/
import proofs.«156566_j1202590843053_1_alg».proof.Proof.KiEdge3
import proofs.«156566_j1202590843053_1_alg».proof.Proof.KiEdgeDot

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.ShloMosaic.Pipeline (Dat Cfg Window)

/-! ## The body's stored values at an index -/

/-- The first stored value at row `p`, column `q` of the block: (Σ_d (x0[p,d]·x1[p,d])·x2[d,q]) + x3[0,q]. The casts to
    the same shape and the changes of format are the identity; the product into the zero accumulator is the plain
    sum; the bias row is broadcast down the rows. -/
theorem pay3_msg_at (x0 x1 : Vec Ideal S5120x128 .f32) (x2 : Vec Ideal S128x128 .f32) (x3 : Vec Ideal S1x128 .f32)
    (p : Fin 5120) (q : Fin 128) :
    k3_pay2 (F := Ideal) x0 x1 x2 x3 (ix2 p q)
      = (∑ d : Fin 128, (x0 (ix2 p d) * x1 (ix2 p d)) * x2 (ix2 d q)) + x3 (ix2 0 q) := by
  unfold k3_pay2 k3_pay1
  rw [shapeCast_self, shapeCast_self, shapeCast_self, shapeCast_self]
  exact congrArg₂ (· + ·) (edge_matmul_at _ _ p q) (edge_bias_at x3 p q)

/-- The second stored value at row `p`, column `q` of the block: (Σ_d x1[p,d]·x4[d,q]) + x5[0,q]. -/
theorem pay3_rel_at (x1 : Vec Ideal S5120x128 .f32) (x4 : Vec Ideal S128x128 .f32) (x5 : Vec Ideal S1x128 .f32)
    (p : Fin 5120) (q : Fin 128) :
    k3_pay3 (F := Ideal) x1 x4 x5 (ix2 p q)
      = (∑ d : Fin 128, x1 (ix2 p d) * x4 (ix2 d q)) + x5 (ix2 0 q) := by
  unfold k3_pay3 k3_pay1
  rw [shapeCast_self, shapeCast_self, shapeCast_self]
  exact congrArg₂ (· + ·) (edge_matmul_at _ _ p q) (edge_bias_at x5 p q)

/-- The first stored value against the whole-array function: when the loaded blocks are rows of the arrays `xg`, `ea`
    (row `p` of the block being row `e` of the array) and the whole matrix and bias row, the value at row `p`, column `q`
    is the message array at row `e`, column `q`. -/
theorem pay3_msg_block (xg ea : S640000x128.Idx → EReal) (w : S128x128.Idx → EReal) (b : S1x128.Idx → EReal)
    (x0 x1 : Vec Ideal S5120x128 .f32) (x2 : Vec Ideal S128x128 .f32) (x3 : Vec Ideal S1x128 .f32)
    (e : Fin 640000) (p : Fin 5120) (q : Fin 128)
    (h0 : ∀ d : Fin 128, x0 (ix2 p d) = xg (ix2 e d)) (h1 : ∀ d : Fin 128, x1 (ix2 p d) = ea (ix2 e d))
    (h2 : ∀ d : Fin 128, x2 (ix2 d q) = w (ix2 d q)) (h3 : x3 (ix2 0 q) = b (ix2 0 q)) :
    k3_pay2 (F := Ideal) x0 x1 x2 x3 (ix2 p q) = edgeMsg xg ea w b (ix2 e q) := by
  refine (pay3_msg_at x0 x1 x2 x3 p q).trans ?_
  show _ = (∑ d : Fin 128, (xg (ix2 e d) * ea (ix2 e d)) * w (ix2 d q)) + b (ix2 0 q)
  rw [h3]
  exact congrArg (· + b (ix2 0 q)) (Finset.sum_congr rfl fun d _ => by rw [h0 d, h1 d, h2 d])

/-- The second stored value against the whole-array function, likewise. -/
theorem pay3_rel_block (ea : S640000x128.Idx → EReal) (w : S128x128.Idx → EReal) (b : S1x128.Idx → EReal)
    (x1 : Vec Ideal S5120x128 .f32) (x4 : Vec Ideal S128x128 .f32) (x5 : Vec Ideal S1x128 .f32)
    (e : Fin 640000) (p : Fin 5120) (q : Fin 128)
    (h1 : ∀ d : Fin 128, x1 (ix2 p d) = ea (ix2 e d))
    (h4 : ∀ d : Fin 128, x4 (ix2 d q) = w (ix2 d q)) (h5 : x5 (ix2 0 q) = b (ix2 0 q)) :
    k3_pay3 (F := Ideal) x1 x4 x5 (ix2 p q) = edgeRel ea w b (ix2 e q) := by
  refine (pay3_rel_at x1 x4 x5 p q).trans ?_
  show _ = (∑ d : Fin 128, ea (ix2 e d) * w (ix2 d q)) + b (ix2 0 q)
  rw [h5]
  exact congrArg (· + b (ix2 0 q)) (Finset.sum_congr rfl fun d _ => by rw [h1 d, h4 d])

/-! ## From blocks to the arrays -/

-- the TensorCore's buffer contents when the region is entered, at the exact instance
variable (V : (c : Dev nD) → (b : Ref sig .tc) → Buf (Elt Ideal) ((c : Thread nD τ).loc b))

theorem hz3 : (![0, 0] : Fin 2 → Nat) = fun _ => 0 := funext fun a => by fin_cases a <;> rfl

/-- The message array region 3 computes, of the region-entry arrays of windows 0, 1, 2, 3. -/
abbrev G3_6 (c : Dev nD) : S640000x128.Idx → EReal :=
  edgeMsg (V c (Pipeline.arrRef spec3 0)) (V c (Pipeline.arrRef spec3 1)) (V c (Pipeline.arrRef spec3 2)) (V c (Pipeline.arrRef spec3 3))
/-- The new edge attributes region 3 computes, of the region-entry arrays of windows 1, 4, 5. -/
abbrev G3_7 (c : Dev nD) : S640000x128.Idx → EReal :=
  edgeRel (V c (Pipeline.arrRef spec3 1)) (V c (Pipeline.arrRef spec3 4)) (V c (Pipeline.arrRef spec3 5))

/-- The printed index maps, decided over the grid: the two long inputs and the two outputs move together down the
    rows, one block of 5120 rows per point; the matrices and the bias rows stay at block 0. -/
theorem idx_facts3 : ∀ t : Fin cfg3.N, win3_0.index t (0 : Fin 2) = win3_6.index t (0 : Fin 2)
    ∧ win3_0.index t (1 : Fin 2) = 0
    ∧ win3_1.index t (0 : Fin 2) = win3_6.index t (0 : Fin 2)
    ∧ win3_1.index t (1 : Fin 2) = 0
    ∧ win3_7.index t (0 : Fin 2) = win3_6.index t (0 : Fin 2)
    ∧ win3_7.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (1 : Fin 2) = 0
    ∧ win3_6.index t (0 : Fin 2) ≤ 124 :=
  (by decide +kernel : ∀ t : Fin grid3.N, _)

/-- Every one of the 125 row blocks is some point's, for both outputs. -/
theorem idx_onto3 : ∀ (q0 : Fin 125), ∃ t : Fin cfg3.N, win3_6.index t = ![q0.val, 0] ∧ win3_7.index t = ![q0.val, 0] :=
  (by decide +kernel : ∀ (q0 : Fin 125), ∃ t : Fin grid3.N, win3_6.index t = ![q0.val, 0] ∧ win3_7.index t = ![q0.val, 0])

set_option maxHeartbeats 1600000 in
/-- WHAT POINT `t` WRITES BACK of window 6 is block `t` of `G3_6`: the stored value at row `p`, column `q` of the block
    is the sum over the loaded blocks, each loaded block is its array read at rows 5120·t … 5120·t+5119 (the two long
    inputs) or the whole array (the matrix and the bias row), and row `p` of block `t` is row 5120·t+p of the array. -/
theorem flushed3_6_eq (c : Dev nD) (t : Fin cfg3.N) :
    (dat3 V c).flushed 6 t = ((cfg3.win 6).blk t).view.read (Elt Ideal) (G3_6 V c) := by
  show (cfg3.win 6).cut (grid3.coords t) ((dat3 V c).after 6 t) = _
  rw [after3_6]
  unfold out3_6
  rw [View.canon_unit_zero hz3]
  simp only [View.ld_unit_zero (S := S5120x128) hz3, View.ld_unit_zero (S := S128x128) hz3, View.ld_unit_zero (S := S1x128) hz3]
  obtain ⟨f0, f1, f2, f3, f4, f5, f6, f7, f8, f9, f10, f11, f12, f13, f14, f15⟩ := idx_facts3 t
  funext j
  obtain ⟨p, q, rfl⟩ : ∃ (p : Fin 5120) (q : Fin 128), j = ix2 p q := ⟨j 0, j 1, eq_ix2 j⟩
  have hp : p.val < 5120 := p.isLt
  have hq : q.val < 128 := q.isLt
  let e : Fin 640000 := ⟨win3_6.index t (0 : Fin 2) * 5120 + p.val, by omega⟩
  have hout : ((cfg3.win 6).blk t).view.emb (ix2 p q) = (ix2 e q : S640000x128.Idx) := by
    funext a; apply Fin.ext
    match a with
    | ⟨0, _⟩ => show win3_6.index t (0 : Fin 2) * 5120 + 1 * p.val = win3_6.index t (0 : Fin 2) * 5120 + p.val; omega
    | ⟨1, _⟩ => show win3_6.index t (1 : Fin 2) * 128 + 1 * q.val = q.val; omega
  show k3_pay2 (F := Ideal) (iblk3 V c 0 t) (iblk3 V c 1 t) (iblk3 V c 2 t) (iblk3 V c 3 t) (ix2 p q) = G3_6 V c (((cfg3.win 6).blk t).view.emb (ix2 p q))
  rw [hout]
  have h0 : ∀ d : Fin 128, ((cfg3.win 0).blk t).view.emb (ix2 p d) = (ix2 e d : S640000x128.Idx) := fun d => by
    funext a; apply Fin.ext
    match a with
    | ⟨0, _⟩ => show win3_0.index t (0 : Fin 2) * 5120 + 1 * p.val = win3_6.index t (0 : Fin 2) * 5120 + p.val; omega
    | ⟨1, _⟩ => show win3_0.index t (1 : Fin 2) * 128 + 1 * d.val = d.val; omega
  have h1 : ∀ d : Fin 128, ((cfg3.win 1).blk t).view.emb (ix2 p d) = (ix2 e d : S640000x128.Idx) := fun d => by
    funext a; apply Fin.ext
    match a with
    | ⟨0, _⟩ => show win3_1.index t (0 : Fin 2) * 5120 + 1 * p.val = win3_6.index t (0 : Fin 2) * 5120 + p.val; omega
    | ⟨1, _⟩ => show win3_1.index t (1 : Fin 2) * 128 + 1 * d.val = d.val; omega
  have h2 : ∀ d : Fin 128, ((cfg3.win 2).blk t).view.emb (ix2 d q) = (ix2 d q : S128x128.Idx) := fun d => by
    funext a; apply Fin.ext
    match a with
    | ⟨0, _⟩ => show win3_2.index t (0 : Fin 2) * 128 + 1 * d.val = d.val; omega
    | ⟨1, _⟩ => show win3_2.index t (1 : Fin 2) * 128 + 1 * q.val = q.val; omega
  have h3 : ((cfg3.win 3).blk t).view.emb (ix2 (0 : Fin 1) q) = (ix2 (0 : Fin 1) q : S1x128.Idx) := by
    funext a; apply Fin.ext
    match a with
    | ⟨0, _⟩ => show win3_3.index t (0 : Fin 2) * 1 + 1 * 0 = 0; omega
    | ⟨1, _⟩ => show win3_3.index t (1 : Fin 2) * 128 + 1 * q.val = q.val; omega
  exact pay3_msg_block (V c (Pipeline.arrRef spec3 0)) (V c (Pipeline.arrRef spec3 1)) (V c (Pipeline.arrRef spec3 2)) (V c (Pipeline.arrRef spec3 3)) (iblk3 V c 0 t) (iblk3 V c 1 t) (iblk3 V c 2 t) (iblk3 V c 3 t) e p q
    (fun d => congrArg (V c (Pipeline.arrRef spec3 0)) (h0 d)) (fun d => congrArg (V c (Pipeline.arrRef spec3 1)) (h1 d)) (fun d => congrArg (V c (Pipeline.arrRef spec3 2)) (h2 d)) (congrArg (V c (Pipeline.arrRef spec3 3)) h3)

/-- An index of the array is in point `t`'s block of window 6 iff each coordinate is in the block's range on its axis. -/
theorem mem_blk3_6 (t : Fin cfg3.N) (i : S640000x128.Idx) :
    i ∈ ((cfg3.win 6).blk t).view.set ↔ ∀ a : Fin 2, win3_6.index t a * S5120x128.size a ≤ (i a).val ∧ (i a).val < win3_6.index t a * S5120x128.size a + S5120x128.size a := by
  show i ∈ ((View.whole main_v72_0).slice (win3_6.rect t)).set ↔ _
  rw [View.set_slice_whole, Rect.mem_set_unit]
  exact Iff.rfl

/-- Every index of the array is in some written-back block of window 6: row `r` is in the block of point `r / 5120`. -/
theorem covered3_6 (i : S640000x128.Idx) :
    ∃ t : Fin cfg3.N, (cfg3.win 6).flush t = true ∧ i ∈ ((cfg3.win 6).blk t).view.set := by
  have hi0 : (i 0).val < 640000 := (i 0).isLt
  have hi1 : (i 1).val < 128 := (i 1).isLt
  obtain ⟨t, ht6, ht7⟩ := idx_onto3 ⟨(i 0).val / 5120, by omega⟩
  have q0 : win3_6.index t (0 : Fin 2) = (i 0).val / 5120 := congrFun ht6 0
  have q1 : win3_6.index t (1 : Fin 2) = 0 := congrFun ht6 1
  refine ⟨t, flush3_6 t, ?_⟩
  rw [mem_blk3_6]
  intro a
  match a with
  | ⟨0, _⟩ => show win3_6.index t (0 : Fin 2) * 5120 ≤ (i 0).val ∧ (i 0).val < win3_6.index t (0 : Fin 2) * 5120 + 5120; omega
  | ⟨1, _⟩ => show win3_6.index t (1 : Fin 2) * 128 ≤ (i 1).val ∧ (i 1).val < win3_6.index t (1 : Fin 2) * 128 + 128; omega

/-- THE ARRAY of window 6 after the region: one function of the region-entry arrays. -/
theorem final3_6 (c : Dev nD) : (dat3 V c).arrAt 6 cfg3.N = G3_6 V c :=
  (dat3 V c).arrAt_eq_of_cover 6 (G3_6 V c) (fun t _ => flushed3_6_eq V c t) (covered3_6)

set_option maxHeartbeats 1600000 in
/-- WHAT POINT `t` WRITES BACK of window 7 is block `t` of `G3_7`: the stored value at row `p`, column `q` of the block
    is the sum over the loaded blocks, each loaded block is its array read at rows 5120·t … 5120·t+5119 (the two long
    inputs) or the whole array (the matrix and the bias row), and row `p` of block `t` is row 5120·t+p of the array. -/
theorem flushed3_7_eq (c : Dev nD) (t : Fin cfg3.N) :
    (dat3 V c).flushed 7 t = ((cfg3.win 7).blk t).view.read (Elt Ideal) (G3_7 V c) := by
  show (cfg3.win 7).cut (grid3.coords t) ((dat3 V c).after 7 t) = _
  rw [after3_7]
  unfold out3_7
  rw [View.canon_unit_zero hz3]
  simp only [View.ld_unit_zero (S := S5120x128) hz3, View.ld_unit_zero (S := S128x128) hz3, View.ld_unit_zero (S := S1x128) hz3]
  obtain ⟨f0, f1, f2, f3, f4, f5, f6, f7, f8, f9, f10, f11, f12, f13, f14, f15⟩ := idx_facts3 t
  funext j
  obtain ⟨p, q, rfl⟩ : ∃ (p : Fin 5120) (q : Fin 128), j = ix2 p q := ⟨j 0, j 1, eq_ix2 j⟩
  have hp : p.val < 5120 := p.isLt
  have hq : q.val < 128 := q.isLt
  let e : Fin 640000 := ⟨win3_6.index t (0 : Fin 2) * 5120 + p.val, by omega⟩
  have hout : ((cfg3.win 7).blk t).view.emb (ix2 p q) = (ix2 e q : S640000x128.Idx) := by
    funext a; apply Fin.ext
    match a with
    | ⟨0, _⟩ => show win3_7.index t (0 : Fin 2) * 5120 + 1 * p.val = win3_6.index t (0 : Fin 2) * 5120 + p.val; omega
    | ⟨1, _⟩ => show win3_7.index t (1 : Fin 2) * 128 + 1 * q.val = q.val; omega
  show k3_pay3 (F := Ideal) (iblk3 V c 1 t) (iblk3 V c 4 t) (iblk3 V c 5 t) (ix2 p q) = G3_7 V c (((cfg3.win 7).blk t).view.emb (ix2 p q))
  rw [hout]
  have h1 : ∀ d : Fin 128, ((cfg3.win 1).blk t).view.emb (ix2 p d) = (ix2 e d : S640000x128.Idx) := fun d => by
    funext a; apply Fin.ext
    match a with
    | ⟨0, _⟩ => show win3_1.index t (0 : Fin 2) * 5120 + 1 * p.val = win3_6.index t (0 : Fin 2) * 5120 + p.val; omega
    | ⟨1, _⟩ => show win3_1.index t (1 : Fin 2) * 128 + 1 * d.val = d.val; omega
  have h4 : ∀ d : Fin 128, ((cfg3.win 4).blk t).view.emb (ix2 d q) = (ix2 d q : S128x128.Idx) := fun d => by
    funext a; apply Fin.ext
    match a with
    | ⟨0, _⟩ => show win3_4.index t (0 : Fin 2) * 128 + 1 * d.val = d.val; omega
    | ⟨1, _⟩ => show win3_4.index t (1 : Fin 2) * 128 + 1 * q.val = q.val; omega
  have h5 : ((cfg3.win 5).blk t).view.emb (ix2 (0 : Fin 1) q) = (ix2 (0 : Fin 1) q : S1x128.Idx) := by
    funext a; apply Fin.ext
    match a with
    | ⟨0, _⟩ => show win3_5.index t (0 : Fin 2) * 1 + 1 * 0 = 0; omega
    | ⟨1, _⟩ => show win3_5.index t (1 : Fin 2) * 128 + 1 * q.val = q.val; omega
  exact pay3_rel_block (V c (Pipeline.arrRef spec3 1)) (V c (Pipeline.arrRef spec3 4)) (V c (Pipeline.arrRef spec3 5)) (iblk3 V c 1 t) (iblk3 V c 4 t) (iblk3 V c 5 t) e p q
    (fun d => congrArg (V c (Pipeline.arrRef spec3 1)) (h1 d)) (fun d => congrArg (V c (Pipeline.arrRef spec3 4)) (h4 d)) (congrArg (V c (Pipeline.arrRef spec3 5)) h5)

/-- An index of the array is in point `t`'s block of window 7 iff each coordinate is in the block's range on its axis. -/
theorem mem_blk3_7 (t : Fin cfg3.N) (i : S640000x128.Idx) :
    i ∈ ((cfg3.win 7).blk t).view.set ↔ ∀ a : Fin 2, win3_7.index t a * S5120x128.size a ≤ (i a).val ∧ (i a).val < win3_7.index t a * S5120x128.size a + S5120x128.size a := by
  show i ∈ ((View.whole main_v72_1).slice (win3_7.rect t)).set ↔ _
  rw [View.set_slice_whole, Rect.mem_set_unit]
  exact Iff.rfl

/-- Every index of the array is in some written-back block of window 7: row `r` is in the block of point `r / 5120`. -/
theorem covered3_7 (i : S640000x128.Idx) :
    ∃ t : Fin cfg3.N, (cfg3.win 7).flush t = true ∧ i ∈ ((cfg3.win 7).blk t).view.set := by
  have hi0 : (i 0).val < 640000 := (i 0).isLt
  have hi1 : (i 1).val < 128 := (i 1).isLt
  obtain ⟨t, ht6, ht7⟩ := idx_onto3 ⟨(i 0).val / 5120, by omega⟩
  have q0 : win3_7.index t (0 : Fin 2) = (i 0).val / 5120 := congrFun ht7 0
  have q1 : win3_7.index t (1 : Fin 2) = 0 := congrFun ht7 1
  refine ⟨t, flush3_7 t, ?_⟩
  rw [mem_blk3_7]
  intro a
  match a with
  | ⟨0, _⟩ => show win3_7.index t (0 : Fin 2) * 5120 ≤ (i 0).val ∧ (i 0).val < win3_7.index t (0 : Fin 2) * 5120 + 5120; omega
  | ⟨1, _⟩ => show win3_7.index t (1 : Fin 2) * 128 ≤ (i 1).val ∧ (i 1).val < win3_7.index t (1 : Fin 2) * 128 + 128; omega

/-- THE ARRAY of window 7 after the region: one function of the region-entry arrays. -/
theorem final3_7 (c : Dev nD) : (dat3 V c).arrAt 7 cfg3.N = G3_7 V c :=
  (dat3 V c).arrAt_eq_of_cover 7 (G3_7 V c) (fun t _ => flushed3_7_eq V c t) (covered3_7)

end Cert.KernelIdeal.Frm

end
-- ==== Proof.KiEdgeValue6.lean ====
/- THE VALUE of edge region 6 at the exact instance (a float is an extended real, every operation the textbook
   one, a change of float format the identity). The body's two stored values at an index are the message sum and
   the new-attribute sum of the blocks it loaded (`pay6_msg_at`, `pay6_rel_at`); each output window tiles its
   640000x128 array by 125 blocks of 5120 rows, every block written back, so after the region each output array is
   ONE function of the region-entry arrays, index by index (`final6_6`, `final6_7`). -/
import proofs.«156566_j1202590843053_1_alg».proof.Proof.KiEdge6
import proofs.«156566_j1202590843053_1_alg».proof.Proof.KiEdgeDot

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.ShloMosaic.Pipeline (Dat Cfg Window)

/-! ## The body's stored values at an index -/

/-- The first stored value at row `p`, column `q` of the block: (Σ_d (x0[p,d]·x1[p,d])·x2[d,q]) + x3[0,q]. The casts to
    the same shape and the changes of format are the identity; the product into the zero accumulator is the plain
    sum; the bias row is broadcast down the rows. -/
theorem pay6_msg_at (x0 x1 : Vec Ideal S5120x128 .f32) (x2 : Vec Ideal S128x128 .f32) (x3 : Vec Ideal S1x128 .f32)
    (p : Fin 5120) (q : Fin 128) :
    k6_pay2 (F := Ideal) x0 x1 x2 x3 (ix2 p q)
      = (∑ d : Fin 128, (x0 (ix2 p d) * x1 (ix2 p d)) * x2 (ix2 d q)) + x3 (ix2 0 q) := by
  unfold k6_pay2 k6_pay1
  rw [shapeCast_self, shapeCast_self, shapeCast_self, shapeCast_self]
  exact congrArg₂ (· + ·) (edge_matmul_at _ _ p q) (edge_bias_at x3 p q)

/-- The second stored value at row `p`, column `q` of the block: (Σ_d x1[p,d]·x4[d,q]) + x5[0,q]. -/
theorem pay6_rel_at (x1 : Vec Ideal S5120x128 .f32) (x4 : Vec Ideal S128x128 .f32) (x5 : Vec Ideal S1x128 .f32)
    (p : Fin 5120) (q : Fin 128) :
    k6_pay3 (F := Ideal) x1 x4 x5 (ix2 p q)
      = (∑ d : Fin 128, x1 (ix2 p d) * x4 (ix2 d q)) + x5 (ix2 0 q) := by
  unfold k6_pay3 k6_pay1
  rw [shapeCast_self, shapeCast_self, shapeCast_self]
  exact congrArg₂ (· + ·) (edge_matmul_at _ _ p q) (edge_bias_at x5 p q)

/-- The first stored value against the whole-array function: when the loaded blocks are rows of the arrays `xg`, `ea`
    (row `p` of the block being row `e` of the array) and the whole matrix and bias row, the value at row `p`, column `q`
    is the message array at row `e`, column `q`. -/
theorem pay6_msg_block (xg ea : S640000x128.Idx → EReal) (w : S128x128.Idx → EReal) (b : S1x128.Idx → EReal)
    (x0 x1 : Vec Ideal S5120x128 .f32) (x2 : Vec Ideal S128x128 .f32) (x3 : Vec Ideal S1x128 .f32)
    (e : Fin 640000) (p : Fin 5120) (q : Fin 128)
    (h0 : ∀ d : Fin 128, x0 (ix2 p d) = xg (ix2 e d)) (h1 : ∀ d : Fin 128, x1 (ix2 p d) = ea (ix2 e d))
    (h2 : ∀ d : Fin 128, x2 (ix2 d q) = w (ix2 d q)) (h3 : x3 (ix2 0 q) = b (ix2 0 q)) :
    k6_pay2 (F := Ideal) x0 x1 x2 x3 (ix2 p q) = edgeMsg xg ea w b (ix2 e q) := by
  refine (pay6_msg_at x0 x1 x2 x3 p q).trans ?_
  show _ = (∑ d : Fin 128, (xg (ix2 e d) * ea (ix2 e d)) * w (ix2 d q)) + b (ix2 0 q)
  rw [h3]
  exact congrArg (· + b (ix2 0 q)) (Finset.sum_congr rfl fun d _ => by rw [h0 d, h1 d, h2 d])

/-- The second stored value against the whole-array function, likewise. -/
theorem pay6_rel_block (ea : S640000x128.Idx → EReal) (w : S128x128.Idx → EReal) (b : S1x128.Idx → EReal)
    (x1 : Vec Ideal S5120x128 .f32) (x4 : Vec Ideal S128x128 .f32) (x5 : Vec Ideal S1x128 .f32)
    (e : Fin 640000) (p : Fin 5120) (q : Fin 128)
    (h1 : ∀ d : Fin 128, x1 (ix2 p d) = ea (ix2 e d))
    (h4 : ∀ d : Fin 128, x4 (ix2 d q) = w (ix2 d q)) (h5 : x5 (ix2 0 q) = b (ix2 0 q)) :
    k6_pay3 (F := Ideal) x1 x4 x5 (ix2 p q) = edgeRel ea w b (ix2 e q) := by
  refine (pay6_rel_at x1 x4 x5 p q).trans ?_
  show _ = (∑ d : Fin 128, ea (ix2 e d) * w (ix2 d q)) + b (ix2 0 q)
  rw [h5]
  exact congrArg (· + b (ix2 0 q)) (Finset.sum_congr rfl fun d _ => by rw [h1 d, h4 d])

/-! ## From blocks to the arrays -/

-- the TensorCore's buffer contents when the region is entered, at the exact instance
variable (V : (c : Dev nD) → (b : Ref sig .tc) → Buf (Elt Ideal) ((c : Thread nD τ).loc b))

theorem hz6 : (![0, 0] : Fin 2 → Nat) = fun _ => 0 := funext fun a => by fin_cases a <;> rfl

/-- The message array region 6 computes, of the region-entry arrays of windows 0, 1, 2, 3. -/
abbrev G6_6 (c : Dev nD) : S640000x128.Idx → EReal :=
  edgeMsg (V c (Pipeline.arrRef spec6 0)) (V c (Pipeline.arrRef spec6 1)) (V c (Pipeline.arrRef spec6 2)) (V c (Pipeline.arrRef spec6 3))
/-- The new edge attributes region 6 computes, of the region-entry arrays of windows 1, 4, 5. -/
abbrev G6_7 (c : Dev nD) : S640000x128.Idx → EReal :=
  edgeRel (V c (Pipeline.arrRef spec6 1)) (V c (Pipeline.arrRef spec6 4)) (V c (Pipeline.arrRef spec6 5))

/-- The printed index maps, decided over the grid: the two long inputs and the two outputs move together down the
    rows, one block of 5120 rows per point; the matrices and the bias rows stay at block 0. -/
theorem idx_facts6 : ∀ t : Fin cfg6.N, win6_0.index t (0 : Fin 2) = win6_6.index t (0 : Fin 2)
    ∧ win6_0.index t (1 : Fin 2) = 0
    ∧ win6_1.index t (0 : Fin 2) = win6_6.index t (0 : Fin 2)
    ∧ win6_1.index t (1 : Fin 2) = 0
    ∧ win6_7.index t (0 : Fin 2) = win6_6.index t (0 : Fin 2)
    ∧ win6_7.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (1 : Fin 2) = 0
    ∧ win6_6.index t (0 : Fin 2) ≤ 124 :=
  (by decide +kernel : ∀ t : Fin grid6.N, _)

/-- Every one of the 125 row blocks is some point's, for both outputs. -/
theorem idx_onto6 : ∀ (q0 : Fin 125), ∃ t : Fin cfg6.N, win6_6.index t = ![q0.val, 0] ∧ win6_7.index t = ![q0.val, 0] :=
  (by decide +kernel : ∀ (q0 : Fin 125), ∃ t : Fin grid6.N, win6_6.index t = ![q0.val, 0] ∧ win6_7.index t = ![q0.val, 0])

set_option maxHeartbeats 1600000 in
/-- WHAT POINT `t` WRITES BACK of window 6 is block `t` of `G6_6`: the stored value at row `p`, column `q` of the block
    is the sum over the loaded blocks, each loaded block is its array read at rows 5120·t … 5120·t+5119 (the two long
    inputs) or the whole array (the matrix and the bias row), and row `p` of block `t` is row 5120·t+p of the array. -/
theorem flushed6_6_eq (c : Dev nD) (t : Fin cfg6.N) :
    (dat6 V c).flushed 6 t = ((cfg6.win 6).blk t).view.read (Elt Ideal) (G6_6 V c) := by
  show (cfg6.win 6).cut (grid6.coords t) ((dat6 V c).after 6 t) = _
  rw [after6_6]
  unfold out6_6
  rw [View.canon_unit_zero hz6]
  simp only [View.ld_unit_zero (S := S5120x128) hz6, View.ld_unit_zero (S := S128x128) hz6, View.ld_unit_zero (S := S1x128) hz6]
  obtain ⟨f0, f1, f2, f3, f4, f5, f6, f7, f8, f9, f10, f11, f12, f13, f14, f15⟩ := idx_facts6 t
  funext j
  obtain ⟨p, q, rfl⟩ : ∃ (p : Fin 5120) (q : Fin 128), j = ix2 p q := ⟨j 0, j 1, eq_ix2 j⟩
  have hp : p.val < 5120 := p.isLt
  have hq : q.val < 128 := q.isLt
  let e : Fin 640000 := ⟨win6_6.index t (0 : Fin 2) * 5120 + p.val, by omega⟩
  have hout : ((cfg6.win 6).blk t).view.emb (ix2 p q) = (ix2 e q : S640000x128.Idx) := by
    funext a; apply Fin.ext
    match a with
    | ⟨0, _⟩ => show win6_6.index t (0 : Fin 2) * 5120 + 1 * p.val = win6_6.index t (0 : Fin 2) * 5120 + p.val; omega
    | ⟨1, _⟩ => show win6_6.index t (1 : Fin 2) * 128 + 1 * q.val = q.val; omega
  show k6_pay2 (F := Ideal) (iblk6 V c 0 t) (iblk6 V c 1 t) (iblk6 V c 2 t) (iblk6 V c 3 t) (ix2 p q) = G6_6 V c (((cfg6.win 6).blk t).view.emb (ix2 p q))
  rw [hout]
  have h0 : ∀ d : Fin 128, ((cfg6.win 0).blk t).view.emb (ix2 p d) = (ix2 e d : S640000x128.Idx) := fun d => by
    funext a; apply Fin.ext
    match a with
    | ⟨0, _⟩ => show win6_0.index t (0 : Fin 2) * 5120 + 1 * p.val = win6_6.index t (0 : Fin 2) * 5120 + p.val; omega
    | ⟨1, _⟩ => show win6_0.index t (1 : Fin 2) * 128 + 1 * d.val = d.val; omega
  have h1 : ∀ d : Fin 128, ((cfg6.win 1).blk t).view.emb (ix2 p d) = (ix2 e d : S640000x128.Idx) := fun d => by
    funext a; apply Fin.ext
    match a with
    | ⟨0, _⟩ => show win6_1.index t (0 : Fin 2) * 5120 + 1 * p.val = win6_6.index t (0 : Fin 2) * 5120 + p.val; omega
    | ⟨1, _⟩ => show win6_1.index t (1 : Fin 2) * 128 + 1 * d.val = d.val; omega
  have h2 : ∀ d : Fin 128, ((cfg6.win 2).blk t).view.emb (ix2 d q) = (ix2 d q : S128x128.Idx) := fun d => by
    funext a; apply Fin.ext
    match a with
    | ⟨0, _⟩ => show win6_2.index t (0 : Fin 2) * 128 + 1 * d.val = d.val; omega
    | ⟨1, _⟩ => show win6_2.index t (1 : Fin 2) * 128 + 1 * q.val = q.val; omega
  have h3 : ((cfg6.win 3).blk t).view.emb (ix2 (0 : Fin 1) q) = (ix2 (0 : Fin 1) q : S1x128.Idx) := by
    funext a; apply Fin.ext
    match a with
    | ⟨0, _⟩ => show win6_3.index t (0 : Fin 2) * 1 + 1 * 0 = 0; omega
    | ⟨1, _⟩ => show win6_3.index t (1 : Fin 2) * 128 + 1 * q.val = q.val; omega
  exact pay6_msg_block (V c (Pipeline.arrRef spec6 0)) (V c (Pipeline.arrRef spec6 1)) (V c (Pipeline.arrRef spec6 2)) (V c (Pipeline.arrRef spec6 3)) (iblk6 V c 0 t) (iblk6 V c 1 t) (iblk6 V c 2 t) (iblk6 V c 3 t) e p q
    (fun d => congrArg (V c (Pipeline.arrRef spec6 0)) (h0 d)) (fun d => congrArg (V c (Pipeline.arrRef spec6 1)) (h1 d)) (fun d => congrArg (V c (Pipeline.arrRef spec6 2)) (h2 d)) (congrArg (V c (Pipeline.arrRef spec6 3)) h3)

/-- An index of the array is in point `t`'s block of window 6 iff each coordinate is in the block's range on its axis. -/
theorem mem_blk6_6 (t : Fin cfg6.N) (i : S640000x128.Idx) :
    i ∈ ((cfg6.win 6).blk t).view.set ↔ ∀ a : Fin 2, win6_6.index t a * S5120x128.size a ≤ (i a).val ∧ (i a).val < win6_6.index t a * S5120x128.size a + S5120x128.size a := by
  show i ∈ ((View.whole main_v114_0).slice (win6_6.rect t)).set ↔ _
  rw [View.set_slice_whole, Rect.mem_set_unit]
  exact Iff.rfl

/-- Every index of the array is in some written-back block of window 6: row `r` is in the block of point `r / 5120`. -/
theorem covered6_6 (i : S640000x128.Idx) :
    ∃ t : Fin cfg6.N, (cfg6.win 6).flush t = true ∧ i ∈ ((cfg6.win 6).blk t).view.set := by
  have hi0 : (i 0).val < 640000 := (i 0).isLt
  have hi1 : (i 1).val < 128 := (i 1).isLt
  obtain ⟨t, ht6, ht7⟩ := idx_onto6 ⟨(i 0).val / 5120, by omega⟩
  have q0 : win6_6.index t (0 : Fin 2) = (i 0).val / 5120 := congrFun ht6 0
  have q1 : win6_6.index t (1 : Fin 2) = 0 := congrFun ht6 1
  refine ⟨t, flush6_6 t, ?_⟩
  rw [mem_blk6_6]
  intro a
  match a with
  | ⟨0, _⟩ => show win6_6.index t (0 : Fin 2) * 5120 ≤ (i 0).val ∧ (i 0).val < win6_6.index t (0 : Fin 2) * 5120 + 5120; omega
  | ⟨1, _⟩ => show win6_6.index t (1 : Fin 2) * 128 ≤ (i 1).val ∧ (i 1).val < win6_6.index t (1 : Fin 2) * 128 + 128; omega

/-- THE ARRAY of window 6 after the region: one function of the region-entry arrays. -/
theorem final6_6 (c : Dev nD) : (dat6 V c).arrAt 6 cfg6.N = G6_6 V c :=
  (dat6 V c).arrAt_eq_of_cover 6 (G6_6 V c) (fun t _ => flushed6_6_eq V c t) (covered6_6)

set_option maxHeartbeats 1600000 in
/-- WHAT POINT `t` WRITES BACK of window 7 is block `t` of `G6_7`: the stored value at row `p`, column `q` of the block
    is the sum over the loaded blocks, each loaded block is its array read at rows 5120·t … 5120·t+5119 (the two long
    inputs) or the whole array (the matrix and the bias row), and row `p` of block `t` is row 5120·t+p of the array. -/
theorem flushed6_7_eq (c : Dev nD) (t : Fin cfg6.N) :
    (dat6 V c).flushed 7 t = ((cfg6.win 7).blk t).view.read (Elt Ideal) (G6_7 V c) := by
  show (cfg6.win 7).cut (grid6.coords t) ((dat6 V c).after 7 t) = _
  rw [after6_7]
  unfold out6_7
  rw [View.canon_unit_zero hz6]
  simp only [View.ld_unit_zero (S := S5120x128) hz6, View.ld_unit_zero (S := S128x128) hz6, View.ld_unit_zero (S := S1x128) hz6]
  obtain ⟨f0, f1, f2, f3, f4, f5, f6, f7, f8, f9, f10, f11, f12, f13, f14, f15⟩ := idx_facts6 t
  funext j
  obtain ⟨p, q, rfl⟩ : ∃ (p : Fin 5120) (q : Fin 128), j = ix2 p q := ⟨j 0, j 1, eq_ix2 j⟩
  have hp : p.val < 5120 := p.isLt
  have hq : q.val < 128 := q.isLt
  let e : Fin 640000 := ⟨win6_6.index t (0 : Fin 2) * 5120 + p.val, by omega⟩
  have hout : ((cfg6.win 7).blk t).view.emb (ix2 p q) = (ix2 e q : S640000x128.Idx) := by
    funext a; apply Fin.ext
    match a with
    | ⟨0, _⟩ => show win6_7.index t (0 : Fin 2) * 5120 + 1 * p.val = win6_6.index t (0 : Fin 2) * 5120 + p.val; omega
    | ⟨1, _⟩ => show win6_7.index t (1 : Fin 2) * 128 + 1 * q.val = q.val; omega
  show k6_pay3 (F := Ideal) (iblk6 V c 1 t) (iblk6 V c 4 t) (iblk6 V c 5 t) (ix2 p q) = G6_7 V c (((cfg6.win 7).blk t).view.emb (ix2 p q))
  rw [hout]
  have h1 : ∀ d : Fin 128, ((cfg6.win 1).blk t).view.emb (ix2 p d) = (ix2 e d : S640000x128.Idx) := fun d => by
    funext a; apply Fin.ext
    match a with
    | ⟨0, _⟩ => show win6_1.index t (0 : Fin 2) * 5120 + 1 * p.val = win6_6.index t (0 : Fin 2) * 5120 + p.val; omega
    | ⟨1, _⟩ => show win6_1.index t (1 : Fin 2) * 128 + 1 * d.val = d.val; omega
  have h4 : ∀ d : Fin 128, ((cfg6.win 4).blk t).view.emb (ix2 d q) = (ix2 d q : S128x128.Idx) := fun d => by
    funext a; apply Fin.ext
    match a with
    | ⟨0, _⟩ => show win6_4.index t (0 : Fin 2) * 128 + 1 * d.val = d.val; omega
    | ⟨1, _⟩ => show win6_4.index t (1 : Fin 2) * 128 + 1 * q.val = q.val; omega
  have h5 : ((cfg6.win 5).blk t).view.emb (ix2 (0 : Fin 1) q) = (ix2 (0 : Fin 1) q : S1x128.Idx) := by
    funext a; apply Fin.ext
    match a with
    | ⟨0, _⟩ => show win6_5.index t (0 : Fin 2) * 1 + 1 * 0 = 0; omega
    | ⟨1, _⟩ => show win6_5.index t (1 : Fin 2) * 128 + 1 * q.val = q.val; omega
  exact pay6_rel_block (V c (Pipeline.arrRef spec6 1)) (V c (Pipeline.arrRef spec6 4)) (V c (Pipeline.arrRef spec6 5)) (iblk6 V c 1 t) (iblk6 V c 4 t) (iblk6 V c 5 t) e p q
    (fun d => congrArg (V c (Pipeline.arrRef spec6 1)) (h1 d)) (fun d => congrArg (V c (Pipeline.arrRef spec6 4)) (h4 d)) (congrArg (V c (Pipeline.arrRef spec6 5)) h5)

/-- An index of the array is in point `t`'s block of window 7 iff each coordinate is in the block's range on its axis. -/
theorem mem_blk6_7 (t : Fin cfg6.N) (i : S640000x128.Idx) :
    i ∈ ((cfg6.win 7).blk t).view.set ↔ ∀ a : Fin 2, win6_7.index t a * S5120x128.size a ≤ (i a).val ∧ (i a).val < win6_7.index t a * S5120x128.size a + S5120x128.size a := by
  show i ∈ ((View.whole main_v114_1).slice (win6_7.rect t)).set ↔ _
  rw [View.set_slice_whole, Rect.mem_set_unit]
  exact Iff.rfl

/-- Every index of the array is in some written-back block of window 7: row `r` is in the block of point `r / 5120`. -/
theorem covered6_7 (i : S640000x128.Idx) :
    ∃ t : Fin cfg6.N, (cfg6.win 7).flush t = true ∧ i ∈ ((cfg6.win 7).blk t).view.set := by
  have hi0 : (i 0).val < 640000 := (i 0).isLt
  have hi1 : (i 1).val < 128 := (i 1).isLt
  obtain ⟨t, ht6, ht7⟩ := idx_onto6 ⟨(i 0).val / 5120, by omega⟩
  have q0 : win6_7.index t (0 : Fin 2) = (i 0).val / 5120 := congrFun ht7 0
  have q1 : win6_7.index t (1 : Fin 2) = 0 := congrFun ht7 1
  refine ⟨t, flush6_7 t, ?_⟩
  rw [mem_blk6_7]
  intro a
  match a with
  | ⟨0, _⟩ => show win6_7.index t (0 : Fin 2) * 5120 ≤ (i 0).val ∧ (i 0).val < win6_7.index t (0 : Fin 2) * 5120 + 5120; omega
  | ⟨1, _⟩ => show win6_7.index t (1 : Fin 2) * 128 ≤ (i 1).val ∧ (i 1).val < win6_7.index t (1 : Fin 2) * 128 + 128; omega

/-- THE ARRAY of window 7 after the region: one function of the region-entry arrays. -/
theorem final6_7 (c : Dev nD) : (dat6 V c).arrAt 7 cfg6.N = G6_7 V c :=
  (dat6 V c).arrAt_eq_of_cover 7 (G6_7 V c) (fun t _ => flushed6_7_eq V c t) (covered6_7)

end Cert.KernelIdeal.Frm

end
-- ==== Proof.RefRel.lean ====
import proofs.«156566_j1202590843053_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.RefRel

open Cert.ReferenceIdeal Cert.ReferenceIdeal.Gen
open Idealize.ShloMosaic Idealize.ShloMosaic.ValueIdx

/-! # The reference's relation update of the edge features, read at an index

One layer of the reference maps the edge features `ea` to `ea · w_rel[l]^T + b_rel[l]`: at edge `e`, channel `f`,
`(Σ_d ea[e,d] · w_rel[l,f,d]) + b_rel[l,f]`. -/

/-- The layer-`l` relation update as a function of the edge features and the two argument arrays. -/
def relStep (ea : S640000x128.Idx → EReal) (W : S3x128x128.Idx → EReal) (B : S3x128.Idx → EReal) (l : Fin 3) : S640000x128.Idx → EReal :=
  fun i => (∑ d : Fin 128, ea (ix2 (i 0) d) * W (ix3 l (i 1) d)) + B (ix2 l (i 1))

/-- The product's dimension record: both operands' axis 1 contracted. -/
abbrev refDot : DotDims S640000x128 S128x128 S640000x128 := dot_S640000x128_S128x128_S640000x128_1_1_0_0_n_n

theorem refDot_lhs0 (i : S640000x128.Idx) (k : refDot.contr.Idx) : (refDot.lhsIdx i k 0).val = (i 0).val := by
  unfold DotDims.lhsIdx
  rw [dif_neg (show ¬(0 : Fin S640000x128.rank) ∈ refDot.lhsBatch by decide), dif_pos (show (0 : Fin S640000x128.rank) ∈ refDot.lhsNonContracting by decide)]
  rfl
theorem refDot_lhs1 (i : S640000x128.Idx) (k : refDot.contr.Idx) : (refDot.lhsIdx i k 1).val = (k ⟨0, by decide⟩).val :=
  refDot.lhsIdx_val_of_single rfl i k
theorem refDot_rhs0 (i : S640000x128.Idx) (k : refDot.contr.Idx) : (refDot.rhsIdx i k 0).val = (i 1).val := by
  unfold DotDims.rhsIdx
  rw [dif_neg (show ¬(0 : Fin S128x128.rank) ∈ refDot.rhsBatch by decide), dif_pos (show (0 : Fin S128x128.rank) ∈ refDot.rhsNonContracting by decide)]
  rfl
theorem refDot_rhs1 (i : S640000x128.Idx) (k : refDot.contr.Idx) : (refDot.rhsIdx i k 1).val = (k ⟨0, by decide⟩).val :=
  refDot.rhsIdx_val_of_single rfl i k

/-- The host's product contracting both last axes, at edge `e` and channel `f`. -/
theorem refDot_at (A : FVec Ideal S640000x128 .f32) (B : FVec Ideal S128x128 .f32) (e : Fin 640000) (f : Fin 128) :
    Host.dotGeneral (F := Ideal) refDot none A B (ix2 e f) = ∑ d : Fin 128, A (ix2 e d) * B (ix2 f d) := by
  simp only [Host.dotGeneral]
  rw [Ideal.dotGeneral_apply, ← Equiv.sum_comp (contrEquiv1 refDot 128 rfl rfl).symm]
  refine Finset.sum_congr rfl fun k _ => ?_
  have hk := contrEquiv1_symm_val refDot 128 rfl rfl k
  have el : refDot.lhsIdx (ix2 e f) ((contrEquiv1 refDot 128 rfl rfl).symm k) = ix2 e k := funext fun a => Fin.ext (by
    match a with
    | ⟨0, _⟩ => exact refDot_lhs0 _ _
    | ⟨1, _⟩ => exact (refDot_lhs1 _ _).trans hk)
  have er : refDot.rhsIdx (ix2 e f) ((contrEquiv1 refDot 128 rfl rfl).symm k) = ix2 f k := funext fun a => Fin.ext (by
    match a with
    | ⟨0, _⟩ => exact refDot_rhs0 _ _
    | ⟨1, _⟩ => exact (refDot_rhs1 _ _).trans hk)
  rw [el, er]

/-- A bias vector laid as a row and broadcast down the edges, at edge `e` and channel `f`. -/
theorem bias_at (b : FVec Ideal S128 .f32) (e : Fin 640000) (f : Fin 128) :
    broadcastInDim S640000x128 ![0, 1] bcast_S1x128_S640000x128_0_1 (broadcastInDim S1x128 ![1] bcast_S128_S1x128_1 b) (ix2 e f) = b (ix1 f) := by
  refine (broadcastInDim_apply _ _ _ (ix2 e f) (ix2 0 f) (fun a => by
    match a with
    | ⟨0, _⟩ => rfl
    | ⟨1, _⟩ => rfl)).trans ?_
  exact broadcastInDim_apply _ _ _ (ix2 0 f) (ix1 f) (fun a => by
    match a with
    | ⟨0, _⟩ => rfl)

/-- Layer 0 of the reference's relation update, as it is spelt in the reference's run. -/
theorem rel_layer0 (ea : FVec Ideal S640000x128 .f32) (W : FVec Ideal S3x128x128 .f32) (B : FVec Ideal S3x128 .f32) :
    addf (Host.dotGeneral (F := Ideal) refDot none ea (shapeCast S128x128 (extractStridedSlice S1x128x128 ![0, 0, 0] W slices_S3x128x128_S1x128x128_0_0_0) shapeCasts_S1x128x128_S128x128))
      (broadcastInDim S640000x128 ![0, 1] bcast_S1x128_S640000x128_0_1 (broadcastInDim S1x128 ![1] bcast_S128_S1x128_1
        (shapeCast S128 (extractStridedSlice S1x128 ![0, 0] B slices_S3x128_S1x128_0_0) shapeCasts_S1x128_S128)))
    = relStep ea W B 0 := by
  funext i
  obtain ⟨e, f, rfl⟩ : ∃ (e : Fin 640000) (f : Fin 128), i = ix2 e f := ⟨i 0, i 1, eq_ix2 i⟩
  rw [addf_apply, refDot_at, bias_at]
  unfold relStep
  refine congr (congrArg HAdd.hAdd (Finset.sum_congr rfl fun d _ => congrArg (ea (ix2 e d) * ·) ?_)) ?_
  · refine (shapeCast_1ab_ab_apply _ _ f d).trans ?_
    exact extractStridedSlice_apply _ _ _ (ix3 0 f d) (ix3 0 f d) (fun a => by
      match a with
      | ⟨0, _⟩ => rfl
      | ⟨1, _⟩ => simp
      | ⟨2, _⟩ => simp)
  · refine (shapeCast_1a_a_apply _ _ f).trans ?_
    exact extractStridedSlice_apply _ _ _ (ix2 0 f) (ix2 0 f) (fun a => by
      match a with
      | ⟨0, _⟩ => rfl
      | ⟨1, _⟩ => simp)

/-- Layer 1 of the reference's relation update, as it is spelt in the reference's run. -/
theorem rel_layer1 (ea : FVec Ideal S640000x128 .f32) (W : FVec Ideal S3x128x128 .f32) (B : FVec Ideal S3x128 .f32) :
    addf (Host.dotGeneral (F := Ideal) refDot none ea (shapeCast S128x128 (extractStridedSlice S1x128x128 ![1, 0, 0] W slices_S3x128x128_S1x128x128_1_0_0) shapeCasts_S1x128x128_S128x128))
      (broadcastInDim S640000x128 ![0, 1] bcast_S1x128_S640000x128_0_1 (broadcastInDim S1x128 ![1] bcast_S128_S1x128_1
        (shapeCast S128 (extractStridedSlice S1x128 ![1, 0] B slices_S3x128_S1x128_1_0) shapeCasts_S1x128_S128)))
    = relStep ea W B 1 := by
  funext i
  obtain ⟨e, f, rfl⟩ : ∃ (e : Fin 640000) (f : Fin 128), i = ix2 e f := ⟨i 0, i 1, eq_ix2 i⟩
  rw [addf_apply, refDot_at, bias_at]
  unfold relStep
  refine congr (congrArg HAdd.hAdd (Finset.sum_congr rfl fun d _ => congrArg (ea (ix2 e d) * ·) ?_)) ?_
  · refine (shapeCast_1ab_ab_apply _ _ f d).trans ?_
    exact extractStridedSlice_apply _ _ _ (ix3 0 f d) (ix3 1 f d) (fun a => by
      match a with
      | ⟨0, _⟩ => rfl
      | ⟨1, _⟩ => simp
      | ⟨2, _⟩ => simp)
  · refine (shapeCast_1a_a_apply _ _ f).trans ?_
    exact extractStridedSlice_apply _ _ _ (ix2 0 f) (ix2 1 f) (fun a => by
      match a with
      | ⟨0, _⟩ => rfl
      | ⟨1, _⟩ => simp)

/-- Layer 2 of the reference's relation update, as it is spelt in the reference's run. -/
theorem rel_layer2 (ea : FVec Ideal S640000x128 .f32) (W : FVec Ideal S3x128x128 .f32) (B : FVec Ideal S3x128 .f32) :
    addf (Host.dotGeneral (F := Ideal) refDot none ea (shapeCast S128x128 (extractStridedSlice S1x128x128 ![2, 0, 0] W slices_S3x128x128_S1x128x128_2_0_0) shapeCasts_S1x128x128_S128x128))
      (broadcastInDim S640000x128 ![0, 1] bcast_S1x128_S640000x128_0_1 (broadcastInDim S1x128 ![1] bcast_S128_S1x128_1
        (shapeCast S128 (extractStridedSlice S1x128 ![2, 0] B slices_S3x128_S1x128_2_0) shapeCasts_S1x128_S128)))
    = relStep ea W B 2 := by
  funext i
  obtain ⟨e, f, rfl⟩ : ∃ (e : Fin 640000) (f : Fin 128), i = ix2 e f := ⟨i 0, i 1, eq_ix2 i⟩
  rw [addf_apply, refDot_at, bias_at]
  unfold relStep
  refine congr (congrArg HAdd.hAdd (Finset.sum_congr rfl fun d _ => congrArg (ea (ix2 e d) * ·) ?_)) ?_
  · refine (shapeCast_1ab_ab_apply _ _ f d).trans ?_
    exact extractStridedSlice_apply _ _ _ (ix3 0 f d) (ix3 2 f d) (fun a => by
      match a with
      | ⟨0, _⟩ => rfl
      | ⟨1, _⟩ => simp
      | ⟨2, _⟩ => simp)
  · refine (shapeCast_1a_a_apply _ _ f).trans ?_
    exact extractStridedSlice_apply _ _ _ (ix2 0 f) (ix2 2 f) (fun a => by
      match a with
      | ⟨0, _⟩ => rfl
      | ⟨1, _⟩ => simp)

end Cert.RefRel

end
-- ==== Proof.KiEaChain.lean ====
import proofs.«156566_j1202590843053_1_alg».proof.Proof.KiRun
import proofs.«156566_j1202590843053_1_alg».proof.Proof.KiWeights
import proofs.«156566_j1202590843053_1_alg».proof.Proof.KiEdgeValue
import proofs.«156566_j1202590843053_1_alg».proof.Proof.KiEdgeValue3
import proofs.«156566_j1202590843053_1_alg».proof.Proof.KiEdgeValue6
import proofs.«156566_j1202590843053_1_alg».proof.Proof.RefRel

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Cert.RefRel (relStep)

variable (m : (ℓ : Loc nD τ sig) → Buf (Elt Ideal) ℓ) (ρ : Dev nD → PrngReg)

/-! # The edge features through the three edge regions

Each edge region maps the edge features `ea` to `ea · w + b` with `w` the layer's transposed relation matrix and `b` its
bias row; with the host's slices read at an index this is the reference's update `ea · w_rel[l]^T + b_rel[l]`. -/

/-- An edge region's relation output is the reference's layer-`l` update when its matrix and bias row are the layer's
    (transposed) relation weights and bias. -/
theorem edgeRel_eq_relStep (ea : S640000x128.Idx → EReal) (w : S128x128.Idx → EReal) (b : S1x128.Idx → EReal)
    (W : S3x128x128.Idx → EReal) (B : S3x128.Idx → EReal) (l : Fin 3)
    (hw : ∀ d f : Fin 128, w (ix2 d f) = W (ix3 l f d)) (hb : ∀ f : Fin 128, b (ix2 0 f) = B (ix2 l f)) :
    edgeRel ea w b = relStep ea W B l := by
  funext i
  unfold edgeRel relStep
  rw [hb (i 1)]
  exact congrArg (· + B (ix2 l (i 1))) (Finset.sum_congr rfl fun d _ => by rw [hw d (i 1)])

/-- The edge features after the first edge region. -/
theorem ea1_eq (c : Dev nD) : (W2 m ρ c (Proc.devRef .tc main_v30_1) : S640000x128.Idx → EReal)
    = relStep (m ((c : Thread nD τ).loc main_arg1)) (m ((c : Thread nD τ).loc main_arg6)) (m ((c : Thread nD τ).loc main_arg7)) 0 := by
  refine (W2_arr m ρ c 7).trans ?_
  rw [final0_7]
  refine (edgeRel_eq_relStep _ _ _ _ _ 0 (v25_at m ρ c) (v29_at m ρ c)).trans ?_
  exact congrArg (fun ea => relStep ea _ _ 0) (W1_host m ρ c main_arg1 (by decide))

/-- The edge features after the second edge region. -/
theorem ea2_eq (c : Dev nD) : (W8 m ρ c (Proc.devRef .tc main_v72_1) : S640000x128.Idx → EReal)
    = relStep (relStep (m ((c : Thread nD τ).loc main_arg1)) (m ((c : Thread nD τ).loc main_arg6)) (m ((c : Thread nD τ).loc main_arg7)) 0)
        (m ((c : Thread nD τ).loc main_arg6)) (m ((c : Thread nD τ).loc main_arg7)) 1 := by
  refine (W8_arr m ρ c 7).trans ?_
  rw [final3_7]
  refine (edgeRel_eq_relStep _ _ _ _ _ 1 (v67_at m ρ c) (v71_at m ρ c)).trans ?_
  refine congrArg (fun ea => relStep ea _ _ 1) ?_
  exact ((W7_host m ρ c main_v30_1 (by decide)).trans <| (W6_keep m ρ c main_v30_1 (by decide)).trans <|
    (W5_host m ρ c main_v30_1 (by decide)).trans <| (W4_keep m ρ c main_v30_1 (by decide)).trans <|
    (W3_host m ρ c main_v30_1 (by decide))).trans (ea1_eq m ρ c)

/-- The edge features the kernel returns. -/
theorem ea3_eq (c : Dev nD) : (W16 m ρ c (Proc.devRef .tc main_v114_1) : S640000x128.Idx → EReal)
    = relStep (relStep (relStep (m ((c : Thread nD τ).loc main_arg1)) (m ((c : Thread nD τ).loc main_arg6)) (m ((c : Thread nD τ).loc main_arg7)) 0)
        (m ((c : Thread nD τ).loc main_arg6)) (m ((c : Thread nD τ).loc main_arg7)) 1)
        (m ((c : Thread nD τ).loc main_arg6)) (m ((c : Thread nD τ).loc main_arg7)) 2 := by
  refine ((W16_keep m ρ c main_v114_1 (by decide)).trans (W15_host m ρ c main_v114_1 (by decide))).trans ?_
  refine (W14_arr m ρ c 7).trans ?_
  rw [final6_7]
  refine (edgeRel_eq_relStep _ _ _ _ _ 2 (v109_at m ρ c) (v113_at m ρ c)).trans ?_
  refine congrArg (fun ea => relStep ea _ _ 2) ?_
  exact ((W13_host m ρ c main_v72_1 (by decide)).trans <| (W12_keep m ρ c main_v72_1 (by decide)).trans <|
    (W11_host m ρ c main_v72_1 (by decide)).trans <| (W10_keep m ρ c main_v72_1 (by decide)).trans <|
    (W9_host m ρ c main_v72_1 (by decide))).trans (ea2_eq m ρ c)

end Cert.KernelIdeal.Frm

end
-- ==== Proof.LibBnTwoForms.lean ====
/-
  Batch normalisation of one column over the extended reals, written two ways, and a small calculus of "this
  extended real is a real number".

  A column `x` of `n` real entries (`n = 50000` at the kernel's sizes) has mean `μ = (∑ x) / n`. One spelling takes
  the variance as the mean of squares minus the squared mean, folds `γ` into the scale and the mean into the shift:
  `x · (γ · r) + (β - μ · (γ · r))` with `r = rsqrt ((∑ x²) / n - μ² + ε)`. The other takes the variance as the mean of
  squared deviations and normalises first: `((x - μ) · rsqrt ((∑ (x - μ)²) / n + ε)) · γ + β`. Every quantity is a real
  number (the entries are real, `n ≠ 0`, and `ε > 0` keeps the argument of `rsqrt` positive), the two variances are
  equal over `ℝ`, and the two results then differ by a ring identity.
-/
import Idealize.ShloMosaic.PureOps.Ideal

noncomputable section

namespace Cert.LibBnTwoForms

open Idealize.ShloMosaic
open scoped BigOperators

/-! ## The constants -/

/-- The pattern of `50000.0` denotes the real `50000`: `(2^23 + 4411392) · 2^(142 - 127 - 23)`. -/
theorem cN_eq : Ideal.ofBits .f32 0x47435000#32 = ((50000 : ℝ) : EReal) := by
  simp [Ideal.ofBits, Ideal.ieee, -EReal.coe_mul]; norm_num

/-- The pattern of the `f32` nearest `1e-5` denotes the dyadic rational `10995116 · 2^(-40)`. -/
theorem eps_eq : Ideal.ofBits .f32 0x3727C5AC#32 = ((10995116 * (2 : ℝ) ^ (-40 : ℤ) : ℝ) : EReal) := by
  simp [Ideal.ofBits, Ideal.ieee, -EReal.coe_mul]

/-- That pattern denotes a POSITIVE real. -/
theorem eps_pos : ∃ e : ℝ, 0 < e ∧ Ideal.ofBits .f32 0x3727C5AC#32 = (e : EReal) :=
  ⟨10995116 * (2 : ℝ) ^ (-40 : ℤ), by positivity, eps_eq⟩

/-- Subtracting the extended real `0` from the pattern of `50000.0` leaves the real `50000`. -/
theorem cN_sub_zero : Ideal.ofBits .f32 0x47435000#32 - (0 : EReal) = ((50000 : ℝ) : EReal) := by
  rw [sub_zero, cN_eq]

/-- The same with the zero spelled as the integer `0` of any width read as a real. -/
theorem cN_sub_toInt_zero (w : Nat) :
    Ideal.ofBits .f32 0x47435000#32 - (((0#w).toInt : ℝ) : EReal) = ((50000 : ℝ) : EReal) := by
  rw [BitVec.toInt_zero, Int.cast_zero, EReal.coe_zero, cN_sub_zero]

/-- The pattern of `800000.0` denotes the real `800000`. -/
theorem c800000_eq : Ideal.ofBits .f32 0x49435000#32 = ((800000 : ℝ) : EReal) := by
  simp [Ideal.ofBits, Ideal.ieee, -EReal.coe_mul]; norm_num

/-- The pattern of the `f32` nearest `0.1` denotes the dyadic rational `13421773 · 2^(-27)`. -/
theorem slope_eq : Ideal.ofBits .f32 0x3DCCCCCD#32 = ((13421773 * (2 : ℝ) ^ (-27 : ℤ) : ℝ) : EReal) := by
  simp [Ideal.ofBits, Ideal.ieee, -EReal.coe_mul]

/-- That pattern denotes a POSITIVE real. -/
theorem slope_pos : ∃ a : ℝ, 0 < a ∧ Ideal.ofBits .f32 0x3DCCCCCD#32 = (a : EReal) :=
  ⟨13421773 * (2 : ℝ) ^ (-27 : ℤ), by positivity, slope_eq⟩

/-- The pattern of `1.0` denotes `1`. -/
theorem one_eq : Ideal.ofBits .f32 0x3F800000#32 = 1 := by
  simp [Ideal.ofBits, Ideal.ieee, -EReal.coe_mul]; norm_num

/-- The pattern of `+0.0` denotes `0`. -/
theorem zero_eq : Ideal.ofBits .f32 0x00000000#32 = 0 := by
  simp [Ideal.ofBits, Ideal.ieee]

/-! ## Coercion of a finite sum, and `rsqrt` of a positive real -/

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `rsqrt` of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-! ## The two variances over `ℝ` -/

/-- Mean of squares minus squared mean is the mean of squared deviations (`n` the number of entries, nonzero). -/
theorem var_two_forms {ι : Type*} [Fintype ι] (x : ι → ℝ) (n : ℝ) (hn : (Fintype.card ι : ℝ) = n) (hn0 : n ≠ 0) :
    (∑ j, x j * x j) * (1 / n) - ((∑ j, x j) * (1 / n)) * ((∑ j, x j) * (1 / n))
      = (∑ j, (x j - (∑ j, x j) * (1 / n)) * (x j - (∑ j, x j) * (1 / n))) * (1 / n) := by
  set m : ℝ := (∑ j, x j) * (1 / n) with hm
  have hs : ∑ j, x j = n * m := by rw [hm]; field_simp
  have h : ∀ j, (x j - m) * (x j - m) = x j * x j - 2 * m * x j + m * m := fun j => by ring
  simp only [h]
  rw [Finset.sum_add_distrib, Finset.sum_sub_distrib, ← Finset.mul_sum, Finset.sum_const, Finset.card_univ,
    nsmul_eq_mul, hn, hs]
  field_simp
  ring

/-! ## The reference's guard on its divisor

The reference's variance divides by `50000.0 - 0` and keeps the quotient only where that divisor is positive (a NaN
pattern otherwise); the divisor is the positive real `50000`, so the comparison answers `1` and the selection keeps the
quotient. -/

/-- An ordered "greater than" whose right side is below its left answers `1`. -/
theorem cmp_ogt_of_lt {x y : EReal} (h : y < x) : Ideal.cmp .ogt x y = 1#1 := by
  simp [Ideal.cmp, h]

/-- An ordered "greater or equal" whose right side is at most its left answers `1`. -/
theorem cmp_oge_of_le {x y : EReal} (h : y ≤ x) : Ideal.cmp .oge x y = 1#1 := by
  simp [Ideal.cmp, h]

/-- An ordered "greater or equal" whose left side is below its right answers `0`. -/
theorem cmp_oge_of_lt {x y : EReal} (h : x < y) : Ideal.cmp .oge x y = 0#1 := by
  simp [Ideal.cmp, not_le.mpr h]

/-- A selection on the bit `1` keeps its first branch. -/
theorem select_one {α : Type} (a b : α) : Scalar.select 1#1 a b = a := if_pos rfl

/-- A selection on the bit `0` keeps its second branch. -/
theorem select_zero {α : Type} (a b : α) : Scalar.select 0#1 a b = b := if_neg (by decide)

/-- `50000.0 - 0` is positive. -/
theorem cN_sub_zero_pos : (0 : EReal) < Ideal.ofBits .f32 0x47435000#32 - (0 : EReal) := by
  rw [cN_sub_zero]; exact_mod_cast (by norm_num : (0 : ℝ) < 50000)

/-- The guard `50000.0 - 0 > 0` answers `1` (both zeros the extended real `0`). -/
theorem cmp_ogt_cN_sub_zero :
    Ideal.cmp .ogt (Ideal.ofBits .f32 0x47435000#32 - (0 : EReal)) (0 : EReal) = 1#1 :=
  cmp_ogt_of_lt cN_sub_zero_pos

/-- The same guard with the subtracted zero the integer `0` of any width read as a real, and the compared zero the
    pattern of `+0.0`. -/
theorem cmp_ogt_cN_sub_toInt_zero (w : Nat) :
    Ideal.cmp .ogt (Ideal.ofBits .f32 0x47435000#32 - (((0#w).toInt : ℝ) : EReal))
      (Ideal.ofBits .f32 0x00000000#32) = 1#1 := by
  rw [zero_eq, BitVec.toInt_zero, Int.cast_zero, EReal.coe_zero]; exact cmp_ogt_cN_sub_zero

/-! ## The two forms -/

/-- The two spellings agree, with the divisor any nonzero real `n` equal to the number of entries and `ε` any positive
    real. -/
theorem bn_core {ι : Type*} [Fintype ι] (x : ι → ℝ) (n e g β : ℝ) (hn : (Fintype.card ι : ℝ) = n) (hn0 : n ≠ 0)
    (he : 0 < e) (i : ι) :
    let S : EReal := ∑ j, (x j : EReal)
    let Q : EReal := ∑ j, ((x j : EReal) * (x j : EReal))
    let μ : EReal := Ideal.div S (n : EReal)
    let vk : EReal := Ideal.div Q (n : EReal) - μ * μ
    let sc : EReal := (g : EReal) * Ideal.rsqrt (vk + (e : EReal))
    let sh : EReal := (β : EReal) - μ * sc
    let vr : EReal := Ideal.div (∑ j, (((x j : EReal) - μ) * ((x j : EReal) - μ))) (n : EReal)
    (x i : EReal) * sc + sh
      = ((((x i : EReal) - μ) * Ideal.rsqrt (vr + (e : EReal))) * (g : EReal)) + (β : EReal) := by
  intro S Q μ vk sc sh vr
  have hnpos : 0 < n := lt_of_le_of_ne (hn ▸ Nat.cast_nonneg _) (Ne.symm hn0)
  obtain ⟨m, hm⟩ : ∃ m : ℝ, m = (∑ j, x j) * (1 / n) := ⟨_, rfl⟩
  obtain ⟨v, hv⟩ : ∃ v : ℝ, v = (∑ j, (x j - m) * (x j - m)) * (1 / n) := ⟨_, rfl⟩
  have hμ : μ = (m : EReal) := by
    show Ideal.div (∑ j, (x j : EReal)) (n : EReal) = _
    rw [Ideal.div_coe hn0, ← coe_finset_sum, ← EReal.coe_mul, hm]
  have hvr : vr = (v : EReal) := by
    show Ideal.div (∑ j, (((x j : EReal) - μ) * ((x j : EReal) - μ))) (n : EReal) = _
    rw [Ideal.div_coe hn0, hμ, hv]
    simp only [← EReal.coe_sub, ← EReal.coe_mul, ← coe_finset_sum]
  have hvk : vk = (v : EReal) := by
    show Ideal.div (∑ j, ((x j : EReal) * (x j : EReal))) (n : EReal) - μ * μ = _
    rw [Ideal.div_coe hn0, hμ, hv, hm, ← var_two_forms x n hn hn0]
    simp only [← EReal.coe_sub, ← EReal.coe_mul, ← coe_finset_sum]
  have hv0 : 0 ≤ v := by
    rw [hv]
    exact mul_nonneg (Finset.sum_nonneg fun j _ => mul_self_nonneg _) (by positivity)
  have hpos : 0 < v + e := by linarith
  show (x i : EReal) * ((g : EReal) * Ideal.rsqrt (vk + (e : EReal)))
      + ((β : EReal) - μ * ((g : EReal) * Ideal.rsqrt (vk + (e : EReal))))
    = ((((x i : EReal) - μ) * Ideal.rsqrt (vr + (e : EReal))) * (g : EReal)) + (β : EReal)
  rw [hvk, hvr, hμ, ← EReal.coe_add, rsqrt_coe_pos hpos]
  simp only [← EReal.coe_sub, ← EReal.coe_mul, ← EReal.coe_add]
  congr 1
  ring

/-- The two spellings agree at the kernel's constants, for a column indexed by any type of 50000 elements: the divisor
    is the pattern of `50000.0` and `ε` the pattern of the `f32` nearest `1e-5`. -/
theorem bn_two_forms_card {ι : Type*} [Fintype ι] (hcard : Fintype.card ι = 50000) (x : ι → ℝ) (g β : ℝ) (i : ι) :
    let cN : EReal := Ideal.ofBits .f32 0x47435000#32
    let eps : EReal := Ideal.ofBits .f32 0x3727C5AC#32
    let S : EReal := ∑ j, (x j : EReal)
    let Q : EReal := ∑ j, ((x j : EReal) * (x j : EReal))
    let μ : EReal := Ideal.div S cN
    let vk : EReal := Ideal.div Q cN - μ * μ
    let sc : EReal := (g : EReal) * Ideal.rsqrt (vk + eps)
    let sh : EReal := (β : EReal) - μ * sc
    let vr : EReal := Ideal.div (∑ j, (((x j : EReal) - μ) * ((x j : EReal) - μ))) cN
    (x i : EReal) * sc + sh = ((((x i : EReal) - μ) * Ideal.rsqrt (vr + eps)) * (g : EReal)) + (β : EReal) := by
  intro cN eps
  have hc : cN = ((50000 : ℝ) : EReal) := cN_eq
  obtain ⟨e, he, hee⟩ := eps_pos
  have hε : eps = (e : EReal) := hee
  clear_value cN eps
  subst hc hε
  exact bn_core x 50000 e g β (by rw [hcard]; norm_num) (by norm_num) he i

/-- The same with the reference's divisor spelled `50000.0 - 0`. -/
theorem bn_two_forms_card_sub_zero {ι : Type*} [Fintype ι] (hcard : Fintype.card ι = 50000) (x : ι → ℝ) (g β : ℝ)
    (i : ι) :
    let cN : EReal := Ideal.ofBits .f32 0x47435000#32
    let eps : EReal := Ideal.ofBits .f32 0x3727C5AC#32
    let S : EReal := ∑ j, (x j : EReal)
    let Q : EReal := ∑ j, ((x j : EReal) * (x j : EReal))
    let μ : EReal := Ideal.div S cN
    let vk : EReal := Ideal.div Q cN - μ * μ
    let sc : EReal := (g : EReal) * Ideal.rsqrt (vk + eps)
    let sh : EReal := (β : EReal) - μ * sc
    let vr : EReal := Ideal.div (∑ j, (((x j : EReal) - μ) * ((x j : EReal) - μ))) (cN - (0 : EReal))
    (x i : EReal) * sc + sh = ((((x i : EReal) - μ) * Ideal.rsqrt (vr + eps)) * (g : EReal)) + (β : EReal) := by
  intro cN eps S Q μ vk sc sh vr
  have hvr : vr = Ideal.div (∑ j, (((x j : EReal) - μ) * ((x j : EReal) - μ))) cN := by
    show Ideal.div _ (cN - (0 : EReal)) = _
    rw [sub_zero]
  rw [hvr]
  exact bn_two_forms_card hcard x g β i

/-- The two spellings at `Fin 50000`, the reference's divisor `50000.0`. -/
theorem bn_two_forms (x : Fin 50000 → ℝ) (g β : ℝ) (i : Fin 50000) :
    let cN : EReal := Ideal.ofBits .f32 0x47435000#32
    let eps : EReal := Ideal.ofBits .f32 0x3727C5AC#32
    let S : EReal := ∑ j, (x j : EReal)
    let Q : EReal := ∑ j, ((x j : EReal) * (x j : EReal))
    let μ : EReal := Ideal.div S cN
    let vk : EReal := Ideal.div Q cN - μ * μ
    let sc : EReal := (g : EReal) * Ideal.rsqrt (vk + eps)
    let sh : EReal := (β : EReal) - μ * sc
    let vr : EReal := Ideal.div (∑ j, (((x j : EReal) - μ) * ((x j : EReal) - μ))) cN
    (x i : EReal) * sc + sh = ((((x i : EReal) - μ) * Ideal.rsqrt (vr + eps)) * (g : EReal)) + (β : EReal) :=
  bn_two_forms_card (Fintype.card_fin 50000) x g β i

/-- The two spellings at `Fin 50000`, the reference's divisor `50000.0 - 0`. -/
theorem bn_two_forms_sub_zero (x : Fin 50000 → ℝ) (g β : ℝ) (i : Fin 50000) :
    let cN : EReal := Ideal.ofBits .f32 0x47435000#32
    let eps : EReal := Ideal.ofBits .f32 0x3727C5AC#32
    let S : EReal := ∑ j, (x j : EReal)
    let Q : EReal := ∑ j, ((x j : EReal) * (x j : EReal))
    let μ : EReal := Ideal.div S cN
    let vk : EReal := Ideal.div Q cN - μ * μ
    let sc : EReal := (g : EReal) * Ideal.rsqrt (vk + eps)
    let sh : EReal := (β : EReal) - μ * sc
    let vr : EReal := Ideal.div (∑ j, (((x j : EReal) - μ) * ((x j : EReal) - μ))) (cN - (0 : EReal))
    (x i : EReal) * sc + sh = ((((x i : EReal) - μ) * Ideal.rsqrt (vr + eps)) * (g : EReal)) + (β : EReal) :=
  bn_two_forms_card_sub_zero (Fintype.card_fin 50000) x g β i

/-! ## "This extended real is a real number" -/

/-- An extended real that is (the coercion of) a real number. -/
def IsReal (x : EReal) : Prop := ∃ r : ℝ, x = (r : EReal)

/-- Being real is being neither infinity. -/
theorem isReal_iff {x : EReal} : IsReal x ↔ x ≠ ⊤ ∧ x ≠ ⊥ :=
  ⟨fun ⟨r, h⟩ => h ▸ ⟨EReal.coe_ne_top r, EReal.coe_ne_bot r⟩,
   fun ⟨h1, h2⟩ => ⟨x.toReal, (EReal.coe_toReal h1 h2).symm⟩⟩

/-- A real extended real is the coercion of its `toReal`. -/
theorem IsReal.eq_coe_toReal {x : EReal} (h : IsReal x) : x = (x.toReal : EReal) := by
  obtain ⟨r, rfl⟩ := h; rw [EReal.toReal_coe]

theorem IsReal.ne_top {x : EReal} (h : IsReal x) : x ≠ ⊤ := (isReal_iff.mp h).1

theorem IsReal.ne_bot {x : EReal} (h : IsReal x) : x ≠ ⊥ := (isReal_iff.mp h).2

/-- A coerced real is real. -/
theorem isReal_coe (r : ℝ) : IsReal (r : EReal) := ⟨r, rfl⟩

/-- `0` is real. -/
theorem isReal_zero : IsReal (0 : EReal) := ⟨0, rfl⟩

/-- `1` is real. -/
theorem isReal_one : IsReal (1 : EReal) := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is real. -/
theorem IsReal.neg {x : EReal} (hx : IsReal x) : IsReal (-x) := by
  obtain ⟨a, rfl⟩ := hx; exact ⟨-a, (EReal.coe_neg a).symm⟩

/-- The maximum of two reals is real. -/
theorem IsReal.max {x y : EReal} (hx : IsReal x) (hy : IsReal y) : IsReal (max x y) := by
  rcases le_total x y with h | h
  · rwa [max_eq_right h]
  · rwa [max_eq_left h]

/-- The minimum of two reals is real. -/
theorem IsReal.min {x y : EReal} (hx : IsReal x) (hy : IsReal y) : IsReal (min x y) := by
  rcases le_total x y with h | h
  · rwa [min_eq_left h]
  · rwa [min_eq_right h]

/-- A choice between two reals is real. -/
theorem IsReal.ite {p : Prop} [Decidable p] {x y : EReal} (hx : IsReal x) (hy : IsReal y) :
    IsReal (if p then x else y) := by
  split <;> assumption

/-- `arith.select` between two reals is real. -/
theorem IsReal.select {c : BitVec 1} {x y : EReal} (hx : IsReal x) (hy : IsReal y) :
    IsReal (Scalar.select c x y) := IsReal.ite hx hy

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of reals is the coercion of the sum of their real parts. -/
theorem IsReal.sum_eq {ι : Type*} (s : Finset ι) (f : ι → EReal) (h : ∀ i ∈ s, IsReal (f i)) :
    ∑ i ∈ s, f i = ((∑ i ∈ s, (f i).toReal : ℝ) : EReal) := by
  rw [coe_finset_sum]
  exact Finset.sum_congr rfl fun i hi => (h i hi).eq_coe_toReal

/-- The quotient of a real by a nonzero real is real. -/
theorem IsReal.div_coe {x : EReal} (hx : IsReal x) {y : ℝ} (hy : y ≠ 0) : IsReal (Ideal.div x (y : EReal)) := by
  rw [Ideal.div_coe hy]; exact hx.mul (isReal_coe _)

/-- The quotient of a real by a nonzero real is real, both given as real. -/
theorem IsReal.div {x y : EReal} (hx : IsReal x) (hy : IsReal y) (hy0 : y ≠ 0) : IsReal (Ideal.div x y) := by
  obtain ⟨b, rfl⟩ := hy
  exact hx.div_coe (fun hb => hy0 (by rw [hb, EReal.coe_zero]))

/-- The pattern of `50000.0` is real. -/
theorem isReal_cN : IsReal (Ideal.ofBits .f32 0x47435000#32) := ⟨50000, cN_eq⟩

/-- The pattern of the `f32` nearest `1e-5` is real. -/
theorem isReal_eps : IsReal (Ideal.ofBits .f32 0x3727C5AC#32) := ⟨_, eps_eq⟩

/-- The quotient of a real by the pattern of `50000.0` is real. -/
theorem IsReal.div_cN {x : EReal} (hx : IsReal x) : IsReal (Ideal.div x (Ideal.ofBits .f32 0x47435000#32)) := by
  rw [cN_eq]; exact hx.div_coe (by norm_num)

/-- The quotient of a real by `50000.0 - 0` is real. -/
theorem IsReal.div_cN_sub_zero {x : EReal} (hx : IsReal x) :
    IsReal (Ideal.div x (Ideal.ofBits .f32 0x47435000#32 - (0 : EReal))) := by
  rw [sub_zero]; exact hx.div_cN

/-- The pattern of `800000.0` is real. -/
theorem isReal_c800000 : IsReal (Ideal.ofBits .f32 0x49435000#32) := ⟨_, c800000_eq⟩

/-- The pattern of the `f32` nearest `0.1` is real. -/
theorem isReal_slope : IsReal (Ideal.ofBits .f32 0x3DCCCCCD#32) := ⟨_, slope_eq⟩

/-- The pattern of `1.0` is real. -/
theorem isReal_one_bits : IsReal (Ideal.ofBits .f32 0x3F800000#32) := by rw [one_eq]; exact isReal_one

/-- The pattern of `+0.0` is real. -/
theorem isReal_zero_bits : IsReal (Ideal.ofBits .f32 0x00000000#32) := by rw [zero_eq]; exact isReal_zero

/-- The quotient of a real by the pattern of `800000.0` is real. -/
theorem IsReal.div_c800000 {x : EReal} (hx : IsReal x) : IsReal (Ideal.div x (Ideal.ofBits .f32 0x49435000#32)) := by
  rw [c800000_eq]; exact hx.div_coe (by norm_num)

/-- `rsqrt` of a positive real is real. -/
theorem isReal_rsqrt_of_pos {r : ℝ} (hr : 0 < r) : IsReal (Ideal.rsqrt (r : EReal)) :=
  ⟨_, rsqrt_coe_pos hr⟩

/-- An `f32` pattern whose exponent field is not all ones (neither an infinity nor a NaN) denotes a real. -/
theorem isReal_ofBits_f32 (b : BitVec 32) (h : (b.extractLsb' 23 8).toNat ≠ 255) : IsReal (Ideal.ofBits .f32 b) := by
  show IsReal (Ideal.ieee 8 23 b)
  unfold Ideal.ieee
  simp only []
  rw [if_neg (by simpa using h)]
  split
  · exact isReal_coe _
  · exact isReal_coe _

/-! ## The two forms for a column of extended reals known to be real -/

/-- The two spellings agree for a column `z` of extended reals each of which is real, with `γ` and `β` real: the form
    in which a program's arrays arrive. The reference's divisor is `50000.0`. -/
theorem bn_two_forms_of_isReal {ι : Type*} [Fintype ι] (hcard : Fintype.card ι = 50000) (z : ι → EReal)
    (hz : ∀ j, IsReal (z j)) (g β : EReal) (hg : IsReal g) (hβ : IsReal β) (i : ι) :
    let cN : EReal := Ideal.ofBits .f32 0x47435000#32
    let eps : EReal := Ideal.ofBits .f32 0x3727C5AC#32
    let S : EReal := ∑ j, z j
    let Q : EReal := ∑ j, (z j * z j)
    let μ : EReal := Ideal.div S cN
    let vk : EReal := Ideal.div Q cN - μ * μ
    let sc : EReal := g * Ideal.rsqrt (vk + eps)
    let sh : EReal := β - μ * sc
    let vr : EReal := Ideal.div (∑ j, ((z j - μ) * (z j - μ))) cN
    z i * sc + sh = (((z i - μ) * Ideal.rsqrt (vr + eps)) * g) + β := by
  obtain ⟨x, hx⟩ : ∃ x : ι → ℝ, ∀ j, z j = (x j : EReal) :=
    ⟨fun j => (z j).toReal, fun j => (hz j).eq_coe_toReal⟩
  obtain rfl : z = fun j => (x j : EReal) := funext hx
  obtain ⟨g, rfl⟩ := hg
  obtain ⟨β, rfl⟩ := hβ
  exact bn_two_forms_card hcard x g β i

/-- The same with the reference's divisor spelled `50000.0 - 0`. -/
theorem bn_two_forms_of_isReal_sub_zero {ι : Type*} [Fintype ι] (hcard : Fintype.card ι = 50000) (z : ι → EReal)
    (hz : ∀ j, IsReal (z j)) (g β : EReal) (hg : IsReal g) (hβ : IsReal β) (i : ι) :
    let cN : EReal := Ideal.ofBits .f32 0x47435000#32
    let eps : EReal := Ideal.ofBits .f32 0x3727C5AC#32
    let S : EReal := ∑ j, z j
    let Q : EReal := ∑ j, (z j * z j)
    let μ : EReal := Ideal.div S cN
    let vk : EReal := Ideal.div Q cN - μ * μ
    let sc : EReal := g * Ideal.rsqrt (vk + eps)
    let sh : EReal := β - μ * sc
    let vr : EReal := Ideal.div (∑ j, ((z j - μ) * (z j - μ))) (cN - (0 : EReal))
    z i * sc + sh = (((z i - μ) * Ideal.rsqrt (vr + eps)) * g) + β := by
  obtain ⟨x, hx⟩ : ∃ x : ι → ℝ, ∀ j, z j = (x j : EReal) :=
    ⟨fun j => (z j).toReal, fun j => (hz j).eq_coe_toReal⟩
  obtain rfl : z = fun j => (x j : EReal) := funext hx
  obtain ⟨g, rfl⟩ := hg
  obtain ⟨β, rfl⟩ := hβ
  exact bn_two_forms_card_sub_zero hcard x g β i

/-! ## The two forms with every intermediate named by an equation -/

/-- The two spellings agree, with each intermediate quantity a variable tied to its definition by an equation, so that
    a program's own spelling of the divisors (`cN` for the means, `den` for the reference's variance: any extended
    reals equal to the real `50000`) and of the reference's variance `vr` (any extended real equal to the quotient) can
    be supplied. -/
theorem bn_two_forms_of_eqs {ι : Type*} [Fintype ι] (hcard : Fintype.card ι = 50000) (z : ι → EReal)
    (hz : ∀ j, IsReal (z j)) (g β : EReal) (hg : IsReal g) (hβ : IsReal β) (i : ι)
    (cN den eps S Q μ vk vr : EReal)
    (hcN : cN = ((50000 : ℝ) : EReal)) (hden : den = ((50000 : ℝ) : EReal))
    (heps : eps = Ideal.ofBits .f32 0x3727C5AC#32)
    (hS : S = ∑ j, z j) (hQ : Q = ∑ j, (z j * z j)) (hμ : μ = Ideal.div S cN)
    (hvk : vk = Ideal.div Q cN - μ * μ)
    (hvr : vr = Ideal.div (∑ j, ((z j - μ) * (z j - μ))) den) :
    z i * (g * Ideal.rsqrt (vk + eps)) + (β - μ * (g * Ideal.rsqrt (vk + eps)))
      = (((z i - μ) * Ideal.rsqrt (vr + eps)) * g) + β := by
  obtain ⟨x, hx⟩ : ∃ x : ι → ℝ, ∀ j, z j = (x j : EReal) :=
    ⟨fun j => (z j).toReal, fun j => (hz j).eq_coe_toReal⟩
  obtain rfl : z = fun j => (x j : EReal) := funext hx
  obtain ⟨g, rfl⟩ := hg
  obtain ⟨β, rfl⟩ := hβ
  obtain ⟨e, he, hee⟩ := eps_pos
  rw [hee] at heps
  subst hvr hvk hμ hQ hS heps hden hcN
  exact bn_core x 50000 e g β (by rw [hcard]; norm_num) (by norm_num) he i

end Cert.LibBnTwoForms

end
-- ==== Proof.KiArgs.lean ====
import proofs.«156566_j1202590843053_1_alg».proof.Proof.KiRun
import proofs.«156566_j1202590843053_1_alg».proof.Proof.LibBnTwoForms

noncomputable section

namespace Cert.KernelIdeal.Frm

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The argument arrays as launched, on core `c`. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)

/-- Every entry of every float argument is a real number. -/
def ArgsReal (c : Dev nD) : Prop :=
  (∀ i, Cert.LibBnTwoForms.IsReal (a0 m c i)) ∧ (∀ i, Cert.LibBnTwoForms.IsReal (a1 m c i)) ∧ (∀ i, Cert.LibBnTwoForms.IsReal (a2 m c i)) ∧ (∀ i, Cert.LibBnTwoForms.IsReal (a3 m c i))
  ∧ (∀ i, Cert.LibBnTwoForms.IsReal (a4 m c i)) ∧ (∀ i, Cert.LibBnTwoForms.IsReal (a5 m c i)) ∧ (∀ i, Cert.LibBnTwoForms.IsReal (a6 m c i)) ∧ (∀ i, Cert.LibBnTwoForms.IsReal (a7 m c i))
  ∧ (∀ i, Cert.LibBnTwoForms.IsReal (a8 m c i)) ∧ (∀ i, Cert.LibBnTwoForms.IsReal (a9 m c i))

end Cert.KernelIdeal.Frm

end
-- ==== Proof.KiWeights2.lean ====
import proofs.«156566_j1202590843053_1_alg».proof.Proof.KiWeights

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.StableHlo Idealize.ShloMosaic.ValueIdx
open Idealize.SL Idealize.SL.Sem

variable (m : (ℓ : Loc nD τ sig) → Buf (Elt Ideal) ℓ) (ρ : Dev nD → PrngReg)

/-! # The message and self weights and biases as the regions find them

As for the relation weights: the host transposes each weight array once and slices out a layer's matrix and bias row
before the region that uses it. -/

/-- The transposed weights `arg4[l, f, d] ↦ [l, d, f]`, formed once by the first host stretch. -/
theorem W1_v10 (c : Dev nD) : (W1 m ρ c (Proc.devRef .tc main_v10) : S3x128x128.Idx → EReal)
    = transpose S3x128x128 [0, 2, 1] (m ((c : Thread nD τ).loc main_arg4)) transposes_S3x128x128_S3x128x128_0_2_1 := by
  show StableHlo.after hostOps0 (W0 m ρ c) (Proc.devRef .tc main_v10) = _
  after_results <;> rfl

theorem v10_at (c : Dev nD) (l : Fin 3) (d f : Fin 128) :
    (W1 m ρ c (Proc.devRef .tc main_v10) : S3x128x128.Idx → EReal) (ix3 l d f) = m ((c : Thread nD τ).loc main_arg4) (ix3 l f d) := by
  rw [W1_v10]
  exact transpose_apply _ _ _ (ix3 l d f) (ix3 l f d) (fun b => by
    match b with
    | ⟨0, _⟩ => rfl
    | ⟨1, _⟩ => rfl
    | ⟨2, _⟩ => rfl)

/-- Layer 0's message matrix as edge region 0 finds it. -/
theorem V1_v21 (c : Dev nD) : (V1 m ρ c main_v21 : S128x128.Idx → EReal)
    = shapeCast S128x128 (extractStridedSlice S1x128x128 ![0, 0, 0]
        (transpose S3x128x128 [0, 2, 1] (m ((c : Thread nD τ).loc main_arg4)) transposes_S3x128x128_S3x128x128_0_2_1)
        slices_S3x128x128_S1x128x128_0_0_0) shapeCasts_S1x128x128_S128x128 := by
  show StableHlo.after hostOps0 (W0 m ρ c) (Proc.devRef .tc main_v21) = _
  after_results <;> rfl

theorem v21_at (c : Dev nD) (d f : Fin 128) :
    (V1 m ρ c main_v21 : S128x128.Idx → EReal) (ix2 d f) = m ((c : Thread nD τ).loc main_arg4) (ix3 0 f d) := by
  rw [V1_v21]
  refine (shapeCast_1ab_ab_apply _ _ d f).trans ?_
  refine (extractStridedSlice_apply _ _ _ (ix3 0 d f) (ix3 0 d f) (fun a => by
    match a with
    | ⟨0, _⟩ => rfl
    | ⟨1, _⟩ => simp
    | ⟨2, _⟩ => simp)).trans ?_
  exact transpose_apply _ _ _ (ix3 0 d f) (ix3 0 f d) (fun b => by
    match b with
    | ⟨0, _⟩ => rfl
    | ⟨1, _⟩ => rfl
    | ⟨2, _⟩ => rfl)

theorem V1_v28 (c : Dev nD) : (V1 m ρ c main_v28 : S1x128.Idx → EReal)
    = shapeCast S1x128 (shapeCast S128 (extractStridedSlice S1x128 ![0, 0] (m ((c : Thread nD τ).loc main_arg5)) slices_S3x128_S1x128_0_0)
        shapeCasts_S1x128_S128) shapeCasts_S128_S1x128 := by
  show StableHlo.after hostOps0 (W0 m ρ c) (Proc.devRef .tc main_v28) = _
  after_results <;> rfl

theorem v28_at (c : Dev nD) (f : Fin 128) :
    (V1 m ρ c main_v28 : S1x128.Idx → EReal) (ix2 0 f) = m ((c : Thread nD τ).loc main_arg5) (ix2 0 f) := by
  rw [V1_v28]
  refine (shapeCast_a_1a_apply _ _ 0 f).trans ?_
  refine (shapeCast_1a_a_apply _ _ f).trans ?_
  exact extractStridedSlice_apply _ _ _ (ix2 0 f) (ix2 0 f) (fun a => by
    match a with
    | ⟨0, _⟩ => rfl
    | ⟨1, _⟩ => simp)

theorem W6_v10 (c : Dev nD) : W6 m ρ c (Proc.devRef .tc main_v10) = W1 m ρ c (Proc.devRef .tc main_v10) :=
  (W6_keep m ρ c main_v10 (by decide)).trans <|
    (W5_host m ρ c main_v10 (by decide)).trans <|
    (W4_keep m ρ c main_v10 (by decide)).trans <|
    (W3_host m ρ c main_v10 (by decide)).trans <|
    (W2_keep m ρ c main_v10 (by decide)).trans <| rfl

theorem W6_arg5 (c : Dev nD) : W6 m ρ c (Proc.devRef .tc main_arg5) = m ((c : Thread nD τ).loc main_arg5) :=
  (W6_keep m ρ c main_arg5 (by decide)).trans <|
    (W5_host m ρ c main_arg5 (by decide)).trans <|
    (W4_keep m ρ c main_arg5 (by decide)).trans <|
    (W3_host m ρ c main_arg5 (by decide)).trans <|
    (W2_keep m ρ c main_arg5 (by decide)).trans <|
    (W1_host m ρ c main_arg5 (by decide)).trans <| rfl

theorem V7_v63 (c : Dev nD) : (V7 m ρ c main_v63 : S128x128.Idx → EReal)
    = shapeCast S128x128 (extractStridedSlice S1x128x128 ![1, 0, 0] (W6 m ρ c (Proc.devRef .tc main_v10) : S3x128x128.Idx → EReal)
        slices_S3x128x128_S1x128x128_1_0_0) shapeCasts_S1x128x128_S128x128 := by
  show StableHlo.after hostOps3 (W6 m ρ c) (Proc.devRef .tc main_v63) = _
  after_results <;> rfl

theorem v63_at (c : Dev nD) (d f : Fin 128) :
    (V7 m ρ c main_v63 : S128x128.Idx → EReal) (ix2 d f) = m ((c : Thread nD τ).loc main_arg4) (ix3 1 f d) := by
  rw [V7_v63, W6_v10]
  refine (shapeCast_1ab_ab_apply _ _ d f).trans ?_
  refine (extractStridedSlice_apply _ _ _ (ix3 0 d f) (ix3 1 d f) (fun a => by
    match a with
    | ⟨0, _⟩ => rfl
    | ⟨1, _⟩ => simp
    | ⟨2, _⟩ => simp)).trans ?_
  exact v10_at m ρ c 1 d f

theorem V7_v70 (c : Dev nD) : (V7 m ρ c main_v70 : S1x128.Idx → EReal)
    = shapeCast S1x128 (shapeCast S128 (extractStridedSlice S1x128 ![1, 0] (W6 m ρ c (Proc.devRef .tc main_arg5) : S3x128.Idx → EReal) slices_S3x128_S1x128_1_0)
        shapeCasts_S1x128_S128) shapeCasts_S128_S1x128 := by
  show StableHlo.after hostOps3 (W6 m ρ c) (Proc.devRef .tc main_v70) = _
  after_results <;> rfl

theorem v70_at (c : Dev nD) (f : Fin 128) :
    (V7 m ρ c main_v70 : S1x128.Idx → EReal) (ix2 0 f) = m ((c : Thread nD τ).loc main_arg5) (ix2 1 f) := by
  rw [V7_v70, W6_arg5]
  refine (shapeCast_a_1a_apply _ _ 0 f).trans ?_
  refine (shapeCast_1a_a_apply _ _ f).trans ?_
  exact extractStridedSlice_apply _ _ _ (ix2 0 f) (ix2 1 f) (fun a => by
    match a with
    | ⟨0, _⟩ => rfl
    | ⟨1, _⟩ => simp)

theorem W12_v10 (c : Dev nD) : W12 m ρ c (Proc.devRef .tc main_v10) = W1 m ρ c (Proc.devRef .tc main_v10) :=
  (W12_keep m ρ c main_v10 (by decide)).trans <|
    (W11_host m ρ c main_v10 (by decide)).trans <|
    (W10_keep m ρ c main_v10 (by decide)).trans <|
    (W9_host m ρ c main_v10 (by decide)).trans <|
    (W8_keep m ρ c main_v10 (by decide)).trans <|
    (W7_host m ρ c main_v10 (by decide)).trans <|
    (W6_keep m ρ c main_v10 (by decide)).trans <|
    (W5_host m ρ c main_v10 (by decide)).trans <|
    (W4_keep m ρ c main_v10 (by decide)).trans <|
    (W3_host m ρ c main_v10 (by decide)).trans <|
    (W2_keep m ρ c main_v10 (by decide)).trans <| rfl

theorem W12_arg5 (c : Dev nD) : W12 m ρ c (Proc.devRef .tc main_arg5) = m ((c : Thread nD τ).loc main_arg5) :=
  (W12_keep m ρ c main_arg5 (by decide)).trans <|
    (W11_host m ρ c main_arg5 (by decide)).trans <|
    (W10_keep m ρ c main_arg5 (by decide)).trans <|
    (W9_host m ρ c main_arg5 (by decide)).trans <|
    (W8_keep m ρ c main_arg5 (by decide)).trans <|
    (W7_host m ρ c main_arg5 (by decide)).trans <|
    (W6_keep m ρ c main_arg5 (by decide)).trans <|
    (W5_host m ρ c main_arg5 (by decide)).trans <|
    (W4_keep m ρ c main_arg5 (by decide)).trans <|
    (W3_host m ρ c main_arg5 (by decide)).trans <|
    (W2_keep m ρ c main_arg5 (by decide)).trans <|
    (W1_host m ρ c main_arg5 (by decide)).trans <| rfl

theorem V13_v105 (c : Dev nD) : (V13 m ρ c main_v105 : S128x128.Idx → EReal)
    = shapeCast S128x128 (extractStridedSlice S1x128x128 ![2, 0, 0] (W12 m ρ c (Proc.devRef .tc main_v10) : S3x128x128.Idx → EReal)
        slices_S3x128x128_S1x128x128_2_0_0) shapeCasts_S1x128x128_S128x128 := by
  show StableHlo.after hostOps6 (W12 m ρ c) (Proc.devRef .tc main_v105) = _
  after_results <;> rfl

theorem v105_at (c : Dev nD) (d f : Fin 128) :
    (V13 m ρ c main_v105 : S128x128.Idx → EReal) (ix2 d f) = m ((c : Thread nD τ).loc main_arg4) (ix3 2 f d) := by
  rw [V13_v105, W12_v10]
  refine (shapeCast_1ab_ab_apply _ _ d f).trans ?_
  refine (extractStridedSlice_apply _ _ _ (ix3 0 d f) (ix3 2 d f) (fun a => by
    match a with
    | ⟨0, _⟩ => rfl
    | ⟨1, _⟩ => simp
    | ⟨2, _⟩ => simp)).trans ?_
  exact v10_at m ρ c 2 d f

theorem V13_v112 (c : Dev nD) : (V13 m ρ c main_v112 : S1x128.Idx → EReal)
    = shapeCast S1x128 (shapeCast S128 (extractStridedSlice S1x128 ![2, 0] (W12 m ρ c (Proc.devRef .tc main_arg5) : S3x128.Idx → EReal) slices_S3x128_S1x128_2_0)
        shapeCasts_S1x128_S128) shapeCasts_S128_S1x128 := by
  show StableHlo.after hostOps6 (W12 m ρ c) (Proc.devRef .tc main_v112) = _
  after_results <;> rfl

theorem v112_at (c : Dev nD) (f : Fin 128) :
    (V13 m ρ c main_v112 : S1x128.Idx → EReal) (ix2 0 f) = m ((c : Thread nD τ).loc main_arg5) (ix2 2 f) := by
  rw [V13_v112, W12_arg5]
  refine (shapeCast_a_1a_apply _ _ 0 f).trans ?_
  refine (shapeCast_1a_a_apply _ _ f).trans ?_
  exact extractStridedSlice_apply _ _ _ (ix2 0 f) (ix2 2 f) (fun a => by
    match a with
    | ⟨0, _⟩ => rfl
    | ⟨1, _⟩ => simp)

/-- The transposed weights `arg2[l, f, d] ↦ [l, d, f]`, formed once by the first host stretch. -/
theorem W1_v12 (c : Dev nD) : (W1 m ρ c (Proc.devRef .tc main_v12) : S3x128x128.Idx → EReal)
    = transpose S3x128x128 [0, 2, 1] (m ((c : Thread nD τ).loc main_arg2)) transposes_S3x128x128_S3x128x128_0_2_1 := by
  show StableHlo.after hostOps0 (W0 m ρ c) (Proc.devRef .tc main_v12) = _
  after_results <;> rfl

theorem v12_at (c : Dev nD) (l : Fin 3) (d f : Fin 128) :
    (W1 m ρ c (Proc.devRef .tc main_v12) : S3x128x128.Idx → EReal) (ix3 l d f) = m ((c : Thread nD τ).loc main_arg2) (ix3 l f d) := by
  rw [W1_v12]
  exact transpose_apply _ _ _ (ix3 l d f) (ix3 l f d) (fun b => by
    match b with
    | ⟨0, _⟩ => rfl
    | ⟨1, _⟩ => rfl
    | ⟨2, _⟩ => rfl)

theorem W2_v12 (c : Dev nD) : W2 m ρ c (Proc.devRef .tc main_v12) = W1 m ρ c (Proc.devRef .tc main_v12) :=
  (W2_keep m ρ c main_v12 (by decide)).trans <| rfl

theorem W2_arg3 (c : Dev nD) : W2 m ρ c (Proc.devRef .tc main_arg3) = m ((c : Thread nD τ).loc main_arg3) :=
  (W2_keep m ρ c main_arg3 (by decide)).trans <|
    (W1_host m ρ c main_arg3 (by decide)).trans <| rfl

theorem V3_v37 (c : Dev nD) : (V3 m ρ c main_v37 : S128x128.Idx → EReal)
    = shapeCast S128x128 (extractStridedSlice S1x128x128 ![0, 0, 0] (W2 m ρ c (Proc.devRef .tc main_v12) : S3x128x128.Idx → EReal)
        slices_S3x128x128_S1x128x128_0_0_0) shapeCasts_S1x128x128_S128x128 := by
  show StableHlo.after hostOps1 (W2 m ρ c) (Proc.devRef .tc main_v37) = _
  after_results <;> rfl

theorem v37_at (c : Dev nD) (d f : Fin 128) :
    (V3 m ρ c main_v37 : S128x128.Idx → EReal) (ix2 d f) = m ((c : Thread nD τ).loc main_arg2) (ix3 0 f d) := by
  rw [V3_v37, W2_v12]
  refine (shapeCast_1ab_ab_apply _ _ d f).trans ?_
  refine (extractStridedSlice_apply _ _ _ (ix3 0 d f) (ix3 0 d f) (fun a => by
    match a with
    | ⟨0, _⟩ => rfl
    | ⟨1, _⟩ => simp
    | ⟨2, _⟩ => simp)).trans ?_
  exact v12_at m ρ c 0 d f

theorem V3_v40 (c : Dev nD) : (V3 m ρ c main_v40 : S1x128.Idx → EReal)
    = shapeCast S1x128 (shapeCast S128 (extractStridedSlice S1x128 ![0, 0] (W2 m ρ c (Proc.devRef .tc main_arg3) : S3x128.Idx → EReal) slices_S3x128_S1x128_0_0)
        shapeCasts_S1x128_S128) shapeCasts_S128_S1x128 := by
  show StableHlo.after hostOps1 (W2 m ρ c) (Proc.devRef .tc main_v40) = _
  after_results <;> rfl

theorem v40_at (c : Dev nD) (f : Fin 128) :
    (V3 m ρ c main_v40 : S1x128.Idx → EReal) (ix2 0 f) = m ((c : Thread nD τ).loc main_arg3) (ix2 0 f) := by
  rw [V3_v40, W2_arg3]
  refine (shapeCast_a_1a_apply _ _ 0 f).trans ?_
  refine (shapeCast_1a_a_apply _ _ f).trans ?_
  exact extractStridedSlice_apply _ _ _ (ix2 0 f) (ix2 0 f) (fun a => by
    match a with
    | ⟨0, _⟩ => rfl
    | ⟨1, _⟩ => simp)

theorem W8_v12 (c : Dev nD) : W8 m ρ c (Proc.devRef .tc main_v12) = W1 m ρ c (Proc.devRef .tc main_v12) :=
  (W8_keep m ρ c main_v12 (by decide)).trans <|
    (W7_host m ρ c main_v12 (by decide)).trans <|
    (W6_keep m ρ c main_v12 (by decide)).trans <|
    (W5_host m ρ c main_v12 (by decide)).trans <|
    (W4_keep m ρ c main_v12 (by decide)).trans <|
    (W3_host m ρ c main_v12 (by decide)).trans <|
    (W2_keep m ρ c main_v12 (by decide)).trans <| rfl

theorem W8_arg3 (c : Dev nD) : W8 m ρ c (Proc.devRef .tc main_arg3) = m ((c : Thread nD τ).loc main_arg3) :=
  (W8_keep m ρ c main_arg3 (by decide)).trans <|
    (W7_host m ρ c main_arg3 (by decide)).trans <|
    (W6_keep m ρ c main_arg3 (by decide)).trans <|
    (W5_host m ρ c main_arg3 (by decide)).trans <|
    (W4_keep m ρ c main_arg3 (by decide)).trans <|
    (W3_host m ρ c main_arg3 (by decide)).trans <|
    (W2_keep m ρ c main_arg3 (by decide)).trans <|
    (W1_host m ρ c main_arg3 (by decide)).trans <| rfl

theorem V9_v79 (c : Dev nD) : (V9 m ρ c main_v79 : S128x128.Idx → EReal)
    = shapeCast S128x128 (extractStridedSlice S1x128x128 ![1, 0, 0] (W8 m ρ c (Proc.devRef .tc main_v12) : S3x128x128.Idx → EReal)
        slices_S3x128x128_S1x128x128_1_0_0) shapeCasts_S1x128x128_S128x128 := by
  show StableHlo.after hostOps4 (W8 m ρ c) (Proc.devRef .tc main_v79) = _
  after_results <;> rfl

theorem v79_at (c : Dev nD) (d f : Fin 128) :
    (V9 m ρ c main_v79 : S128x128.Idx → EReal) (ix2 d f) = m ((c : Thread nD τ).loc main_arg2) (ix3 1 f d) := by
  rw [V9_v79, W8_v12]
  refine (shapeCast_1ab_ab_apply _ _ d f).trans ?_
  refine (extractStridedSlice_apply _ _ _ (ix3 0 d f) (ix3 1 d f) (fun a => by
    match a with
    | ⟨0, _⟩ => rfl
    | ⟨1, _⟩ => simp
    | ⟨2, _⟩ => simp)).trans ?_
  exact v12_at m ρ c 1 d f

theorem V9_v82 (c : Dev nD) : (V9 m ρ c main_v82 : S1x128.Idx → EReal)
    = shapeCast S1x128 (shapeCast S128 (extractStridedSlice S1x128 ![1, 0] (W8 m ρ c (Proc.devRef .tc main_arg3) : S3x128.Idx → EReal) slices_S3x128_S1x128_1_0)
        shapeCasts_S1x128_S128) shapeCasts_S128_S1x128 := by
  show StableHlo.after hostOps4 (W8 m ρ c) (Proc.devRef .tc main_v82) = _
  after_results <;> rfl

theorem v82_at (c : Dev nD) (f : Fin 128) :
    (V9 m ρ c main_v82 : S1x128.Idx → EReal) (ix2 0 f) = m ((c : Thread nD τ).loc main_arg3) (ix2 1 f) := by
  rw [V9_v82, W8_arg3]
  refine (shapeCast_a_1a_apply _ _ 0 f).trans ?_
  refine (shapeCast_1a_a_apply _ _ f).trans ?_
  exact extractStridedSlice_apply _ _ _ (ix2 0 f) (ix2 1 f) (fun a => by
    match a with
    | ⟨0, _⟩ => rfl
    | ⟨1, _⟩ => simp)

theorem W14_v12 (c : Dev nD) : W14 m ρ c (Proc.devRef .tc main_v12) = W1 m ρ c (Proc.devRef .tc main_v12) :=
  (W14_keep m ρ c main_v12 (by decide)).trans <|
    (W13_host m ρ c main_v12 (by decide)).trans <|
    (W12_keep m ρ c main_v12 (by decide)).trans <|
    (W11_host m ρ c main_v12 (by decide)).trans <|
    (W10_keep m ρ c main_v12 (by decide)).trans <|
    (W9_host m ρ c main_v12 (by decide)).trans <|
    (W8_keep m ρ c main_v12 (by decide)).trans <|
    (W7_host m ρ c main_v12 (by decide)).trans <|
    (W6_keep m ρ c main_v12 (by decide)).trans <|
    (W5_host m ρ c main_v12 (by decide)).trans <|
    (W4_keep m ρ c main_v12 (by decide)).trans <|
    (W3_host m ρ c main_v12 (by decide)).trans <|
    (W2_keep m ρ c main_v12 (by decide)).trans <| rfl

theorem W14_arg3 (c : Dev nD) : W14 m ρ c (Proc.devRef .tc main_arg3) = m ((c : Thread nD τ).loc main_arg3) :=
  (W14_keep m ρ c main_arg3 (by decide)).trans <|
    (W13_host m ρ c main_arg3 (by decide)).trans <|
    (W12_keep m ρ c main_arg3 (by decide)).trans <|
    (W11_host m ρ c main_arg3 (by decide)).trans <|
    (W10_keep m ρ c main_arg3 (by decide)).trans <|
    (W9_host m ρ c main_arg3 (by decide)).trans <|
    (W8_keep m ρ c main_arg3 (by decide)).trans <|
    (W7_host m ρ c main_arg3 (by decide)).trans <|
    (W6_keep m ρ c main_arg3 (by decide)).trans <|
    (W5_host m ρ c main_arg3 (by decide)).trans <|
    (W4_keep m ρ c main_arg3 (by decide)).trans <|
    (W3_host m ρ c main_arg3 (by decide)).trans <|
    (W2_keep m ρ c main_arg3 (by decide)).trans <|
    (W1_host m ρ c main_arg3 (by decide)).trans <| rfl

theorem V15_v121 (c : Dev nD) : (V15 m ρ c main_v121 : S128x128.Idx → EReal)
    = shapeCast S128x128 (extractStridedSlice S1x128x128 ![2, 0, 0] (W14 m ρ c (Proc.devRef .tc main_v12) : S3x128x128.Idx → EReal)
        slices_S3x128x128_S1x128x128_2_0_0) shapeCasts_S1x128x128_S128x128 := by
  show StableHlo.after hostOps7 (W14 m ρ c) (Proc.devRef .tc main_v121) = _
  after_results <;> rfl

theorem v121_at (c : Dev nD) (d f : Fin 128) :
    (V15 m ρ c main_v121 : S128x128.Idx → EReal) (ix2 d f) = m ((c : Thread nD τ).loc main_arg2) (ix3 2 f d) := by
  rw [V15_v121, W14_v12]
  refine (shapeCast_1ab_ab_apply _ _ d f).trans ?_
  refine (extractStridedSlice_apply _ _ _ (ix3 0 d f) (ix3 2 d f) (fun a => by
    match a with
    | ⟨0, _⟩ => rfl
    | ⟨1, _⟩ => simp
    | ⟨2, _⟩ => simp)).trans ?_
  exact v12_at m ρ c 2 d f

theorem V15_v124 (c : Dev nD) : (V15 m ρ c main_v124 : S1x128.Idx → EReal)
    = shapeCast S1x128 (shapeCast S128 (extractStridedSlice S1x128 ![2, 0] (W14 m ρ c (Proc.devRef .tc main_arg3) : S3x128.Idx → EReal) slices_S3x128_S1x128_2_0)
        shapeCasts_S1x128_S128) shapeCasts_S128_S1x128 := by
  show StableHlo.after hostOps7 (W14 m ρ c) (Proc.devRef .tc main_v124) = _
  after_results <;> rfl

theorem v124_at (c : Dev nD) (f : Fin 128) :
    (V15 m ρ c main_v124 : S1x128.Idx → EReal) (ix2 0 f) = m ((c : Thread nD τ).loc main_arg3) (ix2 2 f) := by
  rw [V15_v124, W14_arg3]
  refine (shapeCast_a_1a_apply _ _ 0 f).trans ?_
  refine (shapeCast_1a_a_apply _ _ f).trans ?_
  exact extractStridedSlice_apply _ _ _ (ix2 0 f) (ix2 2 f) (fun a => by
    match a with
    | ⟨0, _⟩ => rfl
    | ⟨1, _⟩ => simp)

end Cert.KernelIdeal.Frm

end
-- ==== Proof.Steps.lean ====
import proofs.«156566_j1202590843053_1_alg».proof.Proof.RefRel

noncomputable section

namespace Cert.RefLayer

open Cert.ReferenceIdeal
open Idealize.ShloMosaic Idealize.ShloMosaic.ValueIdx

/-! # One layer of the network as functions of whole arrays, index by index

The message of an edge, the pre-normalisation feature of a node, and the normalised feature: the three non-shared steps
of a layer, in the reference's order of operations. (The relation update of the edge features is `Cert.RefRel.relStep`.) -/

/-- The message array: at edge `e`, channel `f`, `(Σ_d (xg[e,d] · ea[e,d]) · W[l,f,d]) + B[l,f]`. -/
def msgStep (xg ea : S640000x128.Idx → EReal) (W : S3x128x128.Idx → EReal) (B : S3x128.Idx → EReal) (l : Fin 3) : S640000x128.Idx → EReal :=
  fun i => (∑ d : Fin 128, (xg (ix2 (i 0) d) * ea (ix2 (i 0) d)) * W (ix3 l (i 1) d)) + B (ix2 l (i 1))

/-- The pre-normalisation features: at node `n`, channel `f`, `(agg[n,f] + Σ_d x[n,d] · W[l,f,d]) + B[l,f]`. -/
def nodeStep (agg x : S50000x128.Idx → EReal) (W : S3x128x128.Idx → EReal) (B : S3x128.Idx → EReal) (l : Fin 3) : S50000x128.Idx → EReal :=
  fun i => (agg i + ∑ d : Fin 128, x (ix2 (i 0) d) * W (ix3 l (i 1) d)) + B (ix2 l (i 1))

/-- A column's mean over the 50000 rows. -/
def colMean (h : S50000x128.Idx → EReal) (f : Fin 128) : EReal :=
  Ideal.div (∑ n : Fin 50000, h (ix2 n f)) (Ideal.ofBits .f32 0x47435000#32)

/-- A column's variance: the mean of the squared deviations from the column's mean. -/
def colVar (h : S50000x128.Idx → EReal) (f : Fin 128) : EReal :=
  Ideal.div (∑ n : Fin 50000, (h (ix2 n f) - colMean h f) * (h (ix2 n f) - colMean h f)) (Ideal.ofBits .f32 0x47435000#32)

/-- The normalised, rectified features of layer `l`. -/
def bnStep (h : S50000x128.Idx → EReal) (G Bt : S2x128.Idx → EReal) (l : Fin 2) : S50000x128.Idx → EReal :=
  fun i => max ((((h i - colMean h (i 1)) * Ideal.rsqrt (colVar h (i 1) + Ideal.ofBits .f32 0x3727C5AC#32)) * G (ix2 l (i 1))) + Bt (ix2 l (i 1))) 0

end Cert.RefLayer

end
-- ==== Proof.KiL0a.lean ====
import proofs.«156566_j1202590843053_1_alg».proof.Proof.KiRun
import proofs.«156566_j1202590843053_1_alg».proof.Proof.RefReadP
import proofs.«156566_j1202590843053_1_alg».proof.Proof.KiWeights2
import proofs.«156566_j1202590843053_1_alg».proof.Proof.KiEdgeValue
import proofs.«156566_j1202590843053_1_alg».proof.Proof.Steps
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.StableHlo Idealize.ShloMosaic.ValueIdx
open Idealize.SL Idealize.SL.Sem
open Cert.ReferenceIdeal.ReadP

variable (m : (ℓ : Loc nD τ sig) → Buf (Elt Ideal) ℓ) (ρ : Dev nD → PrngReg)

open Cert.RefLayer Cert.RefRel

/-! # Layer 0 on the kernel's side, up to the neighbour mean

The kernel's host stretches spell the row gather, the scatter-add of the messages and the division by the in-degree with
the same host operations as the reference, so those arrays are the reference's stages as soon as their operands are; the
edge region's message output is the reference's message array index by index. -/

/-- An edge region's message output is the layer-`l` message step when its matrix and bias row are the layer's
    (transposed) message weights and bias. -/
theorem edgeMsg_eq_msgStep (xg ea : S640000x128.Idx → EReal) (w : S128x128.Idx → EReal) (b : S1x128.Idx → EReal)
    (W : S3x128x128.Idx → EReal) (B : S3x128.Idx → EReal) (l : Fin 3)
    (hw : ∀ d f : Fin 128, w (ix2 d f) = W (ix3 l f d)) (hb : ∀ f : Fin 128, b (ix2 0 f) = B (ix2 l f)) :
    edgeMsg xg ea w b = msgStep xg ea W B l := by
  funext i
  unfold edgeMsg msgStep
  rw [hb (i 1)]
  exact congrArg (· + B (ix2 l (i 1))) (Finset.sum_congr rfl fun d _ => by rw [hw d (i 1)])

set_option maxHeartbeats 4000000 in
/-- The gathered source rows of layer 0. -/
theorem xg0_eq (c : Dev nD) : (V1 m ρ c main_v19 : S640000x128.Idx → EReal)
    = val_main_v16 (F := Ideal) (m ((c : Thread nD τ).loc main_arg0)) (m ((c : Thread nD τ).loc main_arg10)) := by
  show StableHlo.after hostOps0 (W0 m ρ c) (Proc.devRef .tc main_v19) = _
  after_results <;> rfl

/-- The source and destination indices and the clamped in-degree, formed once by the first host stretch. -/
theorem src_eq (c : Dev nD) : (W1 m ρ c (Proc.devRef .tc main_v1) : S640000.Idx → BitVec 32)
    = val_main_v1 (F := Ideal) (m ((c : Thread nD τ).loc main_arg10)) := by
  show StableHlo.after hostOps0 (W0 m ρ c) (Proc.devRef .tc main_v1) = _
  after_results <;> rfl
theorem dst_eq (c : Dev nD) : (W1 m ρ c (Proc.devRef .tc main_v3) : S640000.Idx → BitVec 32)
    = val_main_v3 (F := Ideal) (m ((c : Thread nD τ).loc main_arg10)) := by
  show StableHlo.after hostOps0 (W0 m ρ c) (Proc.devRef .tc main_v3) = _
  after_results <;> rfl
theorem denom_eq (c : Dev nD) : (W1 m ρ c (Proc.devRef .tc main_v9) : S50000x1.Idx → EReal)
    = val_main_v9 (F := Ideal) (m ((c : Thread nD τ).loc main_arg10)) := by
  show StableHlo.after hostOps0 (W0 m ρ c) (Proc.devRef .tc main_v9) = _
  after_results <;> rfl

/-- The messages of layer 0. -/
theorem msg0_eq (c : Dev nD) : (W2 m ρ c (Proc.devRef .tc main_v30_0) : S640000x128.Idx → EReal)
    = msgStep (val_main_v16 (F := Ideal) (m ((c : Thread nD τ).loc main_arg0)) (m ((c : Thread nD τ).loc main_arg10)))
        (m ((c : Thread nD τ).loc main_arg1)) (m ((c : Thread nD τ).loc main_arg4)) (m ((c : Thread nD τ).loc main_arg5)) 0 := by
  refine (W2_arr m ρ c 6).trans ?_
  rw [final0_6]
  refine (edgeMsg_eq_msgStep _ _ _ _ _ _ 0 (v21_at m ρ c) (v28_at m ρ c)).trans ?_
  exact congrArg₂ (fun a b => msgStep a b _ _ 0) (xg0_eq m ρ c) (W1_host m ρ c main_arg1 (by decide))

end Cert.KernelIdeal.Frm

end
-- ==== Proof.KiNodePieces1.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import proofs.«156566_j1202590843053_1_alg».proof.Proof.KiNode1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The node kernel of region 1: what its whole-body runs leave, as the payloads of the argument blocks -/

theorem hz2 : (![0, 0] : Fin 2 → Nat) = fun _ => 0 := funext fun a => by fin_cases a <;> rfl

/-- A load through the whole rectangle after stores the last of which went through the whole rectangle reads that
    last store's payload. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The first point: the accumulators are reset, then the block is added -/

theorem runA1_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) : View.canon (kernelRun1_A c i arg1 harg1 arg2 harg2 arg3 harg3 arg4 harg4 arg5 harg5 arg6 harg6 arg7 harg7 arg8 harg8 arg9 harg9 hc0 x0 x1 x2 x3).1 = k1_pay3 x1 x2 x3 x0 := by
  unfold kernelRun1_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA1_s0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) : View.canon (kernelRun1_A c i arg1 harg1 arg2 harg2 arg3 harg3 arg4 harg4 arg5 harg5 arg6 harg6 arg7 harg7 arg8 harg8 arg9 harg9 hc0 x0 x1 x2 x3).2.2.2.1 = k1_pay4 x1 x2 x3 x0 (k1_pay1 (F := F)) := by
  unfold kernelRun1_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA1_s1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) : View.canon (kernelRun1_A c i arg1 harg1 arg2 harg2 arg3 harg3 arg4 harg4 arg5 harg5 arg6 harg6 arg7 harg7 arg8 harg8 arg9 harg9 hc0 x0 x1 x2 x3).2.2.2.2.1 = k1_pay5 x1 x2 x3 x0 (k1_pay2 (F := F)) := by
  unfold kernelRun1_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA1_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) : View.canon (kernelRun1_A c i arg1 harg1 arg2 harg2 arg3 harg3 arg4 harg4 arg5 harg5 arg6 harg6 arg7 harg7 arg8 harg8 arg9 harg9 hc0 x0 x1 x2 x3).2.1 = k1_pay4 x1 x2 x3 x0 (k1_pay1 (F := F)) := by
  unfold kernelRun1_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA1_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) : View.canon (kernelRun1_A c i arg1 harg1 arg2 harg2 arg3 harg3 arg4 harg4 arg5 harg5 arg6 harg6 arg7 harg7 arg8 harg8 arg9 harg9 hc0 x0 x1 x2 x3).2.2.1 = k1_pay5 x1 x2 x3 x0 (k1_pay2 (F := F)) := by
  unfold kernelRun1_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]

/-! ## A later point: the accumulators continue from the carried contents -/

theorem runB1_4 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun1_B c i arg1 harg1 arg2 harg2 arg3 harg3 arg4 harg4 arg5 harg5 arg6 harg6 arg7 harg7 arg8 harg8 arg9 harg9 hc0 x0 x1 x2 x3 xs0 xs1).1 = k1_pay3 x1 x2 x3 x0 := by
  unfold kernelRun1_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB1_s0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun1_B c i arg1 harg1 arg2 harg2 arg3 harg3 arg4 harg4 arg5 harg5 arg6 harg6 arg7 harg7 arg8 harg8 arg9 harg9 hc0 x0 x1 x2 x3 xs0 xs1).2.2.2.1 = k1_pay4 x1 x2 x3 x0 xs0 := by
  unfold kernelRun1_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB1_s1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun1_B c i arg1 harg1 arg2 harg2 arg3 harg3 arg4 harg4 arg5 harg5 arg6 harg6 arg7 harg7 arg8 harg8 arg9 harg9 hc0 x0 x1 x2 x3 xs0 xs1).2.2.2.2.1 = k1_pay5 x1 x2 x3 x0 xs1 := by
  unfold kernelRun1_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB1_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun1_B c i arg1 harg1 arg2 harg2 arg3 harg3 arg4 harg4 arg5 harg5 arg6 harg6 arg7 harg7 arg8 harg8 arg9 harg9 hc0 x0 x1 x2 x3 xs0 xs1).2.1 = k1_pay4 x1 x2 x3 x0 xs0 := by
  unfold kernelRun1_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB1_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun1_B c i arg1 harg1 arg2 harg2 arg3 harg3 arg4 harg4 arg5 harg5 arg6 harg6 arg7 harg7 arg8 harg8 arg9 harg9 hc0 x0 x1 x2 x3 xs0 xs1).2.2.1 = k1_pay5 x1 x2 x3 x0 xs1 := by
  unfold kernelRun1_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]

end Cert.KernelIdeal.Frm

end
-- ==== Proof.KiNodeAcc1.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import proofs.«156566_j1202590843053_1_alg».proof.Proof.KiNodePieces1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node kernel of region 1: what it leaves point by point, in the payloads of the points' blocks -/

/-- The pre-normalisation rows of block `t`: the body's first payload of the point's four input blocks
    (`(x · w + b) + agg` on the block's rows). -/
def hblk1 (c : Dev nD) (t : Fin cfg1.N) : Vec F S5000x128 .f32 :=
  k1_pay3 (blk1_1 V c t) (blk1_2 V c t) (blk1_3 V c t) (blk1_0 V c t)

/-- The running column sums after point `n`: reset to the zero row at the first point, then each point adds its block's. -/
def acc1 (c : Dev nD) : (n : ℕ) → n < cfg1.N → Vec F S1x128 .f32
  | 0, hn => k1_pay4 (blk1_1 V c ⟨0, hn⟩) (blk1_2 V c ⟨0, hn⟩) (blk1_3 V c ⟨0, hn⟩) (blk1_0 V c ⟨0, hn⟩) (k1_pay1 (F := F))
  | n + 1, hn => k1_pay4 (blk1_1 V c ⟨n + 1, hn⟩) (blk1_2 V c ⟨n + 1, hn⟩) (blk1_3 V c ⟨n + 1, hn⟩) (blk1_0 V c ⟨n + 1, hn⟩) (acc1 c n (Nat.lt_of_succ_lt hn))

/-- The running column sums of squares after point `n`. -/
def accSq1 (c : Dev nD) : (n : ℕ) → n < cfg1.N → Vec F S1x128 .f32
  | 0, hn => k1_pay5 (blk1_1 V c ⟨0, hn⟩) (blk1_2 V c ⟨0, hn⟩) (blk1_3 V c ⟨0, hn⟩) (blk1_0 V c ⟨0, hn⟩) (k1_pay2 (F := F))
  | n + 1, hn => k1_pay5 (blk1_1 V c ⟨n + 1, hn⟩) (blk1_2 V c ⟨n + 1, hn⟩) (blk1_3 V c ⟨n + 1, hn⟩) (blk1_0 V c ⟨n + 1, hn⟩) (accSq1 c n (Nat.lt_of_succ_lt hn))

set_option maxHeartbeats 1000000 in
/-- The first point's five contents, in the payloads, on any staging memrefs. -/
theorem tupleA1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i)
    (x0 : Vec F S5000x128 .f32) (x1 : Vec F S5000x128 .f32) (x2 : Vec F S128x128 .f32) (x3 : Vec F S1x128 .f32) :
    (View.canon (kernelRun1_A c i arg1 harg1 arg2 harg2 arg3 harg3 arg4 harg4 arg5 harg5 arg6 harg6 arg7 harg7 arg8 harg8 arg9 harg9 hc0 x0 x1 x2 x3).1, View.canon (kernelRun1_A c i arg1 harg1 arg2 harg2 arg3 harg3 arg4 harg4 arg5 harg5 arg6 harg6 arg7 harg7 arg8 harg8 arg9 harg9 hc0 x0 x1 x2 x3).2.1, View.canon (kernelRun1_A c i arg1 harg1 arg2 harg2 arg3 harg3 arg4 harg4 arg5 harg5 arg6 harg6 arg7 harg7 arg8 harg8 arg9 harg9 hc0 x0 x1 x2 x3).2.2.1, View.canon (kernelRun1_A c i arg1 harg1 arg2 harg2 arg3 harg3 arg4 harg4 arg5 harg5 arg6 harg6 arg7 harg7 arg8 harg8 arg9 harg9 hc0 x0 x1 x2 x3).2.2.2.1, View.canon (kernelRun1_A c i arg1 harg1 arg2 harg2 arg3 harg3 arg4 harg4 arg5 harg5 arg6 harg6 arg7 harg7 arg8 harg8 arg9 harg9 hc0 x0 x1 x2 x3).2.2.2.2.1)
      = (k1_pay3 x1 x2 x3 x0, k1_pay4 x1 x2 x3 x0 (k1_pay1 (F := F)), k1_pay5 x1 x2 x3 x0 (k1_pay2 (F := F)),
          k1_pay4 x1 x2 x3 x0 (k1_pay1 (F := F)), k1_pay5 x1 x2 x3 x0 (k1_pay2 (F := F))) := by
  rw [runA1_4 c i arg1 harg1 arg2 harg2 arg3 harg3 arg4 harg4 arg5 harg5 arg6 harg6 arg7 harg7 arg8 harg8 arg9 harg9 hc0 x0 x1 x2 x3, runA1_5 c i arg1 harg1 arg2 harg2 arg3 harg3 arg4 harg4 arg5 harg5 arg6 harg6 arg7 harg7 arg8 harg8 arg9 harg9 hc0 x0 x1 x2 x3, runA1_6 c i arg1 harg1 arg2 harg2 arg3 harg3 arg4 harg4 arg5 harg5 arg6 harg6 arg7 harg7 arg8 harg8 arg9 harg9 hc0 x0 x1 x2 x3, runA1_s0 c i arg1 harg1 arg2 harg2 arg3 harg3 arg4 harg4 arg5 harg5 arg6 harg6 arg7 harg7 arg8 harg8 arg9 harg9 hc0 x0 x1 x2 x3, runA1_s1 c i arg1 harg1 arg2 harg2 arg3 harg3 arg4 harg4 arg5 harg5 arg6 harg6 arg7 harg7 arg8 harg8 arg9 harg9 hc0 x0 x1 x2 x3]

set_option maxHeartbeats 1000000 in
/-- A later point's five contents, in the payloads, on any staging memrefs. -/
theorem tupleB1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i)
    (x0 : Vec F S5000x128 .f32) (x1 : Vec F S5000x128 .f32) (x2 : Vec F S128x128 .f32) (x3 : Vec F S1x128 .f32) (xs0 : Vec F S1x128 .f32) (xs1 : Vec F S1x128 .f32) :
    (View.canon (kernelRun1_B c i arg1 harg1 arg2 harg2 arg3 harg3 arg4 harg4 arg5 harg5 arg6 harg6 arg7 harg7 arg8 harg8 arg9 harg9 hc0 x0 x1 x2 x3 xs0 xs1).1, View.canon (kernelRun1_B c i arg1 harg1 arg2 harg2 arg3 harg3 arg4 harg4 arg5 harg5 arg6 harg6 arg7 harg7 arg8 harg8 arg9 harg9 hc0 x0 x1 x2 x3 xs0 xs1).2.1, View.canon (kernelRun1_B c i arg1 harg1 arg2 harg2 arg3 harg3 arg4 harg4 arg5 harg5 arg6 harg6 arg7 harg7 arg8 harg8 arg9 harg9 hc0 x0 x1 x2 x3 xs0 xs1).2.2.1, View.canon (kernelRun1_B c i arg1 harg1 arg2 harg2 arg3 harg3 arg4 harg4 arg5 harg5 arg6 harg6 arg7 harg7 arg8 harg8 arg9 harg9 hc0 x0 x1 x2 x3 xs0 xs1).2.2.2.1, View.canon (kernelRun1_B c i arg1 harg1 arg2 harg2 arg3 harg3 arg4 harg4 arg5 harg5 arg6 harg6 arg7 harg7 arg8 harg8 arg9 harg9 hc0 x0 x1 x2 x3 xs0 xs1).2.2.2.2.1)
      = (k1_pay3 x1 x2 x3 x0, k1_pay4 x1 x2 x3 x0 xs0, k1_pay5 x1 x2 x3 x0 xs1, k1_pay4 x1 x2 x3 x0 xs0, k1_pay5 x1 x2 x3 x0 xs1) := by
  rw [runB1_4 c i arg1 harg1 arg2 harg2 arg3 harg3 arg4 harg4 arg5 harg5 arg6 harg6 arg7 harg7 arg8 harg8 arg9 harg9 hc0 x0 x1 x2 x3 xs0 xs1, runB1_5 c i arg1 harg1 arg2 harg2 arg3 harg3 arg4 harg4 arg5 harg5 arg6 harg6 arg7 harg7 arg8 harg8 arg9 harg9 hc0 x0 x1 x2 x3 xs0 xs1, runB1_6 c i arg1 harg1 arg2 harg2 arg3 harg3 arg4 harg4 arg5 harg5 arg6 harg6 arg7 harg7 arg8 harg8 arg9 harg9 hc0 x0 x1 x2 x3 xs0 xs1, runB1_s0 c i arg1 harg1 arg2 harg2 arg3 harg3 arg4 harg4 arg5 harg5 arg6 harg6 arg7 harg7 arg8 harg8 arg9 harg9 hc0 x0 x1 x2 x3 xs0 xs1, runB1_s1 c i arg1 harg1 arg2 harg2 arg3 harg3 arg4 harg4 arg5 harg5 arg6 harg6 arg7 harg7 arg8 harg8 arg9 harg9 hc0 x0 x1 x2 x3 xs0 xs1]

set_option maxHeartbeats 2000000 in
/-- The first point's five contents at the point's own memrefs and blocks. -/
theorem caseA1_eq (c : Dev nD) (t : Fin cfg1.N) (h0 : t.val = 0) :
    caseA1 V c t h0 = (hblk1 V c t,
      k1_pay4 (blk1_1 V c t) (blk1_2 V c t) (blk1_3 V c t) (blk1_0 V c t) (k1_pay1 (F := F)),
      k1_pay5 (blk1_1 V c t) (blk1_2 V c t) (blk1_3 V c t) (blk1_0 V c t) (k1_pay2 (F := F)),
      k1_pay4 (blk1_1 V c t) (blk1_2 V c t) (blk1_3 V c t) (blk1_0 V c t) (k1_pay1 (F := F)),
      k1_pay5 (blk1_1 V c t) (blk1_2 V c t) (blk1_3 V c t) (blk1_0 V c t) (k1_pay2 (F := F))) := by
  unfold caseA1 runA1 hblk1
  exact tupleA1 c _ _ _ _ _ _ _ _ _ _ _ _ _ _ _ _ _ _ _ _ (blk1_0 V c t) (blk1_1 V c t) (blk1_2 V c t) (blk1_3 V c t)

set_option maxHeartbeats 2000000 in
/-- A later point's five contents at the point's own memrefs and blocks, from the accumulators' contents it starts from. -/
theorem caseB1_eq (c : Dev nD) (t : Fin cfg1.N) (h0 : t.val ≠ 0) (s0 s1 : Vec F S1x128 .f32) :
    caseB1 V c t h0 s0 s1 = (hblk1 V c t,
      k1_pay4 (blk1_1 V c t) (blk1_2 V c t) (blk1_3 V c t) (blk1_0 V c t) s0,
      k1_pay5 (blk1_1 V c t) (blk1_2 V c t) (blk1_3 V c t) (blk1_0 V c t) s1,
      k1_pay4 (blk1_1 V c t) (blk1_2 V c t) (blk1_3 V c t) (blk1_0 V c t) s0,
      k1_pay5 (blk1_1 V c t) (blk1_2 V c t) (blk1_3 V c t) (blk1_0 V c t) s1) := by
  unfold caseB1 runB1 hblk1
  exact tupleB1 c _ _ _ _ _ _ _ _ _ _ _ _ _ _ _ _ _ _ _ _ (blk1_0 V c t) (blk1_1 V c t) (blk1_2 V c t) (blk1_3 V c t) s0 s1

/-- What every point leaves: the block's rows in the first output, the running sums in the other two outputs and in the
    two accumulators. -/
theorem outsAt1_eq (c : Dev nD) : ∀ (n : ℕ) (hn : n < cfg1.N),
    outsAt1 V c n hn = (hblk1 V c ⟨n, hn⟩, acc1 V c n hn, accSq1 V c n hn, acc1 V c n hn, accSq1 V c n hn)
  | 0, hn => caseA1_eq V c ⟨0, hn⟩ rfl
  | n + 1, hn => by
    show caseB1 V c ⟨n + 1, hn⟩ (Nat.succ_ne_zero n) (outsAt1 V c n (Nat.lt_of_succ_lt hn)).2.2.2.1 (outsAt1 V c n (Nat.lt_of_succ_lt hn)).2.2.2.2 = _
    rw [outsAt1_eq c n (Nat.lt_of_succ_lt hn)]
    exact caseB1_eq V c ⟨n + 1, hn⟩ (Nat.succ_ne_zero n) _ _

theorem after1_4_eq (c : Dev nD) (t : Fin cfg1.N) : (dat1 V c).after 4 t = hblk1 V c t := by
  rw [after1_4, outsAt1_eq]
theorem after1_5_eq (c : Dev nD) (t : Fin cfg1.N) : (dat1 V c).after 5 t = acc1 V c t.val t.isLt := by
  rw [after1_5, outsAt1_eq]
theorem after1_6_eq (c : Dev nD) (t : Fin cfg1.N) : (dat1 V c).after 6 t = accSq1 V c t.val t.isLt := by
  rw [after1_6, outsAt1_eq]

end Cert.KernelIdeal.Frm

end
-- ==== Proof.KiNodeDot.lean ====
import proofs.«156566_j1202590843053_1_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.ValueIdx

/-! # The node kernel's matrix product, bias broadcast and column sums at an index, over the extended reals -/

/-- The product's dimension record: the left operand's axis 1 contracted with the right operand's axis 0. -/
abbrev nodeDot : DotDims S5000x128 S128x128 S5000x128 := dot_S5000x128_S128x128_S5000x128_1_0_0_1_n_n

theorem nodeDot_lhs0 (i : S5000x128.Idx) (k : nodeDot.contr.Idx) : (nodeDot.lhsIdx i k 0).val = (i 0).val := by
  unfold DotDims.lhsIdx
  rw [dif_neg (show ¬(0 : Fin S5000x128.rank) ∈ nodeDot.lhsBatch by decide), dif_pos (show (0 : Fin S5000x128.rank) ∈ nodeDot.lhsNonContracting by decide)]
  rfl
theorem nodeDot_lhs1 (i : S5000x128.Idx) (k : nodeDot.contr.Idx) : (nodeDot.lhsIdx i k 1).val = (k ⟨0, by decide⟩).val :=
  nodeDot.lhsIdx_val_of_single rfl i k
theorem nodeDot_rhs0 (i : S5000x128.Idx) (k : nodeDot.contr.Idx) : (nodeDot.rhsIdx i k 0).val = (k ⟨0, by decide⟩).val :=
  nodeDot.rhsIdx_val_of_single rfl i k
theorem nodeDot_rhs1 (i : S5000x128.Idx) (k : nodeDot.contr.Idx) : (nodeDot.rhsIdx i k 1).val = (i 1).val := by
  unfold DotDims.rhsIdx
  rw [dif_neg (show ¬(1 : Fin S128x128.rank) ∈ nodeDot.rhsBatch by decide), dif_pos (show (1 : Fin S128x128.rank) ∈ nodeDot.rhsNonContracting by decide)]
  rfl

/-- The product into the zero accumulator at row `p`, column `q`: the sum over the contracted axis. -/
theorem node_matmul_at {φ₁ φ₂ : FTy} (A : FVec Ideal S5000x128 φ₁) (B : FVec Ideal S128x128 φ₂) (p : Fin 5000) (q : Fin 128) :
    FloatOps.matmul nodeDot none A B (constant (F := Ideal) S5000x128 .f32 0x00000000#32) (ix2 p q)
      = ∑ d : Fin 128, A (ix2 p d) * B (ix2 d q) := by
  refine (Ideal.matmul_constant_zero_apply nodeDot none A B (ix2 p q)).trans ?_
  rw [← Equiv.sum_comp (contrEquiv1 nodeDot 128 rfl rfl).symm]
  refine Finset.sum_congr rfl fun k _ => ?_
  have hk := contrEquiv1_symm_val nodeDot 128 rfl rfl k
  have el : nodeDot.lhsIdx (ix2 p q) ((contrEquiv1 nodeDot 128 rfl rfl).symm k) = ix2 p k := funext fun a => Fin.ext (by
    match a with
    | ⟨0, _⟩ => exact nodeDot_lhs0 _ _
    | ⟨1, _⟩ => exact (nodeDot_lhs1 _ _).trans hk)
  have er : nodeDot.rhsIdx (ix2 p q) ((contrEquiv1 nodeDot 128 rfl rfl).symm k) = ix2 k q := funext fun a => Fin.ext (by
    match a with
    | ⟨0, _⟩ => exact (nodeDot_rhs0 _ _).trans hk
    | ⟨1, _⟩ => exact nodeDot_rhs1 _ _)
  rw [el, er]

/-- The bias row broadcast down the 5000 rows. -/
theorem node_bias_at (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-- The column sums of a block: the sum down the 5000 rows. -/
theorem node_colsum_at (src : FVec Ideal S5000x128 .f32) (q : Fin 128) :
    multiReduction (F := Ideal) .add [0] S128 src 0x00000000#32 reduces_S5000x128_S128 (.inl rfl) rfl (ix1 q) = ∑ p : Fin 5000, src (ix2 p q) := by
  refine (Ideal.multiReduction_add_single src 0x00000000#32 reduces_S5000x128_S128 (.inl rfl) rfl (ix1 q)).trans ?_
  refine Finset.sum_congr rfl fun p _ => congrArg src (funext fun a => Fin.ext ?_)
  match a with
  | ⟨0, _⟩ => rfl
  | ⟨1, _⟩ => rfl

end Cert.KernelIdeal.Frm

end
-- ==== Proof.KiNodeVal1.lean ====
import proofs.«156566_j1202590843053_1_alg».proof.Proof.KiNodeAcc1
import proofs.«156566_j1202590843053_1_alg».proof.Proof.KiNodeDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.ValueIdx

/-! # The node kernel's stored values at an index, over the extended reals (region 1) -/

/-- The pre-normalisation value at row `p`, column `q` of the block: `((Σ_d x[p,d]·w[d,q]) + b[0,q]) + agg[p,q]`. -/
theorem k1_pay3_at (v3 : Vec Ideal S5000x128 .f32) (v5 : Vec Ideal S128x128 .f32) (v9 : Vec Ideal S1x128 .f32) (v13 : Vec Ideal S5000x128 .f32)
    (p : Fin 5000) (q : Fin 128) :
    k1_pay3 (F := Ideal) v3 v5 v9 v13 (ix2 p q) = ((∑ d : Fin 128, v3 (ix2 p d) * v5 (ix2 d q)) + v9 (ix2 0 q)) + v13 (ix2 p q) := by
  unfold k1_pay3
  simp only [shapeCast_self]
  exact congrArg₂ (· + ·) (congrArg₂ (· + ·) (node_matmul_at _ _ p q) (node_bias_at v9 p q)) rfl

/-- The accumulated column sum after a block: the carried row plus the block's column sums. -/
theorem k1_pay4_at (v3 : Vec Ideal S5000x128 .f32) (v5 : Vec Ideal S128x128 .f32) (v9 : Vec Ideal S1x128 .f32) (v13 : Vec Ideal S5000x128 .f32)
    (v17 : Vec Ideal S1x128 .f32) (q : Fin 128) :
    k1_pay4 (F := Ideal) v3 v5 v9 v13 v17 (ix2 0 q) = v17 (ix2 0 q) + ∑ p : Fin 5000, k1_pay3 (F := Ideal) v3 v5 v9 v13 (ix2 p q) := by
  unfold k1_pay4
  simp only [shapeCast_self]
  refine congrArg (v17 (ix2 0 q) + ·) ?_
  refine (shapeCast_a_1a_apply _ _ 0 q).trans ?_
  exact node_colsum_at _ q

/-- The accumulated column sum of squares after a block. -/
theorem k1_pay5_at (v3 : Vec Ideal S5000x128 .f32) (v5 : Vec Ideal S128x128 .f32) (v9 : Vec Ideal S1x128 .f32) (v13 : Vec Ideal S5000x128 .f32)
    (v24 : Vec Ideal S1x128 .f32) (q : Fin 128) :
    k1_pay5 (F := Ideal) v3 v5 v9 v13 v24 (ix2 0 q)
      = v24 (ix2 0 q) + ∑ p : Fin 5000, k1_pay3 (F := Ideal) v3 v5 v9 v13 (ix2 p q) * k1_pay3 (F := Ideal) v3 v5 v9 v13 (ix2 p q) := by
  unfold k1_pay5
  simp only [shapeCast_self]
  refine congrArg (v24 (ix2 0 q) + ·) ?_
  refine (shapeCast_a_1a_apply _ _ 0 q).trans ?_
  exact node_colsum_at _ q

/-- The reset rows are zero. -/
theorem k1_pay1_at (i : S1x128.Idx) : k1_pay1 (F := Ideal) i = 0 := by
  unfold k1_pay1
  simp only [shapeCast_self]
  exact Ideal.ofBits_zero_f32
theorem k1_pay2_at (i : S1x128.Idx) : k1_pay2 (F := Ideal) i = 0 := by
  unfold k1_pay2
  simp only [shapeCast_self]
  exact Ideal.ofBits_zero_f32

end Cert.KernelIdeal.Frm

end
-- ==== Proof.KiNodeSpec.lean ====
/- The node kernel's whole-array functions, at the exact instance (a float is an extended real). For node `n` and
   channel `f`: the pre-normalisation value ((Σ_d x[n,d]·w[d,f]) + b[0,f]) + agg[n,f] (`nodePre`), and of any
   50000x128 array its column sums and column sums of squares as 1x128 rows (`colSum`, `colSumSq`). Then the column
   of an array as a sequence over the natural numbers, zero past the last row (`rowsOf`), so that a column sum is a
   sum over a range, which regroups into ten tiles of 5000 rows. No region is mentioned: the three node regions of the
   program compute the same three functions of their four arrays. -/
import proofs.«156566_j1202590843053_1_alg».proof.Proof.Gen.KernelIdeal
import Idealize.ShloMosaic.PureOps.Ideal.Laws
import Idealize.ShloMosaic.Lib.ValueIdx
import Mathlib.Algebra.BigOperators.Fin

set_option maxRecDepth 16384

noncomputable section

namespace Cert.KernelIdeal.Frm

open Cert.KernelIdeal Cert.KernelIdeal.Gen
open Idealize.ShloMosaic Idealize.ShloMosaic.ValueIdx

/-- The pre-normalisation node array: at node `n`, channel `f`, ((Σ_d x[n,d]·w[d,f]) + b[0,f]) + agg[n,f]. -/
def nodePre (agg x : S50000x128.Idx → EReal) (w : S128x128.Idx → EReal) (b : S1x128.Idx → EReal) : S50000x128.Idx → EReal :=
  fun i => ((∑ d : Fin 128, x (ix2 (i 0) d) * w (ix2 d (i 1))) + b (ix2 0 (i 1))) + agg i

/-- The column sums of a 50000x128 array, as a 1x128 row. -/
def colSum (h : S50000x128.Idx → EReal) : S1x128.Idx → EReal := fun j => ∑ n : Fin 50000, h (ix2 n (j 1))

/-- The column sums of squares of a 50000x128 array, as a 1x128 row. -/
def colSumSq (h : S50000x128.Idx → EReal) : S1x128.Idx → EReal := fun j => ∑ n : Fin 50000, h (ix2 n (j 1)) * h (ix2 n (j 1))

/-- Column `q` of a 50000x128 array as a sequence: row `r` for `r < 50000`, zero after. -/
def rowsOf (h : S50000x128.Idx → EReal) (q : Fin 128) : ℕ → EReal := fun r => if hr : r < 50000 then h (ix2 ⟨r, hr⟩ q) else 0

theorem rowsOf_lt (h : S50000x128.Idx → EReal) (q : Fin 128) (r : ℕ) (hr : r < 50000) : rowsOf h q r = h (ix2 ⟨r, hr⟩ q) := dif_pos hr

/-- A column sum is the sum of the column's sequence over the first 50000 naturals. -/
theorem colSum_eq_range (h : S50000x128.Idx → EReal) (q : Fin 128) :
    colSum h (ix2 0 q) = ∑ r ∈ Finset.range 50000, rowsOf h q r := by
  rw [← Fin.sum_univ_eq_sum_range (rowsOf h q) 50000]
  exact Fintype.sum_congr _ _ fun n => (rowsOf_lt h q n.val n.isLt).symm

/-- The column sums of squares are the column sums of the array of squares. -/
theorem colSumSq_eq (h : S50000x128.Idx → EReal) : colSumSq h = colSum (fun i => h i * h i) := rfl

end Cert.KernelIdeal.Frm

end
-- ==== Proof.LibTileSums.lean ====
/-
  The tile regrouping of a column sum. A column of `a * b` entries is summed in `a` tiles of `b` consecutive
  entries; tile `t` writes its sum into entry `s * t` of an array of `a * s` entries (`s ≥ 1` the stride) and zero
  into the `s - 1` entries after it; the sum of that array is the sum of the column. Stated in any additive
  commutative monoid, over `Finset.range` and over `Fin`, with the sizes `a = 10`, `b = 5000`, `s = 8` spelled out.
-/
import Mathlib.Algebra.BigOperators.Fin
import Mathlib.Algebra.BigOperators.Intervals

namespace Cert.LibTileSums

open Finset

variable {α : Type*} [AddCommMonoid α]

/-- A sum over `a * b` consecutive indices is the sum, over the `a` blocks, of each block's `b` terms. -/
theorem sum_range_mul_blocks (a b : ℕ) (z : ℕ → α) :
    ∑ i ∈ range (a * b), z i = ∑ t ∈ range a, ∑ i ∈ range b, z (b * t + i) := by
  induction a with
  | zero => simp
  | succ a ih =>
    rw [Nat.succ_mul, sum_range_add, ih, sum_range_succ, Nat.mul_comm a b]

/-- A block of `s ≥ 1` entries whose entries after the first are zero sums to its first entry. -/
theorem sum_block_eq_head (s : ℕ) (hs : 0 < s) (P : ℕ → α) (c : ℕ)
    (h : ∀ j, 0 < j → j < s → P (c + j) = 0) : ∑ j ∈ range s, P (c + j) = P c := by
  obtain ⟨k, rfl⟩ : ∃ k, s = k + 1 := ⟨s - 1, by omega⟩
  rw [sum_range_succ', Nat.add_zero, sum_eq_zero, zero_add]
  intro j hj
  exact h (j + 1) (Nat.succ_pos j) (Nat.succ_lt_succ (mem_range.mp hj))

/-- The tile regrouping, general sizes: `a` tiles of `b` entries, written at stride `s ≥ 1`. If entry `s * t` of
    `P` is tile `t`'s sum and the `s - 1` entries after it are zero, the `a * s` entries of `P` sum to the `a * b`
    entries of `z`. -/
theorem tile_regroup (a b s : ℕ) (hs : 0 < s) (z P : ℕ → α)
    (h0 : ∀ t, t < a → P (s * t) = ∑ i ∈ range b, z (b * t + i))
    (h1 : ∀ t, t < a → ∀ j, 0 < j → j < s → P (s * t + j) = 0) :
    ∑ r ∈ range (a * s), P r = ∑ i ∈ range (a * b), z i := by
  rw [sum_range_mul_blocks a s P, sum_range_mul_blocks a b z]
  refine sum_congr rfl fun t ht => ?_
  have ht' : t < a := mem_range.mp ht
  rw [sum_block_eq_head s hs P (s * t) (h1 t ht'), h0 t ht']

/-- The tile regrouping at the kernel's sizes: 10 tiles of 5000 rows, the tile's sum in row `8 * t` of 80 rows and
    zeros in rows `8 * t + 1 … 8 * t + 7`. -/
theorem tile_regroup_10_5000_8 (z P : ℕ → α)
    (h0 : ∀ t, t < 10 → P (8 * t) = ∑ i ∈ range 5000, z (5000 * t + i))
    (h1 : ∀ t, t < 10 → ∀ s, 0 < s → s < 8 → P (8 * t + s) = 0) :
    ∑ r ∈ range 80, P r = ∑ i ∈ range 50000, z i :=
  tile_regroup 10 5000 8 (by decide) z P h0 h1

/-- The same over `Fin`: the 80 rows of `P` sum to the 50000 entries of `z`. -/
theorem tile_regroup_10_5000_8_fin (z P : ℕ → α)
    (h0 : ∀ t, t < 10 → P (8 * t) = ∑ i ∈ range 5000, z (5000 * t + i))
    (h1 : ∀ t, t < 10 → ∀ s, 0 < s → s < 8 → P (8 * t + s) = 0) :
    ∑ r : Fin 80, P r = ∑ i : Fin 50000, z i := by
  rw [Fin.sum_univ_eq_sum_range P 80, Fin.sum_univ_eq_sum_range z 50000]
  exact tile_regroup_10_5000_8 z P h0 h1

/-- The same for arrays indexed by `Fin`: `P` of 80 rows, `z` of 50000 entries. -/
theorem tile_regroup_fin_10_5000_8 (z : Fin 50000 → α) (P : Fin 80 → α)
    (h0 : ∀ t : Fin 10, P ⟨8 * t.val, by have := t.isLt; omega⟩
      = ∑ i : Fin 5000, z ⟨5000 * t.val + i.val, by have := t.isLt; have := i.isLt; omega⟩)
    (h1 : ∀ t : Fin 10, ∀ s : Fin 8, 0 < s.val →
      P ⟨8 * t.val + s.val, by have := t.isLt; have := s.isLt; omega⟩ = 0) :
    ∑ r, P r = ∑ i, z i := by
  let z' : ℕ → α := fun n => if h : n < 50000 then z ⟨n, h⟩ else 0
  let P' : ℕ → α := fun n => if h : n < 80 then P ⟨n, h⟩ else 0
  have hz : ∀ i : Fin 50000, z i = z' i := fun i => by
    show z i = (if h : i.val < 50000 then z ⟨i.val, h⟩ else 0)
    rw [dif_pos i.isLt]
  have hP : ∀ r : Fin 80, P r = P' r := fun r => by
    show P r = (if h : r.val < 80 then P ⟨r.val, h⟩ else 0)
    rw [dif_pos r.isLt]
  rw [Fintype.sum_congr _ _ hz, Fintype.sum_congr _ _ hP]
  refine tile_regroup_10_5000_8_fin z' P' ?_ ?_
  · intro t ht
    have ht8 : 8 * t < 80 := by omega
    show (if h : 8 * t < 80 then P ⟨8 * t, h⟩ else 0) = _
    rw [dif_pos ht8, h0 ⟨t, ht⟩, ← Fin.sum_univ_eq_sum_range (fun i => z' (5000 * t + i)) 5000]
    refine Finset.sum_congr rfl fun i _ => ?_
    have hi : 5000 * t + i.val < 50000 := by have := i.isLt; omega
    show z ⟨5000 * t + i.val, _⟩ = (if h : 5000 * t + i.val < 50000 then z ⟨5000 * t + i.val, h⟩ else 0)
    rw [dif_pos hi]
  · intro t ht s hs0 hs8
    have hts : 8 * t + s < 80 := by omega
    show (if h : 8 * t + s < 80 then P ⟨8 * t + s, h⟩ else 0) = 0
    rw [dif_pos hts]
    exact h1 ⟨t, ht⟩ ⟨s, hs8⟩ hs0

end Cert.LibTileSums
-- ==== Proof.KiNodeFinal1.lean ====
/- THE VALUE of node region 1 at the exact instance (a float is an extended real). The region's first output tiles its
   50000x128 array by ten blocks of 5000 rows, every block written back: after the region it is the pre-normalisation
   node array `nodePre` of the four region-entry arrays (`final1_4`). Its other two outputs are 1x128 rows carried across
   the ten points in scratch accumulators and written back at the last point only: the running sums start from zero, every
   point adds its block's column sums (of squares), and ten tiles of 5000 rows regroup into the 50000 rows of a column,
   so they end as the column sums and the column sums of squares of that node array (`final1_5`, `final1_6`).
   Addition of extended reals is commutative and associative, so the regrouping needs no finiteness. -/
import proofs.«156566_j1202590843053_1_alg».proof.Proof.KiNode1
import proofs.«156566_j1202590843053_1_alg».proof.Proof.KiNodeVal1
import proofs.«156566_j1202590843053_1_alg».proof.Proof.KiNodeSpec
import proofs.«156566_j1202590843053_1_alg».proof.Proof.LibTileSums
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.ShloMosaic.Pipeline (Dat Cfg Window)

/-! ## The pre-normalisation value against the whole-array function -/

/-- When the loaded blocks are rows of the arrays `x`, `agg` (row `p` of the block being row `e` of the array) and the
    whole matrix and bias row, the stored value at row `p`, column `q` is the node array at row `e`, column `q`. -/
theorem pay1_pre_block (agg x : S50000x128.Idx → EReal) (w : S128x128.Idx → EReal) (b : S1x128.Idx → EReal)
    (v3 : Vec Ideal S5000x128 .f32) (v5 : Vec Ideal S128x128 .f32) (v9 : Vec Ideal S1x128 .f32) (v13 : Vec Ideal S5000x128 .f32)
    (e : Fin 50000) (p : Fin 5000) (q : Fin 128)
    (h3 : ∀ d : Fin 128, v3 (ix2 p d) = x (ix2 e d)) (h5 : ∀ d : Fin 128, v5 (ix2 d q) = w (ix2 d q))
    (h9 : v9 (ix2 0 q) = b (ix2 0 q)) (h13 : v13 (ix2 p q) = agg (ix2 e q)) :
    k1_pay3 (F := Ideal) v3 v5 v9 v13 (ix2 p q) = nodePre agg x w b (ix2 e q) := by
  refine (k1_pay3_at v3 v5 v9 v13 p q).trans ?_
  show _ = ((∑ d : Fin 128, x (ix2 e d) * w (ix2 d q)) + b (ix2 0 q)) + agg (ix2 e q)
  rw [h9, h13]
  exact congrArg (fun s => (s + b (ix2 0 q)) + agg (ix2 e q)) (Finset.sum_congr rfl fun d _ => by rw [h3 d, h5 d])

/-! ## From blocks to the arrays -/

-- the TensorCore's buffer contents when the region is entered, at the exact instance
variable (V : (c : Dev nD) → (b : Ref sig .tc) → Buf (Elt Ideal) ((c : Thread nD τ).loc b))

/-- The pre-normalisation node array region 1 computes, of the region-entry arrays of windows 0 (the aggregate), 1 (the
    node features), 2 (the matrix) and 3 (the bias row). -/
abbrev G1_4 (c : Dev nD) : S50000x128.Idx → EReal :=
  nodePre (V c (Pipeline.arrRef spec1 0)) (V c (Pipeline.arrRef spec1 1)) (V c (Pipeline.arrRef spec1 2)) (V c (Pipeline.arrRef spec1 3))

/-- The printed index maps, decided over the grid: the two long inputs and the first output move together down the
    rows, one block of 5000 rows per point, block `t` at point `t`; the matrix, the bias row and the two 1x128
    outputs stay at block 0. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) = t.val
    ∧ win1_5.index t (0 : Fin 2) = 0
    ∧ win1_5.index t (1 : Fin 2) = 0
    ∧ win1_6.index t (0 : Fin 2) = 0
    ∧ win1_6.index t (1 : Fin 2) = 0 :=
  (by decide +kernel : ∀ t : Fin grid1.N, _)

set_option maxHeartbeats 1600000 in
/-- Point `t`'s pre-normalisation block at row `p`, column `q` is the node array at row 5000·t+p, column `q`: each loaded
    block is its array read at rows 5000·t … 5000·t+4999 (the two long inputs) or the whole array (the matrix and the
    bias row). -/
theorem hblk1_at (c : Dev nD) (t : Fin cfg1.N) (p : Fin 5000) (q : Fin 128) :
    k1_pay3 (F := Ideal) (blk1_1 V c t) (blk1_2 V c t) (blk1_3 V c t) (blk1_0 V c t) (ix2 p q)
      = G1_4 V c (ix2 ⟨5000 * t.val + p.val, by have := lt_of_lt_of_eq t.isLt N_1; have := p.isLt; omega⟩ q) := by
  have ht : t.val < 10 := lt_of_lt_of_eq t.isLt N_1
  have hp : p.val < 5000 := p.isLt
  have hq : q.val < 128 := q.isLt
  obtain ⟨f0, f1, f2, f3, f4, f5, f6, f7, f8, f9, f10, f11, f12, f13⟩ := idx_facts1 t
  let e : Fin 50000 := ⟨5000 * t.val + p.val, by omega⟩
  have h1 : ∀ d : Fin 128, ((cfg1.win 1).blk t).view.emb (ix2 p d) = (ix2 e d : S50000x128.Idx) := fun d => by
    funext a; apply Fin.ext
    match a with
    | ⟨0, _⟩ => show win1_1.index t (0 : Fin 2) * 5000 + 1 * p.val = 5000 * t.val + p.val; omega
    | ⟨1, _⟩ => show win1_1.index t (1 : Fin 2) * 128 + 1 * d.val = d.val; omega
  have h2 : ∀ d : Fin 128, ((cfg1.win 2).blk t).view.emb (ix2 d q) = (ix2 d q : S128x128.Idx) := fun d => by
    funext a; apply Fin.ext
    match a with
    | ⟨0, _⟩ => show win1_2.index t (0 : Fin 2) * 128 + 1 * d.val = d.val; omega
    | ⟨1, _⟩ => show win1_2.index t (1 : Fin 2) * 128 + 1 * q.val = q.val; omega
  have h3 : ((cfg1.win 3).blk t).view.emb (ix2 (0 : Fin 1) q) = (ix2 (0 : Fin 1) q : S1x128.Idx) := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have h0 : ((cfg1.win 0).blk t).view.emb (ix2 p q) = (ix2 e q : S50000x128.Idx) := by
    funext a; apply Fin.ext
    match a with
    | ⟨0, _⟩ => show win1_0.index t (0 : Fin 2) * 5000 + 1 * p.val = 5000 * t.val + p.val; omega
    | ⟨1, _⟩ => show win1_0.index t (1 : Fin 2) * 128 + 1 * q.val = q.val; omega
  exact pay1_pre_block (V c (Pipeline.arrRef spec1 0)) (V c (Pipeline.arrRef spec1 1)) (V c (Pipeline.arrRef spec1 2)) (V c (Pipeline.arrRef spec1 3)) (blk1_1 V c t) (blk1_2 V c t) (blk1_3 V c t) (blk1_0 V c t) e p q
    (fun d => congrArg (V c (Pipeline.arrRef spec1 1)) (h1 d)) (fun d => congrArg (V c (Pipeline.arrRef spec1 2)) (h2 d)) (congrArg (V c (Pipeline.arrRef spec1 3)) h3) (congrArg (V c (Pipeline.arrRef spec1 0)) h0)

/-! ## Output window 4: ten row blocks tile the array -/

/-- Every one of the ten row blocks is some point's. -/
theorem idx_onto1 : ∀ (q0 : Fin 10), ∃ t : Fin cfg1.N, win1_4.index t = ![q0.val, 0] :=
  (by decide +kernel : ∀ (q0 : Fin 10), ∃ t : Fin grid1.N, win1_4.index t = ![q0.val, 0])

set_option maxHeartbeats 1600000 in
/-- WHAT POINT `t` WRITES BACK of window 4 is block `t` of the node array. -/
theorem flushed1_4_eq (c : Dev nD) (t : Fin cfg1.N) :
    (dat1 V c).flushed 4 t = ((cfg1.win 4).blk t).view.read (Elt Ideal) (G1_4 V c) := by
  have ht : t.val < 10 := lt_of_lt_of_eq t.isLt N_1
  obtain ⟨f0, f1, f2, f3, f4, f5, f6, f7, f8, f9, f10, f11, f12, f13⟩ := idx_facts1 t
  show (cfg1.win 4).cut (grid1.coords t) ((dat1 V c).after 4 t) = _
  rw [after1_4_eq]
  funext j
  obtain ⟨p, q, rfl⟩ : ∃ (p : Fin 5000) (q : Fin 128), j = ix2 p q := ⟨j 0, j 1, eq_ix2 j⟩
  have hp : p.val < 5000 := p.isLt
  have hq : q.val < 128 := q.isLt
  have hout : ((cfg1.win 4).blk t).view.emb (ix2 p q) = (ix2 ⟨5000 * t.val + p.val, by omega⟩ q : S50000x128.Idx) := by
    funext a; apply Fin.ext
    match a with
    | ⟨0, _⟩ => show win1_4.index t (0 : Fin 2) * 5000 + 1 * p.val = 5000 * t.val + p.val; omega
    | ⟨1, _⟩ => show win1_4.index t (1 : Fin 2) * 128 + 1 * q.val = q.val; omega
  show hblk1 V c t (ix2 p q) = G1_4 V c (((cfg1.win 4).blk t).view.emb (ix2 p q))
  rw [hout]
  exact hblk1_at V c t p q

/-- An index of the array is in point `t`'s block of window 4 iff each coordinate is in the block's range on its axis. -/
theorem mem_blk1_4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v41_0).slice (win1_4.rect t)).set ↔ _
  rw [View.set_slice_whole, Rect.mem_set_unit]
  exact Iff.rfl

/-- Every index of the array is in some written-back block of window 4: row `r` is in the block of point `r / 5000`. -/
theorem covered1_4 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht4⟩ := idx_onto1 ⟨(i 0).val / 5000, by omega⟩
  have q0 : win1_4.index t (0 : Fin 2) = (i 0).val / 5000 := congrFun ht4 0
  have q1 : win1_4.index t (1 : Fin 2) = 0 := congrFun ht4 1
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAY of window 4 after the region: the pre-normalisation node array of the region-entry arrays. -/
theorem final1_4 (c : Dev nD) : (dat1 V c).arrAt 4 cfg1.N = G1_4 V c :=
  (dat1 V c).arrAt_eq_of_cover 4 (G1_4 V c) (fun t _ => flushed1_4_eq V c t) (covered1_4)

/-! ## Output windows 5 and 6: the running sums, written back at the last point -/

/-- The sum of point `t`'s block down column `q`: the 5000 rows 5000·t … 5000·t+4999 of the column of the array. -/
theorem blocksum1_5 (c : Dev nD) (t : Fin cfg1.N) (q : Fin 128) :
    (∑ p : Fin 5000, k1_pay3 (F := Ideal) (blk1_1 V c t) (blk1_2 V c t) (blk1_3 V c t) (blk1_0 V c t) (ix2 p q))
      = ∑ i ∈ Finset.range 5000, rowsOf (G1_4 V c) q (5000 * t.val + i) := by
  have ht : t.val < 10 := lt_of_lt_of_eq t.isLt N_1
  rw [← Fin.sum_univ_eq_sum_range (fun i => rowsOf (G1_4 V c) q (5000 * t.val + i)) 5000]
  refine Fintype.sum_congr _ _ fun p => ?_
  have hp : p.val < 5000 := p.isLt
  rw [rowsOf_lt _ q (5000 * t.val + p.val) (by omega)]
  exact hblk1_at V c t p q

/-- The running column sums after point `n`, at column `q`: the first `n + 1` tiles of 5000 rows of the column. The row
    starts from zero at the first point; every point adds its block's sum down the column. -/
theorem acc1_at (c : Dev nD) (q : Fin 128) : ∀ (n : ℕ) (hn : n < cfg1.N),
    acc1 V c n hn (ix2 0 q) = ∑ t ∈ Finset.range (n + 1), ∑ i ∈ Finset.range 5000, rowsOf (G1_4 V c) q (5000 * t + i)
  | 0, hn => by
    show k1_pay4 (F := Ideal) (blk1_1 V c ⟨0, hn⟩) (blk1_2 V c ⟨0, hn⟩) (blk1_3 V c ⟨0, hn⟩) (blk1_0 V c ⟨0, hn⟩) (k1_pay1 (F := Ideal)) (ix2 0 q) = _
    refine (k1_pay4_at _ _ _ _ _ q).trans ?_
    rw [k1_pay1_at, zero_add, Finset.sum_range_one]
    exact blocksum1_5 V c ⟨0, hn⟩ q
  | n + 1, hn => by
    show k1_pay4 (F := Ideal) (blk1_1 V c ⟨n + 1, hn⟩) (blk1_2 V c ⟨n + 1, hn⟩) (blk1_3 V c ⟨n + 1, hn⟩) (blk1_0 V c ⟨n + 1, hn⟩) (acc1 V c n (Nat.lt_of_succ_lt hn)) (ix2 0 q) = _
    refine (k1_pay4_at _ _ _ _ _ q).trans ?_
    rw [acc1_at c q n (Nat.lt_of_succ_lt hn), Finset.sum_range_succ _ (n + 1)]
    exact congrArg (_ + ·) (blocksum1_5 V c ⟨n + 1, hn⟩ q)

/-- The sum of squares of point `t`'s block down column `q`: the 5000 rows 5000·t … 5000·t+4999 of the column of the array of squares. -/
theorem blocksum1_6 (c : Dev nD) (t : Fin cfg1.N) (q : Fin 128) :
    (∑ p : Fin 5000, k1_pay3 (F := Ideal) (blk1_1 V c t) (blk1_2 V c t) (blk1_3 V c t) (blk1_0 V c t) (ix2 p q) * k1_pay3 (F := Ideal) (blk1_1 V c t) (blk1_2 V c t) (blk1_3 V c t) (blk1_0 V c t) (ix2 p q))
      = ∑ i ∈ Finset.range 5000, rowsOf (fun i => G1_4 V c i * G1_4 V c i) q (5000 * t.val + i) := by
  have ht : t.val < 10 := lt_of_lt_of_eq t.isLt N_1
  rw [← Fin.sum_univ_eq_sum_range (fun i => rowsOf (fun i => G1_4 V c i * G1_4 V c i) q (5000 * t.val + i)) 5000]
  refine Fintype.sum_congr _ _ fun p => ?_
  have hp : p.val < 5000 := p.isLt
  rw [rowsOf_lt _ q (5000 * t.val + p.val) (by omega)]
  exact congrArg₂ (· * ·) (hblk1_at V c t p q) (hblk1_at V c t p q)

/-- The running column sums of squares after point `n`, at column `q`: the first `n + 1` tiles of 5000 rows of the column. The row
    starts from zero at the first point; every point adds its block's sum of squares down the column. -/
theorem accSq1_at (c : Dev nD) (q : Fin 128) : ∀ (n : ℕ) (hn : n < cfg1.N),
    accSq1 V c n hn (ix2 0 q) = ∑ t ∈ Finset.range (n + 1), ∑ i ∈ Finset.range 5000, rowsOf (fun i => G1_4 V c i * G1_4 V c i) q (5000 * t + i)
  | 0, hn => by
    show k1_pay5 (F := Ideal) (blk1_1 V c ⟨0, hn⟩) (blk1_2 V c ⟨0, hn⟩) (blk1_3 V c ⟨0, hn⟩) (blk1_0 V c ⟨0, hn⟩) (k1_pay2 (F := Ideal)) (ix2 0 q) = _
    refine (k1_pay5_at _ _ _ _ _ q).trans ?_
    rw [k1_pay2_at, zero_add, Finset.sum_range_one]
    exact blocksum1_6 V c ⟨0, hn⟩ q
  | n + 1, hn => by
    show k1_pay5 (F := Ideal) (blk1_1 V c ⟨n + 1, hn⟩) (blk1_2 V c ⟨n + 1, hn⟩) (blk1_3 V c ⟨n + 1, hn⟩) (blk1_0 V c ⟨n + 1, hn⟩) (accSq1 V c n (Nat.lt_of_succ_lt hn)) (ix2 0 q) = _
    refine (k1_pay5_at _ _ _ _ _ q).trans ?_
    rw [accSq1_at c q n (Nat.lt_of_succ_lt hn), Finset.sum_range_succ _ (n + 1)]
    exact congrArg (_ + ·) (blocksum1_6 V c ⟨n + 1, hn⟩ q)

/-- WHAT THE LAST POINT WRITES BACK of window 5: the whole 1x128 row, the running sums after the tenth point, which are
    the ten tiles of 5000 rows regrouped into the 50000 rows of each column. -/
theorem flushed1_5_eq (c : Dev nD) (t : Fin cfg1.N) (hf : (cfg1.win 5).flush t = true) :
    (dat1 V c).flushed 5 t = ((cfg1.win 5).blk t).view.read (Elt Ideal) (colSum (G1_4 V c)) := by
  have ht : t.val < 10 := lt_of_lt_of_eq t.isLt N_1
  have ht9 : t.val = 9 := by have := (flush1_5 t).mp hf; omega
  obtain ⟨f0, f1, f2, f3, f4, f5, f6, f7, f8, f9, f10, f11, f12, f13⟩ := idx_facts1 t
  have hacc : ∀ q : Fin 128, acc1 V c t.val t.isLt (ix2 0 q) = colSum (G1_4 V c) (ix2 0 q) := fun q => by
    rw [acc1_at V c q t.val t.isLt, colSum_eq_range, ht9]
    exact (Cert.LibTileSums.sum_range_mul_blocks 10 5000 (rowsOf (G1_4 V c) q)).symm
  show (cfg1.win 5).cut (grid1.coords t) ((dat1 V c).after 5 t) = _
  rw [after1_5_eq]
  generalize acc1 V c t.val t.isLt = a at hacc ⊢
  funext j
  obtain ⟨z0, q, rfl⟩ : ∃ (z0 : Fin 1) (q : Fin 128), j = ix2 z0 q := ⟨j 0, j 1, eq_ix2 j⟩
  obtain rfl : z0 = 0 := Subsingleton.elim _ _
  have hq : q.val < 128 := q.isLt
  have hemb : ((cfg1.win 5).blk t).view.emb (ix2 (0 : Fin 1) q) = (ix2 (0 : Fin 1) q : S1x128.Idx) := by
    funext a; apply Fin.ext
    match a with
    | ⟨0, _⟩ => show win1_5.index t (0 : Fin 2) * 1 + 1 * 0 = 0; omega
    | ⟨1, _⟩ => show win1_5.index t (1 : Fin 2) * 128 + 1 * q.val = q.val; omega
  have e1 : (cfg1.win 5).cut (grid1.coords t) a (ix2 0 q) = a ((cfg1.win 5).xinj (grid1.coords t) (ix2 0 q)) := by rfl
  have e2 : (cfg1.win 5).xinj (grid1.coords t) (ix2 0 q) = (ix2 (0 : Fin 1) q : S1x128.Idx) := by
    funext b; apply Fin.ext
    match b with
    | ⟨0, _⟩ => rfl
    | ⟨1, _⟩ => rfl
  rw [View.read_apply, hemb, e1, e2, hacc q]
  exact (cast_eq _ _).symm

/-- An index of the 1x128 array is in point `t`'s block of window 5 iff each coordinate is in the block's range on its axis. -/
theorem mem_blk1_5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v41_1).slice (win1_5.rect t)).set ↔ _
  rw [View.set_slice_whole, Rect.mem_set_unit]
  exact Iff.rfl

/-- Every index of the 1x128 array is in the last point's block of window 5, which is written back. -/
theorem covered1_5 (i : S1x128.Idx) :
    ∃ t : Fin cfg1.N, (cfg1.win 5).flush t = true ∧ i ∈ ((cfg1.win 5).blk t).view.set := by
  have hi0 : (i 0).val < 1 := (i 0).isLt
  have hi1 : (i 1).val < 128 := (i 1).isLt
  let t : Fin cfg1.N := ⟨9, by rw [show cfg1.N = 10 from N_1]; decide⟩
  obtain ⟨f0, f1, f2, f3, f4, f5, f6, f7, f8, f9, f10, f11, f12, f13⟩ := idx_facts1 t
  refine ⟨t, (flush1_5 t).mpr rfl, ?_⟩
  rw [mem_blk1_5]
  intro a
  match a with
  | ⟨0, _⟩ => show win1_5.index t (0 : Fin 2) * 1 ≤ (i 0).val ∧ (i 0).val < win1_5.index t (0 : Fin 2) * 1 + 1; omega
  | ⟨1, _⟩ => show win1_5.index t (1 : Fin 2) * 128 ≤ (i 1).val ∧ (i 1).val < win1_5.index t (1 : Fin 2) * 128 + 128; omega

/-- THE ARRAY of window 5 after the region. -/
theorem final1_5 (c : Dev nD) : (dat1 V c).arrAt 5 cfg1.N = colSum (G1_4 V c) :=
  (dat1 V c).arrAt_eq_of_cover 5 (colSum (G1_4 V c)) (fun t hf => flushed1_5_eq V c t hf) (covered1_5)

/-- WHAT THE LAST POINT WRITES BACK of window 6: the whole 1x128 row, the running sums after the tenth point, which are
    the ten tiles of 5000 rows regrouped into the 50000 rows of each column. -/
theorem flushed1_6_eq (c : Dev nD) (t : Fin cfg1.N) (hf : (cfg1.win 6).flush t = true) :
    (dat1 V c).flushed 6 t = ((cfg1.win 6).blk t).view.read (Elt Ideal) (colSumSq (G1_4 V c)) := by
  have ht : t.val < 10 := lt_of_lt_of_eq t.isLt N_1
  have ht9 : t.val = 9 := by have := (flush1_6 t).mp hf; omega
  obtain ⟨f0, f1, f2, f3, f4, f5, f6, f7, f8, f9, f10, f11, f12, f13⟩ := idx_facts1 t
  have hacc : ∀ q : Fin 128, accSq1 V c t.val t.isLt (ix2 0 q) = colSumSq (G1_4 V c) (ix2 0 q) := fun q => by
    rw [accSq1_at V c q t.val t.isLt, colSumSq_eq, colSum_eq_range, ht9]
    exact (Cert.LibTileSums.sum_range_mul_blocks 10 5000 (rowsOf (fun i => G1_4 V c i * G1_4 V c i) q)).symm
  show (cfg1.win 6).cut (grid1.coords t) ((dat1 V c).after 6 t) = _
  rw [after1_6_eq]
  generalize accSq1 V c t.val t.isLt = a at hacc ⊢
  funext j
  obtain ⟨z0, q, rfl⟩ : ∃ (z0 : Fin 1) (q : Fin 128), j = ix2 z0 q := ⟨j 0, j 1, eq_ix2 j⟩
  obtain rfl : z0 = 0 := Subsingleton.elim _ _
  have hq : q.val < 128 := q.isLt
  have hemb : ((cfg1.win 6).blk t).view.emb (ix2 (0 : Fin 1) q) = (ix2 (0 : Fin 1) q : S1x128.Idx) := by
    funext a; apply Fin.ext
    match a with
    | ⟨0, _⟩ => show win1_6.index t (0 : Fin 2) * 1 + 1 * 0 = 0; omega
    | ⟨1, _⟩ => show win1_6.index t (1 : Fin 2) * 128 + 1 * q.val = q.val; omega
  have e1 : (cfg1.win 6).cut (grid1.coords t) a (ix2 0 q) = a ((cfg1.win 6).xinj (grid1.coords t) (ix2 0 q)) := by rfl
  have e2 : (cfg1.win 6).xinj (grid1.coords t) (ix2 0 q) = (ix2 (0 : Fin 1) q : S1x128.Idx) := by
    funext b; apply Fin.ext
    match b with
    | ⟨0, _⟩ => rfl
    | ⟨1, _⟩ => rfl
  rw [View.read_apply, hemb, e1, e2, hacc q]
  exact (cast_eq _ _).symm

/-- An index of the 1x128 array is in point `t`'s block of window 6 iff each coordinate is in the block's range on its axis. -/
theorem mem_blk1_6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v41_2).slice (win1_6.rect t)).set ↔ _
  rw [View.set_slice_whole, Rect.mem_set_unit]
  exact Iff.rfl

/-- Every index of the 1x128 array is in the last point's block of window 6, which is written back. -/
theorem covered1_6 (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  let t : Fin cfg1.N := ⟨9, by rw [show cfg1.N = 10 from N_1]; decide⟩
  obtain ⟨f0, f1, f2, f3, f4, f5, f6, f7, f8, f9, f10, f11, f12, f13⟩ := idx_facts1 t
  refine ⟨t, (flush1_6 t).mpr rfl, ?_⟩
  rw [mem_blk1_6]
  intro a
  match a with
  | ⟨0, _⟩ => show win1_6.index t (0 : Fin 2) * 1 ≤ (i 0).val ∧ (i 0).val < win1_6.index t (0 : Fin 2) * 1 + 1; omega
  | ⟨1, _⟩ => show win1_6.index t (1 : Fin 2) * 128 ≤ (i 1).val ∧ (i 1).val < win1_6.index t (1 : Fin 2) * 128 + 128; omega

/-- THE ARRAY of window 6 after the region. -/
theorem final1_6 (c : Dev nD) : (dat1 V c).arrAt 6 cfg1.N = colSumSq (G1_4 V c) :=
  (dat1 V c).arrAt_eq_of_cover 6 (colSumSq (G1_4 V c)) (fun t hf => flushed1_6_eq V c t hf) (covered1_6)

end Cert.KernelIdeal.Frm

end
-- ==== Proof.KiBnSpec.lean ====
import proofs.«156566_j1202590843053_1_alg».proof.Proof.Gen.KernelIdeal
import Idealize.ShloMosaic.PureOps.Ideal
import Idealize.ShloMosaic.Lib.ValueIdx

noncomputable section

namespace Cert.KernelIdeal.Frm

open Cert.KernelIdeal
open Idealize.ShloMosaic Idealize.ShloMosaic.ValueIdx

/-- What a normalisation region leaves: at node `n`, channel `f`,
    `max(((h[n,f] - mean[0,f]) · rsqrt(var[0,f] + ε)) · γ[0,f] + β[0,f], 0)` with the host-formed mean and variance rows. -/
def bnK (h : S50000x128.Idx → EReal) (mean var g bt : S1x128.Idx → EReal) : S50000x128.Idx → EReal :=
  fun i => max ((((h i - mean (ix2 0 (i 1))) * Ideal.rsqrt (var (ix2 0 (i 1)) + Ideal.ofBits .f32 0x3727C5AC#32)) * g (ix2 0 (i 1))) + bt (ix2 0 (i 1))) 0

end Cert.KernelIdeal.Frm

end
-- ==== Proof.KiBnFinal2.lean ====
/- THE VALUE of normalisation region 2 at the exact instance (a float is an extended real). The body's stored value is
   pointwise: at row `p`, column `q` of the block, max((((h[p,q] − mean[0,q]) · rsqrt(var[0,q] + ε)) · γ[0,q]) + β[0,q], 0), the
   four 1x128 rows broadcast down the 5000 rows (`k2_pay1_at`). The output window tiles its 50000x128 array by ten
   blocks of 5000 rows, every block written back, moving with the input window; the four rows stay at block 0. So
   after the region the output array is ONE function of the five region-entry arrays, index by index (`final2_5`). -/
import proofs.«156566_j1202590843053_1_alg».proof.Proof.KiBn2
import proofs.«156566_j1202590843053_1_alg».proof.Proof.KiBnSpec
import proofs.«156566_j1202590843053_1_alg».proof.Proof.KiNodeDot
import Idealize.ShloMosaic.PureOps.Ideal.Laws
import Idealize.ShloMosaic.Lib.ValueIdx
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.ShloMosaic.Pipeline (Dat Cfg Window)

/-! ## The body's stored value at an index -/

/-- The stored value at row `p`, column `q` of the block. The casts to the same shape are the identity, each 1x128 row is
    broadcast down the rows, the splat constants are their values, and the maximum against the zero splat is `max · 0`. -/
theorem k2_pay1_at (v0 : Vec Ideal S5000x128 .f32) (v2 v6 v13 v17 : Vec Ideal S1x128 .f32) (p : Fin 5000) (q : Fin 128) :
    k2_pay1 (F := Ideal) v0 v2 v6 v13 v17 (ix2 p q)
      = max ((((v0 (ix2 p q) - v2 (ix2 0 q)) * Ideal.rsqrt (v6 (ix2 0 q) + Ideal.ofBits .f32 0x3727C5AC#32)) * v13 (ix2 0 q)) + v17 (ix2 0 q)) 0 := by
  unfold k2_pay1
  simp only [shapeCast_self]
  rw [maximumf_apply, addf_apply, mulf_apply, mulf_apply, subf_apply, node_bias_at, node_bias_at, node_bias_at, node_bias_at]
  show max _ (Ideal.ofBits .f32 0x00000000#32) = _
  rw [Ideal.ofBits_zero_f32]
  rfl

/-- The stored value against the whole-array function: when the loaded block is rows of the array `h` (row `p` of the block
    being row `e` of the array) and the four loaded rows are the four 1x128 arrays, the value at row `p`, column `q` is the
    normalised array at row `e`, column `q`. -/
theorem pay2_bn_block (h : S50000x128.Idx → EReal) (mean var g bt : S1x128.Idx → EReal)
    (v0 : Vec Ideal S5000x128 .f32) (v2 v6 v13 v17 : Vec Ideal S1x128 .f32)
    (e : Fin 50000) (p : Fin 5000) (q : Fin 128)
    (h0 : v0 (ix2 p q) = h (ix2 e q)) (h2 : v2 (ix2 0 q) = mean (ix2 0 q)) (h6 : v6 (ix2 0 q) = var (ix2 0 q))
    (h13 : v13 (ix2 0 q) = g (ix2 0 q)) (h17 : v17 (ix2 0 q) = bt (ix2 0 q)) :
    k2_pay1 (F := Ideal) v0 v2 v6 v13 v17 (ix2 p q) = bnK h mean var g bt (ix2 e q) := by
  refine (k2_pay1_at v0 v2 v6 v13 v17 p q).trans ?_
  show _ = max ((((h (ix2 e q) - mean (ix2 0 q)) * Ideal.rsqrt (var (ix2 0 q) + Ideal.ofBits .f32 0x3727C5AC#32)) * g (ix2 0 q)) + bt (ix2 0 q)) 0
  rw [h0, h2, h6, h13, h17]

/-! ## From blocks to the array -/

-- the TensorCore's buffer contents when the region is entered, at the exact instance
variable (V : (c : Dev nD) → (b : Ref sig .tc) → Buf (Elt Ideal) ((c : Thread nD τ).loc b))

theorem hz2 : (![0, 0] : Fin 2 → Nat) = fun _ => 0 := funext fun a => by fin_cases a <;> rfl

/-- The normalised node array region 2 computes, of the region-entry arrays of windows 0 (the pre-normalisation array),
    1 (the mean row), 2 (the variance row), 3 (the scale row) and 4 (the shift row). -/
abbrev G2_5 (c : Dev nD) : S50000x128.Idx → EReal :=
  bnK (V c (Pipeline.arrRef spec2 0)) (V c (Pipeline.arrRef spec2 1)) (V c (Pipeline.arrRef spec2 2)) (V c (Pipeline.arrRef spec2 3)) (V c (Pipeline.arrRef spec2 4))

/-- The printed index maps, decided over the grid: the input and the output move together down the rows, one block of
    5000 rows per point; the four rows stay at block 0. -/
theorem idx_facts2 : ∀ t : Fin cfg2.N, win2_0.index t (0 : Fin 2) = win2_5.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (1 : Fin 2) = 0
    ∧ win2_5.index t (0 : Fin 2) ≤ 9 :=
  (by decide +kernel : ∀ t : Fin grid2.N, _)

/-- Every one of the ten row blocks is some point's. -/
theorem idx_onto2 : ∀ (q0 : Fin 10), ∃ t : Fin cfg2.N, win2_5.index t = ![q0.val, 0] :=
  (by decide +kernel : ∀ (q0 : Fin 10), ∃ t : Fin grid2.N, win2_5.index t = ![q0.val, 0])

set_option maxHeartbeats 1600000 in
/-- WHAT POINT `t` WRITES BACK is block `t` of the normalised array: the loaded block is its array read at rows
    5000·t … 5000·t+4999, the four loaded rows are the whole 1x128 arrays, and row `p` of block `t` is row 5000·t+p. -/
theorem flushed2_5_eq (c : Dev nD) (t : Fin cfg2.N) :
    (dat2 V c).flushed 5 t = ((cfg2.win 5).blk t).view.read (Elt Ideal) (G2_5 V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S1x128) hz2]
  obtain ⟨f0, f1, f2, f3, f4, f5, f6, f7, f8, f9, f10, f11⟩ := idx_facts2 t
  funext j
  obtain ⟨p, q, rfl⟩ : ∃ (p : Fin 5000) (q : Fin 128), j = ix2 p q := ⟨j 0, j 1, eq_ix2 j⟩
  have hp : p.val < 5000 := p.isLt
  have hq : q.val < 128 := q.isLt
  let e : Fin 50000 := ⟨win2_5.index t (0 : Fin 2) * 5000 + p.val, by omega⟩
  have hout : ((cfg2.win 5).blk t).view.emb (ix2 p q) = (ix2 e q : S50000x128.Idx) := by
    funext a; apply Fin.ext
    match a with
    | ⟨0, _⟩ => show win2_5.index t (0 : Fin 2) * 5000 + 1 * p.val = win2_5.index t (0 : Fin 2) * 5000 + p.val; omega
    | ⟨1, _⟩ => show win2_5.index t (1 : Fin 2) * 128 + 1 * q.val = q.val; omega
  show k2_pay1 (F := Ideal) (iblk2 V c 0 t) (iblk2 V c 1 t) (iblk2 V c 2 t) (iblk2 V c 3 t) (iblk2 V c 4 t) (ix2 p q) = G2_5 V c (((cfg2.win 5).blk t).view.emb (ix2 p q))
  rw [hout]
  have h0 : ((cfg2.win 0).blk t).view.emb (ix2 p q) = (ix2 e q : S50000x128.Idx) := by
    funext a; apply Fin.ext
    match a with
    | ⟨0, _⟩ => show win2_0.index t (0 : Fin 2) * 5000 + 1 * p.val = win2_5.index t (0 : Fin 2) * 5000 + p.val; omega
    | ⟨1, _⟩ => show win2_0.index t (1 : Fin 2) * 128 + 1 * q.val = q.val; omega
  have h1 : ((cfg2.win 1).blk t).view.emb (ix2 (0 : Fin 1) q) = (ix2 (0 : Fin 1) q : S1x128.Idx) := by
    funext a; apply Fin.ext
    match a with
    | ⟨0, _⟩ => show win2_1.index t (0 : Fin 2) * 1 + 1 * 0 = 0; omega
    | ⟨1, _⟩ => show win2_1.index t (1 : Fin 2) * 128 + 1 * q.val = q.val; omega
  have h2 : ((cfg2.win 2).blk t).view.emb (ix2 (0 : Fin 1) q) = (ix2 (0 : Fin 1) q : S1x128.Idx) := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  have h3 : ((cfg2.win 3).blk t).view.emb (ix2 (0 : Fin 1) q) = (ix2 (0 : Fin 1) q : S1x128.Idx) := by
    funext a; apply Fin.ext
    match a with
    | ⟨0, _⟩ => show win2_3.index t (0 : Fin 2) * 1 + 1 * 0 = 0; omega
    | ⟨1, _⟩ => show win2_3.index t (1 : Fin 2) * 128 + 1 * q.val = q.val; omega
  have h4 : ((cfg2.win 4).blk t).view.emb (ix2 (0 : Fin 1) q) = (ix2 (0 : Fin 1) q : S1x128.Idx) := by
    funext a; apply Fin.ext
    match a with
    | ⟨0, _⟩ => show win2_4.index t (0 : Fin 2) * 1 + 1 * 0 = 0; omega
    | ⟨1, _⟩ => show win2_4.index t (1 : Fin 2) * 128 + 1 * q.val = q.val; omega
  exact pay2_bn_block (V c (Pipeline.arrRef spec2 0)) (V c (Pipeline.arrRef spec2 1)) (V c (Pipeline.arrRef spec2 2)) (V c (Pipeline.arrRef spec2 3)) (V c (Pipeline.arrRef spec2 4)) (iblk2 V c 0 t) (iblk2 V c 1 t) (iblk2 V c 2 t) (iblk2 V c 3 t) (iblk2 V c 4 t) e p q
    (congrArg (V c (Pipeline.arrRef spec2 0)) h0) (congrArg (V c (Pipeline.arrRef spec2 1)) h1) (congrArg (V c (Pipeline.arrRef spec2 2)) h2) (congrArg (V c (Pipeline.arrRef spec2 3)) h3) (congrArg (V c (Pipeline.arrRef spec2 4)) h4)

/-- An index of the array is in point `t`'s block of the output window iff each coordinate is in the block's range on its axis. -/
theorem mem_blk2_5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v54).slice (win2_5.rect t)).set ↔ _
  rw [View.set_slice_whole, Rect.mem_set_unit]
  exact Iff.rfl

/-- Every index of the array is in some written-back block: row `r` is in the block of point `r / 5000`. -/
theorem covered2_5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht5⟩ := idx_onto2 ⟨(i 0).val / 5000, by omega⟩
  have q0 : win2_5.index t (0 : Fin 2) = (i 0).val / 5000 := congrFun ht5 0
  have q1 : win2_5.index t (1 : Fin 2) = 0 := congrFun ht5 1
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE ARRAY of the output window after the region: one function of the region-entry arrays. -/
theorem final2_5 (c : Dev nD) : (dat2 V c).arrAt 5 cfg2.N = G2_5 V c :=
  (dat2 V c).arrAt_eq_of_cover 5 (G2_5 V c) (fun t _ => flushed2_5_eq V c t) (covered2_5)

end Cert.KernelIdeal.Frm

end
-- ==== Proof.KiBnHost.lean ====
import proofs.«156566_j1202590843053_1_alg».proof.Proof.KiRun
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.StableHlo Idealize.ShloMosaic.ValueIdx
open Idealize.SL Idealize.SL.Sem

variable (m : (ℓ : Loc nD τ sig) → Buf (Elt Ideal) ℓ) (ρ : Dev nD → PrngReg)

/-! # What the host forms between a node region and the normalisation region

From the column sums `s` and the column sums of squares `q` the node region leaves: the mean row `s / 50000`, the variance
row `q / 50000 - mean²`, and the layer's scale and shift rows sliced out of the arguments. -/

/-! ## The mean, variance, scale and shift rows of layer 0 -/

theorem V5_v43 (c : Dev nD) : (V5 m ρ c main_v43 : S1x128.Idx → EReal)
    = Host.divf (F := Ideal) (W4 m ρ c (Proc.devRef .tc main_v41_1) : S1x128.Idx → EReal)
        (broadcastInDim S1x128 ![] bcast_S_S1x128 (constant (F := Ideal) S_ .f32 0x47435000#32)) := by
  show StableHlo.after hostOps2 (W4 m ρ c) (Proc.devRef .tc main_v43) = _
  after_results <;> rfl

theorem v43_at (c : Dev nD) (f : Fin 128) :
    (V5 m ρ c main_v43 : S1x128.Idx → EReal) (ix2 0 f)
      = Ideal.div ((W4 m ρ c (Proc.devRef .tc main_v41_1) : S1x128.Idx → EReal) (ix2 0 f)) (Ideal.ofBits .f32 0x47435000#32) := by
  rw [V5_v43]; rfl

theorem V5_v47 (c : Dev nD) : (V5 m ρ c main_v47 : S1x128.Idx → EReal)
    = subf (Host.divf (F := Ideal) (W4 m ρ c (Proc.devRef .tc main_v41_2) : S1x128.Idx → EReal)
          (broadcastInDim S1x128 ![] bcast_S_S1x128 (constant (F := Ideal) S_ .f32 0x47435000#32)))
        (mulf (Host.divf (F := Ideal) (W4 m ρ c (Proc.devRef .tc main_v41_1) : S1x128.Idx → EReal)
            (broadcastInDim S1x128 ![] bcast_S_S1x128 (constant (F := Ideal) S_ .f32 0x47435000#32)))
          (Host.divf (F := Ideal) (W4 m ρ c (Proc.devRef .tc main_v41_1) : S1x128.Idx → EReal)
            (broadcastInDim S1x128 ![] bcast_S_S1x128 (constant (F := Ideal) S_ .f32 0x47435000#32)))) := by
  show StableHlo.after hostOps2 (W4 m ρ c) (Proc.devRef .tc main_v47) = _
  after_results <;> rfl

theorem v47_at (c : Dev nD) (f : Fin 128) :
    (V5 m ρ c main_v47 : S1x128.Idx → EReal) (ix2 0 f)
      = Ideal.div ((W4 m ρ c (Proc.devRef .tc main_v41_2) : S1x128.Idx → EReal) (ix2 0 f)) (Ideal.ofBits .f32 0x47435000#32)
        - Ideal.div ((W4 m ρ c (Proc.devRef .tc main_v41_1) : S1x128.Idx → EReal) (ix2 0 f)) (Ideal.ofBits .f32 0x47435000#32)
          * Ideal.div ((W4 m ρ c (Proc.devRef .tc main_v41_1) : S1x128.Idx → EReal) (ix2 0 f)) (Ideal.ofBits .f32 0x47435000#32) := by
  rw [V5_v47]; rfl

theorem W4_arg8 (c : Dev nD) : W4 m ρ c (Proc.devRef .tc main_arg8) = m ((c : Thread nD τ).loc main_arg8) :=
  (W4_keep m ρ c main_arg8 (by decide)).trans <|
    (W3_host m ρ c main_arg8 (by decide)).trans <|
    (W2_keep m ρ c main_arg8 (by decide)).trans <|
    (W1_host m ρ c main_arg8 (by decide)).trans <| rfl

theorem V5_v52 (c : Dev nD) : (V5 m ρ c main_v52 : S1x128.Idx → EReal)
    = shapeCast S1x128 (shapeCast S128 (extractStridedSlice S1x128 ![0, 0] (W4 m ρ c (Proc.devRef .tc main_arg8) : S2x128.Idx → EReal) slices_S2x128_S1x128_0_0)
        shapeCasts_S1x128_S128) shapeCasts_S128_S1x128 := by
  show StableHlo.after hostOps2 (W4 m ρ c) (Proc.devRef .tc main_v52) = _
  after_results <;> rfl

theorem v52_at (c : Dev nD) (f : Fin 128) :
    (V5 m ρ c main_v52 : S1x128.Idx → EReal) (ix2 0 f) = m ((c : Thread nD τ).loc main_arg8) (ix2 0 f) := by
  rw [V5_v52, W4_arg8]
  refine (shapeCast_a_1a_apply _ _ 0 f).trans ?_
  refine (shapeCast_1a_a_apply _ _ f).trans ?_
  exact extractStridedSlice_apply _ _ _ (ix2 0 f) (ix2 0 f) (fun a => by
    match a with
    | ⟨0, _⟩ => rfl
    | ⟨1, _⟩ => simp)

theorem W4_arg9 (c : Dev nD) : W4 m ρ c (Proc.devRef .tc main_arg9) = m ((c : Thread nD τ).loc main_arg9) :=
  (W4_keep m ρ c main_arg9 (by decide)).trans <|
    (W3_host m ρ c main_arg9 (by decide)).trans <|
    (W2_keep m ρ c main_arg9 (by decide)).trans <|
    (W1_host m ρ c main_arg9 (by decide)).trans <| rfl

theorem V5_v53 (c : Dev nD) : (V5 m ρ c main_v53 : S1x128.Idx → EReal)
    = shapeCast S1x128 (shapeCast S128 (extractStridedSlice S1x128 ![0, 0] (W4 m ρ c (Proc.devRef .tc main_arg9) : S2x128.Idx → EReal) slices_S2x128_S1x128_0_0)
        shapeCasts_S1x128_S128) shapeCasts_S128_S1x128 := by
  show StableHlo.after hostOps2 (W4 m ρ c) (Proc.devRef .tc main_v53) = _
  after_results <;> rfl

theorem v53_at (c : Dev nD) (f : Fin 128) :
    (V5 m ρ c main_v53 : S1x128.Idx → EReal) (ix2 0 f) = m ((c : Thread nD τ).loc main_arg9) (ix2 0 f) := by
  rw [V5_v53, W4_arg9]
  refine (shapeCast_a_1a_apply _ _ 0 f).trans ?_
  refine (shapeCast_1a_a_apply _ _ f).trans ?_
  exact extractStridedSlice_apply _ _ _ (ix2 0 f) (ix2 0 f) (fun a => by
    match a with
    | ⟨0, _⟩ => rfl
    | ⟨1, _⟩ => simp)

/-! ## The mean, variance, scale and shift rows of layer 1 -/

theorem V11_v85 (c : Dev nD) : (V11 m ρ c main_v85 : S1x128.Idx → EReal)
    = Host.divf (F := Ideal) (W10 m ρ c (Proc.devRef .tc main_v83_1) : S1x128.Idx → EReal)
        (broadcastInDim S1x128 ![] bcast_S_S1x128 (constant (F := Ideal) S_ .f32 0x47435000#32)) := by
  show StableHlo.after hostOps5 (W10 m ρ c) (Proc.devRef .tc main_v85) = _
  after_results <;> rfl

theorem v85_at (c : Dev nD) (f : Fin 128) :
    (V11 m ρ c main_v85 : S1x128.Idx → EReal) (ix2 0 f)
      = Ideal.div ((W10 m ρ c (Proc.devRef .tc main_v83_1) : S1x128.Idx → EReal) (ix2 0 f)) (Ideal.ofBits .f32 0x47435000#32) := by
  rw [V11_v85]; rfl

theorem V11_v89 (c : Dev nD) : (V11 m ρ c main_v89 : S1x128.Idx → EReal)
    = subf (Host.divf (F := Ideal) (W10 m ρ c (Proc.devRef .tc main_v83_2) : S1x128.Idx → EReal)
          (broadcastInDim S1x128 ![] bcast_S_S1x128 (constant (F := Ideal) S_ .f32 0x47435000#32)))
        (mulf (Host.divf (F := Ideal) (W10 m ρ c (Proc.devRef .tc main_v83_1) : S1x128.Idx → EReal)
            (broadcastInDim S1x128 ![] bcast_S_S1x128 (constant (F := Ideal) S_ .f32 0x47435000#32)))
          (Host.divf (F := Ideal) (W10 m ρ c (Proc.devRef .tc main_v83_1) : S1x128.Idx → EReal)
            (broadcastInDim S1x128 ![] bcast_S_S1x128 (constant (F := Ideal) S_ .f32 0x47435000#32)))) := by
  show StableHlo.after hostOps5 (W10 m ρ c) (Proc.devRef .tc main_v89) = _
  after_results <;> rfl

theorem v89_at (c : Dev nD) (f : Fin 128) :
    (V11 m ρ c main_v89 : S1x128.Idx → EReal) (ix2 0 f)
      = Ideal.div ((W10 m ρ c (Proc.devRef .tc main_v83_2) : S1x128.Idx → EReal) (ix2 0 f)) (Ideal.ofBits .f32 0x47435000#32)
        - Ideal.div ((W10 m ρ c (Proc.devRef .tc main_v83_1) : S1x128.Idx → EReal) (ix2 0 f)) (Ideal.ofBits .f32 0x47435000#32)
          * Ideal.div ((W10 m ρ c (Proc.devRef .tc main_v83_1) : S1x128.Idx → EReal) (ix2 0 f)) (Ideal.ofBits .f32 0x47435000#32) := by
  rw [V11_v89]; rfl

theorem W10_arg8 (c : Dev nD) : W10 m ρ c (Proc.devRef .tc main_arg8) = m ((c : Thread nD τ).loc main_arg8) :=
  (W10_keep m ρ c main_arg8 (by decide)).trans <|
    (W9_host m ρ c main_arg8 (by decide)).trans <|
    (W8_keep m ρ c main_arg8 (by decide)).trans <|
    (W7_host m ρ c main_arg8 (by decide)).trans <|
    (W6_keep m ρ c main_arg8 (by decide)).trans <|
    (W5_host m ρ c main_arg8 (by decide)).trans <|
    (W4_keep m ρ c main_arg8 (by decide)).trans <|
    (W3_host m ρ c main_arg8 (by decide)).trans <|
    (W2_keep m ρ c main_arg8 (by decide)).trans <|
    (W1_host m ρ c main_arg8 (by decide)).trans <| rfl

theorem V11_v94 (c : Dev nD) : (V11 m ρ c main_v94 : S1x128.Idx → EReal)
    = shapeCast S1x128 (shapeCast S128 (extractStridedSlice S1x128 ![1, 0] (W10 m ρ c (Proc.devRef .tc main_arg8) : S2x128.Idx → EReal) slices_S2x128_S1x128_1_0)
        shapeCasts_S1x128_S128) shapeCasts_S128_S1x128 := by
  show StableHlo.after hostOps5 (W10 m ρ c) (Proc.devRef .tc main_v94) = _
  after_results <;> rfl

theorem v94_at (c : Dev nD) (f : Fin 128) :
    (V11 m ρ c main_v94 : S1x128.Idx → EReal) (ix2 0 f) = m ((c : Thread nD τ).loc main_arg8) (ix2 1 f) := by
  rw [V11_v94, W10_arg8]
  refine (shapeCast_a_1a_apply _ _ 0 f).trans ?_
  refine (shapeCast_1a_a_apply _ _ f).trans ?_
  exact extractStridedSlice_apply _ _ _ (ix2 0 f) (ix2 1 f) (fun a => by
    match a with
    | ⟨0, _⟩ => rfl
    | ⟨1, _⟩ => simp)

theorem W10_arg9 (c : Dev nD) : W10 m ρ c (Proc.devRef .tc main_arg9) = m ((c : Thread nD τ).loc main_arg9) :=
  (W10_keep m ρ c main_arg9 (by decide)).trans <|
    (W9_host m ρ c main_arg9 (by decide)).trans <|
    (W8_keep m ρ c main_arg9 (by decide)).trans <|
    (W7_host m ρ c main_arg9 (by decide)).trans <|
    (W6_keep m ρ c main_arg9 (by decide)).trans <|
    (W5_host m ρ c main_arg9 (by decide)).trans <|
    (W4_keep m ρ c main_arg9 (by decide)).trans <|
    (W3_host m ρ c main_arg9 (by decide)).trans <|
    (W2_keep m ρ c main_arg9 (by decide)).trans <|
    (W1_host m ρ c main_arg9 (by decide)).trans <| rfl

theorem V11_v95 (c : Dev nD) : (V11 m ρ c main_v95 : S1x128.Idx → EReal)
    = shapeCast S1x128 (shapeCast S128 (extractStridedSlice S1x128 ![1, 0] (W10 m ρ c (Proc.devRef .tc main_arg9) : S2x128.Idx → EReal) slices_S2x128_S1x128_1_0)
        shapeCasts_S1x128_S128) shapeCasts_S128_S1x128 := by
  show StableHlo.after hostOps5 (W10 m ρ c) (Proc.devRef .tc main_v95) = _
  after_results <;> rfl

theorem v95_at (c : Dev nD) (f : Fin 128) :
    (V11 m ρ c main_v95 : S1x128.Idx → EReal) (ix2 0 f) = m ((c : Thread nD τ).loc main_arg9) (ix2 1 f) := by
  rw [V11_v95, W10_arg9]
  refine (shapeCast_a_1a_apply _ _ 0 f).trans ?_
  refine (shapeCast_1a_a_apply _ _ f).trans ?_
  exact extractStridedSlice_apply _ _ _ (ix2 0 f) (ix2 1 f) (fun a => by
    match a with
    | ⟨0, _⟩ => rfl
    | ⟨1, _⟩ => simp)

end Cert.KernelIdeal.Frm

end
-- ==== Proof.RefRealOps.lean ====
import Idealize.ShloMosaic.PureOps.Ideal
import Idealize.ShloMosaic.PureOps.Ideal.Laws
import Idealize.ShloMosaic.PureOps.Contract
import Idealize.ShloMosaic.PureOps.ShapeOps
import proofs.«156566_j1202590843053_1_alg».proof.Proof.LibBnTwoForms

/-! Which host operations keep an array of real numbers real, over the extended reals.

    A row gather reads some entry of its operand, so it keeps reals. An accumulating scatter adds to an entry a finite
    sum of update entries, so it keeps reals. A count of at least one is not zero, so dividing a real by it is real. A
    mean of squares of reals is a non-negative real, and adding the positive constant `ε` makes it positive, so its
    reciprocal square root is real. -/

noncomputable section

namespace Cert.RefValue

open Idealize.ShloMosaic Cert.LibBnTwoForms
open scoped BigOperators

/-! ## Gather and scatter -/

/-- A gathered entry is an entry of the operand, whatever the index words say. -/
theorem isReal_gather {s si t : Shape} {w : Nat} (d : GatherDims s si t) (x : s.Idx → EReal) (idx : IVec si w)
    (hx : ∀ i, IsReal (x i)) (j : t.Idx) : IsReal (Host.gather d x idx j) :=
  hx _

/-- An entry of an accumulating scatter is the operand's entry plus the finite sum of the update entries that land on
    it: real when the operand and the updates are. -/
theorem isReal_scatterAdd {s si su : Shape} {w : Nat} {φ : FTy} (d : ScatterDims s si su) (x : FVec Ideal s φ)
    (idx : IVec si w) (upd : FVec Ideal su φ) (hx : ∀ i, IsReal (x i)) (hu : ∀ q, IsReal (upd q)) (i : s.Idx) :
    IsReal (Host.scatterAdd d x idx upd i) := by
  show IsReal (x i + ∑ j ∈ Finset.univ.filter (fun j => d.resultIdx? j idx = some i), upd j)
  exact IsReal.add (hx i) (IsReal.sum _ _ fun q _ => hu q)

/-! ## A count of at least one -/

/-- The larger of anything and one is not zero. -/
theorem max_one_ne_zero (c : EReal) : max c 1 ≠ 0 :=
  ne_of_gt (lt_of_lt_of_le zero_lt_one (le_max_right c 1))

/-- A real divided by the larger of a real and one is real. -/
theorem IsReal.div_max_one {x c : EReal} (hx : IsReal x) (hc : IsReal c) : IsReal (Ideal.div x (max c 1)) :=
  hx.div (hc.max isReal_one) (max_one_ne_zero c)

/-! ## Non-negative reals -/

/-- An extended real that is a non-negative real number. -/
def IsNonneg (x : EReal) : Prop := ∃ r : ℝ, 0 ≤ r ∧ x = (r : EReal)

/-- A non-negative real is real. -/
theorem IsNonneg.isReal {x : EReal} (h : IsNonneg x) : IsReal x := by
  obtain ⟨r, _, rfl⟩ := h; exact isReal_coe r

/-- Zero is a non-negative real. -/
theorem isNonneg_zero : IsNonneg (0 : EReal) := ⟨0, le_rfl, rfl⟩

/-- The pattern of `0.0` is a non-negative real. -/
theorem isNonneg_zero_bits : IsNonneg (Ideal.ofBits .f32 0x00000000#32) := by
  rw [zero_eq]; exact isNonneg_zero

/-- The square of a real is a non-negative real. -/
theorem isNonneg_mul_self {x : EReal} (hx : IsReal x) : IsNonneg (x * x) := by
  obtain ⟨a, rfl⟩ := hx
  exact ⟨a * a, mul_self_nonneg a, (EReal.coe_mul a a).symm⟩

/-- A sum of two non-negative reals is one. -/
theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

/-- A finite sum of non-negative reals is one. -/
theorem IsNonneg.sum {ι : Type*} (s : Finset ι) (f : ι → EReal) (h : ∀ i ∈ s, IsNonneg (f i)) :
    IsNonneg (∑ i ∈ s, f i) := by
  classical
  induction s using Finset.induction_on with
  | empty => simpa using isNonneg_zero
  | insert a s ha ih =>
    rw [Finset.sum_insert ha]
    exact (h a (Finset.mem_insert_self a s)).add (ih fun i hi => h i (Finset.mem_insert_of_mem hi))

/-- A non-negative real divided by the pattern of `50000.0` is a non-negative real. -/
theorem IsNonneg.div_cN {x : EReal} (hx : IsNonneg x) : IsNonneg (Ideal.div x (Ideal.ofBits .f32 0x47435000#32)) := by
  obtain ⟨a, ha, rfl⟩ := hx
  rw [cN_eq, Ideal.div_coe (by norm_num : (50000 : ℝ) ≠ 0), ← EReal.coe_mul]
  exact ⟨a * (1 / 50000), mul_nonneg ha (by norm_num), rfl⟩

/-- The reciprocal square root of a non-negative real plus the pattern of the `f32` nearest `1e-5` is real: the
    argument is a positive real. -/
theorem IsNonneg.isReal_rsqrt_add_eps {x : EReal} (hx : IsNonneg x) :
    IsReal (Ideal.rsqrt (x + Ideal.ofBits .f32 0x3727C5AC#32)) := by
  obtain ⟨a, ha, rfl⟩ := hx
  obtain ⟨e, he, hE⟩ := eps_pos
  rw [hE, ← EReal.coe_add]
  exact isReal_rsqrt_of_pos (add_pos_of_nonneg_of_pos ha he)

end Cert.RefValue

end
-- ==== Proof.RefReal0.lean ====
import proofs.«156566_j1202590843053_1_alg».proof.Proof.RefReadP
import proofs.«156566_j1202590843053_1_alg».proof.Proof.RefRealOps

/-! Layer 0 of the reference up to the array before normalisation (%39): with every float argument real, every stage is
    real. The gathered rows are rows of the node features; the neighbour sum is a finite sum; the in-degree count is
    replaced by the larger of itself and one before dividing. -/

noncomputable section

namespace Cert.RefValue

open Cert.ReferenceIdeal Cert.ReferenceIdeal.Gen Cert.ReferenceIdeal.ReadP Idealize.ShloMosaic Cert.LibBnTwoForms
open scoped BigOperators

/-- The constant %cst is 1, a real number. -/
theorem real_cst (i : S_.Idx) :
    IsReal (val_main_cst (F := Ideal) i) := by
  rw [val_main_cst_apply, Ideal.ofBits_def]; exact isReal_one_bits

/-- Every entry of %4 is an entry of %cst (a broadcast). -/
theorem real_v4 (i : S640000x1.Idx) :
    IsReal (val_main_v4 (F := Ideal) i) := by
  rw [val_main_v4_apply]; exact (real_cst _)

/-- The constant %cst_0 is 0, a real number. -/
theorem real_cst_0 (i : S_.Idx) :
    IsReal (val_main_cst_0 (F := Ideal) i) := by
  rw [val_main_cst_0_apply, Ideal.ofBits_def]; exact isReal_zero_bits

/-- Every entry of %5 is an entry of %cst_0 (a broadcast). -/
theorem real_v5 (i : S50000x1.Idx) :
    IsReal (val_main_v5 (F := Ideal) i) := by
  rw [val_main_v5_apply]; exact (real_cst_0 _)

/-- An entry of %7 is an entry of %5 plus the finite sum of the entries of %4 that land on it. -/
theorem real_v7 (x10 : (⟨S2x640000, .i32⟩ : BufTy).Contents (Elt Ideal)) (i : S50000x1.Idx) :
    IsReal (val_main_v7 (F := Ideal) x10 i) := by
  unfold val_main_v7; exact isReal_scatterAdd _ _ _ _ (fun j => (real_v5 j)) (fun q => (real_v4 q)) i

/-- An entry of %16 is some entry of argument 0, whichever row the index word selects. -/
theorem real_v16 (x0 : (⟨S50000x128, .f32⟩ : BufTy).Contents (Elt Ideal)) (x10 : (⟨S2x640000, .i32⟩ : BufTy).Contents (Elt Ideal)) (h0 : ∀ i, IsReal (x0 i)) (i : S640000x128.Idx) :
    IsReal (val_main_v16 (F := Ideal) x0 x10 i) := by
  unfold val_main_v16; exact isReal_gather _ _ _ (fun j => (h0 j)) i

/-- %17 is %16 times argument 1, entry by entry. -/
theorem real_v17 (x0 : (⟨S50000x128, .f32⟩ : BufTy).Contents (Elt Ideal)) (x1 : (⟨S640000x128, .f32⟩ : BufTy).Contents (Elt Ideal)) (x10 : (⟨S2x640000, .i32⟩ : BufTy).Contents (Elt Ideal)) (h0 : ∀ i, IsReal (x0 i)) (h1 : ∀ i, IsReal (x1 i)) (i : S640000x128.Idx) :
    IsReal (val_main_v17 (F := Ideal) x0 x1 x10 i) := by
  rw [val_main_v17_apply, Ideal.mulf_def]; exact IsReal.mul (real_v16 x0 x10 h0 i) (h1 i)

/-- Every entry of %18 is an entry of argument 4 (a slice). -/
theorem real_v18 (x4 : (⟨S3x128x128, .f32⟩ : BufTy).Contents (Elt Ideal)) (h4 : ∀ i, IsReal (x4 i)) (i : S1x128x128.Idx) :
    IsReal (val_main_v18 (F := Ideal) x4 i) := by
  rw [val_main_v18_apply]; exact (h4 _)

/-- Every entry of %19 is an entry of %18 (a reshape). -/
theorem real_v19 (x4 : (⟨S3x128x128, .f32⟩ : BufTy).Contents (Elt Ideal)) (h4 : ∀ i, IsReal (x4 i)) (i : S128x128.Idx) :
    IsReal (val_main_v19 (F := Ideal) x4 i) := by
  rw [val_main_v19_apply]; exact (real_v18 x4 h4 _)

/-- An entry of %20 is a finite sum of products of an entry of %17 and an entry of %19. -/
theorem real_v20 (x0 : (⟨S50000x128, .f32⟩ : BufTy).Contents (Elt Ideal)) (x1 : (⟨S640000x128, .f32⟩ : BufTy).Contents (Elt Ideal)) (x4 : (⟨S3x128x128, .f32⟩ : BufTy).Contents (Elt Ideal)) (x10 : (⟨S2x640000, .i32⟩ : BufTy).Contents (Elt Ideal)) (h0 : ∀ i, IsReal (x0 i)) (h1 : ∀ i, IsReal (x1 i)) (h4 : ∀ i, IsReal (x4 i)) (i : S640000x128.Idx) :
    IsReal (val_main_v20 (F := Ideal) x0 x1 x4 x10 i) := by
  rw [val_main_v20_apply]; exact IsReal.sum _ _ fun k _ => IsReal.mul (real_v17 x0 x1 x10 h0 h1 _) (real_v19 x4 h4 _)

/-- Every entry of %21 is an entry of argument 5 (a slice). -/
theorem real_v21 (x5 : (⟨S3x128, .f32⟩ : BufTy).Contents (Elt Ideal)) (h5 : ∀ i, IsReal (x5 i)) (i : S1x128.Idx) :
    IsReal (val_main_v21 (F := Ideal) x5 i) := by
  rw [val_main_v21_apply]; exact (h5 _)

/-- Every entry of %22 is an entry of %21 (a reshape). -/
theorem real_v22 (x5 : (⟨S3x128, .f32⟩ : BufTy).Contents (Elt Ideal)) (h5 : ∀ i, IsReal (x5 i)) (i : S128.Idx) :
    IsReal (val_main_v22 (F := Ideal) x5 i) := by
  rw [val_main_v22_apply]; exact (real_v21 x5 h5 _)

/-- Every entry of %23 is an entry of %22 (a broadcast). -/
theorem real_v23 (x5 : (⟨S3x128, .f32⟩ : BufTy).Contents (Elt Ideal)) (h5 : ∀ i, IsReal (x5 i)) (i : S1x128.Idx) :
    IsReal (val_main_v23 (F := Ideal) x5 i) := by
  rw [val_main_v23_apply]; exact (real_v22 x5 h5 _)

/-- Every entry of %24 is an entry of %23 (a broadcast). -/
theorem real_v24 (x5 : (⟨S3x128, .f32⟩ : BufTy).Contents (Elt Ideal)) (h5 : ∀ i, IsReal (x5 i)) (i : S640000x128.Idx) :
    IsReal (val_main_v24 (F := Ideal) x5 i) := by
  rw [val_main_v24_apply]; exact (real_v23 x5 h5 _)

/-- %25 is %20 plus %24, entry by entry. -/
theorem real_v25 (x0 : (⟨S50000x128, .f32⟩ : BufTy).Contents (Elt Ideal)) (x1 : (⟨S640000x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h4 : ∀ i, IsReal (x4 i)) (h5 : ∀ i, IsReal (x5 i)) (i : S640000x128.Idx) :
    IsReal (val_main_v25 (F := Ideal) x0 x1 x4 x5 x10 i) := by
  rw [val_main_v25_apply, Ideal.addf_def]; exact IsReal.add (real_v20 x0 x1 x4 x10 h0 h1 h4 i) (real_v24 x5 h5 i)

/-- The constant %cst_3 is 0, a real number. -/
theorem real_cst_3 (i : S_.Idx) :
    IsReal (val_main_cst_3 (F := Ideal) i) := by
  rw [val_main_cst_3_apply, Ideal.ofBits_def]; exact isReal_zero_bits

/-- Every entry of %26 is an entry of %cst_3 (a broadcast). -/
theorem real_v26 (i : S50000x128.Idx) :
    IsReal (val_main_v26 (F := Ideal) i) := by
  rw [val_main_v26_apply]; exact (real_cst_3 _)

/-- An entry of %28 is an entry of %26 plus the finite sum of the entries of %25 that land on it. -/
theorem real_v28 (x0 : (⟨S50000x128, .f32⟩ : BufTy).Contents (Elt Ideal)) (x1 : (⟨S640000x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h4 : ∀ i, IsReal (x4 i)) (h5 : ∀ i, IsReal (x5 i)) (i : S50000x128.Idx) :
    IsReal (val_main_v28 (F := Ideal) x0 x1 x4 x5 x10 i) := by
  unfold val_main_v28; exact isReal_scatterAdd _ _ _ _ (fun j => (real_v26 j)) (fun q => (real_v25 x0 x1 x4 x5 x10 h0 h1 h4 h5 q)) i

/-- %30 is %28 divided, entry by entry, by the larger of the in-degree count %7 and one, which is not zero. -/
theorem real_v30 (x0 : (⟨S50000x128, .f32⟩ : BufTy).Contents (Elt Ideal)) (x1 : (⟨S640000x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h4 : ∀ i, IsReal (x4 i)) (h5 : ∀ i, IsReal (x5 i)) (i : S50000x128.Idx) :
    IsReal (val_main_v30 (F := Ideal) x0 x1 x4 x5 x10 i) := by
  rw [val_main_v30_apply, Ideal.hostDivf_def, val_main_v29_apply, val_main_v9_apply, Ideal.maximumf_def, val_main_v8_apply, val_main_cst_1_apply, Ideal.ofBits_def, one_eq]
  exact IsReal.div_max_one (real_v28 x0 x1 x4 x5 x10 h0 h1 h4 h5 i) (real_v7 x10 _)

/-- Every entry of %31 is an entry of argument 2 (a slice). -/
theorem real_v31 (x2 : (⟨S3x128x128, .f32⟩ : BufTy).Contents (Elt Ideal)) (h2 : ∀ i, IsReal (x2 i)) (i : S1x128x128.Idx) :
    IsReal (val_main_v31 (F := Ideal) x2 i) := by
  rw [val_main_v31_apply]; exact (h2 _)

/-- Every entry of %32 is an entry of %31 (a reshape). -/
theorem real_v32 (x2 : (⟨S3x128x128, .f32⟩ : BufTy).Contents (Elt Ideal)) (h2 : ∀ i, IsReal (x2 i)) (i : S128x128.Idx) :
    IsReal (val_main_v32 (F := Ideal) x2 i) := by
  rw [val_main_v32_apply]; exact (real_v31 x2 h2 _)

/-- An entry of %33 is a finite sum of products of an entry of argument 0 and an entry of %32. -/
theorem real_v33 (x0 : (⟨S50000x128, .f32⟩ : BufTy).Contents (Elt Ideal)) (x2 : (⟨S3x128x128, .f32⟩ : BufTy).Contents (Elt Ideal)) (h0 : ∀ i, IsReal (x0 i)) (h2 : ∀ i, IsReal (x2 i)) (i : S50000x128.Idx) :
    IsReal (val_main_v33 (F := Ideal) x0 x2 i) := by
  rw [val_main_v33_apply]; exact IsReal.sum _ _ fun k _ => IsReal.mul (h0 _) (real_v32 x2 h2 _)

/-- %34 is %30 plus %33, entry by entry. -/
theorem real_v34 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h4 : ∀ i, IsReal (x4 i)) (h5 : ∀ i, IsReal (x5 i)) (i : S50000x128.Idx) :
    IsReal (val_main_v34 (F := Ideal) x0 x1 x2 x4 x5 x10 i) := by
  rw [val_main_v34_apply, Ideal.addf_def]; exact IsReal.add (real_v30 x0 x1 x4 x5 x10 h0 h1 h4 h5 i) (real_v33 x0 x2 h0 h2 i)

/-- Every entry of %35 is an entry of argument 3 (a slice). -/
theorem real_v35 (x3 : (⟨S3x128, .f32⟩ : BufTy).Contents (Elt Ideal)) (h3 : ∀ i, IsReal (x3 i)) (i : S1x128.Idx) :
    IsReal (val_main_v35 (F := Ideal) x3 i) := by
  rw [val_main_v35_apply]; exact (h3 _)

/-- Every entry of %36 is an entry of %35 (a reshape). -/
theorem real_v36 (x3 : (⟨S3x128, .f32⟩ : BufTy).Contents (Elt Ideal)) (h3 : ∀ i, IsReal (x3 i)) (i : S128.Idx) :
    IsReal (val_main_v36 (F := Ideal) x3 i) := by
  rw [val_main_v36_apply]; exact (real_v35 x3 h3 _)

/-- Every entry of %37 is an entry of %36 (a broadcast). -/
theorem real_v37 (x3 : (⟨S3x128, .f32⟩ : BufTy).Contents (Elt Ideal)) (h3 : ∀ i, IsReal (x3 i)) (i : S1x128.Idx) :
    IsReal (val_main_v37 (F := Ideal) x3 i) := by
  rw [val_main_v37_apply]; exact (real_v36 x3 h3 _)

/-- Every entry of %38 is an entry of %37 (a broadcast). -/
theorem real_v38 (x3 : (⟨S3x128, .f32⟩ : BufTy).Contents (Elt Ideal)) (h3 : ∀ i, IsReal (x3 i)) (i : S50000x128.Idx) :
    IsReal (val_main_v38 (F := Ideal) x3 i) := by
  rw [val_main_v38_apply]; exact (real_v37 x3 h3 _)

/-- %39 is %34 plus %38, entry by entry. -/
theorem real_v39 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S50000x128.Idx) :
    IsReal (val_main_v39 (F := Ideal) x0 x1 x2 x3 x4 x5 x10 i) := by
  rw [val_main_v39_apply, Ideal.addf_def]; exact IsReal.add (real_v34 x0 x1 x2 x4 x5 x10 h0 h1 h2 h4 h5 i) (real_v38 x3 h3 i)

/-- LAYER 0 BEFORE NORMALISATION IS REAL: every entry of %39 = segment_sum(msg)/max(cnt,1) + x·w_self^T + b_self. -/
theorem real_h0 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) :
    ∀ i, IsReal (val_main_v39 (F := Ideal) x0 x1 x2 x3 x4 x5 x10 i) :=
  real_v39 x0 x1 x2 x3 x4 x5 x10 h0 h1 h2 h3 h4 h5

end Cert.RefValue

end
-- ==== Proof.RefReal0Bn.lean ====
import proofs.«156566_j1202590843053_1_alg».proof.Proof.RefReal0

/-! Layer 0's normalisation and relu (%52 … %77): the mean is a real; the variance, a mean of squares of reals, is a
    non-negative real, so variance + ε is a positive real and its reciprocal square root is real; the normalised,
    scaled, shifted and clamped array is real. -/

noncomputable section

namespace Cert.RefValue

open Cert.ReferenceIdeal Cert.ReferenceIdeal.Gen Cert.ReferenceIdeal.ReadP Idealize.ShloMosaic Cert.LibBnTwoForms
open scoped BigOperators

/-- Every entry of %48 is an entry of argument 8 (a slice). -/
theorem real_v48 (x8 : (⟨S2x128, .f32⟩ : BufTy).Contents (Elt Ideal)) (h8 : ∀ i, IsReal (x8 i)) (i : S1x128.Idx) :
    IsReal (val_main_v48 (F := Ideal) x8 i) := by
  rw [val_main_v48_apply]; exact (h8 _)

/-- Every entry of %49 is an entry of %48 (a reshape). -/
theorem real_v49 (x8 : (⟨S2x128, .f32⟩ : BufTy).Contents (Elt Ideal)) (h8 : ∀ i, IsReal (x8 i)) (i : S128.Idx) :
    IsReal (val_main_v49 (F := Ideal) x8 i) := by
  rw [val_main_v49_apply]; exact (real_v48 x8 h8 _)

/-- Every entry of %50 is an entry of argument 9 (a slice). -/
theorem real_v50 (x9 : (⟨S2x128, .f32⟩ : BufTy).Contents (Elt Ideal)) (h9 : ∀ i, IsReal (x9 i)) (i : S1x128.Idx) :
    IsReal (val_main_v50 (F := Ideal) x9 i) := by
  rw [val_main_v50_apply]; exact (h9 _)

/-- Every entry of %51 is an entry of %50 (a reshape). -/
theorem real_v51 (x9 : (⟨S2x128, .f32⟩ : BufTy).Contents (Elt Ideal)) (h9 : ∀ i, IsReal (x9 i)) (i : S128.Idx) :
    IsReal (val_main_v51 (F := Ideal) x9 i) := by
  rw [val_main_v51_apply]; exact (real_v50 x9 h9 _)

/-- The constant %cst_4 is 0, a real number. -/
theorem real_cst_4 (i : S_.Idx) :
    IsReal (val_main_cst_4 (F := Ideal) i) := by
  rw [val_main_cst_4_apply, Ideal.ofBits_def]; exact isReal_zero_bits

/-- An entry of %52 is the initial value %cst_4 plus a finite sum of entries of %39. -/
theorem real_v52 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S128.Idx) :
    IsReal (val_main_v52 (F := Ideal) x0 x1 x2 x3 x4 x5 x10 i) := by
  rw [val_main_v52_apply]; exact IsReal.add (real_cst_4 _) (IsReal.sum _ _ fun k _ => (real_v39 x0 x1 x2 x3 x4 x5 x10 h0 h1 h2 h3 h4 h5 _))

/-- %54 is %52 divided by 50000, entry by entry. -/
theorem real_v54 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S128.Idx) :
    IsReal (val_main_v54 (F := Ideal) x0 x1 x2 x3 x4 x5 x10 i) := by
  rw [val_main_v54_apply, Ideal.hostDivf_def, val_main_v53_apply, val_main_cst_5_apply, Ideal.ofBits_def]; exact IsReal.div_cN (real_v52 x0 x1 x2 x3 x4 x5 x10 h0 h1 h2 h3 h4 h5 i)

/-- Every entry of %55 is an entry of %54 (a broadcast). -/
theorem real_v55 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S1x128.Idx) :
    IsReal (val_main_v55 (F := Ideal) x0 x1 x2 x3 x4 x5 x10 i) := by
  rw [val_main_v55_apply]; exact (real_v54 x0 x1 x2 x3 x4 x5 x10 h0 h1 h2 h3 h4 h5 _)

/-- Every entry of %56 is an entry of %55 (a broadcast). -/
theorem real_v56 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S50000x128.Idx) :
    IsReal (val_main_v56 (F := Ideal) x0 x1 x2 x3 x4 x5 x10 i) := by
  rw [val_main_v56_apply]; exact (real_v55 x0 x1 x2 x3 x4 x5 x10 h0 h1 h2 h3 h4 h5 _)

/-- %57 is %39 minus %56, entry by entry. -/
theorem real_v57 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S50000x128.Idx) :
    IsReal (val_main_v57 (F := Ideal) x0 x1 x2 x3 x4 x5 x10 i) := by
  rw [val_main_v57_apply, Ideal.subf_def]; exact IsReal.sub (real_v39 x0 x1 x2 x3 x4 x5 x10 h0 h1 h2 h3 h4 h5 i) (real_v56 x0 x1 x2 x3 x4 x5 x10 h0 h1 h2 h3 h4 h5 i)

/-- %58 is the square of %57, entry by entry: a non-negative real where %57 is real. -/
theorem nonneg_v58 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S50000x128.Idx) :
    IsNonneg (val_main_v58 (F := Ideal) x0 x1 x2 x3 x4 x5 x10 i) := by
  rw [val_main_v58_apply, Ideal.mulf_def]; exact isNonneg_mul_self (real_v57 x0 x1 x2 x3 x4 x5 x10 h0 h1 h2 h3 h4 h5 i)

/-- An entry of %59 is zero plus a finite sum of entries of %58: a non-negative real where those are. -/
theorem nonneg_v59 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S128.Idx) :
    IsNonneg (val_main_v59 (F := Ideal) x0 x1 x2 x3 x4 x5 x10 i) := by
  rw [val_main_v59_apply, val_main_cst_6_apply, Ideal.ofBits_def]; exact IsNonneg.add isNonneg_zero_bits (IsNonneg.sum _ _ fun k _ => (nonneg_v58 x0 x1 x2 x3 x4 x5 x10 h0 h1 h2 h3 h4 h5 _))

/-- %61 is %59 divided by 50000: a non-negative real where %59 is. -/
theorem nonneg_v61 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S128.Idx) :
    IsNonneg (val_main_v61 (F := Ideal) x0 x1 x2 x3 x4 x5 x10 i) := by
  rw [val_main_v61_apply, Ideal.hostDivf_def, val_main_v60_apply, val_main_cst_7_apply, Ideal.ofBits_def]; exact IsNonneg.div_cN (nonneg_v59 x0 x1 x2 x3 x4 x5 x10 h0 h1 h2 h3 h4 h5 i)

/-- Every entry of %62 is an entry of %54 (a broadcast). -/
theorem real_v62 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S1x128.Idx) :
    IsReal (val_main_v62 (F := Ideal) x0 x1 x2 x3 x4 x5 x10 i) := by
  rw [val_main_v62_apply]; exact (real_v54 x0 x1 x2 x3 x4 x5 x10 h0 h1 h2 h3 h4 h5 _)

/-- Every entry of %63 is an entry of %62 (a broadcast). -/
theorem real_v63 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S50000x128.Idx) :
    IsReal (val_main_v63 (F := Ideal) x0 x1 x2 x3 x4 x5 x10 i) := by
  rw [val_main_v63_apply]; exact (real_v62 x0 x1 x2 x3 x4 x5 x10 h0 h1 h2 h3 h4 h5 _)

/-- %64 is %39 minus %63, entry by entry. -/
theorem real_v64 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S50000x128.Idx) :
    IsReal (val_main_v64 (F := Ideal) x0 x1 x2 x3 x4 x5 x10 i) := by
  rw [val_main_v64_apply, Ideal.subf_def]; exact IsReal.sub (real_v39 x0 x1 x2 x3 x4 x5 x10 h0 h1 h2 h3 h4 h5 i) (real_v63 x0 x1 x2 x3 x4 x5 x10 h0 h1 h2 h3 h4 h5 i)

/-- %67 is the reciprocal square root of %61 plus the positive constant ε; %61 is a non-negative real, so the argument is a positive real. -/
theorem real_v67 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S128.Idx) :
    IsReal (val_main_v67 (F := Ideal) x0 x1 x2 x3 x4 x5 x10 i) := by
  rw [val_main_v67_apply, Ideal.hostUnary_rsqrt_def, val_main_v66_apply, Ideal.addf_def, val_main_v65_apply, val_main_cst_8_apply, Ideal.ofBits_def]
  exact IsNonneg.isReal_rsqrt_add_eps (nonneg_v61 x0 x1 x2 x3 x4 x5 x10 h0 h1 h2 h3 h4 h5 i)

/-- Every entry of %68 is an entry of %67 (a broadcast). -/
theorem real_v68 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S1x128.Idx) :
    IsReal (val_main_v68 (F := Ideal) x0 x1 x2 x3 x4 x5 x10 i) := by
  rw [val_main_v68_apply]; exact (real_v67 x0 x1 x2 x3 x4 x5 x10 h0 h1 h2 h3 h4 h5 _)

/-- Every entry of %69 is an entry of %68 (a broadcast). -/
theorem real_v69 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S50000x128.Idx) :
    IsReal (val_main_v69 (F := Ideal) x0 x1 x2 x3 x4 x5 x10 i) := by
  rw [val_main_v69_apply]; exact (real_v68 x0 x1 x2 x3 x4 x5 x10 h0 h1 h2 h3 h4 h5 _)

/-- %70 is %64 times %69, entry by entry. -/
theorem real_v70 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S50000x128.Idx) :
    IsReal (val_main_v70 (F := Ideal) x0 x1 x2 x3 x4 x5 x10 i) := by
  rw [val_main_v70_apply, Ideal.mulf_def]; exact IsReal.mul (real_v64 x0 x1 x2 x3 x4 x5 x10 h0 h1 h2 h3 h4 h5 i) (real_v69 x0 x1 x2 x3 x4 x5 x10 h0 h1 h2 h3 h4 h5 i)

/-- Every entry of %71 is an entry of %49 (a broadcast). -/
theorem real_v71 (x8 : (⟨S2x128, .f32⟩ : BufTy).Contents (Elt Ideal)) (h8 : ∀ i, IsReal (x8 i)) (i : S1x128.Idx) :
    IsReal (val_main_v71 (F := Ideal) x8 i) := by
  rw [val_main_v71_apply]; exact (real_v49 x8 h8 _)

/-- Every entry of %72 is an entry of %71 (a broadcast). -/
theorem real_v72 (x8 : (⟨S2x128, .f32⟩ : BufTy).Contents (Elt Ideal)) (h8 : ∀ i, IsReal (x8 i)) (i : S50000x128.Idx) :
    IsReal (val_main_v72 (F := Ideal) x8 i) := by
  rw [val_main_v72_apply]; exact (real_v71 x8 h8 _)

/-- %73 is %70 times %72, entry by entry. -/
theorem real_v73 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x8 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h8 : ∀ i, IsReal (x8 i)) (i : S50000x128.Idx) :
    IsReal (val_main_v73 (F := Ideal) x0 x1 x2 x3 x4 x5 x8 x10 i) := by
  rw [val_main_v73_apply, Ideal.mulf_def]; exact IsReal.mul (real_v70 x0 x1 x2 x3 x4 x5 x10 h0 h1 h2 h3 h4 h5 i) (real_v72 x8 h8 i)

/-- Every entry of %74 is an entry of %51 (a broadcast). -/
theorem real_v74 (x9 : (⟨S2x128, .f32⟩ : BufTy).Contents (Elt Ideal)) (h9 : ∀ i, IsReal (x9 i)) (i : S1x128.Idx) :
    IsReal (val_main_v74 (F := Ideal) x9 i) := by
  rw [val_main_v74_apply]; exact (real_v51 x9 h9 _)

/-- Every entry of %75 is an entry of %74 (a broadcast). -/
theorem real_v75 (x9 : (⟨S2x128, .f32⟩ : BufTy).Contents (Elt Ideal)) (h9 : ∀ i, IsReal (x9 i)) (i : S50000x128.Idx) :
    IsReal (val_main_v75 (F := Ideal) x9 i) := by
  rw [val_main_v75_apply]; exact (real_v74 x9 h9 _)

/-- %76 is %73 plus %75, entry by entry. -/
theorem real_v76 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h8 : ∀ i, IsReal (x8 i)) (h9 : ∀ i, IsReal (x9 i)) (i : S50000x128.Idx) :
    IsReal (val_main_v76 (F := Ideal) x0 x1 x2 x3 x4 x5 x8 x9 x10 i) := by
  rw [val_main_v76_apply, Ideal.addf_def]; exact IsReal.add (real_v73 x0 x1 x2 x3 x4 x5 x8 x10 h0 h1 h2 h3 h4 h5 h8 i) (real_v75 x9 h9 i)

/-- The constant %relu's %cst is 0, a real number. -/
theorem real_call0_cst (i : S_.Idx) :
    IsReal (val_main_call0_cst (F := Ideal) i) := by
  rw [val_main_call0_cst_apply, Ideal.ofBits_def]; exact isReal_zero_bits

/-- Every entry of %relu's %v0 is an entry of %relu's %cst (a broadcast). -/
theorem real_call0_v0 (i : S50000x128.Idx) :
    IsReal (val_main_call0_v0 (F := Ideal) i) := by
  rw [val_main_call0_v0_apply]; exact (real_call0_cst _)

/-- %77 is the larger of %76 and %relu's %v0, entry by entry. -/
theorem real_v77 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h8 : ∀ i, IsReal (x8 i)) (h9 : ∀ i, IsReal (x9 i)) (i : S50000x128.Idx) :
    IsReal (val_main_v77 (F := Ideal) x0 x1 x2 x3 x4 x5 x8 x9 x10 i) := by
  rw [val_main_v77_apply, Ideal.maximumf_def]; exact IsReal.max (real_v76 x0 x1 x2 x3 x4 x5 x8 x9 x10 h0 h1 h2 h3 h4 h5 h8 h9 i) (real_call0_v0 i)

/-- LAYER 0'S OUTPUT IS REAL: every entry of %77 = relu(batchnorm(%39)). -/
theorem real_y0 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h8 : ∀ i, IsReal (x8 i)) (h9 : ∀ i, IsReal (x9 i)) :
    ∀ i, IsReal (val_main_v77 (F := Ideal) x0 x1 x2 x3 x4 x5 x8 x9 x10 i) :=
  real_v77 x0 x1 x2 x3 x4 x5 x8 x9 x10 h0 h1 h2 h3 h4 h5 h8 h9

end Cert.RefValue

end
-- ==== Proof.RefRealE1.lean ====
import proofs.«156566_j1202590843053_1_alg».proof.Proof.RefReadP
import proofs.«156566_j1202590843053_1_alg».proof.Proof.RefRealOps

/-! The edge attributes entering layer 1 (%47 = edge_attr · w_edge^T + b_edge): real when the arguments are. -/

noncomputable section

namespace Cert.RefValue

open Cert.ReferenceIdeal Cert.ReferenceIdeal.Gen Cert.ReferenceIdeal.ReadP Idealize.ShloMosaic Cert.LibBnTwoForms
open scoped BigOperators

/-- Every entry of %40 is an entry of argument 6 (a slice). -/
theorem real_v40 (x6 : (⟨S3x128x128, .f32⟩ : BufTy).Contents (Elt Ideal)) (h6 : ∀ i, IsReal (x6 i)) (i : S1x128x128.Idx) :
    IsReal (val_main_v40 (F := Ideal) x6 i) := by
  rw [val_main_v40_apply]; exact (h6 _)

/-- Every entry of %41 is an entry of %40 (a reshape). -/
theorem real_v41 (x6 : (⟨S3x128x128, .f32⟩ : BufTy).Contents (Elt Ideal)) (h6 : ∀ i, IsReal (x6 i)) (i : S128x128.Idx) :
    IsReal (val_main_v41 (F := Ideal) x6 i) := by
  rw [val_main_v41_apply]; exact (real_v40 x6 h6 _)

/-- An entry of %42 is a finite sum of products of an entry of argument 1 and an entry of %41. -/
theorem real_v42 (x1 : (⟨S640000x128, .f32⟩ : BufTy).Contents (Elt Ideal)) (x6 : (⟨S3x128x128, .f32⟩ : BufTy).Contents (Elt Ideal)) (h1 : ∀ i, IsReal (x1 i)) (h6 : ∀ i, IsReal (x6 i)) (i : S640000x128.Idx) :
    IsReal (val_main_v42 (F := Ideal) x1 x6 i) := by
  rw [val_main_v42_apply]; exact IsReal.sum _ _ fun k _ => IsReal.mul (h1 _) (real_v41 x6 h6 _)

/-- Every entry of %43 is an entry of argument 7 (a slice). -/
theorem real_v43 (x7 : (⟨S3x128, .f32⟩ : BufTy).Contents (Elt Ideal)) (h7 : ∀ i, IsReal (x7 i)) (i : S1x128.Idx) :
    IsReal (val_main_v43 (F := Ideal) x7 i) := by
  rw [val_main_v43_apply]; exact (h7 _)

/-- Every entry of %44 is an entry of %43 (a reshape). -/
theorem real_v44 (x7 : (⟨S3x128, .f32⟩ : BufTy).Contents (Elt Ideal)) (h7 : ∀ i, IsReal (x7 i)) (i : S128.Idx) :
    IsReal (val_main_v44 (F := Ideal) x7 i) := by
  rw [val_main_v44_apply]; exact (real_v43 x7 h7 _)

/-- Every entry of %45 is an entry of %44 (a broadcast). -/
theorem real_v45 (x7 : (⟨S3x128, .f32⟩ : BufTy).Contents (Elt Ideal)) (h7 : ∀ i, IsReal (x7 i)) (i : S1x128.Idx) :
    IsReal (val_main_v45 (F := Ideal) x7 i) := by
  rw [val_main_v45_apply]; exact (real_v44 x7 h7 _)

/-- Every entry of %46 is an entry of %45 (a broadcast). -/
theorem real_v46 (x7 : (⟨S3x128, .f32⟩ : BufTy).Contents (Elt Ideal)) (h7 : ∀ i, IsReal (x7 i)) (i : S640000x128.Idx) :
    IsReal (val_main_v46 (F := Ideal) x7 i) := by
  rw [val_main_v46_apply]; exact (real_v45 x7 h7 _)

/-- %47 is %42 plus %46, entry by entry. -/
theorem real_v47 (x1 : (⟨S640000x128, .f32⟩ : BufTy).Contents (Elt Ideal)) (x6 : (⟨S3x128x128, .f32⟩ : BufTy).Contents (Elt Ideal)) (x7 : (⟨S3x128, .f32⟩ : BufTy).Contents (Elt Ideal)) (h1 : ∀ i, IsReal (x1 i)) (h6 : ∀ i, IsReal (x6 i)) (h7 : ∀ i, IsReal (x7 i)) (i : S640000x128.Idx) :
    IsReal (val_main_v47 (F := Ideal) x1 x6 x7 i) := by
  rw [val_main_v47_apply, Ideal.addf_def]; exact IsReal.add (real_v42 x1 x6 h1 h6 i) (real_v46 x7 h7 i)

/-- THE LAYER-1 EDGE ATTRIBUTES ARE REAL. -/
theorem real_e1 (x1 : (⟨S640000x128, .f32⟩ : BufTy).Contents (Elt Ideal)) (x6 : (⟨S3x128x128, .f32⟩ : BufTy).Contents (Elt Ideal)) (x7 : (⟨S3x128, .f32⟩ : BufTy).Contents (Elt Ideal)) (h1 : ∀ i, IsReal (x1 i)) (h6 : ∀ i, IsReal (x6 i)) (h7 : ∀ i, IsReal (x7 i)) :
    ∀ i, IsReal (val_main_v47 (F := Ideal) x1 x6 x7 i) :=
  real_v47 x1 x6 x7 h1 h6 h7

end Cert.RefValue

end
-- ==== Proof.RefReal1.lean ====
import proofs.«156566_j1202590843053_1_alg».proof.Proof.RefReal0Bn
import proofs.«156566_j1202590843053_1_alg».proof.Proof.RefRealE1

/-! Layer 1 of the reference up to the array before normalisation (%107): layer 0's steps over layer 0's output %77
    and the layer-1 edge attributes %47, both real. -/

noncomputable section

namespace Cert.RefValue

open Cert.ReferenceIdeal Cert.ReferenceIdeal.Gen Cert.ReferenceIdeal.ReadP Idealize.ShloMosaic Cert.LibBnTwoForms
open scoped BigOperators

/-- An entry of %84 is some entry of %77, whichever row the index word selects. -/
theorem real_v84 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h8 : ∀ i, IsReal (x8 i)) (h9 : ∀ i, IsReal (x9 i)) (i : S640000x128.Idx) :
    IsReal (val_main_v84 (F := Ideal) x0 x1 x2 x3 x4 x5 x8 x9 x10 i) := by
  unfold val_main_v84; exact isReal_gather _ _ _ (fun j => (real_v77 x0 x1 x2 x3 x4 x5 x8 x9 x10 h0 h1 h2 h3 h4 h5 h8 h9 j)) i

/-- %85 is %84 times %47, entry by entry. -/
theorem real_v85 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i : S640000x128.Idx) :
    IsReal (val_main_v85 (F := Ideal) x0 x1 x2 x3 x4 x5 x6 x7 x8 x9 x10 i) := by
  rw [val_main_v85_apply, Ideal.mulf_def]; exact IsReal.mul (real_v84 x0 x1 x2 x3 x4 x5 x8 x9 x10 h0 h1 h2 h3 h4 h5 h8 h9 i) (real_v47 x1 x6 x7 h1 h6 h7 i)

/-- Every entry of %86 is an entry of argument 4 (a slice). -/
theorem real_v86 (x4 : (⟨S3x128x128, .f32⟩ : BufTy).Contents (Elt Ideal)) (h4 : ∀ i, IsReal (x4 i)) (i : S1x128x128.Idx) :
    IsReal (val_main_v86 (F := Ideal) x4 i) := by
  rw [val_main_v86_apply]; exact (h4 _)

/-- Every entry of %87 is an entry of %86 (a reshape). -/
theorem real_v87 (x4 : (⟨S3x128x128, .f32⟩ : BufTy).Contents (Elt Ideal)) (h4 : ∀ i, IsReal (x4 i)) (i : S128x128.Idx) :
    IsReal (val_main_v87 (F := Ideal) x4 i) := by
  rw [val_main_v87_apply]; exact (real_v86 x4 h4 _)

/-- An entry of %88 is a finite sum of products of an entry of %85 and an entry of %87. -/
theorem real_v88 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i : S640000x128.Idx) :
    IsReal (val_main_v88 (F := Ideal) x0 x1 x2 x3 x4 x5 x6 x7 x8 x9 x10 i) := by
  rw [val_main_v88_apply]; exact IsReal.sum _ _ fun k _ => IsReal.mul (real_v85 x0 x1 x2 x3 x4 x5 x6 x7 x8 x9 x10 h0 h1 h2 h3 h4 h5 h6 h7 h8 h9 _) (real_v87 x4 h4 _)

/-- Every entry of %89 is an entry of argument 5 (a slice). -/
theorem real_v89 (x5 : (⟨S3x128, .f32⟩ : BufTy).Contents (Elt Ideal)) (h5 : ∀ i, IsReal (x5 i)) (i : S1x128.Idx) :
    IsReal (val_main_v89 (F := Ideal) x5 i) := by
  rw [val_main_v89_apply]; exact (h5 _)

/-- Every entry of %90 is an entry of %89 (a reshape). -/
theorem real_v90 (x5 : (⟨S3x128, .f32⟩ : BufTy).Contents (Elt Ideal)) (h5 : ∀ i, IsReal (x5 i)) (i : S128.Idx) :
    IsReal (val_main_v90 (F := Ideal) x5 i) := by
  rw [val_main_v90_apply]; exact (real_v89 x5 h5 _)

/-- Every entry of %91 is an entry of %90 (a broadcast). -/
theorem real_v91 (x5 : (⟨S3x128, .f32⟩ : BufTy).Contents (Elt Ideal)) (h5 : ∀ i, IsReal (x5 i)) (i : S1x128.Idx) :
    IsReal (val_main_v91 (F := Ideal) x5 i) := by
  rw [val_main_v91_apply]; exact (real_v90 x5 h5 _)

/-- Every entry of %92 is an entry of %91 (a broadcast). -/
theorem real_v92 (x5 : (⟨S3x128, .f32⟩ : BufTy).Contents (Elt Ideal)) (h5 : ∀ i, IsReal (x5 i)) (i : S640000x128.Idx) :
    IsReal (val_main_v92 (F := Ideal) x5 i) := by
  rw [val_main_v92_apply]; exact (real_v91 x5 h5 _)

/-- %93 is %88 plus %92, entry by entry. -/
theorem real_v93 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i : S640000x128.Idx) :
    IsReal (val_main_v93 (F := Ideal) x0 x1 x2 x3 x4 x5 x6 x7 x8 x9 x10 i) := by
  rw [val_main_v93_apply, Ideal.addf_def]; exact IsReal.add (real_v88 x0 x1 x2 x3 x4 x5 x6 x7 x8 x9 x10 h0 h1 h2 h3 h4 h5 h6 h7 h8 h9 i) (real_v92 x5 h5 i)

/-- The constant %cst_11 is 0, a real number. -/
theorem real_cst_11 (i : S_.Idx) :
    IsReal (val_main_cst_11 (F := Ideal) i) := by
  rw [val_main_cst_11_apply, Ideal.ofBits_def]; exact isReal_zero_bits

/-- Every entry of %94 is an entry of %cst_11 (a broadcast). -/
theorem real_v94 (i : S50000x128.Idx) :
    IsReal (val_main_v94 (F := Ideal) i) := by
  rw [val_main_v94_apply]; exact (real_cst_11 _)

/-- An entry of %96 is an entry of %94 plus the finite sum of the entries of %93 that land on it. -/
theorem real_v96 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i : S50000x128.Idx) :
    IsReal (val_main_v96 (F := Ideal) x0 x1 x2 x3 x4 x5 x6 x7 x8 x9 x10 i) := by
  unfold val_main_v96; exact isReal_scatterAdd _ _ _ _ (fun j => (real_v94 j)) (fun q => (real_v93 x0 x1 x2 x3 x4 x5 x6 x7 x8 x9 x10 h0 h1 h2 h3 h4 h5 h6 h7 h8 h9 q)) i

/-- %98 is %96 divided, entry by entry, by the larger of the in-degree count %7 and one, which is not zero. -/
theorem real_v98 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i : S50000x128.Idx) :
    IsReal (val_main_v98 (F := Ideal) x0 x1 x2 x3 x4 x5 x6 x7 x8 x9 x10 i) := by
  rw [val_main_v98_apply, Ideal.hostDivf_def, val_main_v97_apply, val_main_v9_apply, Ideal.maximumf_def, val_main_v8_apply, val_main_cst_1_apply, Ideal.ofBits_def, one_eq]
  exact IsReal.div_max_one (real_v96 x0 x1 x2 x3 x4 x5 x6 x7 x8 x9 x10 h0 h1 h2 h3 h4 h5 h6 h7 h8 h9 i) (real_v7 x10 _)

/-- Every entry of %99 is an entry of argument 2 (a slice). -/
theorem real_v99 (x2 : (⟨S3x128x128, .f32⟩ : BufTy).Contents (Elt Ideal)) (h2 : ∀ i, IsReal (x2 i)) (i : S1x128x128.Idx) :
    IsReal (val_main_v99 (F := Ideal) x2 i) := by
  rw [val_main_v99_apply]; exact (h2 _)

/-- Every entry of %100 is an entry of %99 (a reshape). -/
theorem real_v100 (x2 : (⟨S3x128x128, .f32⟩ : BufTy).Contents (Elt Ideal)) (h2 : ∀ i, IsReal (x2 i)) (i : S128x128.Idx) :
    IsReal (val_main_v100 (F := Ideal) x2 i) := by
  rw [val_main_v100_apply]; exact (real_v99 x2 h2 _)

/-- An entry of %101 is a finite sum of products of an entry of %77 and an entry of %100. -/
theorem real_v101 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h8 : ∀ i, IsReal (x8 i)) (h9 : ∀ i, IsReal (x9 i)) (i : S50000x128.Idx) :
    IsReal (val_main_v101 (F := Ideal) x0 x1 x2 x3 x4 x5 x8 x9 x10 i) := by
  rw [val_main_v101_apply]; exact IsReal.sum _ _ fun k _ => IsReal.mul (real_v77 x0 x1 x2 x3 x4 x5 x8 x9 x10 h0 h1 h2 h3 h4 h5 h8 h9 _) (real_v100 x2 h2 _)

/-- %102 is %98 plus %101, entry by entry. -/
theorem real_v102 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i : S50000x128.Idx) :
    IsReal (val_main_v102 (F := Ideal) x0 x1 x2 x3 x4 x5 x6 x7 x8 x9 x10 i) := by
  rw [val_main_v102_apply, Ideal.addf_def]; exact IsReal.add (real_v98 x0 x1 x2 x3 x4 x5 x6 x7 x8 x9 x10 h0 h1 h2 h3 h4 h5 h6 h7 h8 h9 i) (real_v101 x0 x1 x2 x3 x4 x5 x8 x9 x10 h0 h1 h2 h3 h4 h5 h8 h9 i)

/-- Every entry of %103 is an entry of argument 3 (a slice). -/
theorem real_v103 (x3 : (⟨S3x128, .f32⟩ : BufTy).Contents (Elt Ideal)) (h3 : ∀ i, IsReal (x3 i)) (i : S1x128.Idx) :
    IsReal (val_main_v103 (F := Ideal) x3 i) := by
  rw [val_main_v103_apply]; exact (h3 _)

/-- Every entry of %104 is an entry of %103 (a reshape). -/
theorem real_v104 (x3 : (⟨S3x128, .f32⟩ : BufTy).Contents (Elt Ideal)) (h3 : ∀ i, IsReal (x3 i)) (i : S128.Idx) :
    IsReal (val_main_v104 (F := Ideal) x3 i) := by
  rw [val_main_v104_apply]; exact (real_v103 x3 h3 _)

/-- Every entry of %105 is an entry of %104 (a broadcast). -/
theorem real_v105 (x3 : (⟨S3x128, .f32⟩ : BufTy).Contents (Elt Ideal)) (h3 : ∀ i, IsReal (x3 i)) (i : S1x128.Idx) :
    IsReal (val_main_v105 (F := Ideal) x3 i) := by
  rw [val_main_v105_apply]; exact (real_v104 x3 h3 _)

/-- Every entry of %106 is an entry of %105 (a broadcast). -/
theorem real_v106 (x3 : (⟨S3x128, .f32⟩ : BufTy).Contents (Elt Ideal)) (h3 : ∀ i, IsReal (x3 i)) (i : S50000x128.Idx) :
    IsReal (val_main_v106 (F := Ideal) x3 i) := by
  rw [val_main_v106_apply]; exact (real_v105 x3 h3 _)

/-- %107 is %102 plus %106, entry by entry. -/
theorem real_v107 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (i : S50000x128.Idx) :
    IsReal (val_main_v107 (F := Ideal) x0 x1 x2 x3 x4 x5 x6 x7 x8 x9 x10 i) := by
  rw [val_main_v107_apply, Ideal.addf_def]; exact IsReal.add (real_v102 x0 x1 x2 x3 x4 x5 x6 x7 x8 x9 x10 h0 h1 h2 h3 h4 h5 h6 h7 h8 h9 i) (real_v106 x3 h3 i)

/-- LAYER 1 BEFORE NORMALISATION IS REAL: every entry of %107. -/
theorem real_h1 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) :
    ∀ i, IsReal (val_main_v107 (F := Ideal) x0 x1 x2 x3 x4 x5 x6 x7 x8 x9 x10 i) :=
  real_v107 x0 x1 x2 x3 x4 x5 x6 x7 x8 x9 x10 h0 h1 h2 h3 h4 h5 h6 h7 h8 h9

end Cert.RefValue

end
-- ==== Proof.RefValue.lean ====
import proofs.«156566_j1202590843053_1_alg».proof.Proof.RefReadP
import proofs.«156566_j1202590843053_1_alg».proof.Proof.RefReal1

/-! The reference program's stages read at the exact instance, and which of them hold only real numbers: the array before
    each of the two normalisations (`Cert.RefValue.real_h0`, `real_h1`), layer 0's output (`real_y0`) and the layer-1 edge
    attributes (`real_e1`). -/
-- ==== Proof.LibVarForms.lean ====
import Idealize.ShloMosaic.PureOps.Ideal
import proofs.«156566_j1202590843053_1_alg».proof.Proof.LibBnTwoForms

/-! The variance of a column of 50000 real numbers over the extended reals, in two forms.

    With `μ = (∑ z) / 50000`, one program takes the variance as the mean of squares minus the squared mean,
    `(∑ z²) / 50000 - μ · μ`, the other as the mean of squared deviations, `(∑ (z - μ) · (z - μ)) / 50000`. For real
    entries every quantity is a real number, the two are equal (the identity over `ℝ`, lifted through the coercion),
    the common value is non-negative, and adding the positive constant `ε` gives a positive real whose reciprocal square
    root is real. The quotient is the extended reals' division by the pattern of `50000.0`. -/

noncomputable section

namespace Cert.LibVarForms

open Idealize.ShloMosaic Cert.LibBnTwoForms
open scoped BigOperators

section Card
variable {ι : Type*} [Fintype ι]

/-- A column of real extended reals is the coercion of a column of reals. -/
theorem exists_real_column (z : ι → EReal) (hz : ∀ n, IsReal (z n)) : ∃ x : ι → ℝ, z = fun n => (x n : EReal) :=
  ⟨fun n => (z n).toReal, funext fun n => (hz n).eq_coe_toReal⟩

/-- The mean of squared deviations of a real column, as the coercion of the real number it is. -/
theorem var_dev_eq_coe (x : ι → ℝ) :
    Ideal.div (∑ n, ((x n : EReal) - Ideal.div (∑ n, (x n : EReal)) (Ideal.ofBits .f32 0x47435000#32)) * ((x n : EReal) - Ideal.div (∑ n, (x n : EReal)) (Ideal.ofBits .f32 0x47435000#32))) (Ideal.ofBits .f32 0x47435000#32)
      = (((∑ n, (x n - (∑ n, x n) * (1 / 50000)) * (x n - (∑ n, x n) * (1 / 50000))) * (1 / 50000) : ℝ) : EReal) := by
  have h50 : (50000 : ℝ) ≠ 0 := by norm_num
  rw [cN_eq]
  simp only [Ideal.div_coe h50, ← coe_finset_sum, ← EReal.coe_mul, ← EReal.coe_sub]

/-- The mean of squares minus the squared mean of a real column, as the coercion of the real number it is. -/
theorem var_sq_eq_coe (x : ι → ℝ) :
    Ideal.div (∑ n, (x n : EReal) * (x n : EReal)) (Ideal.ofBits .f32 0x47435000#32) - Ideal.div (∑ n, (x n : EReal)) (Ideal.ofBits .f32 0x47435000#32) * Ideal.div (∑ n, (x n : EReal)) (Ideal.ofBits .f32 0x47435000#32)
      = (((∑ n, x n * x n) * (1 / 50000) - ((∑ n, x n) * (1 / 50000)) * ((∑ n, x n) * (1 / 50000)) : ℝ) : EReal) := by
  have h50 : (50000 : ℝ) ≠ 0 := by norm_num
  rw [cN_eq]
  simp only [Ideal.div_coe h50, ← coe_finset_sum, ← EReal.coe_mul, ← EReal.coe_sub]

/-- THE TWO FORMS AGREE for a column of 50000 real entries: mean of squares minus squared mean is the mean of squared
    deviations. -/
theorem var_forms_eq_card (hcard : Fintype.card ι = 50000) (z : ι → EReal) (hz : ∀ n, IsReal (z n)) :
    Ideal.div (∑ n, z n * z n) (Ideal.ofBits .f32 0x47435000#32) - Ideal.div (∑ n, z n) (Ideal.ofBits .f32 0x47435000#32) * Ideal.div (∑ n, z n) (Ideal.ofBits .f32 0x47435000#32)
      = Ideal.div (∑ n, (z n - Ideal.div (∑ n, z n) (Ideal.ofBits .f32 0x47435000#32)) * (z n - Ideal.div (∑ n, z n) (Ideal.ofBits .f32 0x47435000#32))) (Ideal.ofBits .f32 0x47435000#32) := by
  obtain ⟨x, rfl⟩ := exists_real_column z hz
  rw [var_sq_eq_coe, var_dev_eq_coe]
  exact congrArg _ (var_two_forms x 50000 (by rw [hcard]; norm_num) (by norm_num))

/-- The mean of squared deviations of a real column is a non-negative real. -/
theorem var_nonneg_real_card (z : ι → EReal) (hz : ∀ n, IsReal (z n)) :
    ∃ v : ℝ, 0 ≤ v ∧ Ideal.div (∑ n, (z n - Ideal.div (∑ n, z n) (Ideal.ofBits .f32 0x47435000#32)) * (z n - Ideal.div (∑ n, z n) (Ideal.ofBits .f32 0x47435000#32))) (Ideal.ofBits .f32 0x47435000#32) = (v : EReal) := by
  obtain ⟨x, rfl⟩ := exists_real_column z hz
  exact ⟨_, mul_nonneg (Finset.sum_nonneg fun n _ => mul_self_nonneg _) (by norm_num), var_dev_eq_coe x⟩

/-- The reciprocal square root of the mean of squared deviations plus `ε` is real: its argument is a positive real. -/
theorem rsqrt_var_eps_real_card (z : ι → EReal) (hz : ∀ n, IsReal (z n)) :
    IsReal (Ideal.rsqrt (Ideal.div (∑ n, (z n - Ideal.div (∑ n, z n) (Ideal.ofBits .f32 0x47435000#32)) * (z n - Ideal.div (∑ n, z n) (Ideal.ofBits .f32 0x47435000#32))) (Ideal.ofBits .f32 0x47435000#32) + (Ideal.ofBits .f32 0x3727C5AC#32))) := by
  obtain ⟨v, hv, hV⟩ := var_nonneg_real_card z hz
  obtain ⟨e, he, hE⟩ := eps_pos
  rw [hV, hE, ← EReal.coe_add]
  exact isReal_rsqrt_of_pos (add_pos_of_nonneg_of_pos hv he)

/-- The same for the other form, mean of squares minus squared mean. -/
theorem rsqrt_var_sq_eps_real_card (hcard : Fintype.card ι = 50000) (z : ι → EReal) (hz : ∀ n, IsReal (z n)) :
    IsReal (Ideal.rsqrt (Ideal.div (∑ n, z n * z n) (Ideal.ofBits .f32 0x47435000#32) - Ideal.div (∑ n, z n) (Ideal.ofBits .f32 0x47435000#32) * Ideal.div (∑ n, z n) (Ideal.ofBits .f32 0x47435000#32) + (Ideal.ofBits .f32 0x3727C5AC#32))) := by
  rw [var_forms_eq_card hcard z hz]; exact rsqrt_var_eps_real_card z hz

/-- The mean of a real column is real. -/
theorem mean_real_card (z : ι → EReal) (hz : ∀ n, IsReal (z n)) : IsReal (Ideal.div (∑ n, z n) (Ideal.ofBits .f32 0x47435000#32)) :=
  (IsReal.sum _ _ fun n _ => hz n).div_cN

end Card

/-! ## At the index type `Fin 50000` -/

/-- The two forms of the variance agree, for `z : Fin 50000 → EReal` with every entry real. -/
theorem var_forms_eq (z : Fin 50000 → EReal) (hz : ∀ n, IsReal (z n)) :
    Ideal.div (∑ n, z n * z n) (Ideal.ofBits .f32 0x47435000#32) - Ideal.div (∑ n, z n) (Ideal.ofBits .f32 0x47435000#32) * Ideal.div (∑ n, z n) (Ideal.ofBits .f32 0x47435000#32)
      = Ideal.div (∑ n, (z n - Ideal.div (∑ n, z n) (Ideal.ofBits .f32 0x47435000#32)) * (z n - Ideal.div (∑ n, z n) (Ideal.ofBits .f32 0x47435000#32))) (Ideal.ofBits .f32 0x47435000#32) :=
  var_forms_eq_card (by simp) z hz

/-- The mean of squared deviations is a non-negative real. -/
theorem var_nonneg_real (z : Fin 50000 → EReal) (hz : ∀ n, IsReal (z n)) :
    ∃ v : ℝ, 0 ≤ v ∧ Ideal.div (∑ n, (z n - Ideal.div (∑ n, z n) (Ideal.ofBits .f32 0x47435000#32)) * (z n - Ideal.div (∑ n, z n) (Ideal.ofBits .f32 0x47435000#32))) (Ideal.ofBits .f32 0x47435000#32) = (v : EReal) :=
  var_nonneg_real_card z hz

/-- The reciprocal square root of (mean of squared deviations + `ε`) is real. -/
theorem rsqrt_var_eps_real (z : Fin 50000 → EReal) (hz : ∀ n, IsReal (z n)) :
    IsReal (Ideal.rsqrt (Ideal.div (∑ n, (z n - Ideal.div (∑ n, z n) (Ideal.ofBits .f32 0x47435000#32)) * (z n - Ideal.div (∑ n, z n) (Ideal.ofBits .f32 0x47435000#32))) (Ideal.ofBits .f32 0x47435000#32) + (Ideal.ofBits .f32 0x3727C5AC#32))) :=
  rsqrt_var_eps_real_card z hz

/-- The reciprocal square root of (mean of squares - squared mean + `ε`) is real. -/
theorem rsqrt_var_sq_eps_real (z : Fin 50000 → EReal) (hz : ∀ n, IsReal (z n)) :
    IsReal (Ideal.rsqrt (Ideal.div (∑ n, z n * z n) (Ideal.ofBits .f32 0x47435000#32) - Ideal.div (∑ n, z n) (Ideal.ofBits .f32 0x47435000#32) * Ideal.div (∑ n, z n) (Ideal.ofBits .f32 0x47435000#32) + (Ideal.ofBits .f32 0x3727C5AC#32))) :=
  rsqrt_var_sq_eps_real_card (by simp) z hz

end Cert.LibVarForms

end
-- ==== Proof.KiBridgeMath.lean ====
import proofs.«156566_j1202590843053_1_alg».proof.Proof.KiNodeSpec
import proofs.«156566_j1202590843053_1_alg».proof.Proof.KiBnSpec
import proofs.«156566_j1202590843053_1_alg».proof.Proof.Steps
import proofs.«156566_j1202590843053_1_alg».proof.Proof.LibVarForms

noncomputable section

namespace Cert.KernelIdeal.Frm

open Cert.KernelIdeal
open Idealize.ShloMosaic Idealize.ShloMosaic.ValueIdx
open Cert.RefLayer Cert.LibBnTwoForms

/-! # The kernel's per-layer functions are the reference's

The node region adds the neighbour mean last where the reference adds it first: addition of extended reals is
commutative and associative, so the two agree whatever the entries. The normalisation region takes the variance as
`E[h²] - E[h]²` where the reference takes `E[(h - E h)²]`: these agree when every entry of the column is real. -/

/-- A node region's first output is the layer-`l` node step when its matrix and bias row are the layer's (transposed)
    self weights and bias. -/
theorem nodePre_eq_nodeStep (agg x : S50000x128.Idx → EReal) (w : S128x128.Idx → EReal) (b : S1x128.Idx → EReal)
    (W : S3x128x128.Idx → EReal) (B : S3x128.Idx → EReal) (l : Fin 3)
    (hw : ∀ d f : Fin 128, w (ix2 d f) = W (ix3 l f d)) (hb : ∀ f : Fin 128, b (ix2 0 f) = B (ix2 l f)) :
    nodePre agg x w b = nodeStep agg x W B l := by
  funext i
  unfold nodePre nodeStep
  rw [hb (i 1), Finset.sum_congr rfl fun d _ => by rw [hw d (i 1)]]
  rw [add_comm _ (agg i), ← add_assoc]

/-- The normalisation region's output is the reference's normalised, rectified features, for a real pre-normalisation
    array: the mean rows agree by definition, the variance rows by the identity `E[h²] - E[h]² = E[(h - E h)²]`. -/
theorem bnK_eq_bnStep (h : S50000x128.Idx → EReal) (hh : ∀ i, IsReal (h i)) (mean var g bt : S1x128.Idx → EReal)
    (G Bt : S2x128.Idx → EReal) (l : Fin 2)
    (hmean : ∀ f : Fin 128, mean (ix2 0 f) = colMean h f)
    (hvar : ∀ f : Fin 128, var (ix2 0 f)
      = Ideal.div (∑ n : Fin 50000, h (ix2 n f) * h (ix2 n f)) (Ideal.ofBits .f32 0x47435000#32) - colMean h f * colMean h f)
    (hg : ∀ f : Fin 128, g (ix2 0 f) = G (ix2 l f)) (hbt : ∀ f : Fin 128, bt (ix2 0 f) = Bt (ix2 l f)) :
    bnK h mean var g bt = bnStep h G Bt l := by
  funext i
  unfold bnK bnStep
  rw [hmean (i 1), hvar (i 1), hg (i 1), hbt (i 1)]
  have e := Cert.LibVarForms.var_forms_eq (fun n => h (ix2 n (i 1))) (fun n => hh _)
  unfold colVar colMean
  rw [e]

end Cert.KernelIdeal.Frm

end
-- ==== Proof.RefLayer.lean ====
import proofs.«156566_j1202590843053_1_alg».proof.Proof.RefReadP
import proofs.«156566_j1202590843053_1_alg».proof.Proof.Steps

/-! Layer 0 of the reference as layer steps: the stage that holds the messages, the features before normalisation, the
    relation update of the edge features and the normalised output are each one step function of earlier stages and of the
    argument arrays, index by index. The gathered rows and the divided neighbour sum stay as stages. -/

set_option maxRecDepth 16384

noncomputable section

namespace Cert.RefLayer

open Cert.ReferenceIdeal Cert.ReferenceIdeal.Gen Cert.ReferenceIdeal.ReadP Cert.RefRel
open Idealize.ShloMosaic Idealize.ShloMosaic.ValueIdx
open scoped BigOperators

/-- Layer 0's relation update of the edge features. -/
theorem v47_eq (x1 : (⟨S640000x128, .f32⟩ : BufTy).Contents (Elt Ideal)) (x6 : (⟨S3x128x128, .f32⟩ : BufTy).Contents (Elt Ideal)) (x7 : (⟨S3x128, .f32⟩ : BufTy).Contents (Elt Ideal)) :
    val_main_v47 (F := Ideal) x1 x6 x7 = relStep x1 x6 x7 0 :=
  rel_layer0 x1 x6 x7

/-- Layer 0's messages: the gathered source features times the edge features, through the layer's message weights,
    plus the message bias (the relation update's shape, on the entrywise product). -/
theorem v25_eq (x0 : (⟨S50000x128, .f32⟩ : BufTy).Contents (Elt Ideal)) (x1 : (⟨S640000x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) :
    val_main_v25 (F := Ideal) x0 x1 x4 x5 x10 = msgStep (val_main_v16 (F := Ideal) x0 x10) x1 x4 x5 0 :=
  rel_layer0 (mulf (F := Ideal) (val_main_v16 (F := Ideal) x0 x10) x1) x4 x5

/-- Layer 0's features before normalisation: the divided neighbour sum plus the node's own features times the
    layer's self weights, plus the self bias. -/
theorem v39_eq (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) :
    val_main_v39 (F := Ideal) x0 x1 x2 x3 x4 x5 x10 = nodeStep (val_main_v30 (F := Ideal) x0 x1 x4 x5 x10) x0 x2 x3 0 := by
  funext i
  obtain ⟨n, f, rfl⟩ : ∃ (n : Fin 50000) (f : Fin 128), i = ix2 n f := ⟨i 0, i 1, eq_ix2 i⟩
  rw [val_main_v39_apply, val_main_v34_apply, val_main_v33_apply, val_main_v38_apply, val_main_v37_apply, val_main_v36_apply, val_main_v35_apply]
  simp only [Ideal.addf_def]
  unfold nodeStep
  refine congr (congrArg HAdd.hAdd (congrArg ((val_main_v30 (F := Ideal) x0 x1 x4 x5 x10) (ix2 n f) + ·) (Finset.sum_congr rfl fun d _ => ?_))) ?_
  · rw [val_main_v32_apply, val_main_v31_apply]
    refine congr (congrArg HMul.hMul (congrArg _ (funext fun a => Fin.ext (by
      match a with
      | ⟨0, _⟩ => rfl
      | ⟨1, _⟩ => rfl)))) (congrArg _ (funext fun a => Fin.ext (by
      have hf := f.isLt; have hd := d.isLt
      match a with
      | ⟨0, _⟩ => rfl
      | ⟨1, _⟩ => show (f.val * 128 + d.val) / 128 % 128 = f.val; omega
      | ⟨2, _⟩ => show (f.val * 128 + d.val) % 128 = d.val; omega)))
  · refine congrArg _ (funext fun a => Fin.ext (by
      have hf := f.isLt
      match a with
      | ⟨0, _⟩ => rfl
      | ⟨1, _⟩ => show f.val % 128 = f.val; omega))

/-! ## Layer 0: the normalisation and the rectifier -/

/-- The column mean as the reference computes it: the column's sum from zero, divided by 50000. -/
theorem mean_at0 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (f : Fin 128) :
    (val_main_v54 (F := Ideal) x0 x1 x2 x3 x4 x5 x10) (ix1 f) = colMean (val_main_v39 (F := Ideal) x0 x1 x2 x3 x4 x5 x10) f := by
  rw [val_main_v54_apply, val_main_v52_apply, val_main_v53_apply, val_main_cst_5_apply, val_main_cst_4_apply]
  simp only [Ideal.hostDivf_def, Ideal.ofBits_def, Ideal.ofBits_zero_f32, zero_add]
  unfold colMean
  have e : ∀ n : Fin 50000, idx_main_v52 (ix1 f) n = ix2 n f := fun n => funext fun a => Fin.ext (by
      match a with
      | ⟨0, _⟩ => rfl
      | ⟨1, _⟩ => rfl)
  simp only [e]

/-- An entry's deviation from its column's mean. -/
theorem dev_at0 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (n : Fin 50000) (f : Fin 128) :
    (val_main_v57 (F := Ideal) x0 x1 x2 x3 x4 x5 x10) (ix2 n f) = (val_main_v39 (F := Ideal) x0 x1 x2 x3 x4 x5 x10) (ix2 n f) - colMean (val_main_v39 (F := Ideal) x0 x1 x2 x3 x4 x5 x10) f := by
  rw [val_main_v57_apply, val_main_v56_apply, val_main_v55_apply, Ideal.subf_def,
    show idx_main_v55 (idx_main_v56 (ix2 n f)) = ix1 f from funext fun a => Fin.ext (by
      match a with
      | ⟨0, _⟩ => rfl), mean_at0]

/-- The column variance as the reference computes it: the sum from zero of the squared deviations, divided by 50000. -/
theorem var_at0 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (f : Fin 128) :
    (val_main_v61 (F := Ideal) x0 x1 x2 x3 x4 x5 x10) (ix1 f) = colVar (val_main_v39 (F := Ideal) x0 x1 x2 x3 x4 x5 x10) f := by
  rw [val_main_v61_apply, val_main_v59_apply, val_main_v60_apply, val_main_cst_7_apply, val_main_cst_6_apply]
  simp only [Ideal.hostDivf_def, Ideal.ofBits_def, Ideal.ofBits_zero_f32, zero_add]
  unfold colVar
  have e : ∀ n : Fin 50000, (val_main_v58 (F := Ideal) x0 x1 x2 x3 x4 x5 x10) (idx_main_v59 (ix1 f) n)
      = ((val_main_v39 (F := Ideal) x0 x1 x2 x3 x4 x5 x10) (ix2 n f) - colMean (val_main_v39 (F := Ideal) x0 x1 x2 x3 x4 x5 x10) f) * ((val_main_v39 (F := Ideal) x0 x1 x2 x3 x4 x5 x10) (ix2 n f) - colMean (val_main_v39 (F := Ideal) x0 x1 x2 x3 x4 x5 x10) f) := fun n => by
    rw [show idx_main_v59 (ix1 f) n = ix2 n f from funext fun a => Fin.ext (by
      match a with
      | ⟨0, _⟩ => rfl
      | ⟨1, _⟩ => rfl), val_main_v58_apply, Ideal.mulf_def, dev_at0]
  simp only [e]

/-- The reciprocal square root of the column variance plus ε. -/
theorem rs_at0 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x10 : (⟨S2x640000, .i32⟩ : BufTy).Contents (Elt Ideal)) (f : Fin 128) :
    (val_main_v67 (F := Ideal) x0 x1 x2 x3 x4 x5 x10) (ix1 f) = Ideal.rsqrt (colVar (val_main_v39 (F := Ideal) x0 x1 x2 x3 x4 x5 x10) f + Ideal.ofBits .f32 0x3727C5AC#32) := by
  rw [val_main_v67_apply, Ideal.hostUnary_rsqrt_def, val_main_v66_apply, Ideal.addf_def, var_at0, val_main_v65_apply, val_main_cst_8_apply, Ideal.ofBits_def]

/-- Layer 0's output: each column normalised by its mean and variance, scaled, shifted and clamped at zero from below. -/
theorem v77_eq (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) :
    val_main_v77 (F := Ideal) x0 x1 x2 x3 x4 x5 x8 x9 x10 = bnStep (val_main_v39 (F := Ideal) x0 x1 x2 x3 x4 x5 x10) x8 x9 0 := by
  funext i
  obtain ⟨n, f, rfl⟩ : ∃ (n : Fin 50000) (f : Fin 128), i = ix2 n f := ⟨i 0, i 1, eq_ix2 i⟩
  rw [val_main_v77_apply, val_main_v76_apply, val_main_v73_apply, val_main_v70_apply, val_main_v64_apply, val_main_v63_apply, val_main_v62_apply, val_main_v69_apply, val_main_v68_apply,
    val_main_v72_apply, val_main_v71_apply, val_main_v49_apply, val_main_v48_apply, val_main_v75_apply, val_main_v74_apply, val_main_v51_apply, val_main_v50_apply, val_main_call0_v0_apply, val_main_call0_cst_apply]
  simp only [Ideal.maximumf_def, Ideal.addf_def, Ideal.mulf_def, Ideal.subf_def, Ideal.ofBits_def, Ideal.ofBits_zero_f32]
  rw [show idx_main_v62 (idx_main_v63 (ix2 n f)) = ix1 f from funext fun a => Fin.ext (by
      match a with
      | ⟨0, _⟩ => rfl), mean_at0,
    show idx_main_v68 (idx_main_v69 (ix2 n f)) = ix1 f from funext fun a => Fin.ext (by
      match a with
      | ⟨0, _⟩ => rfl), rs_at0,
    show idx_main_v48 (idx_main_v49 (idx_main_v71 (idx_main_v72 (ix2 n f)))) = ix2 0 f from funext fun a => Fin.ext (by
      match a with
      | ⟨0, _⟩ => rfl
      | ⟨1, _⟩ => have hf := f.isLt; show f.val % 128 = f.val; omega),
    show idx_main_v50 (idx_main_v51 (idx_main_v74 (idx_main_v75 (ix2 n f)))) = ix2 0 f from funext fun a => Fin.ext (by
      match a with
      | ⟨0, _⟩ => rfl
      | ⟨1, _⟩ => have hf := f.isLt; show f.val % 128 = f.val; omega)]
  rfl

end Cert.RefLayer

end
-- ==== Proof.KiL0.lean ====
import proofs.«156566_j1202590843053_1_alg».proof.Proof.KiRun
import proofs.«156566_j1202590843053_1_alg».proof.Proof.RefReadP
import proofs.«156566_j1202590843053_1_alg».proof.Proof.KiArgs
import proofs.«156566_j1202590843053_1_alg».proof.Proof.KiL0a
import proofs.«156566_j1202590843053_1_alg».proof.Proof.KiEaChain
import proofs.«156566_j1202590843053_1_alg».proof.Proof.KiEdgeValue
import proofs.«156566_j1202590843053_1_alg».proof.Proof.KiNodeFinal1
import proofs.«156566_j1202590843053_1_alg».proof.Proof.KiBnFinal2
import proofs.«156566_j1202590843053_1_alg».proof.Proof.KiBnHost
import proofs.«156566_j1202590843053_1_alg».proof.Proof.RefValue
import proofs.«156566_j1202590843053_1_alg».proof.Proof.KiBridgeMath
import proofs.«156566_j1202590843053_1_alg».proof.Proof.RefLayer
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.StableHlo Idealize.ShloMosaic.ValueIdx
open Idealize.SL Idealize.SL.Sem
open Cert.ReferenceIdeal.ReadP

variable (m : (ℓ : Loc nD τ sig) → Buf (Elt Ideal) ℓ) (ρ : Dev nD → PrngReg)

open Cert.RefLayer Cert.RefRel Cert.LibBnTwoForms

/-! # Layer 0 on the kernel's side: every array the kernel's segments leave is the reference's stage -/

theorem xsrc0_eq (c : Dev nD) : W0 m ρ c (Proc.devRef .tc main_arg0) = (a0 m c) := rfl
theorem ea0_in (c : Dev nD) : (V1 m ρ c main_arg1 : S640000x128.Idx → EReal) = (a1 m c) := W1_host m ρ c main_arg1 (by decide)

theorem xg0_eq' (c : Dev nD) : (V1 m ρ c main_v19 : S640000x128.Idx → EReal) = val_main_v16 (F := Ideal) (a0 m c) (a10 m c) := xg0_eq m ρ c

/-- The messages of layer 0. -/
theorem lmsg0_eq (c : Dev nD) : (W2 m ρ c (Proc.devRef .tc main_v30_0) : S640000x128.Idx → EReal) = val_main_v25 (F := Ideal) (a0 m c) (a1 m c) (a4 m c) (a5 m c) (a10 m c) := by
  refine (W2_arr m ρ c 6).trans ?_
  rw [final0_6]
  refine (edgeMsg_eq_msgStep _ _ _ _ _ _ 0 (v21_at m ρ c) (v28_at m ρ c)).trans ?_
  rw [v25_eq]
  exact congrArg₂ (fun a b => msgStep a b _ _ 0) (xg0_eq' m ρ c) (ea0_in m ρ c)

theorem dst0_eq (c : Dev nD) : (W2 m ρ c (Proc.devRef .tc main_v3) : S640000.Idx → BitVec 32) = val_main_v3 (F := Ideal) (a10 m c) :=
  ((W2_keep m ρ c main_v3 (by decide))).trans (dst_eq m ρ c)
theorem den0_eq (c : Dev nD) : (W2 m ρ c (Proc.devRef .tc main_v9) : S50000x1.Idx → EReal) = val_main_v9 (F := Ideal) (a10 m c) :=
  ((W2_keep m ρ c main_v9 (by decide))).trans (denom_eq m ρ c)

set_option maxHeartbeats 4000000 in
set_option maxRecDepth 200000 in
/-- The neighbour mean of layer 0: the same scatter-add and division on the same operands. -/
theorem agg0_eq (c : Dev nD) : (V3 m ρ c main_v35 : S50000x128.Idx → EReal) = val_main_v30 (F := Ideal) (a0 m c) (a1 m c) (a4 m c) (a5 m c) (a10 m c) := by
  show StableHlo.after hostOps1 (W2 m ρ c) (Proc.devRef .tc main_v35) = _
  after_results
  rw [dst0_eq m ρ c, den0_eq m ρ c, lmsg0_eq m ρ c]
  rfl

/-- The node features the node region reads: unchanged since the layer began. -/
theorem xnode0_eq (c : Dev nD) : (V3 m ρ c main_arg0 : S50000x128.Idx → EReal) = (a0 m c) :=
  ((W3_host m ρ c main_arg0 (by decide)).trans <|
    (W2_keep m ρ c main_arg0 (by decide)).trans <|
    (W1_host m ρ c main_arg0 (by decide))).trans (xsrc0_eq m ρ c)

/-- The pre-normalisation features of layer 0, as one function of the region-entry arrays. -/
theorem G0_eq (c : Dev nD) : G1_4 (V3 m ρ) c = val_main_v39 (F := Ideal) (a0 m c) (a1 m c) (a2 m c) (a3 m c) (a4 m c) (a5 m c) (a10 m c) := by
  refine (nodePre_eq_nodeStep _ _ _ _ _ _ 0 (v37_at m ρ c) (v40_at m ρ c)).trans ?_
  rw [v39_eq]
  exact congrArg₂ (fun a b => nodeStep a b _ _ 0) (agg0_eq m ρ c) (xnode0_eq m ρ c)

theorem h0_eq (c : Dev nD) : (W4 m ρ c (Proc.devRef .tc main_v41_0) : S50000x128.Idx → EReal) = val_main_v39 (F := Ideal) (a0 m c) (a1 m c) (a2 m c) (a3 m c) (a4 m c) (a5 m c) (a10 m c) := by
  refine (W4_arr m ρ c 4).trans ?_
  rw [final1_4]
  exact G0_eq m ρ c

/-- The column sums and column sums of squares the node region leaves. -/
theorem s0_eq (c : Dev nD) : (W4 m ρ c (Proc.devRef .tc main_v41_1) : S1x128.Idx → EReal) = colSum (val_main_v39 (F := Ideal) (a0 m c) (a1 m c) (a2 m c) (a3 m c) (a4 m c) (a5 m c) (a10 m c)) := by
  refine (W4_arr m ρ c 5).trans ?_
  rw [final1_5, G0_eq m ρ c]
theorem sq0_eq (c : Dev nD) : (W4 m ρ c (Proc.devRef .tc main_v41_2) : S1x128.Idx → EReal) = colSumSq (val_main_v39 (F := Ideal) (a0 m c) (a1 m c) (a2 m c) (a3 m c) (a4 m c) (a5 m c) (a10 m c)) := by
  refine (W4_arr m ρ c 6).trans ?_
  rw [final1_6, G0_eq m ρ c]

/-- The normalised features of layer 0: the next layer's node features. Here the inputs' finiteness is used: the
    two spellings of the variance agree on real columns. -/
theorem xo0_eq (c : Dev nD) (hA : ArgsReal m c) : (W6 m ρ c (Proc.devRef .tc main_v54) : S50000x128.Idx → EReal) = val_main_v77 (F := Ideal) (a0 m c) (a1 m c) (a2 m c) (a3 m c) (a4 m c) (a5 m c) (a8 m c) (a9 m c) (a10 m c) := by
  refine (W6_arr m ρ c 5).trans ?_
  rw [final2_5]
  have hh : (V5 m ρ c main_v41_0 : S50000x128.Idx → EReal) = val_main_v39 (F := Ideal) (a0 m c) (a1 m c) (a2 m c) (a3 m c) (a4 m c) (a5 m c) (a10 m c) :=
    (W5_host m ρ c main_v41_0 (by decide)).trans (h0_eq m ρ c)
  show bnK (V5 m ρ c main_v41_0) (V5 m ρ c main_v43) (V5 m ρ c main_v47) (V5 m ρ c main_v52) (V5 m ρ c main_v53) = _
  rw [hh, v77_eq]
  refine bnK_eq_bnStep _ (Cert.RefValue.real_h0 (a0 m c) (a1 m c) (a2 m c) (a3 m c) (a4 m c) (a5 m c) (a10 m c) hA.1 hA.2.1 hA.2.2.1 hA.2.2.2.1 hA.2.2.2.2.1 hA.2.2.2.2.2.1) _ _ _ _ _ _ 0 (fun f => ?_) (fun f => ?_) (v52_at m ρ c) (v53_at m ρ c)
  · rw [v43_at, s0_eq m ρ c]; rfl
  · rw [v47_at, s0_eq m ρ c, sq0_eq m ρ c]; rfl

end Cert.KernelIdeal.Frm

end
-- ==== Proof.KiNodePieces4.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import proofs.«156566_j1202590843053_1_alg».proof.Proof.KiNode4
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The node kernel of region 4: what its whole-body runs leave, as the payloads of the argument blocks -/

theorem hz2 : (![0, 0] : Fin 2 → Nat) = fun _ => 0 := funext fun a => by fin_cases a <;> rfl

/-- A load through the whole rectangle after stores the last of which went through the whole rectangle reads that
    last store's payload. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The first point: the accumulators are reset, then the block is added -/

theorem runA4_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) : View.canon (kernelRun4_A c i arg1 harg1 arg2 harg2 arg3 harg3 arg4 harg4 arg5 harg5 arg6 harg6 arg7 harg7 arg8 harg8 arg9 harg9 hc0 x0 x1 x2 x3).1 = k4_pay3 x1 x2 x3 x0 := by
  unfold kernelRun4_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA4_s0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) : View.canon (kernelRun4_A c i arg1 harg1 arg2 harg2 arg3 harg3 arg4 harg4 arg5 harg5 arg6 harg6 arg7 harg7 arg8 harg8 arg9 harg9 hc0 x0 x1 x2 x3).2.2.2.1 = k4_pay4 x1 x2 x3 x0 (k4_pay1 (F := F)) := by
  unfold kernelRun4_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA4_s1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) : View.canon (kernelRun4_A c i arg1 harg1 arg2 harg2 arg3 harg3 arg4 harg4 arg5 harg5 arg6 harg6 arg7 harg7 arg8 harg8 arg9 harg9 hc0 x0 x1 x2 x3).2.2.2.2.1 = k4_pay5 x1 x2 x3 x0 (k4_pay2 (F := F)) := by
  unfold kernelRun4_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA4_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) : View.canon (kernelRun4_A c i arg1 harg1 arg2 harg2 arg3 harg3 arg4 harg4 arg5 harg5 arg6 harg6 arg7 harg7 arg8 harg8 arg9 harg9 hc0 x0 x1 x2 x3).2.1 = k4_pay4 x1 x2 x3 x0 (k4_pay1 (F := F)) := by
  unfold kernelRun4_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA4_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) : View.canon (kernelRun4_A c i arg1 harg1 arg2 harg2 arg3 harg3 arg4 harg4 arg5 harg5 arg6 harg6 arg7 harg7 arg8 harg8 arg9 harg9 hc0 x0 x1 x2 x3).2.2.1 = k4_pay5 x1 x2 x3 x0 (k4_pay2 (F := F)) := by
  unfold kernelRun4_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]

/-! ## A later point: the accumulators continue from the carried contents -/

theorem runB4_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun4_B c i arg1 harg1 arg2 harg2 arg3 harg3 arg4 harg4 arg5 harg5 arg6 harg6 arg7 harg7 arg8 harg8 arg9 harg9 hc0 x0 x1 x2 x3 xs0 xs1).1 = k4_pay3 x1 x2 x3 x0 := by
  unfold kernelRun4_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB4_s0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun4_B c i arg1 harg1 arg2 harg2 arg3 harg3 arg4 harg4 arg5 harg5 arg6 harg6 arg7 harg7 arg8 harg8 arg9 harg9 hc0 x0 x1 x2 x3 xs0 xs1).2.2.2.1 = k4_pay4 x1 x2 x3 x0 xs0 := by
  unfold kernelRun4_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB4_s1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun4_B c i arg1 harg1 arg2 harg2 arg3 harg3 arg4 harg4 arg5 harg5 arg6 harg6 arg7 harg7 arg8 harg8 arg9 harg9 hc0 x0 x1 x2 x3 xs0 xs1).2.2.2.2.1 = k4_pay5 x1 x2 x3 x0 xs1 := by
  unfold kernelRun4_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB4_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun4_B c i arg1 harg1 arg2 harg2 arg3 harg3 arg4 harg4 arg5 harg5 arg6 harg6 arg7 harg7 arg8 harg8 arg9 harg9 hc0 x0 x1 x2 x3 xs0 xs1).2.1 = k4_pay4 x1 x2 x3 x0 xs0 := by
  unfold kernelRun4_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB4_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun4_B c i arg1 harg1 arg2 harg2 arg3 harg3 arg4 harg4 arg5 harg5 arg6 harg6 arg7 harg7 arg8 harg8 arg9 harg9 hc0 x0 x1 x2 x3 xs0 xs1).2.2.1 = k4_pay5 x1 x2 x3 x0 xs1 := by
  unfold kernelRun4_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]

end Cert.KernelIdeal.Frm

end
-- ==== Proof.KiNodeAcc4.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import proofs.«156566_j1202590843053_1_alg».proof.Proof.KiNodePieces4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node kernel of region 4: what it leaves point by point, in the payloads of the points' blocks -/

/-- The pre-normalisation rows of block `t`: the body's first payload of the point's four input blocks
    (`(x · w + b) + agg` on the block's rows). -/
def hblk4 (c : Dev nD) (t : Fin cfg4.N) : Vec F S5000x128 .f32 :=
  k4_pay3 (blk4_1 V c t) (blk4_2 V c t) (blk4_3 V c t) (blk4_0 V c t)

/-- The running column sums after point `n`: reset to the zero row at the first point, then each point adds its block's. -/
def acc4 (c : Dev nD) : (n : ℕ) → n < cfg4.N → Vec F S1x128 .f32
  | 0, hn => k4_pay4 (blk4_1 V c ⟨0, hn⟩) (blk4_2 V c ⟨0, hn⟩) (blk4_3 V c ⟨0, hn⟩) (blk4_0 V c ⟨0, hn⟩) (k4_pay1 (F := F))
  | n + 1, hn => k4_pay4 (blk4_1 V c ⟨n + 1, hn⟩) (blk4_2 V c ⟨n + 1, hn⟩) (blk4_3 V c ⟨n + 1, hn⟩) (blk4_0 V c ⟨n + 1, hn⟩) (acc4 c n (Nat.lt_of_succ_lt hn))

/-- The running column sums of squares after point `n`. -/
def accSq4 (c : Dev nD) : (n : ℕ) → n < cfg4.N → Vec F S1x128 .f32
  | 0, hn => k4_pay5 (blk4_1 V c ⟨0, hn⟩) (blk4_2 V c ⟨0, hn⟩) (blk4_3 V c ⟨0, hn⟩) (blk4_0 V c ⟨0, hn⟩) (k4_pay2 (F := F))
  | n + 1, hn => k4_pay5 (blk4_1 V c ⟨n + 1, hn⟩) (blk4_2 V c ⟨n + 1, hn⟩) (blk4_3 V c ⟨n + 1, hn⟩) (blk4_0 V c ⟨n + 1, hn⟩) (accSq4 c n (Nat.lt_of_succ_lt hn))

set_option maxHeartbeats 1000000 in
/-- The first point's five contents, in the payloads, on any staging memrefs. -/
theorem tupleA4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) :
    (View.canon (kernelRun4_A c i arg1 harg1 arg2 harg2 arg3 harg3 arg4 harg4 arg5 harg5 arg6 harg6 arg7 harg7 arg8 harg8 arg9 harg9 hc0 x0 x1 x2 x3).1, View.canon (kernelRun4_A c i arg1 harg1 arg2 harg2 arg3 harg3 arg4 harg4 arg5 harg5 arg6 harg6 arg7 harg7 arg8 harg8 arg9 harg9 hc0 x0 x1 x2 x3).2.1, View.canon (kernelRun4_A c i arg1 harg1 arg2 harg2 arg3 harg3 arg4 harg4 arg5 harg5 arg6 harg6 arg7 harg7 arg8 harg8 arg9 harg9 hc0 x0 x1 x2 x3).2.2.1, View.canon (kernelRun4_A c i arg1 harg1 arg2 harg2 arg3 harg3 arg4 harg4 arg5 harg5 arg6 harg6 arg7 harg7 arg8 harg8 arg9 harg9 hc0 x0 x1 x2 x3).2.2.2.1, View.canon (kernelRun4_A c i arg1 harg1 arg2 harg2 arg3 harg3 arg4 harg4 arg5 harg5 arg6 harg6 arg7 harg7 arg8 harg8 arg9 harg9 hc0 x0 x1 x2 x3).2.2.2.2.1)
      = (k4_pay3 x1 x2 x3 x0, k4_pay4 x1 x2 x3 x0 (k4_pay1 (F := F)), k4_pay5 x1 x2 x3 x0 (k4_pay2 (F := F)),
          k4_pay4 x1 x2 x3 x0 (k4_pay1 (F := F)), k4_pay5 x1 x2 x3 x0 (k4_pay2 (F := F))) := by
  rw [runA4_4 c i arg1 harg1 arg2 harg2 arg3 harg3 arg4 harg4 arg5 harg5 arg6 harg6 arg7 harg7 arg8 harg8 arg9 harg9 hc0 x0 x1 x2 x3, runA4_5 c i arg1 harg1 arg2 harg2 arg3 harg3 arg4 harg4 arg5 harg5 arg6 harg6 arg7 harg7 arg8 harg8 arg9 harg9 hc0 x0 x1 x2 x3, runA4_6 c i arg1 harg1 arg2 harg2 arg3 harg3 arg4 harg4 arg5 harg5 arg6 harg6 arg7 harg7 arg8 harg8 arg9 harg9 hc0 x0 x1 x2 x3, runA4_s0 c i arg1 harg1 arg2 harg2 arg3 harg3 arg4 harg4 arg5 harg5 arg6 harg6 arg7 harg7 arg8 harg8 arg9 harg9 hc0 x0 x1 x2 x3, runA4_s1 c i arg1 harg1 arg2 harg2 arg3 harg3 arg4 harg4 arg5 harg5 arg6 harg6 arg7 harg7 arg8 harg8 arg9 harg9 hc0 x0 x1 x2 x3]

set_option maxHeartbeats 1000000 in
/-- A later point's five contents, in the payloads, on any staging memrefs. -/
theorem tupleB4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (xs0 : Vec F S1x128 .f32) (xs1 : Vec F S1x128 .f32) :
    (View.canon (kernelRun4_B c i arg1 harg1 arg2 harg2 arg3 harg3 arg4 harg4 arg5 harg5 arg6 harg6 arg7 harg7 arg8 harg8 arg9 harg9 hc0 x0 x1 x2 x3 xs0 xs1).1, View.canon (kernelRun4_B c i arg1 harg1 arg2 harg2 arg3 harg3 arg4 harg4 arg5 harg5 arg6 harg6 arg7 harg7 arg8 harg8 arg9 harg9 hc0 x0 x1 x2 x3 xs0 xs1).2.1, View.canon (kernelRun4_B c i arg1 harg1 arg2 harg2 arg3 harg3 arg4 harg4 arg5 harg5 arg6 harg6 arg7 harg7 arg8 harg8 arg9 harg9 hc0 x0 x1 x2 x3 xs0 xs1).2.2.1, View.canon (kernelRun4_B c i arg1 harg1 arg2 harg2 arg3 harg3 arg4 harg4 arg5 harg5 arg6 harg6 arg7 harg7 arg8 harg8 arg9 harg9 hc0 x0 x1 x2 x3 xs0 xs1).2.2.2.1, View.canon (kernelRun4_B c i arg1 harg1 arg2 harg2 arg3 harg3 arg4 harg4 arg5 harg5 arg6 harg6 arg7 harg7 arg8 harg8 arg9 harg9 hc0 x0 x1 x2 x3 xs0 xs1).2.2.2.2.1)
      = (k4_pay3 x1 x2 x3 x0, k4_pay4 x1 x2 x3 x0 xs0, k4_pay5 x1 x2 x3 x0 xs1, k4_pay4 x1 x2 x3 x0 xs0, k4_pay5 x1 x2 x3 x0 xs1) := by
  rw [runB4_4 c i arg1 harg1 arg2 harg2 arg3 harg3 arg4 harg4 arg5 harg5 arg6 harg6 arg7 harg7 arg8 harg8 arg9 harg9 hc0 x0 x1 x2 x3 xs0 xs1, runB4_5 c i arg1 harg1 arg2 harg2 arg3 harg3 arg4 harg4 arg5 harg5 arg6 harg6 arg7 harg7 arg8 harg8 arg9 harg9 hc0 x0 x1 x2 x3 xs0 xs1, runB4_6 c i arg1 harg1 arg2 harg2 arg3 harg3 arg4 harg4 arg5 harg5 arg6 harg6 arg7 harg7 arg8 harg8 arg9 harg9 hc0 x0 x1 x2 x3 xs0 xs1, runB4_s0 c i arg1 harg1 arg2 harg2 arg3 harg3 arg4 harg4 arg5 harg5 arg6 harg6 arg7 harg7 arg8 harg8 arg9 harg9 hc0 x0 x1 x2 x3 xs0 xs1, runB4_s1 c i arg1 harg1 arg2 harg2 arg3 harg3 arg4 harg4 arg5 harg5 arg6 harg6 arg7 harg7 arg8 harg8 arg9 harg9 hc0 x0 x1 x2 x3 xs0 xs1]

set_option maxHeartbeats 2000000 in
/-- The first point's five contents at the point's own memrefs and blocks. -/
theorem caseA4_eq (c : Dev nD) (t : Fin cfg4.N) (h0 : t.val = 0) :
    caseA4 V c t h0 = (hblk4 V c t,
      k4_pay4 (blk4_1 V c t) (blk4_2 V c t) (blk4_3 V c t) (blk4_0 V c t) (k4_pay1 (F := F)),
      k4_pay5 (blk4_1 V c t) (blk4_2 V c t) (blk4_3 V c t) (blk4_0 V c t) (k4_pay2 (F := F)),
      k4_pay4 (blk4_1 V c t) (blk4_2 V c t) (blk4_3 V c t) (blk4_0 V c t) (k4_pay1 (F := F)),
      k4_pay5 (blk4_1 V c t) (blk4_2 V c t) (blk4_3 V c t) (blk4_0 V c t) (k4_pay2 (F := F))) := by
  unfold caseA4 runA4 hblk4
  exact tupleA4 c _ _ _ _ _ _ _ _ _ _ _ _ _ _ _ _ _ _ _ _ (blk4_0 V c t) (blk4_1 V c t) (blk4_2 V c t) (blk4_3 V c t)

set_option maxHeartbeats 2000000 in
/-- A later point's five contents at the point's own memrefs and blocks, from the accumulators' contents it starts from. -/
theorem caseB4_eq (c : Dev nD) (t : Fin cfg4.N) (h0 : t.val ≠ 0) (s0 s1 : Vec F S1x128 .f32) :
    caseB4 V c t h0 s0 s1 = (hblk4 V c t,
      k4_pay4 (blk4_1 V c t) (blk4_2 V c t) (blk4_3 V c t) (blk4_0 V c t) s0,
      k4_pay5 (blk4_1 V c t) (blk4_2 V c t) (blk4_3 V c t) (blk4_0 V c t) s1,
      k4_pay4 (blk4_1 V c t) (blk4_2 V c t) (blk4_3 V c t) (blk4_0 V c t) s0,
      k4_pay5 (blk4_1 V c t) (blk4_2 V c t) (blk4_3 V c t) (blk4_0 V c t) s1) := by
  unfold caseB4 runB4 hblk4
  exact tupleB4 c _ _ _ _ _ _ _ _ _ _ _ _ _ _ _ _ _ _ _ _ (blk4_0 V c t) (blk4_1 V c t) (blk4_2 V c t) (blk4_3 V c t) s0 s1

/-- What every point leaves: the block's rows in the first output, the running sums in the other two outputs and in the
    two accumulators. -/
theorem outsAt4_eq (c : Dev nD) : ∀ (n : ℕ) (hn : n < cfg4.N),
    outsAt4 V c n hn = (hblk4 V c ⟨n, hn⟩, acc4 V c n hn, accSq4 V c n hn, acc4 V c n hn, accSq4 V c n hn)
  | 0, hn => caseA4_eq V c ⟨0, hn⟩ rfl
  | n + 1, hn => by
    show caseB4 V c ⟨n + 1, hn⟩ (Nat.succ_ne_zero n) (outsAt4 V c n (Nat.lt_of_succ_lt hn)).2.2.2.1 (outsAt4 V c n (Nat.lt_of_succ_lt hn)).2.2.2.2 = _
    rw [outsAt4_eq c n (Nat.lt_of_succ_lt hn)]
    exact caseB4_eq V c ⟨n + 1, hn⟩ (Nat.succ_ne_zero n) _ _

theorem after4_4_eq (c : Dev nD) (t : Fin cfg4.N) : (dat4 V c).after 4 t = hblk4 V c t := by
  rw [after4_4, outsAt4_eq]
theorem after4_5_eq (c : Dev nD) (t : Fin cfg4.N) : (dat4 V c).after 5 t = acc4 V c t.val t.isLt := by
  rw [after4_5, outsAt4_eq]
theorem after4_6_eq (c : Dev nD) (t : Fin cfg4.N) : (dat4 V c).after 6 t = accSq4 V c t.val t.isLt := by
  rw [after4_6, outsAt4_eq]

end Cert.KernelIdeal.Frm

end
-- ==== Proof.KiNodeVal4.lean ====
import proofs.«156566_j1202590843053_1_alg».proof.Proof.KiNodeAcc4
import proofs.«156566_j1202590843053_1_alg».proof.Proof.KiNodeDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.ValueIdx

/-! # The node kernel's stored values at an index, over the extended reals (region 4) -/

/-- The pre-normalisation value at row `p`, column `q` of the block: `((Σ_d x[p,d]·w[d,q]) + b[0,q]) + agg[p,q]`. -/
theorem k4_pay3_at (v3 : Vec Ideal S5000x128 .f32) (v5 : Vec Ideal S128x128 .f32) (v9 : Vec Ideal S1x128 .f32) (v13 : Vec Ideal S5000x128 .f32)
    (p : Fin 5000) (q : Fin 128) :
    k4_pay3 (F := Ideal) v3 v5 v9 v13 (ix2 p q) = ((∑ d : Fin 128, v3 (ix2 p d) * v5 (ix2 d q)) + v9 (ix2 0 q)) + v13 (ix2 p q) := by
  unfold k4_pay3
  simp only [shapeCast_self]
  exact congrArg₂ (· + ·) (congrArg₂ (· + ·) (node_matmul_at _ _ p q) (node_bias_at v9 p q)) rfl

/-- The accumulated column sum after a block: the carried row plus the block's column sums. -/
theorem k4_pay4_at (v3 : Vec Ideal S5000x128 .f32) (v5 : Vec Ideal S128x128 .f32) (v9 : Vec Ideal S1x128 .f32) (v13 : Vec Ideal S5000x128 .f32)
    (v17 : Vec Ideal S1x128 .f32) (q : Fin 128) :
    k4_pay4 (F := Ideal) v3 v5 v9 v13 v17 (ix2 0 q) = v17 (ix2 0 q) + ∑ p : Fin 5000, k4_pay3 (F := Ideal) v3 v5 v9 v13 (ix2 p q) := by
  unfold k4_pay4
  simp only [shapeCast_self]
  refine congrArg (v17 (ix2 0 q) + ·) ?_
  refine (shapeCast_a_1a_apply _ _ 0 q).trans ?_
  exact node_colsum_at _ q

/-- The accumulated column sum of squares after a block. -/
theorem k4_pay5_at (v3 : Vec Ideal S5000x128 .f32) (v5 : Vec Ideal S128x128 .f32) (v9 : Vec Ideal S1x128 .f32) (v13 : Vec Ideal S5000x128 .f32)
    (v24 : Vec Ideal S1x128 .f32) (q : Fin 128) :
    k4_pay5 (F := Ideal) v3 v5 v9 v13 v24 (ix2 0 q)
      = v24 (ix2 0 q) + ∑ p : Fin 5000, k4_pay3 (F := Ideal) v3 v5 v9 v13 (ix2 p q) * k4_pay3 (F := Ideal) v3 v5 v9 v13 (ix2 p q) := by
  unfold k4_pay5
  simp only [shapeCast_self]
  refine congrArg (v24 (ix2 0 q) + ·) ?_
  refine (shapeCast_a_1a_apply _ _ 0 q).trans ?_
  exact node_colsum_at _ q

/-- The reset rows are zero. -/
theorem k4_pay1_at (i : S1x128.Idx) : k4_pay1 (F := Ideal) i = 0 := by
  unfold k4_pay1
  simp only [shapeCast_self]
  exact Ideal.ofBits_zero_f32
theorem k4_pay2_at (i : S1x128.Idx) : k4_pay2 (F := Ideal) i = 0 := by
  unfold k4_pay2
  simp only [shapeCast_self]
  exact Ideal.ofBits_zero_f32

end Cert.KernelIdeal.Frm

end
-- ==== Proof.KiNodeFinal4.lean ====
/- THE VALUE of node region 4 at the exact instance (a float is an extended real). The region's first output tiles its
   50000x128 array by ten blocks of 5000 rows, every block written back: after the region it is the pre-normalisation
   node array `nodePre` of the four region-entry arrays (`final4_4`). Its other two outputs are 1x128 rows carried across
   the ten points in scratch accumulators and written back at the last point only: the running sums start from zero, every
   point adds its block's column sums (of squares), and ten tiles of 5000 rows regroup into the 50000 rows of a column,
   so they end as the column sums and the column sums of squares of that node array (`final4_5`, `final4_6`).
   Addition of extended reals is commutative and associative, so the regrouping needs no finiteness. -/
import proofs.«156566_j1202590843053_1_alg».proof.Proof.KiNode4
import proofs.«156566_j1202590843053_1_alg».proof.Proof.KiNodeVal4
import proofs.«156566_j1202590843053_1_alg».proof.Proof.KiNodeSpec
import proofs.«156566_j1202590843053_1_alg».proof.Proof.LibTileSums
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.ShloMosaic.Pipeline (Dat Cfg Window)

/-! ## The pre-normalisation value against the whole-array function -/

/-- When the loaded blocks are rows of the arrays `x`, `agg` (row `p` of the block being row `e` of the array) and the
    whole matrix and bias row, the stored value at row `p`, column `q` is the node array at row `e`, column `q`. -/
theorem pay4_pre_block (agg x : S50000x128.Idx → EReal) (w : S128x128.Idx → EReal) (b : S1x128.Idx → EReal)
    (v3 : Vec Ideal S5000x128 .f32) (v5 : Vec Ideal S128x128 .f32) (v9 : Vec Ideal S1x128 .f32) (v13 : Vec Ideal S5000x128 .f32)
    (e : Fin 50000) (p : Fin 5000) (q : Fin 128)
    (h3 : ∀ d : Fin 128, v3 (ix2 p d) = x (ix2 e d)) (h5 : ∀ d : Fin 128, v5 (ix2 d q) = w (ix2 d q))
    (h9 : v9 (ix2 0 q) = b (ix2 0 q)) (h13 : v13 (ix2 p q) = agg (ix2 e q)) :
    k4_pay3 (F := Ideal) v3 v5 v9 v13 (ix2 p q) = nodePre agg x w b (ix2 e q) := by
  refine (k4_pay3_at v3 v5 v9 v13 p q).trans ?_
  show _ = ((∑ d : Fin 128, x (ix2 e d) * w (ix2 d q)) + b (ix2 0 q)) + agg (ix2 e q)
  rw [h9, h13]
  exact congrArg (fun s => (s + b (ix2 0 q)) + agg (ix2 e q)) (Finset.sum_congr rfl fun d _ => by rw [h3 d, h5 d])

/-! ## From blocks to the arrays -/

-- the TensorCore's buffer contents when the region is entered, at the exact instance
variable (V : (c : Dev nD) → (b : Ref sig .tc) → Buf (Elt Ideal) ((c : Thread nD τ).loc b))

/-- The pre-normalisation node array region 4 computes, of the region-entry arrays of windows 0 (the aggregate), 1 (the
    node features), 2 (the matrix) and 3 (the bias row). -/
abbrev G4_4 (c : Dev nD) : S50000x128.Idx → EReal :=
  nodePre (V c (Pipeline.arrRef spec4 0)) (V c (Pipeline.arrRef spec4 1)) (V c (Pipeline.arrRef spec4 2)) (V c (Pipeline.arrRef spec4 3))

/-- The printed index maps, decided over the grid: the two long inputs and the first output move together down the
    rows, one block of 5000 rows per point, block `t` at point `t`; the matrix, the bias row and the two 1x128
    outputs stay at block 0. -/
theorem idx_facts4 : ∀ t : Fin cfg4.N, win4_0.index t (0 : Fin 2) = win4_4.index t (0 : Fin 2)
    ∧ win4_0.index t (1 : Fin 2) = 0
    ∧ win4_1.index t (0 : Fin 2) = win4_4.index t (0 : Fin 2)
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (1 : Fin 2) = 0
    ∧ win4_4.index t (0 : Fin 2) = t.val
    ∧ win4_5.index t (0 : Fin 2) = 0
    ∧ win4_5.index t (1 : Fin 2) = 0
    ∧ win4_6.index t (0 : Fin 2) = 0
    ∧ win4_6.index t (1 : Fin 2) = 0 :=
  (by decide +kernel : ∀ t : Fin grid4.N, _)

set_option maxHeartbeats 1600000 in
/-- Point `t`'s pre-normalisation block at row `p`, column `q` is the node array at row 5000·t+p, column `q`: each loaded
    block is its array read at rows 5000·t … 5000·t+4999 (the two long inputs) or the whole array (the matrix and the
    bias row). -/
theorem hblk4_at (c : Dev nD) (t : Fin cfg4.N) (p : Fin 5000) (q : Fin 128) :
    k4_pay3 (F := Ideal) (blk4_1 V c t) (blk4_2 V c t) (blk4_3 V c t) (blk4_0 V c t) (ix2 p q)
      = G4_4 V c (ix2 ⟨5000 * t.val + p.val, by have := lt_of_lt_of_eq t.isLt N_4; have := p.isLt; omega⟩ q) := by
  have ht : t.val < 10 := lt_of_lt_of_eq t.isLt N_4
  have hp : p.val < 5000 := p.isLt
  have hq : q.val < 128 := q.isLt
  obtain ⟨f0, f1, f2, f3, f4, f5, f6, f7, f8, f9, f10, f11, f12, f13⟩ := idx_facts4 t
  let e : Fin 50000 := ⟨5000 * t.val + p.val, by omega⟩
  have h1 : ∀ d : Fin 128, ((cfg4.win 1).blk t).view.emb (ix2 p d) = (ix2 e d : S50000x128.Idx) := fun d => by
    funext a; apply Fin.ext
    match a with
    | ⟨0, _⟩ => show win4_1.index t (0 : Fin 2) * 5000 + 1 * p.val = 5000 * t.val + p.val; omega
    | ⟨1, _⟩ => show win4_1.index t (1 : Fin 2) * 128 + 1 * d.val = d.val; omega
  have h2 : ∀ d : Fin 128, ((cfg4.win 2).blk t).view.emb (ix2 d q) = (ix2 d q : S128x128.Idx) := fun d => by
    funext a; apply Fin.ext
    match a with
    | ⟨0, _⟩ => show win4_2.index t (0 : Fin 2) * 128 + 1 * d.val = d.val; omega
    | ⟨1, _⟩ => show win4_2.index t (1 : Fin 2) * 128 + 1 * q.val = q.val; omega
  have h3 : ((cfg4.win 3).blk t).view.emb (ix2 (0 : Fin 1) q) = (ix2 (0 : Fin 1) q : S1x128.Idx) := by
    funext a; apply Fin.ext
    match a with
    | ⟨0, _⟩ => show win4_3.index t (0 : Fin 2) * 1 + 1 * 0 = 0; omega
    | ⟨1, _⟩ => show win4_3.index t (1 : Fin 2) * 128 + 1 * q.val = q.val; omega
  have h0 : ((cfg4.win 0).blk t).view.emb (ix2 p q) = (ix2 e q : S50000x128.Idx) := by
    funext a; apply Fin.ext
    match a with
    | ⟨0, _⟩ => show win4_0.index t (0 : Fin 2) * 5000 + 1 * p.val = 5000 * t.val + p.val; omega
    | ⟨1, _⟩ => show win4_0.index t (1 : Fin 2) * 128 + 1 * q.val = q.val; omega
  exact pay4_pre_block (V c (Pipeline.arrRef spec4 0)) (V c (Pipeline.arrRef spec4 1)) (V c (Pipeline.arrRef spec4 2)) (V c (Pipeline.arrRef spec4 3)) (blk4_1 V c t) (blk4_2 V c t) (blk4_3 V c t) (blk4_0 V c t) e p q
    (fun d => congrArg (V c (Pipeline.arrRef spec4 1)) (h1 d)) (fun d => congrArg (V c (Pipeline.arrRef spec4 2)) (h2 d)) (congrArg (V c (Pipeline.arrRef spec4 3)) h3) (congrArg (V c (Pipeline.arrRef spec4 0)) h0)

/-! ## Output window 4: ten row blocks tile the array -/

/-- Every one of the ten row blocks is some point's. -/
theorem idx_onto4 : ∀ (q0 : Fin 10), ∃ t : Fin cfg4.N, win4_4.index t = ![q0.val, 0] :=
  (by decide +kernel : ∀ (q0 : Fin 10), ∃ t : Fin grid4.N, win4_4.index t = ![q0.val, 0])

set_option maxHeartbeats 1600000 in
/-- WHAT POINT `t` WRITES BACK of window 4 is block `t` of the node array. -/
theorem flushed4_4_eq (c : Dev nD) (t : Fin cfg4.N) :
    (dat4 V c).flushed 4 t = ((cfg4.win 4).blk t).view.read (Elt Ideal) (G4_4 V c) := by
  have ht : t.val < 10 := lt_of_lt_of_eq t.isLt N_4
  obtain ⟨f0, f1, f2, f3, f4, f5, f6, f7, f8, f9, f10, f11, f12, f13⟩ := idx_facts4 t
  show (cfg4.win 4).cut (grid4.coords t) ((dat4 V c).after 4 t) = _
  rw [after4_4_eq]
  funext j
  obtain ⟨p, q, rfl⟩ : ∃ (p : Fin 5000) (q : Fin 128), j = ix2 p q := ⟨j 0, j 1, eq_ix2 j⟩
  have hp : p.val < 5000 := p.isLt
  have hq : q.val < 128 := q.isLt
  have hout : ((cfg4.win 4).blk t).view.emb (ix2 p q) = (ix2 ⟨5000 * t.val + p.val, by omega⟩ q : S50000x128.Idx) := by
    funext a; apply Fin.ext
    match a with
    | ⟨0, _⟩ => show win4_4.index t (0 : Fin 2) * 5000 + 1 * p.val = 5000 * t.val + p.val; omega
    | ⟨1, _⟩ => show win4_4.index t (1 : Fin 2) * 128 + 1 * q.val = q.val; omega
  show hblk4 V c t (ix2 p q) = G4_4 V c (((cfg4.win 4).blk t).view.emb (ix2 p q))
  rw [hout]
  exact hblk4_at V c t p q

/-- An index of the array is in point `t`'s block of window 4 iff each coordinate is in the block's range on its axis. -/
theorem mem_blk4_4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v83_0).slice (win4_4.rect t)).set ↔ _
  rw [View.set_slice_whole, Rect.mem_set_unit]
  exact Iff.rfl

/-- Every index of the array is in some written-back block of window 4: row `r` is in the block of point `r / 5000`. -/
theorem covered4_4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, ht4⟩ := idx_onto4 ⟨(i 0).val / 5000, by omega⟩
  have q0 : win4_4.index t (0 : Fin 2) = (i 0).val / 5000 := congrFun ht4 0
  have q1 : win4_4.index t (1 : Fin 2) = 0 := congrFun ht4 1
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- THE ARRAY of window 4 after the region: the pre-normalisation node array of the region-entry arrays. -/
theorem final4_4 (c : Dev nD) : (dat4 V c).arrAt 4 cfg4.N = G4_4 V c :=
  (dat4 V c).arrAt_eq_of_cover 4 (G4_4 V c) (fun t _ => flushed4_4_eq V c t) (covered4_4)

/-! ## Output windows 5 and 6: the running sums, written back at the last point -/

/-- The sum of point `t`'s block down column `q`: the 5000 rows 5000·t … 5000·t+4999 of the column of the array. -/
theorem blocksum4_5 (c : Dev nD) (t : Fin cfg4.N) (q : Fin 128) :
    (∑ p : Fin 5000, k4_pay3 (F := Ideal) (blk4_1 V c t) (blk4_2 V c t) (blk4_3 V c t) (blk4_0 V c t) (ix2 p q))
      = ∑ i ∈ Finset.range 5000, rowsOf (G4_4 V c) q (5000 * t.val + i) := by
  have ht : t.val < 10 := lt_of_lt_of_eq t.isLt N_4
  rw [← Fin.sum_univ_eq_sum_range (fun i => rowsOf (G4_4 V c) q (5000 * t.val + i)) 5000]
  refine Fintype.sum_congr _ _ fun p => ?_
  have hp : p.val < 5000 := p.isLt
  rw [rowsOf_lt _ q (5000 * t.val + p.val) (by omega)]
  exact hblk4_at V c t p q

/-- The running column sums after point `n`, at column `q`: the first `n + 1` tiles of 5000 rows of the column. The row
    starts from zero at the first point; every point adds its block's sum down the column. -/
theorem acc4_at (c : Dev nD) (q : Fin 128) : ∀ (n : ℕ) (hn : n < cfg4.N),
    acc4 V c n hn (ix2 0 q) = ∑ t ∈ Finset.range (n + 1), ∑ i ∈ Finset.range 5000, rowsOf (G4_4 V c) q (5000 * t + i)
  | 0, hn => by
    show k4_pay4 (F := Ideal) (blk4_1 V c ⟨0, hn⟩) (blk4_2 V c ⟨0, hn⟩) (blk4_3 V c ⟨0, hn⟩) (blk4_0 V c ⟨0, hn⟩) (k4_pay1 (F := Ideal)) (ix2 0 q) = _
    refine (k4_pay4_at _ _ _ _ _ q).trans ?_
    rw [k4_pay1_at, zero_add, Finset.sum_range_one]
    exact blocksum4_5 V c ⟨0, hn⟩ q
  | n + 1, hn => by
    show k4_pay4 (F := Ideal) (blk4_1 V c ⟨n + 1, hn⟩) (blk4_2 V c ⟨n + 1, hn⟩) (blk4_3 V c ⟨n + 1, hn⟩) (blk4_0 V c ⟨n + 1, hn⟩) (acc4 V c n (Nat.lt_of_succ_lt hn)) (ix2 0 q) = _
    refine (k4_pay4_at _ _ _ _ _ q).trans ?_
    rw [acc4_at c q n (Nat.lt_of_succ_lt hn), Finset.sum_range_succ _ (n + 1)]
    exact congrArg (_ + ·) (blocksum4_5 V c ⟨n + 1, hn⟩ q)

/-- The sum of squares of point `t`'s block down column `q`: the 5000 rows 5000·t … 5000·t+4999 of the column of the array of squares. -/
theorem blocksum4_6 (c : Dev nD) (t : Fin cfg4.N) (q : Fin 128) :
    (∑ p : Fin 5000, k4_pay3 (F := Ideal) (blk4_1 V c t) (blk4_2 V c t) (blk4_3 V c t) (blk4_0 V c t) (ix2 p q) * k4_pay3 (F := Ideal) (blk4_1 V c t) (blk4_2 V c t) (blk4_3 V c t) (blk4_0 V c t) (ix2 p q))
      = ∑ i ∈ Finset.range 5000, rowsOf (fun i => G4_4 V c i * G4_4 V c i) q (5000 * t.val + i) := by
  have ht : t.val < 10 := lt_of_lt_of_eq t.isLt N_4
  rw [← Fin.sum_univ_eq_sum_range (fun i => rowsOf (fun i => G4_4 V c i * G4_4 V c i) q (5000 * t.val + i)) 5000]
  refine Fintype.sum_congr _ _ fun p => ?_
  have hp : p.val < 5000 := p.isLt
  rw [rowsOf_lt _ q (5000 * t.val + p.val) (by omega)]
  exact congrArg₂ (· * ·) (hblk4_at V c t p q) (hblk4_at V c t p q)

/-- The running column sums of squares after point `n`, at column `q`: the first `n + 1` tiles of 5000 rows of the column. The row
    starts from zero at the first point; every point adds its block's sum of squares down the column. -/
theorem accSq4_at (c : Dev nD) (q : Fin 128) : ∀ (n : ℕ) (hn : n < cfg4.N),
    accSq4 V c n hn (ix2 0 q) = ∑ t ∈ Finset.range (n + 1), ∑ i ∈ Finset.range 5000, rowsOf (fun i => G4_4 V c i * G4_4 V c i) q (5000 * t + i)
  | 0, hn => by
    show k4_pay5 (F := Ideal) (blk4_1 V c ⟨0, hn⟩) (blk4_2 V c ⟨0, hn⟩) (blk4_3 V c ⟨0, hn⟩) (blk4_0 V c ⟨0, hn⟩) (k4_pay2 (F := Ideal)) (ix2 0 q) = _
    refine (k4_pay5_at _ _ _ _ _ q).trans ?_
    rw [k4_pay2_at, zero_add, Finset.sum_range_one]
    exact blocksum4_6 V c ⟨0, hn⟩ q
  | n + 1, hn => by
    show k4_pay5 (F := Ideal) (blk4_1 V c ⟨n + 1, hn⟩) (blk4_2 V c ⟨n + 1, hn⟩) (blk4_3 V c ⟨n + 1, hn⟩) (blk4_0 V c ⟨n + 1, hn⟩) (accSq4 V c n (Nat.lt_of_succ_lt hn)) (ix2 0 q) = _
    refine (k4_pay5_at _ _ _ _ _ q).trans ?_
    rw [accSq4_at c q n (Nat.lt_of_succ_lt hn), Finset.sum_range_succ _ (n + 1)]
    exact congrArg (_ + ·) (blocksum4_6 V c ⟨n + 1, hn⟩ q)

/-- WHAT THE LAST POINT WRITES BACK of window 5: the whole 1x128 row, the running sums after the tenth point, which are
    the ten tiles of 5000 rows regrouped into the 50000 rows of each column. -/
theorem flushed4_5_eq (c : Dev nD) (t : Fin cfg4.N) (hf : (cfg4.win 5).flush t = true) :
    (dat4 V c).flushed 5 t = ((cfg4.win 5).blk t).view.read (Elt Ideal) (colSum (G4_4 V c)) := by
  have ht : t.val < 10 := lt_of_lt_of_eq t.isLt N_4
  have ht9 : t.val = 9 := by have := (flush4_5 t).mp hf; omega
  obtain ⟨f0, f1, f2, f3, f4, f5, f6, f7, f8, f9, f10, f11, f12, f13⟩ := idx_facts4 t
  have hacc : ∀ q : Fin 128, acc4 V c t.val t.isLt (ix2 0 q) = colSum (G4_4 V c) (ix2 0 q) := fun q => by
    rw [acc4_at V c q t.val t.isLt, colSum_eq_range, ht9]
    exact (Cert.LibTileSums.sum_range_mul_blocks 10 5000 (rowsOf (G4_4 V c) q)).symm
  show (cfg4.win 5).cut (grid4.coords t) ((dat4 V c).after 5 t) = _
  rw [after4_5_eq]
  generalize acc4 V c t.val t.isLt = a at hacc ⊢
  funext j
  obtain ⟨z0, q, rfl⟩ : ∃ (z0 : Fin 1) (q : Fin 128), j = ix2 z0 q := ⟨j 0, j 1, eq_ix2 j⟩
  obtain rfl : z0 = 0 := Subsingleton.elim _ _
  have hq : q.val < 128 := q.isLt
  have hemb : ((cfg4.win 5).blk t).view.emb (ix2 (0 : Fin 1) q) = (ix2 (0 : Fin 1) q : S1x128.Idx) := by
    funext a; apply Fin.ext
    match a with
    | ⟨0, _⟩ => show win4_5.index t (0 : Fin 2) * 1 + 1 * 0 = 0; omega
    | ⟨1, _⟩ => show win4_5.index t (1 : Fin 2) * 128 + 1 * q.val = q.val; omega
  have e1 : (cfg4.win 5).cut (grid4.coords t) a (ix2 0 q) = a ((cfg4.win 5).xinj (grid4.coords t) (ix2 0 q)) := by rfl
  have e2 : (cfg4.win 5).xinj (grid4.coords t) (ix2 0 q) = (ix2 (0 : Fin 1) q : S1x128.Idx) := by
    funext b; apply Fin.ext
    match b with
    | ⟨0, _⟩ => rfl
    | ⟨1, _⟩ => rfl
  rw [View.read_apply, hemb, e1, e2, hacc q]
  exact (cast_eq _ _).symm

/-- An index of the 1x128 array is in point `t`'s block of window 5 iff each coordinate is in the block's range on its axis. -/
theorem mem_blk4_5 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v83_1).slice (win4_5.rect t)).set ↔ _
  rw [View.set_slice_whole, Rect.mem_set_unit]
  exact Iff.rfl

/-- Every index of the 1x128 array is in the last point's block of window 5, which is written back. -/
theorem covered4_5 (i : S1x128.Idx) :
    ∃ t : Fin cfg4.N, (cfg4.win 5).flush t = true ∧ i ∈ ((cfg4.win 5).blk t).view.set := by
  have hi0 : (i 0).val < 1 := (i 0).isLt
  have hi1 : (i 1).val < 128 := (i 1).isLt
  let t : Fin cfg4.N := ⟨9, by rw [show cfg4.N = 10 from N_4]; decide⟩
  obtain ⟨f0, f1, f2, f3, f4, f5, f6, f7, f8, f9, f10, f11, f12, f13⟩ := idx_facts4 t
  refine ⟨t, (flush4_5 t).mpr rfl, ?_⟩
  rw [mem_blk4_5]
  intro a
  match a with
  | ⟨0, _⟩ => show win4_5.index t (0 : Fin 2) * 1 ≤ (i 0).val ∧ (i 0).val < win4_5.index t (0 : Fin 2) * 1 + 1; omega
  | ⟨1, _⟩ => show win4_5.index t (1 : Fin 2) * 128 ≤ (i 1).val ∧ (i 1).val < win4_5.index t (1 : Fin 2) * 128 + 128; omega

/-- THE ARRAY of window 5 after the region. -/
theorem final4_5 (c : Dev nD) : (dat4 V c).arrAt 5 cfg4.N = colSum (G4_4 V c) :=
  (dat4 V c).arrAt_eq_of_cover 5 (colSum (G4_4 V c)) (fun t hf => flushed4_5_eq V c t hf) (covered4_5)

/-- WHAT THE LAST POINT WRITES BACK of window 6: the whole 1x128 row, the running sums after the tenth point, which are
    the ten tiles of 5000 rows regrouped into the 50000 rows of each column. -/
theorem flushed4_6_eq (c : Dev nD) (t : Fin cfg4.N) (hf : (cfg4.win 6).flush t = true) :
    (dat4 V c).flushed 6 t = ((cfg4.win 6).blk t).view.read (Elt Ideal) (colSumSq (G4_4 V c)) := by
  have ht : t.val < 10 := lt_of_lt_of_eq t.isLt N_4
  have ht9 : t.val = 9 := by have := (flush4_6 t).mp hf; omega
  obtain ⟨f0, f1, f2, f3, f4, f5, f6, f7, f8, f9, f10, f11, f12, f13⟩ := idx_facts4 t
  have hacc : ∀ q : Fin 128, accSq4 V c t.val t.isLt (ix2 0 q) = colSumSq (G4_4 V c) (ix2 0 q) := fun q => by
    rw [accSq4_at V c q t.val t.isLt, colSumSq_eq, colSum_eq_range, ht9]
    exact (Cert.LibTileSums.sum_range_mul_blocks 10 5000 (rowsOf (fun i => G4_4 V c i * G4_4 V c i) q)).symm
  show (cfg4.win 6).cut (grid4.coords t) ((dat4 V c).after 6 t) = _
  rw [after4_6_eq]
  generalize accSq4 V c t.val t.isLt = a at hacc ⊢
  funext j
  obtain ⟨z0, q, rfl⟩ : ∃ (z0 : Fin 1) (q : Fin 128), j = ix2 z0 q := ⟨j 0, j 1, eq_ix2 j⟩
  obtain rfl : z0 = 0 := Subsingleton.elim _ _
  have hq : q.val < 128 := q.isLt
  have hemb : ((cfg4.win 6).blk t).view.emb (ix2 (0 : Fin 1) q) = (ix2 (0 : Fin 1) q : S1x128.Idx) := by
    funext a; apply Fin.ext
    match a with
    | ⟨0, _⟩ => show win4_6.index t (0 : Fin 2) * 1 + 1 * 0 = 0; omega
    | ⟨1, _⟩ => show win4_6.index t (1 : Fin 2) * 128 + 1 * q.val = q.val; omega
  have e1 : (cfg4.win 6).cut (grid4.coords t) a (ix2 0 q) = a ((cfg4.win 6).xinj (grid4.coords t) (ix2 0 q)) := by rfl
  have e2 : (cfg4.win 6).xinj (grid4.coords t) (ix2 0 q) = (ix2 (0 : Fin 1) q : S1x128.Idx) := by
    funext b; apply Fin.ext
    match b with
    | ⟨0, _⟩ => rfl
    | ⟨1, _⟩ => rfl
  rw [View.read_apply, hemb, e1, e2, hacc q]
  exact (cast_eq _ _).symm

/-- An index of the 1x128 array is in point `t`'s block of window 6 iff each coordinate is in the block's range on its axis. -/
theorem mem_blk4_6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v83_2).slice (win4_6.rect t)).set ↔ _
  rw [View.set_slice_whole, Rect.mem_set_unit]
  exact Iff.rfl

/-- Every index of the 1x128 array is in the last point's block of window 6, which is written back. -/
theorem covered4_6 (i : S1x128.Idx) :
    ∃ t : Fin cfg4.N, (cfg4.win 6).flush t = true ∧ i ∈ ((cfg4.win 6).blk t).view.set := by
  have hi0 : (i 0).val < 1 := (i 0).isLt
  have hi1 : (i 1).val < 128 := (i 1).isLt
  let t : Fin cfg4.N := ⟨9, by rw [show cfg4.N = 10 from N_4]; decide⟩
  obtain ⟨f0, f1, f2, f3, f4, f5, f6, f7, f8, f9, f10, f11, f12, f13⟩ := idx_facts4 t
  refine ⟨t, (flush4_6 t).mpr rfl, ?_⟩
  rw [mem_blk4_6]
  intro a
  match a with
  | ⟨0, _⟩ => show win4_6.index t (0 : Fin 2) * 1 ≤ (i 0).val ∧ (i 0).val < win4_6.index t (0 : Fin 2) * 1 + 1; omega
  | ⟨1, _⟩ => show win4_6.index t (1 : Fin 2) * 128 ≤ (i 1).val ∧ (i 1).val < win4_6.index t (1 : Fin 2) * 128 + 128; omega

/-- THE ARRAY of window 6 after the region. -/
theorem final4_6 (c : Dev nD) : (dat4 V c).arrAt 6 cfg4.N = colSumSq (G4_4 V c) :=
  (dat4 V c).arrAt_eq_of_cover 6 (colSumSq (G4_4 V c)) (fun t hf => flushed4_6_eq V c t hf) (covered4_6)

end Cert.KernelIdeal.Frm

end
-- ==== Proof.KiBnFinal5.lean ====
/- THE VALUE of normalisation region 5 at the exact instance (a float is an extended real). The body's stored value is
   pointwise: at row `p`, column `q` of the block, max((((h[p,q] − mean[0,q]) · rsqrt(var[0,q] + ε)) · γ[0,q]) + β[0,q], 0), the
   four 1x128 rows broadcast down the 5000 rows (`k5_pay1_at`). The output window tiles its 50000x128 array by ten
   blocks of 5000 rows, every block written back, moving with the input window; the four rows stay at block 0. So
   after the region the output array is ONE function of the five region-entry arrays, index by index (`final5_5`). -/
import proofs.«156566_j1202590843053_1_alg».proof.Proof.KiBn5
import proofs.«156566_j1202590843053_1_alg».proof.Proof.KiBnSpec
import proofs.«156566_j1202590843053_1_alg».proof.Proof.KiNodeDot
import Idealize.ShloMosaic.PureOps.Ideal.Laws
import Idealize.ShloMosaic.Lib.ValueIdx
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.ShloMosaic.Pipeline (Dat Cfg Window)

/-! ## The body's stored value at an index -/

/-- The stored value at row `p`, column `q` of the block. The casts to the same shape are the identity, each 1x128 row is
    broadcast down the rows, the splat constants are their values, and the maximum against the zero splat is `max · 0`. -/
theorem k5_pay1_at (v0 : Vec Ideal S5000x128 .f32) (v2 v6 v13 v17 : Vec Ideal S1x128 .f32) (p : Fin 5000) (q : Fin 128) :
    k5_pay1 (F := Ideal) v0 v2 v6 v13 v17 (ix2 p q)
      = max ((((v0 (ix2 p q) - v2 (ix2 0 q)) * Ideal.rsqrt (v6 (ix2 0 q) + Ideal.ofBits .f32 0x3727C5AC#32)) * v13 (ix2 0 q)) + v17 (ix2 0 q)) 0 := by
  unfold k5_pay1
  simp only [shapeCast_self]
  rw [maximumf_apply, addf_apply, mulf_apply, mulf_apply, subf_apply, node_bias_at, node_bias_at, node_bias_at, node_bias_at]
  show max _ (Ideal.ofBits .f32 0x00000000#32) = _
  rw [Ideal.ofBits_zero_f32]
  rfl

/-- The stored value against the whole-array function: when the loaded block is rows of the array `h` (row `p` of the block
    being row `e` of the array) and the four loaded rows are the four 1x128 arrays, the value at row `p`, column `q` is the
    normalised array at row `e`, column `q`. -/
theorem pay5_bn_block (h : S50000x128.Idx → EReal) (mean var g bt : S1x128.Idx → EReal)
    (v0 : Vec Ideal S5000x128 .f32) (v2 v6 v13 v17 : Vec Ideal S1x128 .f32)
    (e : Fin 50000) (p : Fin 5000) (q : Fin 128)
    (h0 : v0 (ix2 p q) = h (ix2 e q)) (h2 : v2 (ix2 0 q) = mean (ix2 0 q)) (h6 : v6 (ix2 0 q) = var (ix2 0 q))
    (h13 : v13 (ix2 0 q) = g (ix2 0 q)) (h17 : v17 (ix2 0 q) = bt (ix2 0 q)) :
    k5_pay1 (F := Ideal) v0 v2 v6 v13 v17 (ix2 p q) = bnK h mean var g bt (ix2 e q) := by
  refine (k5_pay1_at v0 v2 v6 v13 v17 p q).trans ?_
  show _ = max ((((h (ix2 e q) - mean (ix2 0 q)) * Ideal.rsqrt (var (ix2 0 q) + Ideal.ofBits .f32 0x3727C5AC#32)) * g (ix2 0 q)) + bt (ix2 0 q)) 0
  rw [h0, h2, h6, h13, h17]

/-! ## From blocks to the array -/

-- the TensorCore's buffer contents when the region is entered, at the exact instance
variable (V : (c : Dev nD) → (b : Ref sig .tc) → Buf (Elt Ideal) ((c : Thread nD τ).loc b))

theorem hz5 : (![0, 0] : Fin 2 → Nat) = fun _ => 0 := funext fun a => by fin_cases a <;> rfl

/-- The normalised node array region 5 computes, of the region-entry arrays of windows 0 (the pre-normalisation array),
    1 (the mean row), 2 (the variance row), 3 (the scale row) and 4 (the shift row). -/
abbrev G5_5 (c : Dev nD) : S50000x128.Idx → EReal :=
  bnK (V c (Pipeline.arrRef spec5 0)) (V c (Pipeline.arrRef spec5 1)) (V c (Pipeline.arrRef spec5 2)) (V c (Pipeline.arrRef spec5 3)) (V c (Pipeline.arrRef spec5 4))

/-- The printed index maps, decided over the grid: the input and the output move together down the rows, one block of
    5000 rows per point; the four rows stay at block 0. -/
theorem idx_facts5 : ∀ t : Fin cfg5.N, win5_0.index t (0 : Fin 2) = win5_5.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (1 : Fin 2) = 0
    ∧ win5_5.index t (0 : Fin 2) ≤ 9 :=
  (by decide +kernel : ∀ t : Fin grid5.N, _)

/-- Every one of the ten row blocks is some point's. -/
theorem idx_onto5 : ∀ (q0 : Fin 10), ∃ t : Fin cfg5.N, win5_5.index t = ![q0.val, 0] :=
  (by decide +kernel : ∀ (q0 : Fin 10), ∃ t : Fin grid5.N, win5_5.index t = ![q0.val, 0])

set_option maxHeartbeats 1600000 in
/-- WHAT POINT `t` WRITES BACK is block `t` of the normalised array: the loaded block is its array read at rows
    5000·t … 5000·t+4999, the four loaded rows are the whole 1x128 arrays, and row `p` of block `t` is row 5000·t+p. -/
theorem flushed5_5_eq (c : Dev nD) (t : Fin cfg5.N) :
    (dat5 V c).flushed 5 t = ((cfg5.win 5).blk t).view.read (Elt Ideal) (G5_5 V c) := by
  show (cfg5.win 5).cut (grid5.coords t) ((dat5 V c).after 5 t) = _
  rw [after5_5]
  unfold out5_5
  rw [View.canon_unit_zero hz5]
  simp only [View.ld_unit_zero (S := S5000x128) hz5, View.ld_unit_zero (S := S1x128) hz5]
  obtain ⟨f0, f1, f2, f3, f4, f5, f6, f7, f8, f9, f10, f11⟩ := idx_facts5 t
  funext j
  obtain ⟨p, q, rfl⟩ : ∃ (p : Fin 5000) (q : Fin 128), j = ix2 p q := ⟨j 0, j 1, eq_ix2 j⟩
  have hp : p.val < 5000 := p.isLt
  have hq : q.val < 128 := q.isLt
  let e : Fin 50000 := ⟨win5_5.index t (0 : Fin 2) * 5000 + p.val, by omega⟩
  have hout : ((cfg5.win 5).blk t).view.emb (ix2 p q) = (ix2 e q : S50000x128.Idx) := by
    funext a; apply Fin.ext
    match a with
    | ⟨0, _⟩ => show win5_5.index t (0 : Fin 2) * 5000 + 1 * p.val = win5_5.index t (0 : Fin 2) * 5000 + p.val; omega
    | ⟨1, _⟩ => show win5_5.index t (1 : Fin 2) * 128 + 1 * q.val = q.val; omega
  show k5_pay1 (F := Ideal) (iblk5 V c 0 t) (iblk5 V c 1 t) (iblk5 V c 2 t) (iblk5 V c 3 t) (iblk5 V c 4 t) (ix2 p q) = G5_5 V c (((cfg5.win 5).blk t).view.emb (ix2 p q))
  rw [hout]
  have h0 : ((cfg5.win 0).blk t).view.emb (ix2 p q) = (ix2 e q : S50000x128.Idx) := by
    funext a; apply Fin.ext
    match a with
    | ⟨0, _⟩ => show win5_0.index t (0 : Fin 2) * 5000 + 1 * p.val = win5_5.index t (0 : Fin 2) * 5000 + p.val; omega
    | ⟨1, _⟩ => show win5_0.index t (1 : Fin 2) * 128 + 1 * q.val = q.val; omega
  have h1 : ((cfg5.win 1).blk t).view.emb (ix2 (0 : Fin 1) q) = (ix2 (0 : Fin 1) q : S1x128.Idx) := by
    funext a; apply Fin.ext
    match a with
    | ⟨0, _⟩ => show win5_1.index t (0 : Fin 2) * 1 + 1 * 0 = 0; omega
    | ⟨1, _⟩ => show win5_1.index t (1 : Fin 2) * 128 + 1 * q.val = q.val; omega
  have h2 : ((cfg5.win 2).blk t).view.emb (ix2 (0 : Fin 1) q) = (ix2 (0 : Fin 1) q : S1x128.Idx) := by
    funext a; apply Fin.ext
    match a with
    | ⟨0, _⟩ => show win5_2.index t (0 : Fin 2) * 1 + 1 * 0 = 0; omega
    | ⟨1, _⟩ => show win5_2.index t (1 : Fin 2) * 128 + 1 * q.val = q.val; omega
  have h3 : ((cfg5.win 3).blk t).view.emb (ix2 (0 : Fin 1) q) = (ix2 (0 : Fin 1) q : S1x128.Idx) := by
    funext a; apply Fin.ext
    match a with
    | ⟨0, _⟩ => show win5_3.index t (0 : Fin 2) * 1 + 1 * 0 = 0; omega
    | ⟨1, _⟩ => show win5_3.index t (1 : Fin 2) * 128 + 1 * q.val = q.val; omega
  have h4 : ((cfg5.win 4).blk t).view.emb (ix2 (0 : Fin 1) q) = (ix2 (0 : Fin 1) q : S1x128.Idx) := by
    funext a; apply Fin.ext
    match a with
    | ⟨0, _⟩ => show win5_4.index t (0 : Fin 2) * 1 + 1 * 0 = 0; omega
    | ⟨1, _⟩ => show win5_4.index t (1 : Fin 2) * 128 + 1 * q.val = q.val; omega
  exact pay5_bn_block (V c (Pipeline.arrRef spec5 0)) (V c (Pipeline.arrRef spec5 1)) (V c (Pipeline.arrRef spec5 2)) (V c (Pipeline.arrRef spec5 3)) (V c (Pipeline.arrRef spec5 4)) (iblk5 V c 0 t) (iblk5 V c 1 t) (iblk5 V c 2 t) (iblk5 V c 3 t) (iblk5 V c 4 t) e p q
    (congrArg (V c (Pipeline.arrRef spec5 0)) h0) (congrArg (V c (Pipeline.arrRef spec5 1)) h1) (congrArg (V c (Pipeline.arrRef spec5 2)) h2) (congrArg (V c (Pipeline.arrRef spec5 3)) h3) (congrArg (V c (Pipeline.arrRef spec5 4)) h4)

/-- An index of the array is in point `t`'s block of the output window iff each coordinate is in the block's range on its axis. -/
theorem mem_blk5_5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v96).slice (win5_5.rect t)).set ↔ _
  rw [View.set_slice_whole, Rect.mem_set_unit]
  exact Iff.rfl

/-- Every index of the array is in some written-back block: row `r` is in the block of point `r / 5000`. -/
theorem covered5_5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht5⟩ := idx_onto5 ⟨(i 0).val / 5000, by omega⟩
  have q0 : win5_5.index t (0 : Fin 2) = (i 0).val / 5000 := congrFun ht5 0
  have q1 : win5_5.index t (1 : Fin 2) = 0 := congrFun ht5 1
  refine ⟨t, flush5_5 t, ?_⟩
  rw [mem_blk5_5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- THE ARRAY of the output window after the region: one function of the region-entry arrays. -/
theorem final5_5 (c : Dev nD) : (dat5 V c).arrAt 5 cfg5.N = G5_5 V c :=
  (dat5 V c).arrAt_eq_of_cover 5 (G5_5 V c) (fun t _ => flushed5_5_eq V c t) (covered5_5)

end Cert.KernelIdeal.Frm

end
-- ==== Proof.RefLayer1.lean ====
import proofs.«156566_j1202590843053_1_alg».proof.Proof.RefReadP
import proofs.«156566_j1202590843053_1_alg».proof.Proof.Steps

/-! Layer 1 of the reference as layer steps, over layer 0's output and the once-updated edge features. -/

set_option maxRecDepth 16384

noncomputable section

namespace Cert.RefLayer

open Cert.ReferenceIdeal Cert.ReferenceIdeal.Gen Cert.ReferenceIdeal.ReadP Cert.RefRel
open Idealize.ShloMosaic Idealize.ShloMosaic.ValueIdx
open scoped BigOperators

/-- Layer 1's relation update of the edge features. -/
theorem v115_eq (x1 : (⟨S640000x128, .f32⟩ : BufTy).Contents (Elt Ideal)) (x6 : (⟨S3x128x128, .f32⟩ : BufTy).Contents (Elt Ideal)) (x7 : (⟨S3x128, .f32⟩ : BufTy).Contents (Elt Ideal)) :
    val_main_v115 (F := Ideal) x1 x6 x7 = relStep (val_main_v47 (F := Ideal) x1 x6 x7) x6 x7 1 :=
  rel_layer1 (val_main_v47 (F := Ideal) x1 x6 x7) x6 x7

/-- Layer 1's messages: the gathered source features times the edge features, through the layer's message weights,
    plus the message bias (the relation update's shape, on the entrywise product). -/
theorem v93_eq (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) :
    val_main_v93 (F := Ideal) x0 x1 x2 x3 x4 x5 x6 x7 x8 x9 x10 = msgStep (val_main_v84 (F := Ideal) x0 x1 x2 x3 x4 x5 x8 x9 x10) (val_main_v47 (F := Ideal) x1 x6 x7) x4 x5 1 :=
  rel_layer1 (mulf (F := Ideal) (val_main_v84 (F := Ideal) x0 x1 x2 x3 x4 x5 x8 x9 x10) (val_main_v47 (F := Ideal) x1 x6 x7)) x4 x5

/-- Layer 1's features before normalisation: the divided neighbour sum plus the node's own features times the
    layer's self weights, plus the self bias. -/
theorem v107_eq (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) :
    val_main_v107 (F := Ideal) x0 x1 x2 x3 x4 x5 x6 x7 x8 x9 x10 = nodeStep (val_main_v98 (F := Ideal) x0 x1 x2 x3 x4 x5 x6 x7 x8 x9 x10) (val_main_v77 (F := Ideal) x0 x1 x2 x3 x4 x5 x8 x9 x10) x2 x3 1 := by
  funext i
  obtain ⟨n, f, rfl⟩ : ∃ (n : Fin 50000) (f : Fin 128), i = ix2 n f := ⟨i 0, i 1, eq_ix2 i⟩
  rw [val_main_v107_apply, val_main_v102_apply, val_main_v101_apply, val_main_v106_apply, val_main_v105_apply, val_main_v104_apply, val_main_v103_apply]
  simp only [Ideal.addf_def]
  unfold nodeStep
  refine congr (congrArg HAdd.hAdd (congrArg ((val_main_v98 (F := Ideal) x0 x1 x2 x3 x4 x5 x6 x7 x8 x9 x10) (ix2 n f) + ·) (Finset.sum_congr rfl fun d _ => ?_))) ?_
  · rw [val_main_v100_apply, val_main_v99_apply]
    refine congr (congrArg HMul.hMul (congrArg _ (funext fun a => Fin.ext (by
      match a with
      | ⟨0, _⟩ => rfl
      | ⟨1, _⟩ => rfl)))) (congrArg _ (funext fun a => Fin.ext (by
      have hf := f.isLt; have hd := d.isLt
      match a with
      | ⟨0, _⟩ => rfl
      | ⟨1, _⟩ => show (f.val * 128 + d.val) / 128 % 128 = f.val; omega
      | ⟨2, _⟩ => show (f.val * 128 + d.val) % 128 = d.val; omega)))
  · refine congrArg _ (funext fun a => Fin.ext (by
      have hf := f.isLt
      match a with
      | ⟨0, _⟩ => rfl
      | ⟨1, _⟩ => show f.val % 128 = f.val; omega))

/-! ## Layer 1: the normalisation and the rectifier -/

/-- The column mean as the reference computes it: the column's sum from zero, divided by 50000. -/
theorem mean_at1 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (f : Fin 128) :
    (val_main_v122 (F := Ideal) x0 x1 x2 x3 x4 x5 x6 x7 x8 x9 x10) (ix1 f) = colMean (val_main_v107 (F := Ideal) x0 x1 x2 x3 x4 x5 x6 x7 x8 x9 x10) f := by
  rw [val_main_v122_apply, val_main_v120_apply, val_main_v121_apply, val_main_cst_13_apply, val_main_cst_12_apply]
  simp only [Ideal.hostDivf_def, Ideal.ofBits_def, Ideal.ofBits_zero_f32, zero_add]
  unfold colMean
  have e : ∀ n : Fin 50000, idx_main_v120 (ix1 f) n = ix2 n f := fun n => funext fun a => Fin.ext (by
      match a with
      | ⟨0, _⟩ => rfl
      | ⟨1, _⟩ => rfl)
  simp only [e]

/-- An entry's deviation from its column's mean. -/
theorem dev_at1 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (n : Fin 50000) (f : Fin 128) :
    (val_main_v125 (F := Ideal) x0 x1 x2 x3 x4 x5 x6 x7 x8 x9 x10) (ix2 n f) = (val_main_v107 (F := Ideal) x0 x1 x2 x3 x4 x5 x6 x7 x8 x9 x10) (ix2 n f) - colMean (val_main_v107 (F := Ideal) x0 x1 x2 x3 x4 x5 x6 x7 x8 x9 x10) f := by
  rw [val_main_v125_apply, val_main_v124_apply, val_main_v123_apply, Ideal.subf_def,
    show idx_main_v123 (idx_main_v124 (ix2 n f)) = ix1 f from funext fun a => Fin.ext (by
      match a with
      | ⟨0, _⟩ => rfl), mean_at1]

/-- The column variance as the reference computes it: the sum from zero of the squared deviations, divided by 50000. -/
theorem var_at1 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (f : Fin 128) :
    (val_main_v129 (F := Ideal) x0 x1 x2 x3 x4 x5 x6 x7 x8 x9 x10) (ix1 f) = colVar (val_main_v107 (F := Ideal) x0 x1 x2 x3 x4 x5 x6 x7 x8 x9 x10) f := by
  rw [val_main_v129_apply, val_main_v127_apply, val_main_v128_apply, val_main_cst_15_apply, val_main_cst_14_apply]
  simp only [Ideal.hostDivf_def, Ideal.ofBits_def, Ideal.ofBits_zero_f32, zero_add]
  unfold colVar
  have e : ∀ n : Fin 50000, (val_main_v126 (F := Ideal) x0 x1 x2 x3 x4 x5 x6 x7 x8 x9 x10) (idx_main_v127 (ix1 f) n)
      = ((val_main_v107 (F := Ideal) x0 x1 x2 x3 x4 x5 x6 x7 x8 x9 x10) (ix2 n f) - colMean (val_main_v107 (F := Ideal) x0 x1 x2 x3 x4 x5 x6 x7 x8 x9 x10) f) * ((val_main_v107 (F := Ideal) x0 x1 x2 x3 x4 x5 x6 x7 x8 x9 x10) (ix2 n f) - colMean (val_main_v107 (F := Ideal) x0 x1 x2 x3 x4 x5 x6 x7 x8 x9 x10) f) := fun n => by
    rw [show idx_main_v127 (ix1 f) n = ix2 n f from funext fun a => Fin.ext (by
      match a with
      | ⟨0, _⟩ => rfl
      | ⟨1, _⟩ => rfl), val_main_v126_apply, Ideal.mulf_def, dev_at1]
  simp only [e]

/-- The reciprocal square root of the column variance plus ε. -/
theorem rs_at1 (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) (f : Fin 128) :
    (val_main_v135 (F := Ideal) x0 x1 x2 x3 x4 x5 x6 x7 x8 x9 x10) (ix1 f) = Ideal.rsqrt (colVar (val_main_v107 (F := Ideal) x0 x1 x2 x3 x4 x5 x6 x7 x8 x9 x10) f + Ideal.ofBits .f32 0x3727C5AC#32) := by
  rw [val_main_v135_apply, Ideal.hostUnary_rsqrt_def, val_main_v134_apply, Ideal.addf_def, var_at1, val_main_v133_apply, val_main_cst_16_apply, Ideal.ofBits_def]

/-- Layer 1's output: each column normalised by its mean and variance, scaled, shifted and clamped at zero from below. -/
theorem v145_eq (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) :
    val_main_v145 (F := Ideal) x0 x1 x2 x3 x4 x5 x6 x7 x8 x9 x10 = bnStep (val_main_v107 (F := Ideal) x0 x1 x2 x3 x4 x5 x6 x7 x8 x9 x10) x8 x9 1 := by
  funext i
  obtain ⟨n, f, rfl⟩ : ∃ (n : Fin 50000) (f : Fin 128), i = ix2 n f := ⟨i 0, i 1, eq_ix2 i⟩
  rw [val_main_v145_apply, val_main_v144_apply, val_main_v141_apply, val_main_v138_apply, val_main_v132_apply, val_main_v131_apply, val_main_v130_apply, val_main_v137_apply, val_main_v136_apply,
    val_main_v140_apply, val_main_v139_apply, val_main_v117_apply, val_main_v116_apply, val_main_v143_apply, val_main_v142_apply, val_main_v119_apply, val_main_v118_apply, val_main_call1_v0_apply, val_main_call1_cst_apply]
  simp only [Ideal.maximumf_def, Ideal.addf_def, Ideal.mulf_def, Ideal.subf_def, Ideal.ofBits_def, Ideal.ofBits_zero_f32]
  rw [show idx_main_v130 (idx_main_v131 (ix2 n f)) = ix1 f from funext fun a => Fin.ext (by
      match a with
      | ⟨0, _⟩ => rfl), mean_at1,
    show idx_main_v136 (idx_main_v137 (ix2 n f)) = ix1 f from funext fun a => Fin.ext (by
      match a with
      | ⟨0, _⟩ => rfl), rs_at1,
    show idx_main_v116 (idx_main_v117 (idx_main_v139 (idx_main_v140 (ix2 n f)))) = ix2 1 f from funext fun a => Fin.ext (by
      match a with
      | ⟨0, _⟩ => rfl
      | ⟨1, _⟩ => have hf := f.isLt; show f.val % 128 = f.val; omega),
    show idx_main_v118 (idx_main_v119 (idx_main_v142 (idx_main_v143 (ix2 n f)))) = ix2 1 f from funext fun a => Fin.ext (by
      match a with
      | ⟨0, _⟩ => rfl
      | ⟨1, _⟩ => have hf := f.isLt; show f.val % 128 = f.val; omega)]
  rfl

end Cert.RefLayer

end
-- ==== Proof.KiL1.lean ====
import proofs.«156566_j1202590843053_1_alg».proof.Proof.KiRun
import proofs.«156566_j1202590843053_1_alg».proof.Proof.RefReadP
import proofs.«156566_j1202590843053_1_alg».proof.Proof.KiArgs
import proofs.«156566_j1202590843053_1_alg».proof.Proof.KiL0a
import proofs.«156566_j1202590843053_1_alg».proof.Proof.KiL0
import proofs.«156566_j1202590843053_1_alg».proof.Proof.KiEaChain
import proofs.«156566_j1202590843053_1_alg».proof.Proof.KiEdgeValue3
import proofs.«156566_j1202590843053_1_alg».proof.Proof.KiNodeFinal4
import proofs.«156566_j1202590843053_1_alg».proof.Proof.KiBnFinal5
import proofs.«156566_j1202590843053_1_alg».proof.Proof.KiBnHost
import proofs.«156566_j1202590843053_1_alg».proof.Proof.RefValue
import proofs.«156566_j1202590843053_1_alg».proof.Proof.KiBridgeMath
import proofs.«156566_j1202590843053_1_alg».proof.Proof.RefLayer1
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.StableHlo Idealize.ShloMosaic.ValueIdx
open Idealize.SL Idealize.SL.Sem
open Cert.ReferenceIdeal.ReadP

variable (m : (ℓ : Loc nD τ sig) → Buf (Elt Ideal) ℓ) (ρ : Dev nD → PrngReg)

open Cert.RefLayer Cert.RefRel Cert.LibBnTwoForms

/-! # Layer 1 on the kernel's side: every array the kernel's segments leave is the reference's stage -/

/-- The node features the layer starts from: what the previous layer's normalisation region left. -/
theorem xsrc1_eq (c : Dev nD) (hA : ArgsReal m c) : (W6 m ρ c (Proc.devRef .tc main_v54) : S50000x128.Idx → EReal) = val_main_v77 (F := Ideal) (a0 m c) (a1 m c) (a2 m c) (a3 m c) (a4 m c) (a5 m c) (a8 m c) (a9 m c) (a10 m c) := xo0_eq m ρ c hA
/-- The edge features the layer starts from: what the previous layer's edge region left. -/
theorem ea1_in (c : Dev nD) : (V7 m ρ c main_v30_1 : S640000x128.Idx → EReal) = val_main_v47 (F := Ideal) (a1 m c) (a6 m c) (a7 m c) := by
  refine ((W7_host m ρ c main_v30_1 (by decide)).trans <|
    (W6_keep m ρ c main_v30_1 (by decide)).trans <|
    (W5_host m ρ c main_v30_1 (by decide)).trans <|
    (W4_keep m ρ c main_v30_1 (by decide)).trans <|
    (W3_host m ρ c main_v30_1 (by decide))).trans ?_
  rw [ea1_eq m ρ c, ← v47_eq]

theorem src1_eq (c : Dev nD) : (W6 m ρ c (Proc.devRef .tc main_v1) : S640000.Idx → BitVec 32) = val_main_v1 (F := Ideal) (a10 m c) :=
  ((W6_keep m ρ c main_v1 (by decide)).trans <|
    (W5_host m ρ c main_v1 (by decide)).trans <|
    (W4_keep m ρ c main_v1 (by decide)).trans <|
    (W3_host m ρ c main_v1 (by decide)).trans <|
    (W2_keep m ρ c main_v1 (by decide))).trans (src_eq m ρ c)

set_option maxHeartbeats 4000000 in
set_option maxRecDepth 200000 in
/-- The gathered source rows of layer 1: the same host operations on the same operands. -/
theorem xg1_eq' (c : Dev nD) (hA : ArgsReal m c) : (V7 m ρ c main_v61 : S640000x128.Idx → EReal) = val_main_v84 (F := Ideal) (a0 m c) (a1 m c) (a2 m c) (a3 m c) (a4 m c) (a5 m c) (a8 m c) (a9 m c) (a10 m c) := by
  show StableHlo.after hostOps3 (W6 m ρ c) (Proc.devRef .tc main_v61) = _
  after_results
  rw [src1_eq m ρ c, xsrc1_eq m ρ c hA]
  rfl

/-- The messages of layer 1. -/
theorem lmsg1_eq (c : Dev nD) (hA : ArgsReal m c) : (W8 m ρ c (Proc.devRef .tc main_v72_0) : S640000x128.Idx → EReal) = val_main_v93 (F := Ideal) (a0 m c) (a1 m c) (a2 m c) (a3 m c) (a4 m c) (a5 m c) (a6 m c) (a7 m c) (a8 m c) (a9 m c) (a10 m c) := by
  refine (W8_arr m ρ c 6).trans ?_
  rw [final3_6]
  refine (edgeMsg_eq_msgStep _ _ _ _ _ _ 1 (v63_at m ρ c) (v70_at m ρ c)).trans ?_
  rw [v93_eq]
  exact congrArg₂ (fun a b => msgStep a b _ _ 1) (xg1_eq' m ρ c hA) (ea1_in m ρ c)

theorem dst1_eq (c : Dev nD) : (W8 m ρ c (Proc.devRef .tc main_v3) : S640000.Idx → BitVec 32) = val_main_v3 (F := Ideal) (a10 m c) :=
  ((W8_keep m ρ c main_v3 (by decide)).trans <|
    (W7_host m ρ c main_v3 (by decide)).trans <|
    (W6_keep m ρ c main_v3 (by decide)).trans <|
    (W5_host m ρ c main_v3 (by decide)).trans <|
    (W4_keep m ρ c main_v3 (by decide)).trans <|
    (W3_host m ρ c main_v3 (by decide)).trans <|
    (W2_keep m ρ c main_v3 (by decide))).trans (dst_eq m ρ c)
theorem den1_eq (c : Dev nD) : (W8 m ρ c (Proc.devRef .tc main_v9) : S50000x1.Idx → EReal) = val_main_v9 (F := Ideal) (a10 m c) :=
  ((W8_keep m ρ c main_v9 (by decide)).trans <|
    (W7_host m ρ c main_v9 (by decide)).trans <|
    (W6_keep m ρ c main_v9 (by decide)).trans <|
    (W5_host m ρ c main_v9 (by decide)).trans <|
    (W4_keep m ρ c main_v9 (by decide)).trans <|
    (W3_host m ρ c main_v9 (by decide)).trans <|
    (W2_keep m ρ c main_v9 (by decide))).trans (denom_eq m ρ c)

set_option maxHeartbeats 4000000 in
set_option maxRecDepth 200000 in
/-- The neighbour mean of layer 1: the same scatter-add and division on the same operands. -/
theorem agg1_eq (c : Dev nD) (hA : ArgsReal m c) : (V9 m ρ c main_v77 : S50000x128.Idx → EReal) = val_main_v98 (F := Ideal) (a0 m c) (a1 m c) (a2 m c) (a3 m c) (a4 m c) (a5 m c) (a6 m c) (a7 m c) (a8 m c) (a9 m c) (a10 m c) := by
  show StableHlo.after hostOps4 (W8 m ρ c) (Proc.devRef .tc main_v77) = _
  after_results
  rw [dst1_eq m ρ c, den1_eq m ρ c, lmsg1_eq m ρ c hA]
  rfl

/-- The node features the node region reads: unchanged since the layer began. -/
theorem xnode1_eq (c : Dev nD) (hA : ArgsReal m c) : (V9 m ρ c main_v54 : S50000x128.Idx → EReal) = val_main_v77 (F := Ideal) (a0 m c) (a1 m c) (a2 m c) (a3 m c) (a4 m c) (a5 m c) (a8 m c) (a9 m c) (a10 m c) :=
  ((W9_host m ρ c main_v54 (by decide)).trans <|
    (W8_keep m ρ c main_v54 (by decide)).trans <|
    (W7_host m ρ c main_v54 (by decide))).trans (xsrc1_eq m ρ c hA)

/-- The pre-normalisation features of layer 1, as one function of the region-entry arrays. -/
theorem G1_eq (c : Dev nD) (hA : ArgsReal m c) : G4_4 (V9 m ρ) c = val_main_v107 (F := Ideal) (a0 m c) (a1 m c) (a2 m c) (a3 m c) (a4 m c) (a5 m c) (a6 m c) (a7 m c) (a8 m c) (a9 m c) (a10 m c) := by
  refine (nodePre_eq_nodeStep _ _ _ _ _ _ 1 (v79_at m ρ c) (v82_at m ρ c)).trans ?_
  rw [v107_eq]
  exact congrArg₂ (fun a b => nodeStep a b _ _ 1) (agg1_eq m ρ c hA) (xnode1_eq m ρ c hA)

theorem h1_eq (c : Dev nD) (hA : ArgsReal m c) : (W10 m ρ c (Proc.devRef .tc main_v83_0) : S50000x128.Idx → EReal) = val_main_v107 (F := Ideal) (a0 m c) (a1 m c) (a2 m c) (a3 m c) (a4 m c) (a5 m c) (a6 m c) (a7 m c) (a8 m c) (a9 m c) (a10 m c) := by
  refine (W10_arr m ρ c 4).trans ?_
  rw [final4_4]
  exact G1_eq m ρ c hA

/-- The column sums and column sums of squares the node region leaves. -/
theorem s1_eq (c : Dev nD) (hA : ArgsReal m c) : (W10 m ρ c (Proc.devRef .tc main_v83_1) : S1x128.Idx → EReal) = colSum (val_main_v107 (F := Ideal) (a0 m c) (a1 m c) (a2 m c) (a3 m c) (a4 m c) (a5 m c) (a6 m c) (a7 m c) (a8 m c) (a9 m c) (a10 m c)) := by
  refine (W10_arr m ρ c 5).trans ?_
  rw [final4_5, G1_eq m ρ c hA]
theorem sq1_eq (c : Dev nD) (hA : ArgsReal m c) : (W10 m ρ c (Proc.devRef .tc main_v83_2) : S1x128.Idx → EReal) = colSumSq (val_main_v107 (F := Ideal) (a0 m c) (a1 m c) (a2 m c) (a3 m c) (a4 m c) (a5 m c) (a6 m c) (a7 m c) (a8 m c) (a9 m c) (a10 m c)) := by
  refine (W10_arr m ρ c 6).trans ?_
  rw [final4_6, G1_eq m ρ c hA]

/-- The normalised features of layer 1: the next layer's node features. Here the inputs' finiteness is used: the
    two spellings of the variance agree on real columns. -/
theorem xo1_eq (c : Dev nD) (hA : ArgsReal m c) : (W12 m ρ c (Proc.devRef .tc main_v96) : S50000x128.Idx → EReal) = val_main_v145 (F := Ideal) (a0 m c) (a1 m c) (a2 m c) (a3 m c) (a4 m c) (a5 m c) (a6 m c) (a7 m c) (a8 m c) (a9 m c) (a10 m c) := by
  refine (W12_arr m ρ c 5).trans ?_
  rw [final5_5]
  have hh : (V11 m ρ c main_v83_0 : S50000x128.Idx → EReal) = val_main_v107 (F := Ideal) (a0 m c) (a1 m c) (a2 m c) (a3 m c) (a4 m c) (a5 m c) (a6 m c) (a7 m c) (a8 m c) (a9 m c) (a10 m c) :=
    (W11_host m ρ c main_v83_0 (by decide)).trans (h1_eq m ρ c hA)
  show bnK (V11 m ρ c main_v83_0) (V11 m ρ c main_v85) (V11 m ρ c main_v89) (V11 m ρ c main_v94) (V11 m ρ c main_v95) = _
  rw [hh, v145_eq]
  refine bnK_eq_bnStep _ (Cert.RefValue.real_h1 (a0 m c) (a1 m c) (a2 m c) (a3 m c) (a4 m c) (a5 m c) (a6 m c) (a7 m c) (a8 m c) (a9 m c) (a10 m c) hA.1 hA.2.1 hA.2.2.1 hA.2.2.2.1 hA.2.2.2.2.1 hA.2.2.2.2.2.1 hA.2.2.2.2.2.2.1 hA.2.2.2.2.2.2.2.1 hA.2.2.2.2.2.2.2.2.1 hA.2.2.2.2.2.2.2.2.2) _ _ _ _ _ _ 1 (fun f => ?_) (fun f => ?_) (v94_at m ρ c) (v95_at m ρ c)
  · rw [v85_at, s1_eq m ρ c hA]; rfl
  · rw [v89_at, s1_eq m ρ c hA, sq1_eq m ρ c hA]; rfl

end Cert.KernelIdeal.Frm

end
-- ==== Proof.KiNodePieces7.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import proofs.«156566_j1202590843053_1_alg».proof.Proof.KiNode7
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The node kernel of region 7: what its whole-body runs leave, as the payloads of the argument blocks -/

theorem hz2 : (![0, 0] : Fin 2 → Nat) = fun _ => 0 := funext fun a => by fin_cases a <;> rfl

/-- A load through the whole rectangle after stores the last of which went through the whole rectangle reads that
    last store's payload. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The first point: the accumulators are reset, then the block is added -/

theorem runA7_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) : View.canon (kernelRun7_A c i arg1 harg1 arg2 harg2 arg3 harg3 arg4 harg4 arg5 harg5 arg6 harg6 arg7 harg7 arg8 harg8 arg9 harg9 hc0 x0 x1 x2 x3).1 = k7_pay3 x1 x2 x3 x0 := by
  unfold kernelRun7_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA7_s0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) : View.canon (kernelRun7_A c i arg1 harg1 arg2 harg2 arg3 harg3 arg4 harg4 arg5 harg5 arg6 harg6 arg7 harg7 arg8 harg8 arg9 harg9 hc0 x0 x1 x2 x3).2.2.2.1 = k7_pay4 x1 x2 x3 x0 (k7_pay1 (F := F)) := by
  unfold kernelRun7_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA7_s1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) : View.canon (kernelRun7_A c i arg1 harg1 arg2 harg2 arg3 harg3 arg4 harg4 arg5 harg5 arg6 harg6 arg7 harg7 arg8 harg8 arg9 harg9 hc0 x0 x1 x2 x3).2.2.2.2.1 = k7_pay5 x1 x2 x3 x0 (k7_pay2 (F := F)) := by
  unfold kernelRun7_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA7_5 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) : View.canon (kernelRun7_A c i arg1 harg1 arg2 harg2 arg3 harg3 arg4 harg4 arg5 harg5 arg6 harg6 arg7 harg7 arg8 harg8 arg9 harg9 hc0 x0 x1 x2 x3).2.1 = k7_pay4 x1 x2 x3 x0 (k7_pay1 (F := F)) := by
  unfold kernelRun7_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runA7_6 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) : View.canon (kernelRun7_A c i arg1 harg1 arg2 harg2 arg3 harg3 arg4 harg4 arg5 harg5 arg6 harg6 arg7 harg7 arg8 harg8 arg9 harg9 hc0 x0 x1 x2 x3).2.2.1 = k7_pay5 x1 x2 x3 x0 (k7_pay2 (F := F)) := by
  unfold kernelRun7_A; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]

/-! ## A later point: the accumulators continue from the carried contents -/

theorem runB7_4 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun7_B c i arg1 harg1 arg2 harg2 arg3 harg3 arg4 harg4 arg5 harg5 arg6 harg6 arg7 harg7 arg8 harg8 arg9 harg9 hc0 x0 x1 x2 x3 xs0 xs1).1 = k7_pay3 x1 x2 x3 x0 := by
  unfold kernelRun7_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB7_s0 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun7_B c i arg1 harg1 arg2 harg2 arg3 harg3 arg4 harg4 arg5 harg5 arg6 harg6 arg7 harg7 arg8 harg8 arg9 harg9 hc0 x0 x1 x2 x3 xs0 xs1).2.2.2.1 = k7_pay4 x1 x2 x3 x0 xs0 := by
  unfold kernelRun7_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB7_s1 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun7_B c i arg1 harg1 arg2 harg2 arg3 harg3 arg4 harg4 arg5 harg5 arg6 harg6 arg7 harg7 arg8 harg8 arg9 harg9 hc0 x0 x1 x2 x3 xs0 xs1).2.2.2.2.1 = k7_pay5 x1 x2 x3 x0 xs1 := by
  unfold kernelRun7_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB7_5 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun7_B c i arg1 harg1 arg2 harg2 arg3 harg3 arg4 harg4 arg5 harg5 arg6 harg6 arg7 harg7 arg8 harg8 arg9 harg9 hc0 x0 x1 x2 x3 xs0 xs1).2.1 = k7_pay4 x1 x2 x3 x0 xs0 := by
  unfold kernelRun7_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]
theorem runB7_6 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) : View.canon (kernelRun7_B c i arg1 harg1 arg2 harg2 arg3 harg3 arg4 harg4 arg5 harg5 arg6 harg6 arg7 harg7 arg8 harg8 arg9 harg9 hc0 x0 x1 x2 x3 xs0 xs1).2.2.1 = k7_pay5 x1 x2 x3 x0 xs1 := by
  unfold kernelRun7_B; dsimp only; sl_unfold_words
  simp only [readCov_cons_unit_zero (S := S1x128) _ hz2, View.readCov_unit_zero (S := S1x128) _ hz2, View.canon_cons_unit_zero (S := S1x128) hz2, View.canon_unit_zero (S := S1x128) hz2, View.canon_unit_zero (S := S5000x128) hz2, View.readAt_eq_ld,
    Memref.IsWhole.read_unread, View.ld_unit_zero (S := S5000x128) hz2, View.ld_unit_zero (S := S128x128) hz2, View.ld_unit_zero (S := S1x128) hz2]

end Cert.KernelIdeal.Frm

end
-- ==== Proof.KiNodeAcc7.lean ====
import proofs.«156566_j1202590843053_1_alg».proof.Proof.Gen.KernelIdeal.Launch
import proofs.«156566_j1202590843053_1_alg».proof.Proof.Gen.KernelIdeal.Skeleton
import proofs.«156566_j1202590843053_1_alg».proof.Proof.Gen.KernelIdeal.Points
import proofs.«156566_j1202590843053_1_alg».proof.Proof.KiNodePieces7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node kernel of region 7: what it leaves point by point, in the payloads of the points' blocks -/

/-- The pre-normalisation rows of block `t`: the body's first payload of the point's four input blocks
    (`(x · w + b) + agg` on the block's rows). -/
def hblk7 (c : Dev nD) (t : Fin cfg7.N) : Vec F S5000x128 .f32 :=
  k7_pay3 (blk7_1 V c t) (blk7_2 V c t) (blk7_3 V c t) (blk7_0 V c t)

/-- The running column sums after point `n`: reset to the zero row at the first point, then each point adds its block's. -/
def acc7 (c : Dev nD) : (n : ℕ) → n < cfg7.N → Vec F S1x128 .f32
  | 0, hn => k7_pay4 (blk7_1 V c ⟨0, hn⟩) (blk7_2 V c ⟨0, hn⟩) (blk7_3 V c ⟨0, hn⟩) (blk7_0 V c ⟨0, hn⟩) (k7_pay1 (F := F))
  | n + 1, hn => k7_pay4 (blk7_1 V c ⟨n + 1, hn⟩) (blk7_2 V c ⟨n + 1, hn⟩) (blk7_3 V c ⟨n + 1, hn⟩) (blk7_0 V c ⟨n + 1, hn⟩) (acc7 c n (Nat.lt_of_succ_lt hn))

/-- The running column sums of squares after point `n`. -/
def accSq7 (c : Dev nD) : (n : ℕ) → n < cfg7.N → Vec F S1x128 .f32
  | 0, hn => k7_pay5 (blk7_1 V c ⟨0, hn⟩) (blk7_2 V c ⟨0, hn⟩) (blk7_3 V c ⟨0, hn⟩) (blk7_0 V c ⟨0, hn⟩) (k7_pay2 (F := F))
  | n + 1, hn => k7_pay5 (blk7_1 V c ⟨n + 1, hn⟩) (blk7_2 V c ⟨n + 1, hn⟩) (blk7_3 V c ⟨n + 1, hn⟩) (blk7_0 V c ⟨n + 1, hn⟩) (accSq7 c n (Nat.lt_of_succ_lt hn))

set_option maxHeartbeats 1000000 in
/-- The first point's five contents, in the payloads, on any staging memrefs. -/
theorem tupleA7 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i)
    (x0 : Vec F S5000x128 .f32) (x1 : Vec F S5000x128 .f32) (x2 : Vec F S128x128 .f32) (x3 : Vec F S1x128 .f32) :
    (View.canon (kernelRun7_A c i arg1 harg1 arg2 harg2 arg3 harg3 arg4 harg4 arg5 harg5 arg6 harg6 arg7 harg7 arg8 harg8 arg9 harg9 hc0 x0 x1 x2 x3).1, View.canon (kernelRun7_A c i arg1 harg1 arg2 harg2 arg3 harg3 arg4 harg4 arg5 harg5 arg6 harg6 arg7 harg7 arg8 harg8 arg9 harg9 hc0 x0 x1 x2 x3).2.1, View.canon (kernelRun7_A c i arg1 harg1 arg2 harg2 arg3 harg3 arg4 harg4 arg5 harg5 arg6 harg6 arg7 harg7 arg8 harg8 arg9 harg9 hc0 x0 x1 x2 x3).2.2.1, View.canon (kernelRun7_A c i arg1 harg1 arg2 harg2 arg3 harg3 arg4 harg4 arg5 harg5 arg6 harg6 arg7 harg7 arg8 harg8 arg9 harg9 hc0 x0 x1 x2 x3).2.2.2.1, View.canon (kernelRun7_A c i arg1 harg1 arg2 harg2 arg3 harg3 arg4 harg4 arg5 harg5 arg6 harg6 arg7 harg7 arg8 harg8 arg9 harg9 hc0 x0 x1 x2 x3).2.2.2.2.1)
      = (k7_pay3 x1 x2 x3 x0, k7_pay4 x1 x2 x3 x0 (k7_pay1 (F := F)), k7_pay5 x1 x2 x3 x0 (k7_pay2 (F := F)),
          k7_pay4 x1 x2 x3 x0 (k7_pay1 (F := F)), k7_pay5 x1 x2 x3 x0 (k7_pay2 (F := F))) := by
  rw [runA7_4 c i arg1 harg1 arg2 harg2 arg3 harg3 arg4 harg4 arg5 harg5 arg6 harg6 arg7 harg7 arg8 harg8 arg9 harg9 hc0 x0 x1 x2 x3, runA7_5 c i arg1 harg1 arg2 harg2 arg3 harg3 arg4 harg4 arg5 harg5 arg6 harg6 arg7 harg7 arg8 harg8 arg9 harg9 hc0 x0 x1 x2 x3, runA7_6 c i arg1 harg1 arg2 harg2 arg3 harg3 arg4 harg4 arg5 harg5 arg6 harg6 arg7 harg7 arg8 harg8 arg9 harg9 hc0 x0 x1 x2 x3, runA7_s0 c i arg1 harg1 arg2 harg2 arg3 harg3 arg4 harg4 arg5 harg5 arg6 harg6 arg7 harg7 arg8 harg8 arg9 harg9 hc0 x0 x1 x2 x3, runA7_s1 c i arg1 harg1 arg2 harg2 arg3 harg3 arg4 harg4 arg5 harg5 arg6 harg6 arg7 harg7 arg8 harg8 arg9 harg9 hc0 x0 x1 x2 x3]

set_option maxHeartbeats 1000000 in
/-- A later point's five contents, in the payloads, on any staging memrefs. -/
theorem tupleB7 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i)
    (x0 : Vec F S5000x128 .f32) (x1 : Vec F S5000x128 .f32) (x2 : Vec F S128x128 .f32) (x3 : Vec F S1x128 .f32) (xs0 : Vec F S1x128 .f32) (xs1 : Vec F S1x128 .f32) :
    (View.canon (kernelRun7_B c i arg1 harg1 arg2 harg2 arg3 harg3 arg4 harg4 arg5 harg5 arg6 harg6 arg7 harg7 arg8 harg8 arg9 harg9 hc0 x0 x1 x2 x3 xs0 xs1).1, View.canon (kernelRun7_B c i arg1 harg1 arg2 harg2 arg3 harg3 arg4 harg4 arg5 harg5 arg6 harg6 arg7 harg7 arg8 harg8 arg9 harg9 hc0 x0 x1 x2 x3 xs0 xs1).2.1, View.canon (kernelRun7_B c i arg1 harg1 arg2 harg2 arg3 harg3 arg4 harg4 arg5 harg5 arg6 harg6 arg7 harg7 arg8 harg8 arg9 harg9 hc0 x0 x1 x2 x3 xs0 xs1).2.2.1, View.canon (kernelRun7_B c i arg1 harg1 arg2 harg2 arg3 harg3 arg4 harg4 arg5 harg5 arg6 harg6 arg7 harg7 arg8 harg8 arg9 harg9 hc0 x0 x1 x2 x3 xs0 xs1).2.2.2.1, View.canon (kernelRun7_B c i arg1 harg1 arg2 harg2 arg3 harg3 arg4 harg4 arg5 harg5 arg6 harg6 arg7 harg7 arg8 harg8 arg9 harg9 hc0 x0 x1 x2 x3 xs0 xs1).2.2.2.2.1)
      = (k7_pay3 x1 x2 x3 x0, k7_pay4 x1 x2 x3 x0 xs0, k7_pay5 x1 x2 x3 x0 xs1, k7_pay4 x1 x2 x3 x0 xs0, k7_pay5 x1 x2 x3 x0 xs1) := by
  rw [runB7_4 c i arg1 harg1 arg2 harg2 arg3 harg3 arg4 harg4 arg5 harg5 arg6 harg6 arg7 harg7 arg8 harg8 arg9 harg9 hc0 x0 x1 x2 x3 xs0 xs1, runB7_5 c i arg1 harg1 arg2 harg2 arg3 harg3 arg4 harg4 arg5 harg5 arg6 harg6 arg7 harg7 arg8 harg8 arg9 harg9 hc0 x0 x1 x2 x3 xs0 xs1, runB7_6 c i arg1 harg1 arg2 harg2 arg3 harg3 arg4 harg4 arg5 harg5 arg6 harg6 arg7 harg7 arg8 harg8 arg9 harg9 hc0 x0 x1 x2 x3 xs0 xs1, runB7_s0 c i arg1 harg1 arg2 harg2 arg3 harg3 arg4 harg4 arg5 harg5 arg6 harg6 arg7 harg7 arg8 harg8 arg9 harg9 hc0 x0 x1 x2 x3 xs0 xs1, runB7_s1 c i arg1 harg1 arg2 harg2 arg3 harg3 arg4 harg4 arg5 harg5 arg6 harg6 arg7 harg7 arg8 harg8 arg9 harg9 hc0 x0 x1 x2 x3 xs0 xs1]

set_option maxHeartbeats 2000000 in
/-- The first point's five contents at the point's own memrefs and blocks. -/
theorem caseA7_eq (c : Dev nD) (t : Fin cfg7.N) (h0 : t.val = 0) :
    caseA7 V c t h0 = (hblk7 V c t,
      k7_pay4 (blk7_1 V c t) (blk7_2 V c t) (blk7_3 V c t) (blk7_0 V c t) (k7_pay1 (F := F)),
      k7_pay5 (blk7_1 V c t) (blk7_2 V c t) (blk7_3 V c t) (blk7_0 V c t) (k7_pay2 (F := F)),
      k7_pay4 (blk7_1 V c t) (blk7_2 V c t) (blk7_3 V c t) (blk7_0 V c t) (k7_pay1 (F := F)),
      k7_pay5 (blk7_1 V c t) (blk7_2 V c t) (blk7_3 V c t) (blk7_0 V c t) (k7_pay2 (F := F))) := by
  unfold caseA7 runA7 hblk7
  exact tupleA7 c _ _ _ _ _ _ _ _ _ _ _ _ _ _ _ _ _ _ _ _ (blk7_0 V c t) (blk7_1 V c t) (blk7_2 V c t) (blk7_3 V c t)

set_option maxHeartbeats 2000000 in
/-- A later point's five contents at the point's own memrefs and blocks, from the accumulators' contents it starts from. -/
theorem caseB7_eq (c : Dev nD) (t : Fin cfg7.N) (h0 : t.val ≠ 0) (s0 s1 : Vec F S1x128 .f32) :
    caseB7 V c t h0 s0 s1 = (hblk7 V c t,
      k7_pay4 (blk7_1 V c t) (blk7_2 V c t) (blk7_3 V c t) (blk7_0 V c t) s0,
      k7_pay5 (blk7_1 V c t) (blk7_2 V c t) (blk7_3 V c t) (blk7_0 V c t) s1,
      k7_pay4 (blk7_1 V c t) (blk7_2 V c t) (blk7_3 V c t) (blk7_0 V c t) s0,
      k7_pay5 (blk7_1 V c t) (blk7_2 V c t) (blk7_3 V c t) (blk7_0 V c t) s1) := by
  unfold caseB7 runB7 hblk7
  exact tupleB7 c _ _ _ _ _ _ _ _ _ _ _ _ _ _ _ _ _ _ _ _ (blk7_0 V c t) (blk7_1 V c t) (blk7_2 V c t) (blk7_3 V c t) s0 s1

/-- What every point leaves: the block's rows in the first output, the running sums in the other two outputs and in the
    two accumulators. -/
theorem outsAt7_eq (c : Dev nD) : ∀ (n : ℕ) (hn : n < cfg7.N),
    outsAt7 V c n hn = (hblk7 V c ⟨n, hn⟩, acc7 V c n hn, accSq7 V c n hn, acc7 V c n hn, accSq7 V c n hn)
  | 0, hn => caseA7_eq V c ⟨0, hn⟩ rfl
  | n + 1, hn => by
    show caseB7 V c ⟨n + 1, hn⟩ (Nat.succ_ne_zero n) (outsAt7 V c n (Nat.lt_of_succ_lt hn)).2.2.2.1 (outsAt7 V c n (Nat.lt_of_succ_lt hn)).2.2.2.2 = _
    rw [outsAt7_eq c n (Nat.lt_of_succ_lt hn)]
    exact caseB7_eq V c ⟨n + 1, hn⟩ (Nat.succ_ne_zero n) _ _

theorem after7_4_eq (c : Dev nD) (t : Fin cfg7.N) : (dat7 V c).after 4 t = hblk7 V c t := by
  rw [after7_4, outsAt7_eq]
theorem after7_5_eq (c : Dev nD) (t : Fin cfg7.N) : (dat7 V c).after 5 t = acc7 V c t.val t.isLt := by
  rw [after7_5, outsAt7_eq]
theorem after7_6_eq (c : Dev nD) (t : Fin cfg7.N) : (dat7 V c).after 6 t = accSq7 V c t.val t.isLt := by
  rw [after7_6, outsAt7_eq]

end Cert.KernelIdeal.Frm

end
-- ==== Proof.KiNodeVal7.lean ====
import proofs.«156566_j1202590843053_1_alg».proof.Proof.KiNodeAcc7
import proofs.«156566_j1202590843053_1_alg».proof.Proof.KiNodeDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.ValueIdx

/-! # The node kernel's stored values at an index, over the extended reals (region 7) -/

/-- The pre-normalisation value at row `p`, column `q` of the block: `((Σ_d x[p,d]·w[d,q]) + b[0,q]) + agg[p,q]`. -/
theorem k7_pay3_at (v3 : Vec Ideal S5000x128 .f32) (v5 : Vec Ideal S128x128 .f32) (v9 : Vec Ideal S1x128 .f32) (v13 : Vec Ideal S5000x128 .f32)
    (p : Fin 5000) (q : Fin 128) :
    k7_pay3 (F := Ideal) v3 v5 v9 v13 (ix2 p q) = ((∑ d : Fin 128, v3 (ix2 p d) * v5 (ix2 d q)) + v9 (ix2 0 q)) + v13 (ix2 p q) := by
  unfold k7_pay3
  simp only [shapeCast_self]
  exact congrArg₂ (· + ·) (congrArg₂ (· + ·) (node_matmul_at _ _ p q) (node_bias_at v9 p q)) rfl

/-- The accumulated column sum after a block: the carried row plus the block's column sums. -/
theorem k7_pay4_at (v3 : Vec Ideal S5000x128 .f32) (v5 : Vec Ideal S128x128 .f32) (v9 : Vec Ideal S1x128 .f32) (v13 : Vec Ideal S5000x128 .f32)
    (v17 : Vec Ideal S1x128 .f32) (q : Fin 128) :
    k7_pay4 (F := Ideal) v3 v5 v9 v13 v17 (ix2 0 q) = v17 (ix2 0 q) + ∑ p : Fin 5000, k7_pay3 (F := Ideal) v3 v5 v9 v13 (ix2 p q) := by
  unfold k7_pay4
  simp only [shapeCast_self]
  refine congrArg (v17 (ix2 0 q) + ·) ?_
  refine (shapeCast_a_1a_apply _ _ 0 q).trans ?_
  exact node_colsum_at _ q

/-- The accumulated column sum of squares after a block. -/
theorem k7_pay5_at (v3 : Vec Ideal S5000x128 .f32) (v5 : Vec Ideal S128x128 .f32) (v9 : Vec Ideal S1x128 .f32) (v13 : Vec Ideal S5000x128 .f32)
    (v24 : Vec Ideal S1x128 .f32) (q : Fin 128) :
    k7_pay5 (F := Ideal) v3 v5 v9 v13 v24 (ix2 0 q)
      = v24 (ix2 0 q) + ∑ p : Fin 5000, k7_pay3 (F := Ideal) v3 v5 v9 v13 (ix2 p q) * k7_pay3 (F := Ideal) v3 v5 v9 v13 (ix2 p q) := by
  unfold k7_pay5
  simp only [shapeCast_self]
  refine congrArg (v24 (ix2 0 q) + ·) ?_
  refine (shapeCast_a_1a_apply _ _ 0 q).trans ?_
  exact node_colsum_at _ q

/-- The reset rows are zero. -/
theorem k7_pay1_at (i : S1x128.Idx) : k7_pay1 (F := Ideal) i = 0 := by
  unfold k7_pay1
  simp only [shapeCast_self]
  exact Ideal.ofBits_zero_f32
theorem k7_pay2_at (i : S1x128.Idx) : k7_pay2 (F := Ideal) i = 0 := by
  unfold k7_pay2
  simp only [shapeCast_self]
  exact Ideal.ofBits_zero_f32

end Cert.KernelIdeal.Frm

end
-- ==== Proof.KiNodeFinal7.lean ====
/- THE VALUE of node region 7 at the exact instance (a float is an extended real). The region's first output tiles its
   50000x128 array by ten blocks of 5000 rows, every block written back: after the region it is the pre-normalisation
   node array `nodePre` of the four region-entry arrays (`final7_4`). Its other two outputs are 1x128 rows carried across
   the ten points in scratch accumulators and written back at the last point only: the running sums start from zero, every
   point adds its block's column sums (of squares), and ten tiles of 5000 rows regroup into the 50000 rows of a column,
   so they end as the column sums and the column sums of squares of that node array (`final7_5`, `final7_6`).
   Addition of extended reals is commutative and associative, so the regrouping needs no finiteness. -/
import proofs.«156566_j1202590843053_1_alg».proof.Proof.KiNode7
import proofs.«156566_j1202590843053_1_alg».proof.Proof.KiNodeVal7
import proofs.«156566_j1202590843053_1_alg».proof.Proof.KiNodeSpec
import proofs.«156566_j1202590843053_1_alg».proof.Proof.LibTileSums
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.ShloMosaic.Pipeline (Dat Cfg Window)

/-! ## The pre-normalisation value against the whole-array function -/

/-- When the loaded blocks are rows of the arrays `x`, `agg` (row `p` of the block being row `e` of the array) and the
    whole matrix and bias row, the stored value at row `p`, column `q` is the node array at row `e`, column `q`. -/
theorem pay7_pre_block (agg x : S50000x128.Idx → EReal) (w : S128x128.Idx → EReal) (b : S1x128.Idx → EReal)
    (v3 : Vec Ideal S5000x128 .f32) (v5 : Vec Ideal S128x128 .f32) (v9 : Vec Ideal S1x128 .f32) (v13 : Vec Ideal S5000x128 .f32)
    (e : Fin 50000) (p : Fin 5000) (q : Fin 128)
    (h3 : ∀ d : Fin 128, v3 (ix2 p d) = x (ix2 e d)) (h5 : ∀ d : Fin 128, v5 (ix2 d q) = w (ix2 d q))
    (h9 : v9 (ix2 0 q) = b (ix2 0 q)) (h13 : v13 (ix2 p q) = agg (ix2 e q)) :
    k7_pay3 (F := Ideal) v3 v5 v9 v13 (ix2 p q) = nodePre agg x w b (ix2 e q) := by
  refine (k7_pay3_at v3 v5 v9 v13 p q).trans ?_
  show _ = ((∑ d : Fin 128, x (ix2 e d) * w (ix2 d q)) + b (ix2 0 q)) + agg (ix2 e q)
  rw [h9, h13]
  exact congrArg (fun s => (s + b (ix2 0 q)) + agg (ix2 e q)) (Finset.sum_congr rfl fun d _ => by rw [h3 d, h5 d])

/-! ## From blocks to the arrays -/

-- the TensorCore's buffer contents when the region is entered, at the exact instance
variable (V : (c : Dev nD) → (b : Ref sig .tc) → Buf (Elt Ideal) ((c : Thread nD τ).loc b))

/-- The pre-normalisation node array region 7 computes, of the region-entry arrays of windows 0 (the aggregate), 1 (the
    node features), 2 (the matrix) and 3 (the bias row). -/
abbrev G7_4 (c : Dev nD) : S50000x128.Idx → EReal :=
  nodePre (V c (Pipeline.arrRef spec7 0)) (V c (Pipeline.arrRef spec7 1)) (V c (Pipeline.arrRef spec7 2)) (V c (Pipeline.arrRef spec7 3))

/-- The printed index maps, decided over the grid: the two long inputs and the first output move together down the
    rows, one block of 5000 rows per point, block `t` at point `t`; the matrix, the bias row and the two 1x128
    outputs stay at block 0. -/
theorem idx_facts7 : ∀ t : Fin cfg7.N, win7_0.index t (0 : Fin 2) = win7_4.index t (0 : Fin 2)
    ∧ win7_0.index t (1 : Fin 2) = 0
    ∧ win7_1.index t (0 : Fin 2) = win7_4.index t (0 : Fin 2)
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (1 : Fin 2) = 0
    ∧ win7_4.index t (0 : Fin 2) = t.val
    ∧ win7_5.index t (0 : Fin 2) = 0
    ∧ win7_5.index t (1 : Fin 2) = 0
    ∧ win7_6.index t (0 : Fin 2) = 0
    ∧ win7_6.index t (1 : Fin 2) = 0 :=
  (by decide +kernel : ∀ t : Fin grid7.N, _)

set_option maxHeartbeats 1600000 in
/-- Point `t`'s pre-normalisation block at row `p`, column `q` is the node array at row 5000·t+p, column `q`: each loaded
    block is its array read at rows 5000·t … 5000·t+4999 (the two long inputs) or the whole array (the matrix and the
    bias row). -/
theorem hblk7_at (c : Dev nD) (t : Fin cfg7.N) (p : Fin 5000) (q : Fin 128) :
    k7_pay3 (F := Ideal) (blk7_1 V c t) (blk7_2 V c t) (blk7_3 V c t) (blk7_0 V c t) (ix2 p q)
      = G7_4 V c (ix2 ⟨5000 * t.val + p.val, by have := lt_of_lt_of_eq t.isLt N_7; have := p.isLt; omega⟩ q) := by
  have ht : t.val < 10 := lt_of_lt_of_eq t.isLt N_7
  have hp : p.val < 5000 := p.isLt
  have hq : q.val < 128 := q.isLt
  obtain ⟨f0, f1, f2, f3, f4, f5, f6, f7, f8, f9, f10, f11, f12, f13⟩ := idx_facts7 t
  let e : Fin 50000 := ⟨5000 * t.val + p.val, by omega⟩
  have h1 : ∀ d : Fin 128, ((cfg7.win 1).blk t).view.emb (ix2 p d) = (ix2 e d : S50000x128.Idx) := fun d => by
    funext a; apply Fin.ext
    match a with
    | ⟨0, _⟩ => show win7_1.index t (0 : Fin 2) * 5000 + 1 * p.val = 5000 * t.val + p.val; omega
    | ⟨1, _⟩ => show win7_1.index t (1 : Fin 2) * 128 + 1 * d.val = d.val; omega
  have h2 : ∀ d : Fin 128, ((cfg7.win 2).blk t).view.emb (ix2 d q) = (ix2 d q : S128x128.Idx) := fun d => by
    funext a; apply Fin.ext
    match a with
    | ⟨0, _⟩ => show win7_2.index t (0 : Fin 2) * 128 + 1 * d.val = d.val; omega
    | ⟨1, _⟩ => show win7_2.index t (1 : Fin 2) * 128 + 1 * q.val = q.val; omega
  have h3 : ((cfg7.win 3).blk t).view.emb (ix2 (0 : Fin 1) q) = (ix2 (0 : Fin 1) q : S1x128.Idx) := by
    funext a; apply Fin.ext
    match a with
    | ⟨0, _⟩ => show win7_3.index t (0 : Fin 2) * 1 + 1 * 0 = 0; omega
    | ⟨1, _⟩ => show win7_3.index t (1 : Fin 2) * 128 + 1 * q.val = q.val; omega
  have h0 : ((cfg7.win 0).blk t).view.emb (ix2 p q) = (ix2 e q : S50000x128.Idx) := by
    funext a; apply Fin.ext
    match a with
    | ⟨0, _⟩ => show win7_0.index t (0 : Fin 2) * 5000 + 1 * p.val = 5000 * t.val + p.val; omega
    | ⟨1, _⟩ => show win7_0.index t (1 : Fin 2) * 128 + 1 * q.val = q.val; omega
  exact pay7_pre_block (V c (Pipeline.arrRef spec7 0)) (V c (Pipeline.arrRef spec7 1)) (V c (Pipeline.arrRef spec7 2)) (V c (Pipeline.arrRef spec7 3)) (blk7_1 V c t) (blk7_2 V c t) (blk7_3 V c t) (blk7_0 V c t) e p q
    (fun d => congrArg (V c (Pipeline.arrRef spec7 1)) (h1 d)) (fun d => congrArg (V c (Pipeline.arrRef spec7 2)) (h2 d)) (congrArg (V c (Pipeline.arrRef spec7 3)) h3) (congrArg (V c (Pipeline.arrRef spec7 0)) h0)

/-! ## Output window 4: ten row blocks tile the array -/

/-- Every one of the ten row blocks is some point's. -/
theorem idx_onto7 : ∀ (q0 : Fin 10), ∃ t : Fin cfg7.N, win7_4.index t = ![q0.val, 0] :=
  (by decide +kernel : ∀ (q0 : Fin 10), ∃ t : Fin grid7.N, win7_4.index t = ![q0.val, 0])

set_option maxHeartbeats 1600000 in
/-- WHAT POINT `t` WRITES BACK of window 4 is block `t` of the node array. -/
theorem flushed7_4_eq (c : Dev nD) (t : Fin cfg7.N) :
    (dat7 V c).flushed 4 t = ((cfg7.win 4).blk t).view.read (Elt Ideal) (G7_4 V c) := by
  have ht : t.val < 10 := lt_of_lt_of_eq t.isLt N_7
  obtain ⟨f0, f1, f2, f3, f4, f5, f6, f7, f8, f9, f10, f11, f12, f13⟩ := idx_facts7 t
  show (cfg7.win 4).cut (grid7.coords t) ((dat7 V c).after 4 t) = _
  rw [after7_4_eq]
  funext j
  obtain ⟨p, q, rfl⟩ : ∃ (p : Fin 5000) (q : Fin 128), j = ix2 p q := ⟨j 0, j 1, eq_ix2 j⟩
  have hp : p.val < 5000 := p.isLt
  have hq : q.val < 128 := q.isLt
  have hout : ((cfg7.win 4).blk t).view.emb (ix2 p q) = (ix2 ⟨5000 * t.val + p.val, by omega⟩ q : S50000x128.Idx) := by
    funext a; apply Fin.ext
    match a with
    | ⟨0, _⟩ => show win7_4.index t (0 : Fin 2) * 5000 + 1 * p.val = 5000 * t.val + p.val; omega
    | ⟨1, _⟩ => show win7_4.index t (1 : Fin 2) * 128 + 1 * q.val = q.val; omega
  show hblk7 V c t (ix2 p q) = G7_4 V c (((cfg7.win 4).blk t).view.emb (ix2 p q))
  rw [hout]
  exact hblk7_at V c t p q

/-- An index of the array is in point `t`'s block of window 4 iff each coordinate is in the block's range on its axis. -/
theorem mem_blk7_4 (t : Fin cfg7.N) (i : S50000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole main_v125_0).slice (win7_4.rect t)).set ↔ _
  rw [View.set_slice_whole, Rect.mem_set_unit]
  exact Iff.rfl

/-- Every index of the array is in some written-back block of window 4: row `r` is in the block of point `r / 5000`. -/
theorem covered7_4 (i : S50000x128.Idx) :
    ∃ t : Fin cfg7.N, (cfg7.win 4).flush t = true ∧ i ∈ ((cfg7.win 4).blk t).view.set := by
  have hi0 : (i 0).val < 50000 := (i 0).isLt
  have hi1 : (i 1).val < 128 := (i 1).isLt
  obtain ⟨t, ht4⟩ := idx_onto7 ⟨(i 0).val / 5000, by omega⟩
  have q0 : win7_4.index t (0 : Fin 2) = (i 0).val / 5000 := congrFun ht4 0
  have q1 : win7_4.index t (1 : Fin 2) = 0 := congrFun ht4 1
  refine ⟨t, flush7_4 t, ?_⟩
  rw [mem_blk7_4]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 128 ≤ (i 1).val ∧ (i 1).val < win7_4.index t (1 : Fin 2) * 128 + 128; omega

/-- THE ARRAY of window 4 after the region: the pre-normalisation node array of the region-entry arrays. -/
theorem final7_4 (c : Dev nD) : (dat7 V c).arrAt 4 cfg7.N = G7_4 V c :=
  (dat7 V c).arrAt_eq_of_cover 4 (G7_4 V c) (fun t _ => flushed7_4_eq V c t) (covered7_4)

/-! ## Output windows 5 and 6: the running sums, written back at the last point -/

/-- The sum of point `t`'s block down column `q`: the 5000 rows 5000·t … 5000·t+4999 of the column of the array. -/
theorem blocksum7_5 (c : Dev nD) (t : Fin cfg7.N) (q : Fin 128) :
    (∑ p : Fin 5000, k7_pay3 (F := Ideal) (blk7_1 V c t) (blk7_2 V c t) (blk7_3 V c t) (blk7_0 V c t) (ix2 p q))
      = ∑ i ∈ Finset.range 5000, rowsOf (G7_4 V c) q (5000 * t.val + i) := by
  have ht : t.val < 10 := lt_of_lt_of_eq t.isLt N_7
  rw [← Fin.sum_univ_eq_sum_range (fun i => rowsOf (G7_4 V c) q (5000 * t.val + i)) 5000]
  refine Fintype.sum_congr _ _ fun p => ?_
  have hp : p.val < 5000 := p.isLt
  rw [rowsOf_lt _ q (5000 * t.val + p.val) (by omega)]
  exact hblk7_at V c t p q

/-- The running column sums after point `n`, at column `q`: the first `n + 1` tiles of 5000 rows of the column. The row
    starts from zero at the first point; every point adds its block's sum down the column. -/
theorem acc7_at (c : Dev nD) (q : Fin 128) : ∀ (n : ℕ) (hn : n < cfg7.N),
    acc7 V c n hn (ix2 0 q) = ∑ t ∈ Finset.range (n + 1), ∑ i ∈ Finset.range 5000, rowsOf (G7_4 V c) q (5000 * t + i)
  | 0, hn => by
    show k7_pay4 (F := Ideal) (blk7_1 V c ⟨0, hn⟩) (blk7_2 V c ⟨0, hn⟩) (blk7_3 V c ⟨0, hn⟩) (blk7_0 V c ⟨0, hn⟩) (k7_pay1 (F := Ideal)) (ix2 0 q) = _
    refine (k7_pay4_at _ _ _ _ _ q).trans ?_
    rw [k7_pay1_at, zero_add, Finset.sum_range_one]
    exact blocksum7_5 V c ⟨0, hn⟩ q
  | n + 1, hn => by
    show k7_pay4 (F := Ideal) (blk7_1 V c ⟨n + 1, hn⟩) (blk7_2 V c ⟨n + 1, hn⟩) (blk7_3 V c ⟨n + 1, hn⟩) (blk7_0 V c ⟨n + 1, hn⟩) (acc7 V c n (Nat.lt_of_succ_lt hn)) (ix2 0 q) = _
    refine (k7_pay4_at _ _ _ _ _ q).trans ?_
    rw [acc7_at c q n (Nat.lt_of_succ_lt hn), Finset.sum_range_succ _ (n + 1)]
    exact congrArg (_ + ·) (blocksum7_5 V c ⟨n + 1, hn⟩ q)

/-- The sum of squares of point `t`'s block down column `q`: the 5000 rows 5000·t … 5000·t+4999 of the column of the array of squares. -/
theorem blocksum7_6 (c : Dev nD) (t : Fin cfg7.N) (q : Fin 128) :
    (∑ p : Fin 5000, k7_pay3 (F := Ideal) (blk7_1 V c t) (blk7_2 V c t) (blk7_3 V c t) (blk7_0 V c t) (ix2 p q) * k7_pay3 (F := Ideal) (blk7_1 V c t) (blk7_2 V c t) (blk7_3 V c t) (blk7_0 V c t) (ix2 p q))
      = ∑ i ∈ Finset.range 5000, rowsOf (fun i => G7_4 V c i * G7_4 V c i) q (5000 * t.val + i) := by
  have ht : t.val < 10 := lt_of_lt_of_eq t.isLt N_7
  rw [← Fin.sum_univ_eq_sum_range (fun i => rowsOf (fun i => G7_4 V c i * G7_4 V c i) q (5000 * t.val + i)) 5000]
  refine Fintype.sum_congr _ _ fun p => ?_
  have hp : p.val < 5000 := p.isLt
  rw [rowsOf_lt _ q (5000 * t.val + p.val) (by omega)]
  exact congrArg₂ (· * ·) (hblk7_at V c t p q) (hblk7_at V c t p q)

/-- The running column sums of squares after point `n`, at column `q`: the first `n + 1` tiles of 5000 rows of the column. The row
    starts from zero at the first point; every point adds its block's sum of squares down the column. -/
theorem accSq7_at (c : Dev nD) (q : Fin 128) : ∀ (n : ℕ) (hn : n < cfg7.N),
    accSq7 V c n hn (ix2 0 q) = ∑ t ∈ Finset.range (n + 1), ∑ i ∈ Finset.range 5000, rowsOf (fun i => G7_4 V c i * G7_4 V c i) q (5000 * t + i)
  | 0, hn => by
    show k7_pay5 (F := Ideal) (blk7_1 V c ⟨0, hn⟩) (blk7_2 V c ⟨0, hn⟩) (blk7_3 V c ⟨0, hn⟩) (blk7_0 V c ⟨0, hn⟩) (k7_pay2 (F := Ideal)) (ix2 0 q) = _
    refine (k7_pay5_at _ _ _ _ _ q).trans ?_
    rw [k7_pay2_at, zero_add, Finset.sum_range_one]
    exact blocksum7_6 V c ⟨0, hn⟩ q
  | n + 1, hn => by
    show k7_pay5 (F := Ideal) (blk7_1 V c ⟨n + 1, hn⟩) (blk7_2 V c ⟨n + 1, hn⟩) (blk7_3 V c ⟨n + 1, hn⟩) (blk7_0 V c ⟨n + 1, hn⟩) (accSq7 V c n (Nat.lt_of_succ_lt hn)) (ix2 0 q) = _
    refine (k7_pay5_at _ _ _ _ _ q).trans ?_
    rw [accSq7_at c q n (Nat.lt_of_succ_lt hn), Finset.sum_range_succ _ (n + 1)]
    exact congrArg (_ + ·) (blocksum7_6 V c ⟨n + 1, hn⟩ q)

/-- WHAT THE LAST POINT WRITES BACK of window 5: the whole 1x128 row, the running sums after the tenth point, which are
    the ten tiles of 5000 rows regrouped into the 50000 rows of each column. -/
theorem flushed7_5_eq (c : Dev nD) (t : Fin cfg7.N) (hf : (cfg7.win 5).flush t = true) :
    (dat7 V c).flushed 5 t = ((cfg7.win 5).blk t).view.read (Elt Ideal) (colSum (G7_4 V c)) := by
  have ht : t.val < 10 := lt_of_lt_of_eq t.isLt N_7
  have ht9 : t.val = 9 := by have := (flush7_5 t).mp hf; omega
  obtain ⟨f0, f1, f2, f3, f4, f5, f6, f7, f8, f9, f10, f11, f12, f13⟩ := idx_facts7 t
  have hacc : ∀ q : Fin 128, acc7 V c t.val t.isLt (ix2 0 q) = colSum (G7_4 V c) (ix2 0 q) := fun q => by
    rw [acc7_at V c q t.val t.isLt, colSum_eq_range, ht9]
    exact (Cert.LibTileSums.sum_range_mul_blocks 10 5000 (rowsOf (G7_4 V c) q)).symm
  show (cfg7.win 5).cut (grid7.coords t) ((dat7 V c).after 5 t) = _
  rw [after7_5_eq]
  generalize acc7 V c t.val t.isLt = a at hacc ⊢
  funext j
  obtain ⟨z0, q, rfl⟩ : ∃ (z0 : Fin 1) (q : Fin 128), j = ix2 z0 q := ⟨j 0, j 1, eq_ix2 j⟩
  obtain rfl : z0 = 0 := Subsingleton.elim _ _
  have hq : q.val < 128 := q.isLt
  have hemb : ((cfg7.win 5).blk t).view.emb (ix2 (0 : Fin 1) q) = (ix2 (0 : Fin 1) q : S1x128.Idx) := by
    funext a; apply Fin.ext
    match a with
    | ⟨0, _⟩ => show win7_5.index t (0 : Fin 2) * 1 + 1 * 0 = 0; omega
    | ⟨1, _⟩ => show win7_5.index t (1 : Fin 2) * 128 + 1 * q.val = q.val; omega
  have e1 : (cfg7.win 5).cut (grid7.coords t) a (ix2 0 q) = a ((cfg7.win 5).xinj (grid7.coords t) (ix2 0 q)) := by rfl
  have e2 : (cfg7.win 5).xinj (grid7.coords t) (ix2 0 q) = (ix2 (0 : Fin 1) q : S1x128.Idx) := by
    funext b; apply Fin.ext
    match b with
    | ⟨0, _⟩ => rfl
    | ⟨1, _⟩ => rfl
  rw [View.read_apply, hemb, e1, e2, hacc q]
  exact (cast_eq _ _).symm

/-- An index of the 1x128 array is in point `t`'s block of window 5 iff each coordinate is in the block's range on its axis. -/
theorem mem_blk7_5 (t : Fin cfg7.N) (i : S1x128.Idx) :
    i ∈ ((cfg7.win 5).blk t).view.set ↔ ∀ a : Fin 2, win7_5.index t a * S1x128.size a ≤ (i a).val ∧ (i a).val < win7_5.index t a * S1x128.size a + S1x128.size a := by
  show i ∈ ((View.whole main_v125_1).slice (win7_5.rect t)).set ↔ _
  rw [View.set_slice_whole, Rect.mem_set_unit]
  exact Iff.rfl

/-- Every index of the 1x128 array is in the last point's block of window 5, which is written back. -/
theorem covered7_5 (i : S1x128.Idx) :
    ∃ t : Fin cfg7.N, (cfg7.win 5).flush t = true ∧ i ∈ ((cfg7.win 5).blk t).view.set := by
  have hi0 : (i 0).val < 1 := (i 0).isLt
  have hi1 : (i 1).val < 128 := (i 1).isLt
  let t : Fin cfg7.N := ⟨9, by rw [show cfg7.N = 10 from N_7]; decide⟩
  obtain ⟨f0, f1, f2, f3, f4, f5, f6, f7, f8, f9, f10, f11, f12, f13⟩ := idx_facts7 t
  refine ⟨t, (flush7_5 t).mpr rfl, ?_⟩
  rw [mem_blk7_5]
  intro a
  match a with
  | ⟨0, _⟩ => show win7_5.index t (0 : Fin 2) * 1 ≤ (i 0).val ∧ (i 0).val < win7_5.index t (0 : Fin 2) * 1 + 1; omega
  | ⟨1, _⟩ => show win7_5.index t (1 : Fin 2) * 128 ≤ (i 1).val ∧ (i 1).val < win7_5.index t (1 : Fin 2) * 128 + 128; omega

/-- THE ARRAY of window 5 after the region. -/
theorem final7_5 (c : Dev nD) : (dat7 V c).arrAt 5 cfg7.N = colSum (G7_4 V c) :=
  (dat7 V c).arrAt_eq_of_cover 5 (colSum (G7_4 V c)) (fun t hf => flushed7_5_eq V c t hf) (covered7_5)

/-- WHAT THE LAST POINT WRITES BACK of window 6: the whole 1x128 row, the running sums after the tenth point, which are
    the ten tiles of 5000 rows regrouped into the 50000 rows of each column. -/
theorem flushed7_6_eq (c : Dev nD) (t : Fin cfg7.N) (hf : (cfg7.win 6).flush t = true) :
    (dat7 V c).flushed 6 t = ((cfg7.win 6).blk t).view.read (Elt Ideal) (colSumSq (G7_4 V c)) := by
  have ht : t.val < 10 := lt_of_lt_of_eq t.isLt N_7
  have ht9 : t.val = 9 := by have := (flush7_6 t).mp hf; omega
  obtain ⟨f0, f1, f2, f3, f4, f5, f6, f7, f8, f9, f10, f11, f12, f13⟩ := idx_facts7 t
  have hacc : ∀ q : Fin 128, accSq7 V c t.val t.isLt (ix2 0 q) = colSumSq (G7_4 V c) (ix2 0 q) := fun q => by
    rw [accSq7_at V c q t.val t.isLt, colSumSq_eq, colSum_eq_range, ht9]
    exact (Cert.LibTileSums.sum_range_mul_blocks 10 5000 (rowsOf (fun i => G7_4 V c i * G7_4 V c i) q)).symm
  show (cfg7.win 6).cut (grid7.coords t) ((dat7 V c).after 6 t) = _
  rw [after7_6_eq]
  generalize accSq7 V c t.val t.isLt = a at hacc ⊢
  funext j
  obtain ⟨z0, q, rfl⟩ : ∃ (z0 : Fin 1) (q : Fin 128), j = ix2 z0 q := ⟨j 0, j 1, eq_ix2 j⟩
  obtain rfl : z0 = 0 := Subsingleton.elim _ _
  have hq : q.val < 128 := q.isLt
  have hemb : ((cfg7.win 6).blk t).view.emb (ix2 (0 : Fin 1) q) = (ix2 (0 : Fin 1) q : S1x128.Idx) := by
    funext a; apply Fin.ext
    match a with
    | ⟨0, _⟩ => show win7_6.index t (0 : Fin 2) * 1 + 1 * 0 = 0; omega
    | ⟨1, _⟩ => show win7_6.index t (1 : Fin 2) * 128 + 1 * q.val = q.val; omega
  have e1 : (cfg7.win 6).cut (grid7.coords t) a (ix2 0 q) = a ((cfg7.win 6).xinj (grid7.coords t) (ix2 0 q)) := by rfl
  have e2 : (cfg7.win 6).xinj (grid7.coords t) (ix2 0 q) = (ix2 (0 : Fin 1) q : S1x128.Idx) := by
    funext b; apply Fin.ext
    match b with
    | ⟨0, _⟩ => rfl
    | ⟨1, _⟩ => rfl
  rw [View.read_apply, hemb, e1, e2, hacc q]
  exact (cast_eq _ _).symm

/-- An index of the 1x128 array is in point `t`'s block of window 6 iff each coordinate is in the block's range on its axis. -/
theorem mem_blk7_6 (t : Fin cfg7.N) (i : S1x128.Idx) :
    i ∈ ((cfg7.win 6).blk t).view.set ↔ ∀ a : Fin 2, win7_6.index t a * S1x128.size a ≤ (i a).val ∧ (i a).val < win7_6.index t a * S1x128.size a + S1x128.size a := by
  show i ∈ ((View.whole main_v125_2).slice (win7_6.rect t)).set ↔ _
  rw [View.set_slice_whole, Rect.mem_set_unit]
  exact Iff.rfl

/-- Every index of the 1x128 array is in the last point's block of window 6, which is written back. -/
theorem covered7_6 (i : S1x128.Idx) :
    ∃ t : Fin cfg7.N, (cfg7.win 6).flush t = true ∧ i ∈ ((cfg7.win 6).blk t).view.set := by
  have hi0 : (i 0).val < 1 := (i 0).isLt
  have hi1 : (i 1).val < 128 := (i 1).isLt
  let t : Fin cfg7.N := ⟨9, by rw [show cfg7.N = 10 from N_7]; decide⟩
  obtain ⟨f0, f1, f2, f3, f4, f5, f6, f7, f8, f9, f10, f11, f12, f13⟩ := idx_facts7 t
  refine ⟨t, (flush7_6 t).mpr rfl, ?_⟩
  rw [mem_blk7_6]
  intro a
  match a with
  | ⟨0, _⟩ => show win7_6.index t (0 : Fin 2) * 1 ≤ (i 0).val ∧ (i 0).val < win7_6.index t (0 : Fin 2) * 1 + 1; omega
  | ⟨1, _⟩ => show win7_6.index t (1 : Fin 2) * 128 ≤ (i 1).val ∧ (i 1).val < win7_6.index t (1 : Fin 2) * 128 + 128; omega

/-- THE ARRAY of window 6 after the region. -/
theorem final7_6 (c : Dev nD) : (dat7 V c).arrAt 6 cfg7.N = colSumSq (G7_4 V c) :=
  (dat7 V c).arrAt_eq_of_cover 6 (colSumSq (G7_4 V c)) (fun t hf => flushed7_6_eq V c t hf) (covered7_6)

end Cert.KernelIdeal.Frm

end
-- ==== Proof.RefLayer2.lean ====
import proofs.«156566_j1202590843053_1_alg».proof.Proof.RefReadP
import proofs.«156566_j1202590843053_1_alg».proof.Proof.Steps

/-! Layer 2 of the reference as layer steps, over layer 1's output and the twice-updated edge features; this layer has no
    normalisation, and its two arrays are the program's results. -/

set_option maxRecDepth 16384

noncomputable section

namespace Cert.RefLayer

open Cert.ReferenceIdeal Cert.ReferenceIdeal.Gen Cert.ReferenceIdeal.ReadP Cert.RefRel
open Idealize.ShloMosaic Idealize.ShloMosaic.ValueIdx
open scoped BigOperators

/-- Layer 2's relation update of the edge features. -/
theorem v183_eq (x1 : (⟨S640000x128, .f32⟩ : BufTy).Contents (Elt Ideal)) (x6 : (⟨S3x128x128, .f32⟩ : BufTy).Contents (Elt Ideal)) (x7 : (⟨S3x128, .f32⟩ : BufTy).Contents (Elt Ideal)) :
    val_main_v183 (F := Ideal) x1 x6 x7 = relStep (val_main_v115 (F := Ideal) x1 x6 x7) x6 x7 2 :=
  rel_layer2 (val_main_v115 (F := Ideal) x1 x6 x7) x6 x7

/-- Layer 2's messages: the gathered source features times the edge features, through the layer's message weights,
    plus the message bias (the relation update's shape, on the entrywise product). -/
theorem v161_eq (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) :
    val_main_v161 (F := Ideal) x0 x1 x2 x3 x4 x5 x6 x7 x8 x9 x10 = msgStep (val_main_v152 (F := Ideal) x0 x1 x2 x3 x4 x5 x6 x7 x8 x9 x10) (val_main_v115 (F := Ideal) x1 x6 x7) x4 x5 2 :=
  rel_layer2 (mulf (F := Ideal) (val_main_v152 (F := Ideal) x0 x1 x2 x3 x4 x5 x6 x7 x8 x9 x10) (val_main_v115 (F := Ideal) x1 x6 x7)) x4 x5

/-- Layer 2's features before normalisation: the divided neighbour sum plus the node's own features times the
    layer's self weights, plus the self bias. -/
theorem v175_eq (x0 : (⟨S50000x128, .f32⟩ : BufTy).Contents (Elt Ideal)) (x1 : (⟨S640000x128, .f32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S2x128, .f32⟩ : BufTy).Contents (Elt Ideal)) (x9 : (⟨S2x128, .f32⟩ : BufTy).Contents (Elt Ideal)) (x10 : (⟨S2x640000, .i32⟩ : BufTy).Contents (Elt Ideal)) :
    val_main_v175 (F := Ideal) x0 x1 x2 x3 x4 x5 x6 x7 x8 x9 x10 = nodeStep (val_main_v166 (F := Ideal) x0 x1 x2 x3 x4 x5 x6 x7 x8 x9 x10) (val_main_v145 (F := Ideal) x0 x1 x2 x3 x4 x5 x6 x7 x8 x9 x10) x2 x3 2 := by
  funext i
  obtain ⟨n, f, rfl⟩ : ∃ (n : Fin 50000) (f : Fin 128), i = ix2 n f := ⟨i 0, i 1, eq_ix2 i⟩
  rw [val_main_v175_apply, val_main_v170_apply, val_main_v169_apply, val_main_v174_apply, val_main_v173_apply, val_main_v172_apply, val_main_v171_apply]
  simp only [Ideal.addf_def]
  unfold nodeStep
  refine congr (congrArg HAdd.hAdd (congrArg ((val_main_v166 (F := Ideal) x0 x1 x2 x3 x4 x5 x6 x7 x8 x9 x10) (ix2 n f) + ·) (Finset.sum_congr rfl fun d _ => ?_))) ?_
  · rw [val_main_v168_apply, val_main_v167_apply]
    refine congr (congrArg HMul.hMul (congrArg _ (funext fun a => Fin.ext (by
      match a with
      | ⟨0, _⟩ => rfl
      | ⟨1, _⟩ => rfl)))) (congrArg _ (funext fun a => Fin.ext (by
      have hf := f.isLt; have hd := d.isLt
      match a with
      | ⟨0, _⟩ => rfl
      | ⟨1, _⟩ => show (f.val * 128 + d.val) / 128 % 128 = f.val; omega
      | ⟨2, _⟩ => show (f.val * 128 + d.val) % 128 = d.val; omega)))
  · refine congrArg _ (funext fun a => Fin.ext (by
      have hf := f.isLt
      match a with
      | ⟨0, _⟩ => rfl
      | ⟨1, _⟩ => show f.val % 128 = f.val; omega))

end Cert.RefLayer

end
-- ==== Proof.KiL2.lean ====
import proofs.«156566_j1202590843053_1_alg».proof.Proof.KiRun
import proofs.«156566_j1202590843053_1_alg».proof.Proof.RefReadP
import proofs.«156566_j1202590843053_1_alg».proof.Proof.KiArgs
import proofs.«156566_j1202590843053_1_alg».proof.Proof.KiL0a
import proofs.«156566_j1202590843053_1_alg».proof.Proof.KiL1
import proofs.«156566_j1202590843053_1_alg».proof.Proof.KiEaChain
import proofs.«156566_j1202590843053_1_alg».proof.Proof.KiEdgeValue6
import proofs.«156566_j1202590843053_1_alg».proof.Proof.KiNodeFinal7
import proofs.«156566_j1202590843053_1_alg».proof.Proof.KiBridgeMath
import proofs.«156566_j1202590843053_1_alg».proof.Proof.RefLayer2
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.StableHlo Idealize.ShloMosaic.ValueIdx
open Idealize.SL Idealize.SL.Sem
open Cert.ReferenceIdeal.ReadP

variable (m : (ℓ : Loc nD τ sig) → Buf (Elt Ideal) ℓ) (ρ : Dev nD → PrngReg)

open Cert.RefLayer Cert.RefRel Cert.LibBnTwoForms

/-! # Layer 2 on the kernel's side: every array the kernel's segments leave is the reference's stage -/

/-- The node features the layer starts from: what the previous layer's normalisation region left. -/
theorem xsrc2_eq (c : Dev nD) (hA : ArgsReal m c) : (W12 m ρ c (Proc.devRef .tc main_v96) : S50000x128.Idx → EReal) = val_main_v145 (F := Ideal) (a0 m c) (a1 m c) (a2 m c) (a3 m c) (a4 m c) (a5 m c) (a6 m c) (a7 m c) (a8 m c) (a9 m c) (a10 m c) := xo1_eq m ρ c hA
/-- The edge features the layer starts from: what the previous layer's edge region left. -/
theorem ea2_in (c : Dev nD) : (V13 m ρ c main_v72_1 : S640000x128.Idx → EReal) = val_main_v115 (F := Ideal) (a1 m c) (a6 m c) (a7 m c) := by
  refine ((W13_host m ρ c main_v72_1 (by decide)).trans <|
    (W12_keep m ρ c main_v72_1 (by decide)).trans <|
    (W11_host m ρ c main_v72_1 (by decide)).trans <|
    (W10_keep m ρ c main_v72_1 (by decide)).trans <|
    (W9_host m ρ c main_v72_1 (by decide))).trans ?_
  rw [ea2_eq m ρ c, ← v47_eq, ← v115_eq]

theorem src2_eq (c : Dev nD) : (W12 m ρ c (Proc.devRef .tc main_v1) : S640000.Idx → BitVec 32) = val_main_v1 (F := Ideal) (a10 m c) :=
  ((W12_keep m ρ c main_v1 (by decide)).trans <|
    (W11_host m ρ c main_v1 (by decide)).trans <|
    (W10_keep m ρ c main_v1 (by decide)).trans <|
    (W9_host m ρ c main_v1 (by decide)).trans <|
    (W8_keep m ρ c main_v1 (by decide)).trans <|
    (W7_host m ρ c main_v1 (by decide)).trans <|
    (W6_keep m ρ c main_v1 (by decide)).trans <|
    (W5_host m ρ c main_v1 (by decide)).trans <|
    (W4_keep m ρ c main_v1 (by decide)).trans <|
    (W3_host m ρ c main_v1 (by decide)).trans <|
    (W2_keep m ρ c main_v1 (by decide))).trans (src_eq m ρ c)

set_option maxHeartbeats 4000000 in
set_option maxRecDepth 200000 in
/-- The gathered source rows of layer 2: the same host operations on the same operands. -/
theorem xg2_eq' (c : Dev nD) (hA : ArgsReal m c) : (V13 m ρ c main_v103 : S640000x128.Idx → EReal) = val_main_v152 (F := Ideal) (a0 m c) (a1 m c) (a2 m c) (a3 m c) (a4 m c) (a5 m c) (a6 m c) (a7 m c) (a8 m c) (a9 m c) (a10 m c) := by
  show StableHlo.after hostOps6 (W12 m ρ c) (Proc.devRef .tc main_v103) = _
  after_results
  rw [src2_eq m ρ c, xsrc2_eq m ρ c hA]
  rfl

/-- The messages of layer 2. -/
theorem lmsg2_eq (c : Dev nD) (hA : ArgsReal m c) : (W14 m ρ c (Proc.devRef .tc main_v114_0) : S640000x128.Idx → EReal) = val_main_v161 (F := Ideal) (a0 m c) (a1 m c) (a2 m c) (a3 m c) (a4 m c) (a5 m c) (a6 m c) (a7 m c) (a8 m c) (a9 m c) (a10 m c) := by
  refine (W14_arr m ρ c 6).trans ?_
  rw [final6_6]
  refine (edgeMsg_eq_msgStep _ _ _ _ _ _ 2 (v105_at m ρ c) (v112_at m ρ c)).trans ?_
  rw [v161_eq]
  exact congrArg₂ (fun a b => msgStep a b _ _ 2) (xg2_eq' m ρ c hA) (ea2_in m ρ c)

theorem dst2_eq (c : Dev nD) : (W14 m ρ c (Proc.devRef .tc main_v3) : S640000.Idx → BitVec 32) = val_main_v3 (F := Ideal) (a10 m c) :=
  ((W14_keep m ρ c main_v3 (by decide)).trans <|
    (W13_host m ρ c main_v3 (by decide)).trans <|
    (W12_keep m ρ c main_v3 (by decide)).trans <|
    (W11_host m ρ c main_v3 (by decide)).trans <|
    (W10_keep m ρ c main_v3 (by decide)).trans <|
    (W9_host m ρ c main_v3 (by decide)).trans <|
    (W8_keep m ρ c main_v3 (by decide)).trans <|
    (W7_host m ρ c main_v3 (by decide)).trans <|
    (W6_keep m ρ c main_v3 (by decide)).trans <|
    (W5_host m ρ c main_v3 (by decide)).trans <|
    (W4_keep m ρ c main_v3 (by decide)).trans <|
    (W3_host m ρ c main_v3 (by decide)).trans <|
    (W2_keep m ρ c main_v3 (by decide))).trans (dst_eq m ρ c)
theorem den2_eq (c : Dev nD) : (W14 m ρ c (Proc.devRef .tc main_v9) : S50000x1.Idx → EReal) = val_main_v9 (F := Ideal) (a10 m c) :=
  ((W14_keep m ρ c main_v9 (by decide)).trans <|
    (W13_host m ρ c main_v9 (by decide)).trans <|
    (W12_keep m ρ c main_v9 (by decide)).trans <|
    (W11_host m ρ c main_v9 (by decide)).trans <|
    (W10_keep m ρ c main_v9 (by decide)).trans <|
    (W9_host m ρ c main_v9 (by decide)).trans <|
    (W8_keep m ρ c main_v9 (by decide)).trans <|
    (W7_host m ρ c main_v9 (by decide)).trans <|
    (W6_keep m ρ c main_v9 (by decide)).trans <|
    (W5_host m ρ c main_v9 (by decide)).trans <|
    (W4_keep m ρ c main_v9 (by decide)).trans <|
    (W3_host m ρ c main_v9 (by decide)).trans <|
    (W2_keep m ρ c main_v9 (by decide))).trans (denom_eq m ρ c)

set_option maxHeartbeats 4000000 in
set_option maxRecDepth 200000 in
/-- The neighbour mean of layer 2: the same scatter-add and division on the same operands. -/
theorem agg2_eq (c : Dev nD) (hA : ArgsReal m c) : (V15 m ρ c main_v119 : S50000x128.Idx → EReal) = val_main_v166 (F := Ideal) (a0 m c) (a1 m c) (a2 m c) (a3 m c) (a4 m c) (a5 m c) (a6 m c) (a7 m c) (a8 m c) (a9 m c) (a10 m c) := by
  show StableHlo.after hostOps7 (W14 m ρ c) (Proc.devRef .tc main_v119) = _
  after_results
  rw [dst2_eq m ρ c, den2_eq m ρ c, lmsg2_eq m ρ c hA]
  rfl

/-- The node features the node region reads: unchanged since the layer began. -/
theorem xnode2_eq (c : Dev nD) (hA : ArgsReal m c) : (V15 m ρ c main_v96 : S50000x128.Idx → EReal) = val_main_v145 (F := Ideal) (a0 m c) (a1 m c) (a2 m c) (a3 m c) (a4 m c) (a5 m c) (a6 m c) (a7 m c) (a8 m c) (a9 m c) (a10 m c) :=
  ((W15_host m ρ c main_v96 (by decide)).trans <|
    (W14_keep m ρ c main_v96 (by decide)).trans <|
    (W13_host m ρ c main_v96 (by decide))).trans (xsrc2_eq m ρ c hA)

/-- The pre-normalisation features of layer 2, as one function of the region-entry arrays. -/
theorem G2_eq (c : Dev nD) (hA : ArgsReal m c) : G7_4 (V15 m ρ) c = val_main_v175 (F := Ideal) (a0 m c) (a1 m c) (a2 m c) (a3 m c) (a4 m c) (a5 m c) (a6 m c) (a7 m c) (a8 m c) (a9 m c) (a10 m c) := by
  refine (nodePre_eq_nodeStep _ _ _ _ _ _ 2 (v121_at m ρ c) (v124_at m ρ c)).trans ?_
  rw [v175_eq]
  exact congrArg₂ (fun a b => nodeStep a b _ _ 2) (agg2_eq m ρ c hA) (xnode2_eq m ρ c hA)

theorem h2_eq (c : Dev nD) (hA : ArgsReal m c) : (W16 m ρ c (Proc.devRef .tc main_v125_0) : S50000x128.Idx → EReal) = val_main_v175 (F := Ideal) (a0 m c) (a1 m c) (a2 m c) (a3 m c) (a4 m c) (a5 m c) (a6 m c) (a7 m c) (a8 m c) (a9 m c) (a10 m c) := by
  refine (W16_arr m ρ c 4).trans ?_
  rw [final7_4]
  exact G2_eq m ρ c hA

end Cert.KernelIdeal.Frm

end
-- ==== Proof.PreReal.lean ====
import proofs.«156566_j1202590843053_1_alg».proof.Defs
import Idealize.ShloMosaic.Lib.ReduceAll
import Idealize.ShloMosaic.Lib.Affine
import Idealize.ShloMosaic.Lib.ValueIdx
import Idealize.ShloMosaic.PureOps.Ideal.Laws
import proofs.«156566_j1202590843053_1_alg».proof.Proof.LibBnTwoForms

/-! From the precondition to real numbers.

    The precondition tests, for each of the ten float argument arrays, that every entry `x` has `|x| < +∞`, and takes
    the conjunction of the ten tests. Over the extended reals `|x| = max x (-x)`, the pattern of `+∞` is `⊤`, and
    `max x (-x) < ⊤` excludes both `x = ⊤` and `x = ⊥`: such an `x` is a real number. -/

noncomputable section

namespace Cert.PreReal

open Idealize.ShloMosaic Idealize.ShloMosaic.ValueIdx Cert.LibBnTwoForms

/-- A rank-0 array has one index. -/
instance : Subsingleton (⟨0, ![]⟩ : Shape).Idx := ⟨fun a b => funext fun d => d.elim0⟩

/-- The pattern of `+∞` denotes the top of the extended reals. -/
theorem inf_eq : Ideal.ofBits .f32 0x7F800000#32 = (⊤ : EReal) := by
  simp [Ideal.ofBits, Ideal.ieee]

/-- An extended real whose absolute value is below `⊤` is a real number. -/
theorem isReal_of_abs_lt_top {x : EReal} (h : max x (-x) < ⊤) : IsReal x := by
  rw [isReal_iff]
  constructor
  · rintro rfl; simp at h
  · rintro rfl; simp at h

/-- The ordered less-than test answers one only when its left operand is smaller. -/
theorem lt_of_cmp_olt {a b : EReal} (h : Ideal.cmp .olt a b = 1#1) : a < b := by
  by_contra hn
  simp [Ideal.cmp, hn] at h

/-- One array's test: if "every entry has absolute value below `+∞`" reduces to one, every entry is real. -/
theorem all_real_of_test {S : Shape} {axes : List (Fin S.rank)} (x : FVec Ideal S .f32)
    (hb : (⟨0, ![]⟩ : Shape).BroadcastsInDim S ![]) (hr : S.ReducesTo axes ⟨0, ![]⟩) (hu : 0 < (⟨0, ![]⟩ : Shape).numel)
    (e : Host.reduce IntOp.andi
        (cmpf .olt (Host.absf x) (broadcastInDim S ![] hb (constant (F := Ideal) ⟨0, ![]⟩ .f32 0x7F800000#32)))
        (constantI ⟨0, ![]⟩ 1 1#1) hr hu ix0 = 1#1) (i : S.Idx) : IsReal (x i) := by
  have h := Host.reduce_andi_all _ _ hr hu ix0 e i
  have h' : Ideal.cmp .olt (max (x i) (-(x i))) (Ideal.ofBits .f32 0x7F800000#32) = 1#1 := h
  rw [inf_eq] at h'
  exact isReal_of_abs_lt_top (lt_of_cmp_olt h')

/-- EVERY FLOAT ARGUMENT IS REAL: under the precondition, on every device, every entry of each of the ten float argument
    arrays of the kernel program is a real number. -/
theorem args_real [Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i)) := by
  have h9 := congrFun (h c) ix0
  dsimp only [Cert.Pre_finite_inputs.fn, Cert.Pre_finite_inputs.fn_part1, Cert.Pre_finite_inputs.fn_part2] at h9
  obtain ⟨h8, e9⟩ := IntOp.andi_eq_one.1 h9
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨all_real_of_test _ _ _ _ e0, all_real_of_test _ _ _ _ e1, all_real_of_test _ _ _ _ e2, all_real_of_test _ _ _ _ e3,
    all_real_of_test _ _ _ _ e4, all_real_of_test _ _ _ _ e5, all_real_of_test _ _ _ _ e6, all_real_of_test _ _ _ _ e7,
    all_real_of_test _ _ _ _ e8, all_real_of_test _ _ _ _ e9⟩

end Cert.PreReal

end
-- ==== Proof.lean ====
/- The proof of `Cert.Claim`: the three programs run to the end, faulting nowhere, with their argument arrays unchanged;
   the idealized kernel is the printed kernel's own text read over the extended reals (no rewrite: `preserves` is `True`);
   and the idealized kernel and the idealized reference, a three-layer message-passing network over 50000 nodes and
   640000 edges, end with equal results.

   The kernel's @main is eight pallas regions between stretches of host operations. Per layer: an edge kernel
   (`msg = (x[src] * e) · w_in^T + b_in`, `e' = e · w_rel^T + b_rel`, row blocks of 5120 edges), a node kernel
   (`h = (x · w_self^T + b_self) + agg` over row blocks of 5000 nodes, with the column sums of `h` and of `h²` accumulated in
   two scratch rows across the ten blocks) and, in the first two layers, a normalisation kernel
   (`max(((h - μ) * rsqrt(v + ε)) * γ + β, 0)` with `μ = Σh / N`, `v = Σh² / N - μ²` formed on the host). The frames are
   the run of these sixteen segments: each region's proof data at the contents the region is entered with, the node
   kernel's region invariant carrying the two accumulators from point to point. -/
import proofs.«156566_j1202590843053_1_alg».proof.Defs
import proofs.«156566_j1202590843053_1_alg».proof.Proof.Gen.Kernel
import proofs.«156566_j1202590843053_1_alg».proof.Proof.Gen.KernelIdeal
import proofs.«156566_j1202590843053_1_alg».proof.Proof.Gen.ReferenceIdeal
import proofs.«156566_j1202590843053_1_alg».proof.Proof.Gen.Pre_finite_inputs
import proofs.«156566_j1202590843053_1_alg».proof.Proof.KRun
import proofs.«156566_j1202590843053_1_alg».proof.Proof.KiRun
import proofs.«156566_j1202590843053_1_alg».proof.Proof.RefFrame
import proofs.«156566_j1202590843053_1_alg».proof.Proof.RefRunP
import proofs.«156566_j1202590843053_1_alg».proof.Proof.KiEaChain
import proofs.«156566_j1202590843053_1_alg».proof.Proof.KiL2
import proofs.«156566_j1202590843053_1_alg».proof.Proof.PreReal
import proofs.«156566_j1202590843053_1_alg».proof.Proof.RefReadEqP
import Idealize.ShloMosaic.Adequacy
import Idealize.ShloMosaic.Init

noncomputable section

namespace Cert.Proof

open Idealize.ShloMosaic Idealize.SL.Sem

/-- The printed kernel, word level: the run of its sixteen segments. -/
theorem frame_k : @Cert.frame_Kernel Cert.Kernel.Gen.facts Cert.Pre_finite_inputs.Gen.facts :=
  fun m ρ _ => Cert.Kernel.Frm.frame m ρ

/-- The same text over the extended reals. -/
theorem frame_ki : @Cert.frame_KernelIdeal Cert.KernelIdeal.Gen.facts Cert.Pre_finite_inputs.Gen.facts :=
  fun m ρ _ => Cert.KernelIdeal.Frm.frame m ρ

/-- The two idealized programs end with equal results: the kernel's run leaves every unscoped buffer at the last
    valuation of its sixteen segments, the reference's run leaves each result at the composed term of its
    operations; layer by layer the two are the same arrays: the gathers, scatter-adds and divisions are the same host
    operations on equal operands, the regions' outputs are the reference's products index by index, and the two
    spellings of the batch variance agree because every entry is real under the precondition. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Frm.W16 m ρ c (Proc.devRef .tc Cert.KernelIdeal.main_v125_0),
    fun c => Cert.KernelIdeal.Frm.W16 m ρ c (Proc.devRef .tc Cert.KernelIdeal.main_v114_1), ?_, ?_⟩
  · refine (θ_run Cert.KernelIdeal.defs _ _).mono (fun r h c => ?_) (Cert.KernelIdeal.Frm.run (F := Ideal) m ρ)
    exact ⟨h c _ (Cert.KernelIdeal.Frm.mem_uc Cert.KernelIdeal.main_v125_0 (by decide)),
      h c _ (Cert.KernelIdeal.Frm.mem_uc Cert.KernelIdeal.main_v114_1 (by decide)),
      (h c _ (Cert.KernelIdeal.Frm.mem_uc Cert.KernelIdeal.main_arg0 (by decide))).trans (Cert.KernelIdeal.Frm.W16_main_arg0 m ρ c),
      (h c _ (Cert.KernelIdeal.Frm.mem_uc Cert.KernelIdeal.main_arg1 (by decide))).trans (Cert.KernelIdeal.Frm.W16_main_arg1 m ρ c),
      (h c _ (Cert.KernelIdeal.Frm.mem_uc Cert.KernelIdeal.main_arg2 (by decide))).trans (Cert.KernelIdeal.Frm.W16_main_arg2 m ρ c),
      (h c _ (Cert.KernelIdeal.Frm.mem_uc Cert.KernelIdeal.main_arg3 (by decide))).trans (Cert.KernelIdeal.Frm.W16_main_arg3 m ρ c),
      (h c _ (Cert.KernelIdeal.Frm.mem_uc Cert.KernelIdeal.main_arg4 (by decide))).trans (Cert.KernelIdeal.Frm.W16_main_arg4 m ρ c),
      (h c _ (Cert.KernelIdeal.Frm.mem_uc Cert.KernelIdeal.main_arg5 (by decide))).trans (Cert.KernelIdeal.Frm.W16_main_arg5 m ρ c),
      (h c _ (Cert.KernelIdeal.Frm.mem_uc Cert.KernelIdeal.main_arg6 (by decide))).trans (Cert.KernelIdeal.Frm.W16_main_arg6 m ρ c),
      (h c _ (Cert.KernelIdeal.Frm.mem_uc Cert.KernelIdeal.main_arg7 (by decide))).trans (Cert.KernelIdeal.Frm.W16_main_arg7 m ρ c),
      (h c _ (Cert.KernelIdeal.Frm.mem_uc Cert.KernelIdeal.main_arg8 (by decide))).trans (Cert.KernelIdeal.Frm.W16_main_arg8 m ρ c),
      (h c _ (Cert.KernelIdeal.Frm.mem_uc Cert.KernelIdeal.main_arg9 (by decide))).trans (Cert.KernelIdeal.Frm.W16_main_arg9 m ρ c),
      (h c _ (Cert.KernelIdeal.Frm.mem_uc Cert.KernelIdeal.main_arg10 (by decide))).trans (Cert.KernelIdeal.Frm.W16_main_arg10 m ρ c)⟩
  · refine (θ_run Cert.ReferenceIdeal.defs _ _).mono (fun r h c => ⟨(h c).1.trans ?_, (h c).2.1.trans ?_, (h c).2.2⟩)
      (Cert.ReferenceIdeal.ValueP.run (F := Ideal) m' ρ')
    · -- the node features after the third layer: the reference's result is its last stage; the kernel's last
      -- valuation at the same array is that stage of the kernel's arguments, which are the reference's
      show _ = Cert.KernelIdeal.Frm.W16 m ρ c (Proc.devRef .tc Cert.KernelIdeal.main_v125_0)
      rw [Cert.ReferenceIdeal.ReadP.val_main_v175_eq m' c,
        Cert.KernelIdeal.Frm.h2_eq m ρ c (@Cert.PreReal.args_real Cert.Pre_finite_inputs.Gen.facts m hpre c),
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2.1,
        (hagree c).2.2.2.2.2.2.2.2.2.2]
    · -- the edge features after the third layer: three relation updates on either side
      show _ = Cert.KernelIdeal.Frm.W16 m ρ c (Proc.devRef .tc Cert.KernelIdeal.main_v114_1)
      rw [Cert.KernelIdeal.Frm.ea3_eq m ρ c, Cert.RefRel.rel_layer0, Cert.RefRel.rel_layer1, Cert.RefRel.rel_layer2,
        (hagree c).2.1, (hagree c).2.2.2.2.2.2.1, (hagree c).2.2.2.2.2.2.2.1]

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, algebraic⟩

end Cert.Proof

end
